-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : FVec F S4096x4096 .f32) (main_arg2 : FVec F S128x128 .f32) (main_arg3 : FVec F S128 .f32) (main_arg4 : FVec F S128x128 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S8x4096 : Shape := ⟨2, ![8, 4096]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S4096x1 : Shape := ⟨2, ![4096, 1]⟩
abbrev S_ : Shape := ⟨0, ![]⟩
abbrev S512x512 : Shape := ⟨2, ![512, 512]⟩
abbrev S1x128 : Shape := ⟨2, ![1, 128]⟩
abbrev S1024x128 : Shape := ⟨2, ![1024, 128]⟩

abbrev nBuf : Space → Nat
  | .hbm => 34
  | .vmem => 33
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S4096x128, .f32⟩
  | .hbm, ⟨7, _⟩ => ⟨S8x4096, .f32⟩
  | .hbm, ⟨8, _⟩ => ⟨S4096x1, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .i1⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S128x128, .f32⟩
  | .hbm, ⟨30, _⟩ => ⟨S128x128, .f32⟩
  | .hbm, ⟨31, _⟩ => ⟨S1x128, .f32⟩
  | .hbm, ⟨32, _⟩ => ⟨S1x128, .f32⟩
  | .hbm, ⟨33, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S512x128, .f32⟩
  | .local _ .vmem, ⟨3, _⟩ => ⟨S512x128, .f32⟩
  | .local _ .vmem, ⟨4, _⟩ => ⟨S8x4096, .f32⟩
  | .local _ .vmem, ⟨5, _⟩ => ⟨S8x4096, .f32⟩
  | .local _ .vmem, ⟨6, _⟩ => ⟨S512x512, .f32⟩
  | .local _ .vmem, ⟨7, _⟩ => ⟨S512x512, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S512x512, .f32⟩
  | .local _ .vmem, ⟨15, _⟩ => ⟨S512x512, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S1024x128, .f32⟩
  | .local _ .vmem, ⟨32, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v14_0 : Ref sig .tc := ⟨.hbm, 27, rfl⟩
abbrev main_v14_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_scratch0 : Ref sig .tc := ⟨.vmem, 21, rfl⟩
abbrev cc2_scratch1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![8, 8], ![false, false]⟩

def k1_mult1 (i : grid1.Coords) : BitVec 32 :=
  let arg0 : BitVec 32 := BitVec.ofNat 32 (i 0).val
  let c512_i32 : BitVec 32 := 512#32
  let v5 : BitVec 32 := Scalar.muli arg0 c512_i32
  v5
def k1_mult2 (i : grid1.Coords) : BitVec 32 :=
  let arg1 : BitVec 32 := BitVec.ofNat 32 (i 1).val
  let c512_i32_2 : BitVec 32 := 512#32
  let v7 : BitVec 32 := Scalar.muli arg1 c512_i32_2
  v7
def k1_off1 (i : grid1.Coords) : Fin 2 → Nat :=
  let arg1 : BitVec 32 := BitVec.ofNat 32 (i 1).val
  let c512_i32_2 : BitVec 32 := 512#32
  let v7 : BitVec 32 := Scalar.muli arg1 c512_i32_2
  let v8 : BitVec 32 := v7
  let v22 : Index := Scalar.indexCast v8
  let c0_6 : Index := 0#32
  ![v22.toNat, 0]
def k1_off2 (i : grid1.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v25 : Index := Scalar.indexCast v6
  let c0_7 : Index := 0#32
  ![v25.toNat, 0]
def k1_cond2 (i : grid1.Coords) : BitVec 1 :=
  let arg0 : BitVec 32 := BitVec.ofNat 32 (i 0).val
  let c7_i32 : BitVec 32 := 7#32
  let v56 : BitVec 1 := Scalar.cmpi .eq arg0 c7_i32
  let arg1 : BitVec 32 := BitVec.ofNat 32 (i 1).val
  let c7_i32_16 : BitVec 32 := 7#32
  let v57 : BitVec 1 := Scalar.cmpi .eq arg1 c7_i32_16
  let v58 : BitVec 1 := Scalar.andi v56 v57
  let v59 : BitVec 32 := Scalar.extui v58
  let c0_i32_17 : BitVec 32 := 0#32
  let v60 : BitVec 1 := Scalar.cmpi .ne v59 c0_i32_17
  v60

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![8, 8], ![false, false]⟩

def k2_mult1 (i : grid2.Coords) : BitVec 32 :=
  let arg0 : BitVec 32 := BitVec.ofNat 32 (i 0).val
  let c512_i32 : BitVec 32 := 512#32
  let v5 : BitVec 32 := Scalar.muli arg0 c512_i32
  v5
def k2_mult2 (i : grid2.Coords) : BitVec 32 :=
  let arg1 : BitVec 32 := BitVec.ofNat 32 (i 1).val
  let c512_i32_2 : BitVec 32 := 512#32
  let v7 : BitVec 32 := Scalar.muli arg1 c512_i32_2
  v7
def k2_off1 (i : grid2.Coords) : Fin 2 → Nat :=
  let arg1 : BitVec 32 := BitVec.ofNat 32 (i 1).val
  let c512_i32_2 : BitVec 32 := 512#32
  let v7 : BitVec 32 := Scalar.muli arg1 c512_i32_2
  let v8 : BitVec 32 := v7
  let v22 : Index := Scalar.indexCast v8
  let c0_6 : Index := 0#32
  ![v22.toNat, 0]
def k2_off2 (i : grid2.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let v26 : Index := Scalar.indexCast v6
  let c0_7 : Index := 0#32
  ![v26.toNat, 0]
def k2_cond2 (i : grid2.Coords) : BitVec 1 :=
  let arg0 : BitVec 32 := BitVec.ofNat 32 (i 0).val
  let c7_i32 : BitVec 32 := 7#32
  let v58 : BitVec 1 := Scalar.cmpi .eq arg0 c7_i32
  let arg1 : BitVec 32 := BitVec.ofNat 32 (i 1).val
  let c7_i32_16 : BitVec 32 := 7#32
  let v59 : BitVec 1 := Scalar.cmpi .eq arg1 c7_i32_16
  let v60 : BitVec 1 := Scalar.andi v58 v59
  let v61 : BitVec 32 := Scalar.extui v60
  let c0_i32_17 : BitVec 32 := 0#32
  let v62 : BitVec 1 := Scalar.cmpi .ne v61 c0_i32_17
  v62

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S4096x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S4096x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S4096x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S4096x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1024x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  iota_S512x4096_d0_w32 : S512x4096.Iotas .tc 32 [0]
  iota_S512x4096_d1_w32 : S512x4096.Iotas .tc 32 [1]
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  shapeCasts_S512x1_S512x1 : S512x1.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  reduces_S512x4096_S4096 : S512x4096.Reduces [0] S4096
  shapeCasts_S4096_S1x4096 : S4096.ShapeCasts S1x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  shapeCasts_S1x4096_S1x4096 : S1x4096.ShapeCasts S1x4096
  broadcasts_S1x4096_S8x4096 : S1x4096.Broadcasts S8x4096
  slices_S4096x128_S4096x1_0_0 : S4096x128.Slices ![0, 0] S4096x1
  shapeCasts_S4096x1_S4096 : S4096x1.ShapeCasts S4096
  slices_S8x4096_S1x4096_0_0 : S8x4096.Slices ![0, 0] S1x4096
  shapeCasts_S1x4096_S4096 : S1x4096.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x128_S512x128 : S512x128.ShapeCasts S512x128
  slices_S512x128_o0_0_S512x1 : S512x128.Slices ![0, 0] S512x1
  transposes_S128x128_S128x128_1_0 : S128x128.Transposes [1, 0] S128x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S512x512_S512x128_S512x128_1_0_0_1_n_n_wf : DotDims.WF S512x512 S512x128 S512x128 [1] [0] [0] [1] [] []
  dot_S512x512_S512x128_S512x128_0_0_1_1_n_n_wf : DotDims.WF S512x512 S512x128 S512x128 [0] [0] [1] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hrank1 : 0 < grid1.rank
  k1_mult1_dvd : ∀ i : grid1.Coords, 512 ∣ (k1_mult1 i).toNat
  k1_mult2_dvd : ∀ i : grid1.Coords, 512 ∣ (k1_mult2 i).toNat
  k1_off1_inb : ∀ i : grid1.Coords, ∀ a, (k1_off1 i) a + S512x128.size a ≤ S4096x128.size a
  k1_off2_inb : ∀ i : grid1.Coords, ∀ a, (k1_off2 i) a + S512x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x128.size a
  hwx1_2 : ∀ i : grid1.Coords, EltTy.bits .f32 = 32 ∨ (Rect.block (s := S4096x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S4096x128.size a
  hwx1_3 : ∀ i : grid1.Coords, EltTy.bits .f32 = 32 ∨ (Rect.block (s := S4096x128) S4096x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S4096x128.size a
  hwx1_4 : ∀ i : grid1.Coords, EltTy.bits .f32 = 32 ∨ (Rect.block (s := S4096x128) S4096x128.size (cc1_transform_4 i) (hinb1_4 i)).WholeWords (EltTy.packing .f32)
  hrank2 : 0 < grid2.rank
  k2_mult1_dvd : ∀ i : grid2.Coords, 512 ∣ (k2_mult1 i).toNat
  k2_mult2_dvd : ∀ i : grid2.Coords, 512 ∣ (k2_mult2 i).toNat
  k2_off1_inb : ∀ i : grid2.Coords, ∀ a, (k2_off1 i) a + S512x128.size a ≤ S4096x128.size a
  k2_off2_inb : ∀ i : grid2.Coords, ∀ a, (k2_off2 i) a + S512x128.size a ≤ S4096x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .f32 = 32 ∨ (Rect.block (s := S4096x4096) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .f32 = 32 ∨ (Rect.block (s := S4096x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S4096x128.size a
  hwx2_2 : ∀ i : grid2.Coords, EltTy.bits .f32 = 32 ∨ (Rect.block (s := S4096x128) S4096x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S4096x128.size a
  hwx2_3 : ∀ i : grid2.Coords, EltTy.bits .f32 = 32 ∨ (Rect.block (s := S4096x128) S4096x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S4096x128.size a
  hwx2_4 : ∀ i : grid2.Coords, EltTy.bits .f32 = 32 ∨ (Rect.block (s := S4096x128) S4096x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4096x128.size a ≤ S4096x128.size a
  hwx2_5 : ∀ i : grid2.Coords, EltTy.bits .f32 = 32 ∨ (Rect.block (s := S4096x128) S4096x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S4096x128.size a
  hwx3_0 : ∀ i : grid3.Coords, EltTy.bits .f32 = 32 ∨ (Rect.block (s := S4096x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S4096x128.size a
  hwx3_1 : ∀ i : grid3.Coords, EltTy.bits .f32 = 32 ∨ (Rect.block (s := S4096x128) S1024x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x128.size a ≤ S4096x128.size a
  hwx3_6 : ∀ i : grid3.Coords, EltTy.bits .f32 = 32 ∨ (Rect.block (s := S4096x128) S1024x128.size (cc3_transform_6 i) (hinb3_6 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4096x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_0) S4096x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13_1) S4096x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13_0) S4096x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13_1) S4096x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14_0) S4096x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14_1) S4096x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v14_0) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14_1) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v18) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v19) S1024x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .i1⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x128, .f32⟩
  | .hbm, ⟨47, _⟩ => ⟨S128x128, .f32⟩
  | .hbm, ⟨48, _⟩ => ⟨S4096x128, .f32⟩
  | .hbm, ⟨49, _⟩ => ⟨S1x128, .f32⟩
  | .hbm, ⟨50, _⟩ => ⟨S4096x128, .f32⟩
  | .hbm, ⟨51, _⟩ => ⟨S4096x128, .f32⟩
  | .hbm, ⟨52, _⟩ => ⟨S_, .f32⟩
  | .hbm, ⟨53, _⟩ => ⟨S4096x128, .f32⟩
  | .hbm, ⟨54, _⟩ => ⟨S4096x128, .f32⟩
  | .hbm, ⟨55, _⟩ => ⟨S4096x4096, .f32⟩
  | .hbm, ⟨56, _⟩ => ⟨S4096x4096, .i32⟩
  | .hbm, ⟨57, _⟩ => ⟨S4096x4096, .i32⟩
  | .hbm, ⟨58, _⟩ => ⟨S_, .i32⟩
  | .hbm, ⟨59, _⟩ => ⟨S4096x4096, .i32⟩
  | .hbm, ⟨60, _⟩ => ⟨S4096x4096, .i32⟩
  | .hbm, ⟨61, _⟩ => ⟨S4096x4096, .i1⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .i1⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1, .f32⟩
  | .hbm, ⟨83, _⟩ => ⟨S4096x4096, .f32⟩
  | .hbm, ⟨84, _⟩ => ⟨S4096x4096, .f32⟩
  | .hbm, ⟨85, _⟩ => ⟨S_, .f32⟩
  | .hbm, ⟨86, _⟩ => ⟨S4096x4096, .f32⟩
  | .hbm, ⟨87, _⟩ => ⟨S_, .f32⟩
  | .hbm, ⟨88, _⟩ => ⟨S4096x4096, .f32⟩
  | .hbm, ⟨89, _⟩ => ⟨S4096x4096, .f32⟩
  | .hbm, ⟨90, _⟩ => ⟨S4096x4096, .f32⟩
  | .hbm, ⟨91, _⟩ => ⟨S4096x4096, .f32⟩
  | .hbm, ⟨92, _⟩ => ⟨S_, .f32⟩
  | .hbm, ⟨93, _⟩ => ⟨S4096x4096, .f32⟩
  | .hbm, ⟨94, _⟩ => ⟨S4096x4096, .f32⟩
  | .hbm, ⟨95, _⟩ => ⟨S4096x4096, .f32⟩
  | .hbm, ⟨96, _⟩ => ⟨S4096x128, .f32⟩
  | .hbm, ⟨97, _⟩ => ⟨S128x128, .f32⟩
  | .hbm, ⟨98, _⟩ => ⟨S4096x128, .f32⟩
  | .hbm, ⟨99, _⟩ => ⟨S1x128, .f32⟩
  | .hbm, ⟨100, _⟩ => ⟨S4096x128, .f32⟩
  | .hbm, ⟨101, _⟩ => ⟨S4096x128, .f32⟩
  | .hbm, ⟨102, _⟩ => ⟨S_, .f32⟩
  | .hbm, ⟨103, _⟩ => ⟨S4096x128, .f32⟩
  | .hbm, ⟨104, _⟩ => ⟨S4096x128, .f32⟩
  | .hbm, ⟨105, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_call2_v0 : Ref sig .tc := ⟨.hbm, 79, rfl⟩
abbrev main_call2_v1 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_cst_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call3_cst : Ref sig .tc := ⟨.hbm, 102, rfl⟩
abbrev main_call3_v0 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  reducesTo_S4096x4096_S4096_d0 : S4096x4096.ReducesTo [0] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S4096x4096_S4096x4096_1_0 : S4096x4096.Transposes [1, 0] S4096x4096
  dot_S4096x4096_S4096x4096_S4096x4096_1_0_0_1_n_n_wf : DotDims.WF S4096x4096 S4096x4096 S4096x4096 [1] [0] [0] [1] [] []
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.K.Region0Base.lean ====
/- Region 0 of @main (the degree kernel, grid [8]): what the three per-case runs of its body and the region's
   proof data share — the two branch conditions of the body in closed form over the grid, the table of idle
   points of the column-sum output, the blocks of the windows read off the region-entry contents, the memrefs
   the pipeline passes at a point, and the region invariant with the kernel's accumulator split off. -/
import proofs.«140086_j17265768530288_2_alg».proof.Proof.Gen.Kernel.Launch
import proofs.«140086_j17265768530288_2_alg».proof.Proof.Gen.Kernel.Skeleton
import proofs.«140086_j17265768530288_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two conditions of the body -/

/-- "This is the first row block": the condition under which the body zeroes its column-sum accumulator, as the
    body computes it from the grid coordinate. -/
abbrev isFirst0 (i : grid0.Coords) : Prop :=
  (Scalar.cmpi .ne (Scalar.extui (Scalar.cmpi .eq (BitVec.ofNat 32 (i 0).val) 0#32)) 0#32) = 1#1

/-- "This is the last row block": the condition under which the body copies the accumulator out. -/
abbrev isLast0 (i : grid0.Coords) : Prop := k0_cond2 i = 1#1

/-- Of the eight points only point 0 is first, -/
theorem isFirst0_iff : ∀ t : Fin cfg0.N, isFirst0 (grid0.coords t) ↔ t.val % 8 = 0 :=
  (by decide +kernel : ∀ t : Fin grid0.N, isFirst0 (grid0.coords t) ↔ t.val % 8 = 0)

/-- and only point 7 is last. -/
theorem isLast0_iff : ∀ t : Fin cfg0.N, isLast0 (grid0.coords t) ↔ t.val % 8 = 7 :=
  (by decide +kernel : ∀ t : Fin grid0.N, isLast0 (grid0.coords t) ↔ t.val % 8 = 7)

/-! ## Where the windows are idle -/

/-- The adjacency tile (an input) and the row-sum output are stored or read at every point. -/
theorem live0_0 : ∀ t : Fin cfg0.N, cfg0.idle 0 (grid0.coords t) = false := by decide +kernel
theorem live0_1 : ∀ t : Fin cfg0.N, cfg0.idle 1 (grid0.coords t) = false := by decide +kernel
/-- The column-sum output is stored into at the last point only: at every other point the configuration calls it
    idle and the pipeline does not write it back there. -/
theorem idle0_2 : ∀ t : Fin cfg0.N, ¬isLast0 (grid0.coords t) → cfg0.idle 2 (grid0.coords t) = true := by decide +kernel
theorem noFlush0_2 : ∀ t : Fin cfg0.N, ¬isLast0 (grid0.coords t) → (cfg0.win 2).flush t = false := by decide +kernel
theorem live0_2 : ∀ t : Fin cfg0.N, isLast0 (grid0.coords t) → cfg0.idle 2 (grid0.coords t) = false := by decide +kernel

/-! ## The windows' blocks at the region-entry contents -/

/-- The block of window w the pipeline addresses at point t, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency's current staging buffer holds the adjacency's row block t when the body runs at t, for any
    proof data over the entry contents whose body leaves that block in place: the window is fetched at every point,
    and a fetch fills the buffer with the array's block. -/
theorem in0_before {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The memrefs of a point -/

/-- The staging memrefs the pipeline passes the body at point t — the adjacency tile's, the row-sum block's, the
    column-sum block's — each a whole buffer, and the accumulator, the kernel's own whole scratch buffer. -/
abbrev tileM0 (t : Fin cfg0.N) : Memref sig .tc .vmem S512x4096 .f32 := win0_0.stage (cfg0.slots t 0)
abbrev tileW0 (t : Fin cfg0.N) : (tileM0 t).IsWhole := hstage0_0 ((cfg0.slots t 0).cast nbuf0_0)
abbrev rowM0 (t : Fin cfg0.N) : Memref sig .tc .vmem S512x128 .f32 := win0_1.stage (cfg0.slots t 1)
abbrev rowW0 (t : Fin cfg0.N) : (rowM0 t).IsWhole := hstage0_1 ((cfg0.slots t 1).cast nbuf0_1)
abbrev colM0 (t : Fin cfg0.N) : Memref sig .tc .vmem S8x4096 .f32 := win0_2.stage (cfg0.slots t 2)
abbrev colW0 (t : Fin cfg0.N) : (colM0 t).IsWhole := hstage0_2 ((cfg0.slots t 2).cast nbuf0_2)
abbrev accM0 : Memref sig .tc .vmem S8x4096 .f32 := Memref.whole cc0_scratch0

/-- Views through which the contents of the two outputs and of the accumulator are stated (any whole buffer of the
    shape serves: what is read back through a covering list of pieces does not depend on it). -/
abbrev rowV0 : View sig .tc .vmem S512x128 .f32 := (Memref.whole cc0_stg1_0 : Memref sig .tc .vmem S512x128 .f32).view
abbrev colV0 : View sig .tc .vmem S8x4096 .f32 := (Memref.whole cc0_stg2_0 : Memref sig .tc .vmem S8x4096 .f32).view
abbrev accV0 : View sig .tc .vmem S8x4096 .f32 := accM0.view

/-! ## The region invariant, the accumulator split off -/

/-- The class's invariant for this region: the accumulator owned at some contents, every other scoped buffer of the
    program that is no staging buffer of this call unopened, and the generator register at some state. -/
theorem PhiA0_split (c : Dev nD) :
    (Pipeline.ΦA spec0 c : sProp 𝕄)
      = iprop(iprop(iprop(∃ d, owns (c : Thread nD τ) accM0 fullShare d) ∗ Pipeline.scopedRestBut spec0 c [cc0_scratch0]) ∗ (∃ r, prngReg c r)) := by
  unfold Pipeline.ΦA; rw [scopedRest0_split]; simp only [accM0, owns_whole]; try rfl

end Cert.Kernel.Hand

end
-- ==== Proof.K.Region0First.lean ====
/- Region 0, the body at the FIRST row block (it zeroes the accumulator, then adds this block's column sums
   into it; it stores the row sums; it does not touch the column-sum output). -/
import proofs.«140086_j17265768530288_2_alg».proof.Proof.K.Region0Base

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body's stores at the first point, as lists of pieces (last store first) — the row-sum buffer's and the
    accumulator's — with the triple: on whole memrefs, the tile's at contents x, the row-sum buffer's and the
    accumulator's at anything, the column-sum buffer's at contents y, the body runs to a continuation that is
    handed the tile's buffer and the column-sum buffer as they were, and the other two with their pieces written.
    The first conditional is taken and the second is not (hf, hl). The lists are what running the body's
    skeleton finds; they do not depend on what the two overwritten buffers held. -/
noncomputable def runFirst0 (c : Dev nD) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (hf : isFirst0 i) (hl : ¬isLast0 i) (x : Vec F S512x4096 .f32) :
    Σ' (Lrow : List (View.Piece (Elt F) S512x128 .f32)), { Lacc : List (View.Piece (Elt F) S8x4096 .f32) //
      ∀ (y : Vec F S8x4096 .f32) (E : Set ℕ) (K : PUnit → sProp 𝕄),
        iprop(owns (c : Thread nD τ) arg1 fullShare x ∗ (∃ d, owns (c : Thread nD τ) arg2 fullShare d) ∗ owns (c : Thread nD τ) arg3 fullShare y ∗ (∃ d, owns (c : Thread nD τ) arg4 fullShare d)
            ∗ (iprop(owns (c : Thread nD τ) arg1 fullShare x
                  ∗ (∃ f, arg2.view.loc (c : Thread nD τ) ↦[arg2.view.set]{fullShare} arg2.view.writes (Elt F) f Lrow)
                  ∗ owns (c : Thread nD τ) arg3 fullShare y
                  ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg1 harg1 arg2 harg2 arg3 harg3 arg4 harg4) K } := by
  refine ⟨?_, ?_, fun y E K => ?run⟩
  case run =>
    simp only [cc0__degree_kernel_eq_skeleton]; unfold cc0__degree_kernel_skel
    unfold owns
    iintro ⟨⟨%f1, %hf1, H1⟩, ⟨%d2, %f2, -, H2⟩, ⟨%f3, %hf3, H3⟩, ⟨%d4, %f4, -, H4⟩, Hk⟩
    obtain rfl := harg1.eq_unread hf1; obtain rfl := harg3.eq_unread hf3
    sl_exec (disch := first | exact hf | exact hl)
    sl_step
    iapply Hk
    isplitl [H1]
    · iexists _; isplitr; · ipureintro; exact harg1.read_unread _
      iexact H1
    isplitl [H2]; · iexists _; iexact H2
    isplitl [H3]
    · iexists _; isplitr; · ipureintro; exact harg3.read_unread _
      iexact H3
    iexists _; iexact H4

end Cert.Kernel.Hand

end
-- ==== Proof.K.Region0Mid.lean ====
/- Region 0, the body at a MIDDLE row block (neither first nor last: it adds this block's column sums into the
   accumulator as the point before left it; it stores the row sums; it does not touch the column-sum output). -/
import proofs.«140086_j17265768530288_2_alg».proof.Proof.K.Region0First

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body's stores at a middle point, as lists of pieces (last store first), with the triple: on whole memrefs,
    the tile's at contents x, the row-sum buffer's at anything, the column-sum buffer's at contents y, the
    accumulator at contents a, the body runs to a continuation that is handed the tile's buffer and the column-sum
    buffer as they were, and the row-sum buffer and the accumulator with their pieces written. Neither conditional
    is taken (hf, hl). -/
noncomputable def runMid0 (c : Dev nD) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (hf : ¬isFirst0 i) (hl : ¬isLast0 i) (x : Vec F S512x4096 .f32) (a : Vec F S8x4096 .f32) :
    Σ' (Lrow : List (View.Piece (Elt F) S512x128 .f32)), { Lacc : List (View.Piece (Elt F) S8x4096 .f32) //
      ∀ (y : Vec F S8x4096 .f32) (E : Set ℕ) (K : PUnit → sProp 𝕄),
        iprop(owns (c : Thread nD τ) arg1 fullShare x ∗ (∃ d, owns (c : Thread nD τ) arg2 fullShare d) ∗ owns (c : Thread nD τ) arg3 fullShare y ∗ owns (c : Thread nD τ) arg4 fullShare a
            ∗ (iprop(owns (c : Thread nD τ) arg1 fullShare x
                  ∗ (∃ f, arg2.view.loc (c : Thread nD τ) ↦[arg2.view.set]{fullShare} arg2.view.writes (Elt F) f Lrow)
                  ∗ owns (c : Thread nD τ) arg3 fullShare y
                  ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg1 harg1 arg2 harg2 arg3 harg3 arg4 harg4) K } := by
  refine ⟨?_, ?_, fun y E K => ?run⟩
  case run =>
    simp only [cc0__degree_kernel_eq_skeleton]; unfold cc0__degree_kernel_skel
    unfold owns
    iintro ⟨⟨%f1, %hf1, H1⟩, ⟨%d2, %f2, -, H2⟩, ⟨%f3, %hf3, H3⟩, ⟨%f4, %hf4, H4⟩, Hk⟩
    obtain rfl := harg1.eq_unread hf1; obtain rfl := harg3.eq_unread hf3; obtain rfl := harg4.eq_unread hf4
    sl_exec (disch := first | exact hf | exact hl)
    sl_step
    iapply Hk
    isplitl [H1]
    · iexists _; isplitr; · ipureintro; exact harg1.read_unread _
      iexact H1
    isplitl [H2]; · iexists _; iexact H2
    isplitl [H3]
    · iexists _; isplitr; · ipureintro; exact harg3.read_unread _
      iexact H3
    iexists _; iexact H4

end Cert.Kernel.Hand

end
-- ==== Proof.K.Region0Last.lean ====
/- Region 0, the body at the LAST row block (it adds this block's column sums into the accumulator as the point
   before left it, stores the row sums, and copies the accumulator into the column-sum output). -/
import proofs.«140086_j17265768530288_2_alg».proof.Proof.K.Region0Mid

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body's stores at the last point, as lists of pieces (last store first) — the row-sum buffer's, the
    column-sum buffer's and the accumulator's — with the triple: on whole memrefs, the tile's at contents x, the two
    output buffers' at anything, the accumulator at contents a, the body runs to a continuation that is handed the
    tile's buffer as it was and the other three with their pieces written. The first conditional is not taken, the
    second is (hf, hl). -/
noncomputable def runLast0 (c : Dev nD) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (hf : ¬isFirst0 i) (hl : isLast0 i) (x : Vec F S512x4096 .f32) (a : Vec F S8x4096 .f32) :
    Σ' (Lrow : List (View.Piece (Elt F) S512x128 .f32)) (Lcol : List (View.Piece (Elt F) S8x4096 .f32)), { Lacc : List (View.Piece (Elt F) S8x4096 .f32) //
      ∀ (E : Set ℕ) (K : PUnit → sProp 𝕄),
        iprop(owns (c : Thread nD τ) arg1 fullShare x ∗ (∃ d, owns (c : Thread nD τ) arg2 fullShare d) ∗ (∃ d, owns (c : Thread nD τ) arg3 fullShare d) ∗ owns (c : Thread nD τ) arg4 fullShare a
            ∗ (iprop(owns (c : Thread nD τ) arg1 fullShare x
                  ∗ (∃ f, arg2.view.loc (c : Thread nD τ) ↦[arg2.view.set]{fullShare} arg2.view.writes (Elt F) f Lrow)
                  ∗ (∃ f, arg3.view.loc (c : Thread nD τ) ↦[arg3.view.set]{fullShare} arg3.view.writes (Elt F) f Lcol)
                  ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg1 harg1 arg2 harg2 arg3 harg3 arg4 harg4) K } := by
  refine ⟨?_, ?_, ?_, fun E K => ?run⟩
  case run =>
    simp only [cc0__degree_kernel_eq_skeleton]; unfold cc0__degree_kernel_skel
    unfold owns
    iintro ⟨⟨%f1, %hf1, H1⟩, ⟨%d2, %f2, -, H2⟩, ⟨%d3, %f3, -, H3⟩, ⟨%f4, %hf4, H4⟩, Hk⟩
    obtain rfl := harg1.eq_unread hf1; obtain rfl := harg4.eq_unread hf4
    sl_exec (disch := first | exact hf | exact hl)
    sl_step
    iapply Hk
    isplitl [H1]
    · iexists _; isplitr; · ipureintro; exact harg1.read_unread _
      iexact H1
    isplitl [H2]; · iexists _; iexact H2
    isplitl [H3]; · iexists _; iexact H3
    iexists _; iexact H4

end Cert.Kernel.Hand

end
-- ==== Proof.K.Region0.lean ====
/- Region 0 of @main (the degree kernel, grid [8]) at the region-entry contents V: what the row-sum buffer, the
   column-sum buffer and the accumulator hold after each point, the region's proof data over an invariant that
   carries the accumulator's contents from point to point, the body obligation, and the invariant's two ends. -/
import proofs.«140086_j17265768530288_2_alg».proof.Proof.K.Region0Last

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## Each case's pieces cover the buffer they are stored into

Every store of the body writes a whole buffer, so each list of pieces tiles its shape; the check is an evaluation. -/

section Covers
variable (c : Dev nD) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (x : Vec F S512x4096 .f32) (a : Vec F S8x4096 .f32)

theorem rowCover0_first (hf : isFirst0 i) (hl : ¬isLast0 i) (y : S512x128.Idx) :
    ∃ pc ∈ (runFirst0 c i arg1 harg1 arg2 harg2 arg3 harg3 arg4 harg4 hf hl x).1, y ∈ pc.1.set :=
  View.cover_of_tiledL (runFirst0 c i arg1 harg1 arg2 harg2 arg3 harg3 arg4 harg4 hf hl x).1 S512x128.size (by sl_kernel_rfl) y
theorem accCover0_first (hf : isFirst0 i) (hl : ¬isLast0 i) (y : S8x4096.Idx) :
    ∃ pc ∈ (runFirst0 c i arg1 harg1 arg2 harg2 arg3 harg3 arg4 harg4 hf hl x).2.1, y ∈ pc.1.set :=
  View.cover_of_tiledL (runFirst0 c i arg1 harg1 arg2 harg2 arg3 harg3 arg4 harg4 hf hl x).2.1 S8x4096.size (by sl_kernel_rfl) y

theorem rowCover0_mid (hf : ¬isFirst0 i) (hl : ¬isLast0 i) (y : S512x128.Idx) :
    ∃ pc ∈ (runMid0 c i arg1 harg1 arg2 harg2 arg3 harg3 arg4 harg4 hf hl x a).1, y ∈ pc.1.set :=
  View.cover_of_tiledL (runMid0 c i arg1 harg1 arg2 harg2 arg3 harg3 arg4 harg4 hf hl x a).1 S512x128.size (by sl_kernel_rfl) y
theorem accCover0_mid (hf : ¬isFirst0 i) (hl : ¬isLast0 i) (y : S8x4096.Idx) :
    ∃ pc ∈ (runMid0 c i arg1 harg1 arg2 harg2 arg3 harg3 arg4 harg4 hf hl x a).2.1, y ∈ pc.1.set :=
  View.cover_of_tiledL (runMid0 c i arg1 harg1 arg2 harg2 arg3 harg3 arg4 harg4 hf hl x a).2.1 S8x4096.size (by sl_kernel_rfl) y

theorem rowCover0_last (hf : ¬isFirst0 i) (hl : isLast0 i) (y : S512x128.Idx) :
    ∃ pc ∈ (runLast0 c i arg1 harg1 arg2 harg2 arg3 harg3 arg4 harg4 hf hl x a).1, y ∈ pc.1.set :=
  View.cover_of_tiledL (runLast0 c i arg1 harg1 arg2 harg2 arg3 harg3 arg4 harg4 hf hl x a).1 S512x128.size (by sl_kernel_rfl) y
theorem colCover0_last (hf : ¬isFirst0 i) (hl : isLast0 i) (y : S8x4096.Idx) :
    ∃ pc ∈ (runLast0 c i arg1 harg1 arg2 harg2 arg3 harg3 arg4 harg4 hf hl x a).2.1, y ∈ pc.1.set :=
  View.cover_of_tiledL (runLast0 c i arg1 harg1 arg2 harg2 arg3 harg3 arg4 harg4 hf hl x a).2.1 S8x4096.size (by sl_kernel_rfl) y
theorem accCover0_last (hf : ¬isFirst0 i) (hl : isLast0 i) (y : S8x4096.Idx) :
    ∃ pc ∈ (runLast0 c i arg1 harg1 arg2 harg2 arg3 harg3 arg4 harg4 hf hl x a).2.2.1, y ∈ pc.1.set :=
  View.cover_of_tiledL (runLast0 c i arg1 harg1 arg2 harg2 arg3 harg3 arg4 harg4 hf hl x a).2.2.1 S8x4096.size (by sl_kernel_rfl) y
end Covers

/-! ## The three runs at a point of the grid

Each run taken at the memrefs the pipeline passes at point t, on the adjacency's row block t, the case's two
conditions discharged from the point's number. -/

abbrev firstAt0 (c : Dev nD) (t : Fin cfg0.N) (hf : t.val % 8 = 0) (hl : ¬t.val % 8 = 7) :=
  runFirst0 c (grid0.coords t) (tileM0 t) (tileW0 t) (rowM0 t) (rowW0 t) (colM0 t) (colW0 t) accM0 (Memref.isWhole_whole _)
    ((isFirst0_iff t).mpr hf) (fun h => hl ((isLast0_iff t).mp h)) (blk0 V c 0 t)

abbrev midAt0 (c : Dev nD) (t : Fin cfg0.N) (hf : ¬t.val % 8 = 0) (hl : ¬t.val % 8 = 7) (a : Vec F S8x4096 .f32) :=
  runMid0 c (grid0.coords t) (tileM0 t) (tileW0 t) (rowM0 t) (rowW0 t) (colM0 t) (colW0 t) accM0 (Memref.isWhole_whole _)
    (fun h => hf ((isFirst0_iff t).mp h)) (fun h => hl ((isLast0_iff t).mp h)) (blk0 V c 0 t) a

abbrev lastAt0 (c : Dev nD) (t : Fin cfg0.N) (hf : ¬t.val % 8 = 0) (hl : t.val % 8 = 7) (a : Vec F S8x4096 .f32) :=
  runLast0 c (grid0.coords t) (tileM0 t) (tileW0 t) (rowM0 t) (rowW0 t) (colM0 t) (colW0 t) accM0 (Memref.isWhole_whole _)
    (fun h => hf ((isFirst0_iff t).mp h)) ((isLast0_iff t).mpr hl) (blk0 V c 0 t) a

/-! ## What the buffers hold after each point -/

/-- After the body at position n: what the row-sum buffer, the column-sum buffer and the accumulator hold, each the
    overlay of the pieces its case stored. Position 0 is the first case; a later position is the last case when it
    is 7 and a middle case otherwise, run on the accumulator as position n - 1 left it. Where the column-sum
    buffer is not stored into (every position but 7) its component repeats the accumulator's: nothing reads it, the
    window being idle and not written back there. -/
def outsAt0 (c : Dev nD) : (n : ℕ) → n < cfg0.N → Vec F S512x128 .f32 × Vec F S8x4096 .f32 × Vec F S8x4096 .f32
  | 0, hn =>
    (View.canon (firstAt0 V c ⟨0, hn⟩ (Nat.zero_mod _) (fun h => by (try dsimp only at h); omega)).1,
     View.canon (firstAt0 V c ⟨0, hn⟩ (Nat.zero_mod _) (fun h => by (try dsimp only at h); omega)).2.1,
     View.canon (firstAt0 V c ⟨0, hn⟩ (Nat.zero_mod _) (fun h => by (try dsimp only at h); omega)).2.1)
  | n + 1, hn =>
    if h : (n + 1) % 8 = 7 then
      (View.canon (lastAt0 V c ⟨n + 1, hn⟩ (fun h0 => by have hN : n + 1 < 8 := lt_of_lt_of_eq hn (show cfg0.N = 8 from N_0); (try dsimp only at h0); omega) h (outsAt0 c n (Nat.lt_of_succ_lt hn)).2.2).1,
       View.canon (lastAt0 V c ⟨n + 1, hn⟩ (fun h0 => by have hN : n + 1 < 8 := lt_of_lt_of_eq hn (show cfg0.N = 8 from N_0); (try dsimp only at h0); omega) h (outsAt0 c n (Nat.lt_of_succ_lt hn)).2.2).2.1,
       View.canon (lastAt0 V c ⟨n + 1, hn⟩ (fun h0 => by have hN : n + 1 < 8 := lt_of_lt_of_eq hn (show cfg0.N = 8 from N_0); (try dsimp only at h0); omega) h (outsAt0 c n (Nat.lt_of_succ_lt hn)).2.2).2.2.1)
    else
      (View.canon (midAt0 V c ⟨n + 1, hn⟩ (fun h0 => by have hN : n + 1 < 8 := lt_of_lt_of_eq hn (show cfg0.N = 8 from N_0); (try dsimp only at h0); omega) h (outsAt0 c n (Nat.lt_of_succ_lt hn)).2.2).1,
       View.canon (midAt0 V c ⟨n + 1, hn⟩ (fun h0 => by have hN : n + 1 < 8 := lt_of_lt_of_eq hn (show cfg0.N = 8 from N_0); (try dsimp only at h0); omega) h (outsAt0 c n (Nat.lt_of_succ_lt hn)).2.2).2.1,
       View.canon (midAt0 V c ⟨n + 1, hn⟩ (fun h0 => by have hN : n + 1 < 8 := lt_of_lt_of_eq hn (show cfg0.N = 8 from N_0); (try dsimp only at h0); omega) h (outsAt0 c n (Nat.lt_of_succ_lt hn)).2.2).2.1)

/-- The triple at the first point, -/
theorem outsAt0_first (c : Dev nD) (t : Fin cfg0.N) (hf : t.val % 8 = 0) (hl : ¬t.val % 8 = 7) :
    outsAt0 V c t.val t.isLt = (View.canon (firstAt0 V c t hf hl).1, View.canon (firstAt0 V c t hf hl).2.1, View.canon (firstAt0 V c t hf hl).2.1) := by
  obtain ⟨n, hn⟩ := t
  cases n with
  | zero => exact rfl
  | succ n => exact (by exfalso; have hN : n + 1 < 8 := lt_of_lt_of_eq hn (show cfg0.N = 8 from N_0); (try dsimp only at hf); omega)

/-- at a middle point (over the accumulator the point before left), -/
theorem outsAt0_mid (c : Dev nD) (t : Fin cfg0.N) (hf : ¬t.val % 8 = 0) (hl : ¬t.val % 8 = 7) :
    outsAt0 V c t.val t.isLt
      = (View.canon (midAt0 V c t hf hl (outsAt0 V c (t.val - 1) (Nat.lt_of_le_of_lt (Nat.sub_le _ _) t.isLt)).2.2).1,
         View.canon (midAt0 V c t hf hl (outsAt0 V c (t.val - 1) (Nat.lt_of_le_of_lt (Nat.sub_le _ _) t.isLt)).2.2).2.1,
         View.canon (midAt0 V c t hf hl (outsAt0 V c (t.val - 1) (Nat.lt_of_le_of_lt (Nat.sub_le _ _) t.isLt)).2.2).2.1) := by
  obtain ⟨n, hn⟩ := t
  cases n with
  | zero => exact (by exfalso; (try dsimp only at hf); exact absurd (Nat.zero_mod _) hf)
  | succ n => exact (dif_neg hl).trans rfl

/-- and at the last point (likewise). -/
theorem outsAt0_last (c : Dev nD) (t : Fin cfg0.N) (hf : ¬t.val % 8 = 0) (hl : t.val % 8 = 7) :
    outsAt0 V c t.val t.isLt
      = (View.canon (lastAt0 V c t hf hl (outsAt0 V c (t.val - 1) (Nat.lt_of_le_of_lt (Nat.sub_le _ _) t.isLt)).2.2).1,
         View.canon (lastAt0 V c t hf hl (outsAt0 V c (t.val - 1) (Nat.lt_of_le_of_lt (Nat.sub_le _ _) t.isLt)).2.2).2.1,
         View.canon (lastAt0 V c t hf hl (outsAt0 V c (t.val - 1) (Nat.lt_of_le_of_lt (Nat.sub_le _ _) t.isLt)).2.2).2.2.1) := by
  obtain ⟨n, hn⟩ := t
  cases n with
  | zero => exact (by exfalso; (try dsimp only at hf); exact absurd (Nat.zero_mod _) hf)
  | succ n => exact (dif_pos hl).trans rfl

/-! ## The invariant: the accumulator carried from point to point -/

/-- Before position n. Before the first point nothing is known of the accumulator: the class's invariant. After it,
    the accumulator is owned at exactly what the point before left in it; the program's other scoped buffers stay
    unopened and the generator register at some state. -/
def PhiS0 (c : Dev nD) : (n : ℕ) → n ≤ cfg0.N → sProp 𝕄
  | 0, _ => Pipeline.ΦA spec0 c
  | n + 1, hn => iprop(iprop(owns (c : Thread nD τ) accM0 fullShare ((outsAt0 V c n hn).2.2) ∗ Pipeline.scopedRestBut spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare ((outsAt0 V c n hn).2.2) ∗ Pipeline.scopedRestBut spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) accM0 fullShare ((outsAt0 V c (n - 1) (by omega)).2.2) ∗ Pipeline.scopedRestBut spec0 c [cc0_scratch0]) ∗ (∃ r, prngReg c r)) := by
  cases n with
  | zero => exact absurd rfl hz
  | succ n => rfl

/-! ## The region's proof data -/

/-- The proof data of pipeline 0 on core c at the entry contents V: the arrays as the region finds them; after the
    body at point t the tile's buffer still at the adjacency's row block t, the row-sum buffer and the column-sum
    buffer at the first two components of outsAt0; the invariant PhiS0; full shares; nothing owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- The tile's buffer holds the adjacency's row block t when the body runs at t. -/
theorem tile_before0 (c : Dev nD) (t : Fin cfg0.N) (d) : (dat0 V c).before 0 t d = blk0 V c 0 t :=
  in0_before V (dat0 V c) (A_eq0 V c 0) (after0_0 V c) t d

/-- The invariant at a point's start, restated at the point's number. -/
theorem Phi0_castSucc (c : Dev nD) (t : Fin cfg0.N) :
    (dat0 V c).Φ t.castSucc = PhiS0 V c t.val (Nat.le_of_lt t.isLt) := rfl

/-- The tile's and the row-sum buffer's windows are live at every point: what the body must leave there is the
    proof data's after. -/
theorem leaves0_0 (c : Dev nD) (t : Fin cfg0.N) :
    ((dat0 V c).leavesExact 0 t : sProp 𝕄) = owns (c : Thread nD τ) (tileM0 t) fullShare ((dat0 V c).after 0 t) := by
  unfold Dat.leavesExact; rw [live0_0 t]
theorem leaves0_1 (c : Dev nD) (t : Fin cfg0.N) :
    ((dat0 V c).leavesExact 1 t : sProp 𝕄) = owns (c : Thread nD τ) (rowM0 t) fullShare ((dat0 V c).after 1 t) := by
  unfold Dat.leavesExact; rw [live0_1 t]
/-- The column-sum window is live at the last point, -/
theorem leaves0_2_last (c : Dev nD) (t : Fin cfg0.N) (hl : t.val % 8 = 7) :
    ((dat0 V c).leavesExact 2 t : sProp 𝕄) = owns (c : Thread nD τ) (colM0 t) fullShare ((dat0 V c).after 2 t) := by
  unfold Dat.leavesExact; rw [live0_2 t ((isLast0_iff t).mpr hl)]
/-- and idle and not written back at every other: there the body hands its buffer back as it found it. -/
theorem leaves0_2_idle (c : Dev nD) (t : Fin cfg0.N) (hl : ¬t.val % 8 = 7) :
    ((dat0 V c).leavesExact 2 t : sProp 𝕄) = iprop(∃ d, owns (c : Thread nD τ) (colM0 t) fullShare ((dat0 V c).before 2 t d)) :=
  Dat.leavesExact_idle (dat0 V c) 2 t (idle0_2 t (fun h => hl ((isLast0_iff t).mp h))) (noFlush0_2 t (fun h => hl ((isLast0_iff t).mp h)))

/-! ## The body obligation at a point -/

/-- What the body is called with at point t: the invariant, the core's owes, and the three current staging
    buffers at what the pipeline leaves in them, -/
def bodyPre0 (c : Dev nD) (t : Fin cfg0.N) : sProp 𝕄 :=
  iprop((dat0 V c).Φ t.castSucc ∗ (dat0 V c).owesAt () t.castSucc
    ∗ (∃ d, owns (c : Thread nD τ) (tileM0 t) fullShare ((dat0 V c).before 0 t d))
    ∗ (∃ d, owns (c : Thread nD τ) (rowM0 t) fullShare ((dat0 V c).before 1 t d))
    ∗ (∃ d, owns (c : Thread nD τ) (colM0 t) fullShare ((dat0 V c).before 2 t d)))

/-- and what it must return. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- At the first point the invariant is the class's: the accumulator comes at anything, the run zeroes it and adds
    the block's column sums, and the invariant takes it back at the overlay of the run's pieces; the column-sum buffer
    goes through untouched. -/
theorem sound_first0 (c : Dev nD) (t : Fin cfg0.N) (hf : t.val % 8 = 0) :
    bodyPre0 V c t ⊢ wp frame (wpE (defs₀ (F := F)) Variants.none c none) Set.univ (bodyAt0 t) (fun _ => bodyPost0 V c t) := by
  have hN : t.val < 8 := lt_of_lt_of_eq t.isLt (show cfg0.N = 8 from N_0)
  have hl : ¬t.val % 8 = 7 := by omega
  have hz : t.val = 0 := by omega
  unfold bodyPre0 bodyPost0 bodyAt0
  simp only [tile_before0]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_idle V c t hl, after0_0, after0_1]
  rw [outsAt0_first V c t hf hl]
  (try dsimp only)
  rw [Phi0_castSucc V c t, PhiS0_zero V c _ _ hz, PhiA0_split]
  iintro ⟨⟨⟨HS, HR⟩, Hg⟩, Ho, ⟨%d0, H0⟩, ⟨%d1, H1⟩, ⟨%d2, H2⟩⟩
  iapply ((firstAt0 V c t hf hl).2.2 _ Set.univ _)
  isplitl [H0]; · iexact H0
  isplitl [H1]; · iexists _; iexact H1
  isplitl [H2]; · iexact H2
  isplitl [HS]; · iexact HS
  iintro ⟨H0, ⟨%e1, H1⟩, H2, ⟨%es, HS⟩⟩
  isplitl [HS HR Hg]
  · isplitl [HS HR]
    · isplitl [HS]
      · unfold owns; iexists _; isplitr
        swap; · iexact HS
        ipureintro; exact View.read_writes_eq_canon _ _ _ (accCover0_first c _ _ _ _ _ _ _ _ _ _ _ _)
      iexact HR
    iexact Hg
  isplitl [Ho]; · iexact Ho
  isplitl [H0]; · iexact H0
  isplitl [H1]
  · unfold owns; iexists _; isplitr
    swap; · iexact H1
    ipureintro; exact View.read_writes_eq_canon _ _ _ (rowCover0_first c _ _ _ _ _ _ _ _ _ _ _ _)
  iexists _; iexact H2

set_option maxHeartbeats 4800000 in
/-- At a middle point the invariant hands the accumulator at what the point before left; the run adds the block's
    column sums and the invariant takes it back at the overlay of the run's pieces; the column-sum buffer goes
    through untouched. -/
theorem sound_mid0 (c : Dev nD) (t : Fin cfg0.N) (hf : ¬t.val % 8 = 0) (hl : ¬t.val % 8 = 7) :
    bodyPre0 V c t ⊢ wp frame (wpE (defs₀ (F := F)) Variants.none c none) Set.univ (bodyAt0 t) (fun _ => bodyPost0 V c t) := by
  have hz : t.val ≠ 0 := fun h => hf (by rw [h])
  unfold bodyPre0 bodyPost0 bodyAt0
  simp only [tile_before0]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_idle V c t hl, after0_0, after0_1]
  rw [outsAt0_mid V c t hf hl]
  (try dsimp only)
  rw [Phi0_castSucc V c t, PhiS0_pos V c _ _ hz]
  iintro ⟨⟨⟨HS, HR⟩, Hg⟩, Ho, ⟨%d0, H0⟩, ⟨%d1, H1⟩, ⟨%d2, H2⟩⟩
  iapply ((midAt0 V c t hf hl _).2.2 _ Set.univ _)
  isplitl [H0]; · iexact H0
  isplitl [H1]; · iexists _; iexact H1
  isplitl [H2]; · iexact H2
  isplitl [HS]; · iexact HS
  iintro ⟨H0, ⟨%e1, H1⟩, H2, ⟨%es, HS⟩⟩
  isplitl [HS HR Hg]
  · isplitl [HS HR]
    · isplitl [HS]
      · unfold owns; iexists _; isplitr
        swap; · iexact HS
        ipureintro; exact View.read_writes_eq_canon _ _ _ (accCover0_mid c _ _ _ _ _ _ _ _ _ _ _ _ _)
      iexact HR
    iexact Hg
  isplitl [Ho]; · iexact Ho
  isplitl [H0]; · iexact H0
  isplitl [H1]
  · unfold owns; iexists _; isplitr
    swap; · iexact H1
    ipureintro; exact View.read_writes_eq_canon _ _ _ (rowCover0_mid c _ _ _ _ _ _ _ _ _ _ _ _ _)
  iexists _; iexact H2

set_option maxHeartbeats 4800000 in
/-- At the last point likewise, and the column-sum buffer, which comes at anything, is left at the overlay of the
    one piece the run copies into it. -/
theorem sound_last0 (c : Dev nD) (t : Fin cfg0.N) (hl : t.val % 8 = 7) :
    bodyPre0 V c t ⊢ wp frame (wpE (defs₀ (F := F)) Variants.none c none) Set.univ (bodyAt0 t) (fun _ => bodyPost0 V c t) := by
  have hf : ¬t.val % 8 = 0 := by omega
  have hz : t.val ≠ 0 := fun h => hf (by rw [h])
  unfold bodyPre0 bodyPost0 bodyAt0
  simp only [tile_before0]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_last V c t hl, after0_0, after0_1, after0_2]
  rw [outsAt0_last V c t hf hl]
  (try dsimp only)
  rw [Phi0_castSucc V c t, PhiS0_pos V c _ _ hz]
  iintro ⟨⟨⟨HS, HR⟩, Hg⟩, Ho, ⟨%d0, H0⟩, ⟨%d1, H1⟩, ⟨%d2, H2⟩⟩
  iapply ((lastAt0 V c t hf hl _).2.2.2 Set.univ _)
  isplitl [H0]; · iexact H0
  isplitl [H1]; · iexists _; iexact H1
  isplitl [H2]; · iexists _; iexact H2
  isplitl [HS]; · iexact HS
  iintro ⟨H0, ⟨%e1, H1⟩, ⟨%e2, H2⟩, ⟨%es, HS⟩⟩
  isplitl [HS HR Hg]
  · isplitl [HS HR]
    · isplitl [HS]
      · unfold owns; iexists _; isplitr
        swap; · iexact HS
        ipureintro; exact View.read_writes_eq_canon _ _ _ (accCover0_last c _ _ _ _ _ _ _ _ _ _ _ _ _)
      iexact HR
    iexact Hg
  isplitl [Ho]; · iexact Ho
  isplitl [H0]; · iexact H0
  isplitl [H1]
  · unfold owns; iexists _; isplitr
    swap; · iexact H1
    ipureintro; exact View.read_writes_eq_canon _ _ _ (rowCover0_last c _ _ _ _ _ _ _ _ _ _ _ _ _)
  unfold owns; iexists _; isplitr
  swap; · iexact H2
  ipureintro; exact View.read_writes_eq_canon _ _ _ (colCover0_last c _ _ _ _ _ _ _ _ _ _ _ _ _)

/-- The body at any point: by the point's case. -/
theorem sound_body0 (c : Dev nD) (t : Fin cfg0.N) :
    bodyPre0 V c t ⊢ wp frame (wpE (defs₀ (F := F)) Variants.none c none) Set.univ (bodyAt0 t) (fun _ => bodyPost0 V c t) := by
  by_cases hf : t.val % 8 = 0
  · exact sound_first0 V c t hf
  · by_cases hl : t.val % 8 = 7
    · exact sound_last0 V c t hl
    · exact sound_mid0 V c t hf hl

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem PhiIn0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the class's back: the accumulator's contents are forgotten. -/
theorem PhiOut0 (c : Dev nD) : (dat0 V c).Φ (Fin.last cfg0.N) ⊢ (Pipeline.ΦA spec0 c : sProp 𝕄) := by
  have ht : (Fin.last cfg0.N).val ≠ 0 := by rw [Fin.val_last]; have : cfg0.N = 8 := N_0; omega
  rw [show (dat0 V c).Φ (Fin.last cfg0.N) = PhiS0 V c (Fin.last cfg0.N).val (Nat.le_of_lt_succ (Fin.last cfg0.N).isLt) from rfl,
    PhiS0_pos V c _ _ ht, PhiA0_split]
  iintro ⟨⟨HS, HR⟩, Hg⟩
  isplitl [HS HR]
  · isplitl [HS]
    · iexists _; iexact HS
    iexact HR
  iexact Hg

end Cert.Kernel.Hand

end
-- ==== Proof.K.Region1Base.lean ====
/- Region 1 (the first mat-vec pass, grid 8 × 8) — what its three whole-body runs and its frame half share:
   the windows' blocks at a point, what each input's staging buffer holds there, the two branch conditions of the
   body in closed form over the point's number, where the two outputs are idle, and the region invariant with the
   two accumulators made visible. -/
import proofs.«140086_j17265768530288_2_alg».proof.Proof.Gen.Kernel.Launch
import proofs.«140086_j17265768530288_2_alg».proof.Proof.Gen.Kernel.Skeleton
import proofs.«140086_j17265768530288_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-! ## Blocks of the windows -/

/-- The block of window `w` at point `t`, cut out of the array as it stands when the region starts. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile (window 0, fetched at every point): when the body starts, its staging buffer holds the
    tile of the point. Holds for any proof data over `V` whose body hands the tile back unchanged. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The reciprocal degrees (window 1, one whole block fetched at the first point only): the buffer still holds
    that block at every later point, the block index never moving and the body only reading it. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The features (window 2, likewise one whole block fetched once). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two conditionals of the body, over the point's number -/

/-- "This is the first grid point" (row block 0 and column block 0): the guard of the zeroing of both accumulators,
    spelt as the body computes it. -/
abbrev cond1_0 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Over the 64 points it holds at point 0 only. -/
theorem hcond1_0 : ∀ t : Fin cfg1.N, cond1_0 (grid1.coords t) ↔ t.val = 0 :=
  (by decide +kernel : ∀ t : Fin grid1.N, cond1_0 (grid1.coords t) ↔ t.val = 0)

/-- "This is the last grid point" (row block 7 and column block 7): the guard of the copy of both accumulators
    into the outputs. -/
abbrev cond1_1 (i : grid1.Coords) : Prop := k1_cond2 i = 1#1
/-- Over the 64 points it holds at point 63 only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

/-- The three inputs are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last point the body stores nothing into either output, and the pipeline writes neither back. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- At the last point both outputs are stored whole. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-! ## The memrefs the body is called with -/

/-- A fixed view of a 4096 × 128 staging buffer through which output contents are stated (which buffer is immaterial:
    a covering list of stores reads back the same through any). -/
abbrev VO1 : View sig .tc .vmem S4096x128 .f32 := (Memref.whole cc1_stg3_0 : Memref sig .tc .vmem S4096x128 .f32).view
/-- The staging memref each window is on at point `t`, as the pipeline passes it to the body, with its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x128 .f32 := win1_4.stage (cfg1.slots t 4)
abbrev hs1_4 (t : Fin cfg1.N) : (ms1_4 t).IsWhole := hstage1_4 ((cfg1.slots t 4).cast nbuf1_4)
/-- The two accumulators: whole scoped buffers of the call's own. -/
abbrev scM1_0 : Memref sig .tc .vmem S4096x128 .f32 := Memref.whole cc1_scratch0
abbrev scM1_1 : Memref sig .tc .vmem S4096x128 .f32 := Memref.whole cc1_scratch1
abbrev hscM1_0 : (scM1_0).IsWhole := Memref.isWhole_whole _
abbrev hscM1_1 : (scM1_1).IsWhole := Memref.isWhole_whole _

/-- What the region is entered with, the two accumulators taken out of the scoped rest as memrefs owned at some
    contents; everything else scoped stays unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
            ∗ Pipeline.scopedRestBut (Ix := Unit) (Name := ℕ) (U := Pipeline.UD sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

end Cert.Kernel.Hand

end
-- ==== Proof.K.Region1RunB.lean ====
/- Region 1, the body at a point that is neither the first nor the last: both guards fail, so the body reads the
   adjacency tile and two row slabs of the features and of the reciprocal degrees, and adds one 512-row slab into each
   accumulator. The run finds, for each accumulator, the one store (rectangle and payload) the body makes. -/
import proofs.«140086_j17265768530288_2_alg».proof.Proof.K.Region1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 4000000 in
/-- The store lists the body leaves in the two accumulators at a middle point (last store first), with the proof
    that from the three inputs at their contents `x0 x1 x2` and the accumulators at what the point before left
    (`xs0 xs1`) the body runs and returns the inputs as they were and each accumulator at its previous raw
    contents overwritten by its list. The outputs are not touched and are not mentioned. -/
noncomputable def kernelRun1_B (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole)
    (hc0 : ¬cond1_0 i) (hc1 : ¬cond1_1 i)
    (x0 : Vec F S512x512 .f32) (x1 x2 xs0 xs1 : Vec F S4096x128 .f32) :
    Σ' (LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (arg7.view.loc (c : Thread nD τ) ↦[arg7.view.set]{fullShare} arg7.view.writes (Elt F) (harg7.unread xs0) LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__matvec_kernel i arg2 harg2 arg3 harg3 arg4 harg4 arg5 harg5 arg6 harg6 arg7 harg7 arg8 harg8) K } := by
  refine ⟨?_, ?_, fun E K => ?run⟩
  case run =>
    simp only [cc1__matvec_kernel_eq_skeleton]; unfold cc1__matvec_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexact HS0
    iexact HS1

end Cert.Kernel.Hand

end
-- ==== Proof.K.Region1RunA.lean ====
/- Region 1, the body at the first grid point: the first guard holds, so both accumulators are stored whole (zeros)
   before anything is read from them; then the body proceeds as at any point and adds one 512-row slab into each.
   The run finds, per accumulator, its two stores; the whole-buffer store makes the list cover the buffer, so what the
   accumulators held before is immaterial. -/
import proofs.«140086_j17265768530288_2_alg».proof.Proof.K.Region1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 4000000 in
/-- The store lists the body leaves in the two accumulators at the first point (last store first), with the proof
    that from the three inputs at their contents and the accumulators at ANY contents the body runs and returns the
    inputs as they were and each accumulator overwritten by its list. The outputs are not touched. -/
noncomputable def kernelRun1_A (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole)
    (hc0 : cond1_0 i) (hc1 : ¬cond1_1 i)
    (x0 : Vec F S512x512 .f32) (x1 x2 : Vec F S4096x128 .f32) :
    Σ' (LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__matvec_kernel i arg2 harg2 arg3 harg3 arg4 harg4 arg5 harg5 arg6 harg6 arg7 harg7 arg8 harg8) K } := by
  refine ⟨?_, ?_, fun E K => ?run⟩
  case run =>
    simp only [cc1__matvec_kernel_eq_skeleton]; unfold cc1__matvec_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.K.Region1RunC.lean ====
/- Region 1, the body at the last grid point: the first guard fails and the second holds, so after adding one
   512-row slab into each accumulator the body loads each accumulator whole and stores it whole into its output's
   staging buffer. The run finds the accumulators' stores and, per output, its one whole store. -/
import proofs.«140086_j17265768530288_2_alg».proof.Proof.K.Region1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 4000000 in
/-- The store lists the body leaves in the two outputs' staging buffers and in the two accumulators at the last point
    (last store first), with the proof that from the three inputs at their contents, the outputs' buffers at anything
    and the accumulators at what the point before left the body runs and returns the inputs as they were, each
    output's buffer overwritten by its list, and each accumulator at its previous raw contents overwritten by its list. -/
noncomputable def kernelRun1_C (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole)
    (hc0 : ¬cond1_0 i) (hc1 : cond1_1 i)
    (x0 : Vec F S512x512 .f32) (x1 x2 xs0 xs1 : Vec F S4096x128 .f32) :
    Σ' (L3 L4 LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (arg7.view.loc (c : Thread nD τ) ↦[arg7.view.set]{fullShare} arg7.view.writes (Elt F) (harg7.unread xs0) LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__matvec_kernel i arg2 harg2 arg3 harg3 arg4 harg4 arg5 harg5 arg6 harg6 arg7 harg7 arg8 harg8) K } := by
  refine ⟨?_, ?_, ?_, ?_, fun E K => ?run⟩
  case run =>
    simp only [cc1__matvec_kernel_eq_skeleton]; unfold cc1__matvec_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexact HS0
    iexact HS1

end Cert.Kernel.Hand

end
-- ==== Proof.K.Region1.lean ====
/- Region 1 (the first mat-vec pass): its half of the frame. What the two accumulators and the two outputs hold after
   each of the 64 points, as a recursion on the point over the three runs of the body; the region invariant that
   carries the accumulators from point to point; the proof data; the body obligation; and that the invariant starts
   from and ends in what the launch hands over. -/
import proofs.«140086_j17265768530288_2_alg».proof.Proof.K.Region1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-! ## What one run of the body leaves -/

/-- The four 4096 × 128 contents a point leaves behind: the two outputs' staging buffers and the two accumulators. -/
structure Outs1 (F : FTy → Type) where
  o3 : Vec F S4096x128 .f32
  o4 : Vec F S4096x128 .f32
  s0 : Vec F S4096x128 .f32
  s1 : Vec F S4096x128 .f32

/-- Contents standing for "not specified": at a point where an output is idle nothing reads what the proof data
    says of it. -/
def unset1 : Vec F S4096x128 .f32 := VO1.read (Elt F) VO1.junk

/-- First point: each accumulator's store list covers it (its first store is the whole buffer). -/
theorem scover1_A_0 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : cond1_0 i) (hc1 : ¬cond1_1 i)
    (x0 : Vec F S512x512 .f32) (x1 x2 : Vec F S4096x128 .f32) (y : S4096x128.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL _ S4096x128.size (by sl_kernel_rfl) y
theorem scover1_A_1 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : cond1_0 i) (hc1 : ¬cond1_1 i)
    (x0 : Vec F S512x512 .f32) (x1 x2 : Vec F S4096x128 .f32) (y : S4096x128.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL _ S4096x128.size (by sl_kernel_rfl) y

/-- First point: what each accumulator holds afterwards — its stores read back (over anything, by the cover). -/
def sout1_A_0 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : cond1_0 i) (hc1 : ¬cond1_1 i)
    (x0 : Vec F S512x512 .f32) (x1 x2 : Vec F S4096x128 .f32) : Vec F S4096x128 .f32 :=
  VO1.read (Elt F) (VO1.writes (Elt F) VO1.junk (kernelRun1_A c i arg2 harg2 arg3 harg3 arg4 harg4 arg5 harg5 arg6 harg6 arg7 harg7 arg8 harg8 hc0 hc1 x0 x1 x2).1)
def sout1_A_1 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : cond1_0 i) (hc1 : ¬cond1_1 i)
    (x0 : Vec F S512x512 .f32) (x1 x2 : Vec F S4096x128 .f32) : Vec F S4096x128 .f32 :=
  VO1.read (Elt F) (VO1.writes (Elt F) VO1.junk (kernelRun1_A c i arg2 harg2 arg3 harg3 arg4 harg4 arg5 harg5 arg6 harg6 arg7 harg7 arg8 harg8 hc0 hc1 x0 x1 x2).2.1)

/-- A middle point: what each accumulator holds afterwards — the contents the point before left, with this point's
    one slab store written over them. -/
def sout1_B_0 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : ¬cond1_1 i)
    (x0 : Vec F S512x512 .f32) (x1 x2 xs0 xs1 : Vec F S4096x128 .f32) : Vec F S4096x128 .f32 :=
  arg7.view.read (Elt F) (arg7.view.writes (Elt F) (harg7.unread xs0) (kernelRun1_B c i arg2 harg2 arg3 harg3 arg4 harg4 arg5 harg5 arg6 harg6 arg7 harg7 arg8 harg8 hc0 hc1 x0 x1 x2 xs0 xs1).1)
def sout1_B_1 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : ¬cond1_1 i)
    (x0 : Vec F S512x512 .f32) (x1 x2 xs0 xs1 : Vec F S4096x128 .f32) : Vec F S4096x128 .f32 :=
  arg8.view.read (Elt F) (arg8.view.writes (Elt F) (harg8.unread xs1) (kernelRun1_B c i arg2 harg2 arg3 harg3 arg4 harg4 arg5 harg5 arg6 harg6 arg7 harg7 arg8 harg8 hc0 hc1 x0 x1 x2 xs0 xs1).2.1)

/-- The last point: the accumulators as at a middle point; -/
def sout1_C_0 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) : Vec F S4096x128 .f32 :=
  arg7.view.read (Elt F) (arg7.view.writes (Elt F) (harg7.unread xs0) (kernelRun1_C c i arg2 harg2 arg3 harg3 arg4 harg4 arg5 harg5 arg6 harg6 arg7 harg7 arg8 harg8 hc0 hc1 x0 x1 x2 xs0 xs1).2.2.1)
def sout1_C_1 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) : Vec F S4096x128 .f32 :=
  arg8.view.read (Elt F) (arg8.view.writes (Elt F) (harg8.unread xs1) (kernelRun1_C c i arg2 harg2 arg3 harg3 arg4 harg4 arg5 harg5 arg6 harg6 arg7 harg7 arg8 harg8 hc0 hc1 x0 x1 x2 xs0 xs1).2.2.2.1)

/-- and each output's staging buffer is covered by its one whole store, -/
theorem cover1_C_3 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) (y : S4096x128.Idx) :
    ∃ pc ∈ (kernelRun1_C c i arg2 harg2 arg3 harg3 arg4 harg4 arg5 harg5 arg6 harg6 arg7 harg7 arg8 harg8 hc0 hc1 x0 x1 x2 xs0 xs1).1, y ∈ pc.1.set :=
  View.cover_of_tiledL _ S4096x128.size (by sl_kernel_rfl) y
theorem cover1_C_4 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) (y : S4096x128.Idx) :
    ∃ pc ∈ (kernelRun1_C c i arg2 harg2 arg3 harg3 arg4 harg4 arg5 harg5 arg6 harg6 arg7 harg7 arg8 harg8 hc0 hc1 x0 x1 x2 xs0 xs1).2.1, y ∈ pc.1.set :=
  View.cover_of_tiledL _ S4096x128.size (by sl_kernel_rfl) y

/-- so that it holds that store read back. -/
def out1_C_3 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) : Vec F S4096x128 .f32 :=
  VO1.read (Elt F) (VO1.writes (Elt F) VO1.junk (kernelRun1_C c i arg2 harg2 arg3 harg3 arg4 harg4 arg5 harg5 arg6 harg6 arg7 harg7 arg8 harg8 hc0 hc1 x0 x1 x2 xs0 xs1).1)
def out1_C_4 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) : Vec F S4096x128 .f32 :=
  VO1.read (Elt F) (VO1.writes (Elt F) VO1.junk (kernelRun1_C c i arg2 harg2 arg3 harg3 arg4 harg4 arg5 harg5 arg6 harg6 arg7 harg7 arg8 harg8 hc0 hc1 x0 x1 x2 xs0 xs1).2.1)

/-! ## Point by point -/

/-- What the first point leaves. -/
def stepA1 (c : Dev nD) (t : Fin cfg1.N) (h0 : t.val = 0) : Outs1 F where
  o3 := unset1
  o4 := unset1
  s0 := sout1_A_0 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 ((hcond1_0 t).mpr h0) (fun h => by have := (hcond1_1 t).mp h; omega) (iblk1 V c 0 t) (iblk1 V c 1 t) (iblk1 V c 2 t)
  s1 := sout1_A_1 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 ((hcond1_0 t).mpr h0) (fun h => by have := (hcond1_1 t).mp h; omega) (iblk1 V c 0 t) (iblk1 V c 1 t) (iblk1 V c 2 t)

/-- What a middle point leaves, over what the point before left (`p`). -/
def stepB1 (c : Dev nD) (t : Fin cfg1.N) (h0 : t.val ≠ 0) (h1 : t.val ≠ 63) (p : Outs1 F) : Outs1 F where
  o3 := unset1
  o4 := unset1
  s0 := sout1_B_0 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) (fun h => h1 ((hcond1_1 t).mp h)) (iblk1 V c 0 t) (iblk1 V c 1 t) (iblk1 V c 2 t) p.s0 p.s1
  s1 := sout1_B_1 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) (fun h => h1 ((hcond1_1 t).mp h)) (iblk1 V c 0 t) (iblk1 V c 1 t) (iblk1 V c 2 t) p.s0 p.s1

/-- What the last point leaves, over what the point before left. -/
def stepC1 (c : Dev nD) (t : Fin cfg1.N) (h0 : t.val ≠ 0) (h1 : t.val = 63) (p : Outs1 F) : Outs1 F where
  o3 := out1_C_3 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) ((hcond1_1 t).mpr h1) (iblk1 V c 0 t) (iblk1 V c 1 t) (iblk1 V c 2 t) p.s0 p.s1
  o4 := out1_C_4 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) ((hcond1_1 t).mpr h1) (iblk1 V c 0 t) (iblk1 V c 1 t) (iblk1 V c 2 t) p.s0 p.s1
  s0 := sout1_C_0 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) ((hcond1_1 t).mpr h1) (iblk1 V c 0 t) (iblk1 V c 1 t) (iblk1 V c 2 t) p.s0 p.s1
  s1 := sout1_C_1 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) ((hcond1_1 t).mpr h1) (iblk1 V c 0 t) (iblk1 V c 1 t) (iblk1 V c 2 t) p.s0 p.s1

/-- The accumulation: what the outputs' buffers and the accumulators hold after the body at position `n`. -/
def outsAt1 (c : Dev nD) : (n : ℕ) → n < cfg1.N → Outs1 F
  | 0, hn => stepA1 V c ⟨0, hn⟩ rfl
  | n + 1, hn =>
    if h1 : n + 1 = 63 then stepC1 V c ⟨n + 1, hn⟩ (Nat.succ_ne_zero n) h1 (outsAt1 c n (Nat.lt_of_succ_lt hn))
    else stepB1 V c ⟨n + 1, hn⟩ (Nat.succ_ne_zero n) h1 (outsAt1 c n (Nat.lt_of_succ_lt hn))

theorem outsAt1_first (c : Dev nD) (t : Fin cfg1.N) (h0 : t.val = 0) : outsAt1 V c t.val t.isLt = stepA1 V c t h0 := by
  obtain ⟨n, hn⟩ := t
  cases n with
  | zero => rfl
  | succ n => exact absurd h0 (Nat.succ_ne_zero n)

theorem outsAt1_mid (c : Dev nD) (t : Fin cfg1.N) (h0 : t.val ≠ 0) (h1 : t.val ≠ 63) :
    outsAt1 V c t.val t.isLt = stepB1 V c t h0 h1 (outsAt1 V c (t.val - 1) (Nat.lt_of_le_of_lt (Nat.sub_le _ _) t.isLt)) := by
  obtain ⟨n, hn⟩ := t
  cases n with
  | zero => exact absurd rfl h0
  | succ n => exact (dif_neg h1).trans rfl

theorem outsAt1_last (c : Dev nD) (t : Fin cfg1.N) (h0 : t.val ≠ 0) (h1 : t.val = 63) :
    outsAt1 V c t.val t.isLt = stepC1 V c t h0 h1 (outsAt1 V c (t.val - 1) (Nat.lt_of_le_of_lt (Nat.sub_le _ _) t.isLt)) := by
  obtain ⟨n, hn⟩ := t
  cases n with
  | zero => exact absurd rfl h0
  | succ n => exact (dif_pos h1).trans rfl

/-! ## The invariant that carries the accumulators -/

/-- Before position `n`: at the start what the launch hands over (both accumulators at anything); afterwards both
    accumulators at exactly what the point before left in them, beside the unopened scoped rest and the generator
    register at some state. -/
def PhiS1 (c : Dev nD) : (n : ℕ) → n ≤ cfg1.N → sProp 𝕄
  | 0, _ => Pipeline.ΦA spec1 c
  | n + 1, hn =>
    iprop(iprop(iprop(owns (c : Thread nD τ) scM1_0 fullShare (outsAt1 V c n hn).s0 ∗ owns (c : Thread nD τ) scM1_1 fullShare (outsAt1 V c n hn).s1)
        ∗ Pipeline.scopedRestBut (Ix := Unit) (Name := ℕ) (U := Pipeline.UD sig nD τ) (Lvl := ℕ) (Val := Elt F) spec1 c [cc1_scratch0, cc1_scratch1])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn =
      iprop(iprop(iprop(owns (c : Thread nD τ) scM1_0 fullShare (outsAt1 V c n hn).s0 ∗ owns (c : Thread nD τ) scM1_1 fullShare (outsAt1 V c n hn).s1)
          ∗ Pipeline.scopedRestBut (Ix := Unit) (Name := ℕ) (U := Pipeline.UD sig nD τ) (Lvl := ℕ) (Val := Elt F) spec1 c [cc1_scratch0, cc1_scratch1])
        ∗ (∃ r, prngReg c r)) := rfl

theorem PhiS1_pos (c : Dev nD) (n : ℕ) (h : n ≤ cfg1.N) (hz : n ≠ 0) :
    PhiS1 V c n h =
      iprop(iprop(iprop(owns (c : Thread nD τ) scM1_0 fullShare (outsAt1 V c (n - 1) (by omega)).s0 ∗ owns (c : Thread nD τ) scM1_1 fullShare (outsAt1 V c (n - 1) (by omega)).s1)
          ∗ Pipeline.scopedRestBut (Ix := Unit) (Name := ℕ) (U := Pipeline.UD sig nD τ) (Lvl := ℕ) (Val := Elt F) spec1 c [cc1_scratch0, cc1_scratch1])
        ∗ (∃ r, prngReg c r)) := by
  cases n with
  | zero => exact absurd rfl hz
  | succ n => rfl

/-! ## The proof data -/

/-- Pipeline 1 on core `c`: the arrays as the region finds them; after the body each input's buffer at its block,
    each output's at what `outsAt1` says; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).o3
    | ⟨4, _⟩ => (outsAt1 V c t.val t.isLt).o4
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).o3 := by dsimp only [dat1]
theorem after1_4 (c : Dev nD) (t : Fin cfg1.N) : (dat1 V c).after 4 t = (outsAt1 V c t.val t.isLt).o4 := by dsimp only [dat1]

/-- Each input's staging buffer holds its block whenever the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the five windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it must return. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's number decides which of the three runs
    applies; the invariant hands over the accumulators (at anything at the first point, at what the point before left
    otherwise) and takes them back at this point's contents; away from the last point the outputs' buffers go back
    untouched, at the last point each comes back covered by its one store; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val = 0
  · -- the first point
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1),
      Dat.leavesExact_idle (dat1 V c) 4 t (idleAt1_4 t hc1) (noFlush1_4 t hc1)]
    rw [outsAt1_first V c t h0]
    unfold stepA1 sout1_A_0 sout1_A_1; (try dsimp only)
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, H3, H4⟩
    iapply ((kernelRun1_A c (grid1.coords t) _ _ _ _ _ _ _ _ _ _ _ _ _ _ hc0 hc1 (iblk1 V c 0 t) (iblk1 V c 1 t) (iblk1 V c 2 t)).2.2 Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    iexact H4
  · have hc0 : ¬cond1_0 (grid1.coords t) := fun h => h0 ((hcond1_0 t).mp h)
    by_cases h1 : t.val = 63
    · -- the last point
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [show (dat1 V c).leavesExact 4 t = owns (c : Thread nD τ) (ms1_4 t) fullShare ((dat1 V c).after 4 t) from by
        unfold Dat.leavesExact; rw [liveAt1_4 t hc1], after1_4]
      rw [outsAt1_last V c t h0 h1]
      unfold stepC1 out1_C_3 out1_C_4 sout1_C_0 sout1_C_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ hc0 hc1 (iblk1 V c 0 t) (iblk1 V c 1 t) (iblk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, HS1⟩
      isplitl [HS0 HS1 HR Hg]
      · isplitl [HS0 HS1 HR]
        · isplitl [HS0 HS1]
          · isplitl [HS0]
            · unfold owns; iexists _; isplitr
              swap; · iexact HS0
              ipureintro; rfl
            · unfold owns; iexists _; isplitr
              swap; · iexact HS1
              ipureintro; rfl
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _ _ _ _)
    · -- a middle point
      have hc1 : ¬cond1_1 (grid1.coords t) := fun h => h1 ((hcond1_1 t).mp h)
      rw [Dat.leavesExact_idle (dat1 V c) 3 t (idleAt1_3 t hc1) (noFlush1_3 t hc1),
        Dat.leavesExact_idle (dat1 V c) 4 t (idleAt1_4 t hc1) (noFlush1_4 t hc1)]
      rw [outsAt1_mid V c t h0 h1]
      unfold stepB1 sout1_B_0 sout1_B_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, H3, H4⟩
      iapply ((kernelRun1_B c (grid1.coords t) _ _ _ _ _ _ _ _ _ _ _ _ _ _ hc0 hc1 (iblk1 V c 0 t) (iblk1 V c 1 t) (iblk1 V c 2 t) _ _).2.2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]
            · unfold owns; iexists _; isplitr
              swap; · iexact HS0
              ipureintro; rfl
            · unfold owns; iexists _; isplitr
              swap; · iexact HS1
              ipureintro; rfl
          iexact HR
        iexact Hg
      isplitl [Ho]; · iexact Ho
      isplitl [H0]; · iexact H0
      isplitl [H1]; · iexact H1
      isplitl [H2]; · iexact H2
      isplitl [H3]; · iexact H3
      iexact H4

/-- The obligation as the library states it, at every point. -/
theorem body_obligation1 (c : Dev nD) : BodyObligation (dat1 (F := F) V c) (defs₀ (F := F)) Variants.none () Set.univ := fun t => by
  rw [bigSep_W1, bigSep_W1]
  exact sound_body1 V c t

/-- The launch's hand-over is the invariant before the first point. -/
theorem PhiIn1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the hand-over back: what the accumulators hold is forgotten. -/
theorem PhiOut1 (c : Dev nD) : (dat1 V c).Φ (Fin.last cfg1.N) ⊢ (Pipeline.ΦA spec1 c : sProp 𝕄) := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region1

end Cert.Kernel.Hand

end
-- ==== Proof.K.Region2Base.lean ====
import proofs.«140086_j17265768530288_2_alg».proof.Proof.Gen.Kernel.Launch
import proofs.«140086_j17265768530288_2_alg».proof.Proof.Gen.Kernel.Skeleton
import proofs.«140086_j17265768530288_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (the second diffusion pass, grid 8 × 8): what its three runs and its frame half share

The body accumulates, tile by tile of the adjacency matrix, P·y1 into one scratch accumulator and Pᵀ·y2 into the other:
both are zeroed at the first grid point, each point adds one 512-row slab to each, and the last point combines each
accumulator with its y into an output. Here: the windows' blocks at a point, what each input's staging buffer holds
there, the two guards of the body in closed form over the point's number, where the two outputs are idle, the memrefs
the body is called with, and the region's hand-over with the two accumulators made visible. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency tile (window 0) is fetched at every point, so its buffer holds the point's tile when the body starts. For any proof data over these arrays whose body hands the block back. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The reciprocal degrees (window 1) are one whole block fetched at the first point; the block index never moves and the body only reads the buffer, so it holds that block at every point. For any proof data over these arrays whose body hands the block back. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first pass's forward result y1 (window 2): one whole block fetched once, likewise. For any proof data over these arrays whose body hands the block back. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The first pass's reverse result y2 (window 3): one whole block fetched once, likewise. For any proof data over these arrays whose body hands the block back. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's two guards, over the point's number -/

/-- "Row block 0 and column block 0": the guard under which both accumulators are zeroed, as the body computes it. -/
abbrev cond2_0 (i : grid2.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Of the 64 points only point 0 meets it. -/
theorem hcond2_0 : ∀ t : Fin cfg2.N, cond2_0 (grid2.coords t) ↔ t.val = 0 :=
  (by decide +kernel : ∀ t : Fin grid2.N, cond2_0 (grid2.coords t) ↔ t.val = 0)

/-- "Row block 7 and column block 7": the guard under which the accumulators are combined into the outputs. -/
abbrev cond2_1 (i : grid2.Coords) : Prop := k2_cond2 i = 1#1
/-- Of the 64 points only point 63 meets it. -/
theorem hcond2_1 : ∀ t : Fin cfg2.N, cond2_1 (grid2.coords t) ↔ t.val = 63 :=
  (by decide +kernel : ∀ t : Fin grid2.N, cond2_1 (grid2.coords t) ↔ t.val = 63)

/-! ## Where the windows are idle -/

/-- The four inputs are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
/-- Before the last point the body stores into neither output and the pipeline writes neither back; -/
theorem idleAt2_4 : ∀ t : Fin cfg2.N, ¬cond2_1 (grid2.coords t) → cfg2.idle 4 (grid2.coords t) = true := by decide +kernel
theorem idleAt2_5 : ∀ t : Fin cfg2.N, ¬cond2_1 (grid2.coords t) → cfg2.idle 5 (grid2.coords t) = true := by decide +kernel
theorem noFlush2_4 : ∀ t : Fin cfg2.N, ¬cond2_1 (grid2.coords t) → (cfg2.win 4).flush t = false := by decide +kernel
theorem noFlush2_5 : ∀ t : Fin cfg2.N, ¬cond2_1 (grid2.coords t) → (cfg2.win 5).flush t = false := by decide +kernel
/-- at the last point both are stored whole. -/
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

/-! ## The memrefs the body is called with -/

/-- One 4096 × 128 staging buffer's view, through which output contents are stated (a covering list of stores reads back
    the same through any such view). -/
abbrev VO2 : View sig .tc .vmem S4096x128 .f32 := (Memref.whole cc2_stg4_0 : Memref sig .tc .vmem S4096x128 .f32).view
/-- The staging memref each window is on at point `t`, as the pipeline hands it to the body, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x128 .f32 := win2_5.stage (cfg2.slots t 5)
abbrev hs2_5 (t : Fin cfg2.N) : (ms2_5 t).IsWhole := hstage2_5 ((cfg2.slots t 5).cast nbuf2_5)
/-- The two accumulators: whole scoped buffers of the call's own. -/
abbrev scM2_0 : Memref sig .tc .vmem S4096x128 .f32 := Memref.whole cc2_scratch0
abbrev scM2_1 : Memref sig .tc .vmem S4096x128 .f32 := Memref.whole cc2_scratch1
abbrev hscM2_0 : (scM2_0).IsWhole := Memref.isWhole_whole _
abbrev hscM2_1 : (scM2_1).IsWhole := Memref.isWhole_whole _

/-- What the region is entered with, the two accumulators taken out of the core's other scoped buffers as memrefs owned
    at some contents; the others stay unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
            ∗ Pipeline.scopedRestBut (Ix := Unit) (Name := ℕ) (U := Pipeline.UD sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

end Cert.Kernel.Hand

end
-- ==== Proof.K.Region2RunA.lean ====
import proofs.«140086_j17265768530288_2_alg».proof.Proof.K.Region2Base

/-! # Region 2, the body's run at the first grid point

Both guards decided (zero the accumulators: yes; combine into the outputs: no), the body zeroes both accumulators whole
and then adds its slab to each. The run finds the list of stores each accumulator ends with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The stores the body leaves in the two accumulators at the first point (last first), with the proof that from the four
    inputs at their contents and the accumulators at ANY contents the body runs and hands back the inputs as they were
    and each accumulator overwritten by its list. The outputs' buffers are not touched and not mentioned. -/
noncomputable def kernelRun2_A (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)
    (hc0 : cond2_0 i) (hc1 : ¬cond2_1 i)
    (x0 : Vec F S512x512 .f32) (x1 x2 x3 : Vec F S4096x128 .f32) :
    Σ' (LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__diffuse2_kernel i arg2 harg2 arg3 harg3 arg4 harg4 arg5 harg5 arg6 harg6 arg7 harg7 arg8 harg8 arg9 harg9) K } := by
  refine ⟨?_, ?_, fun E K => ?run⟩
  case run =>
    simp only [cc2__diffuse2_kernel_eq_skeleton]; unfold cc2__diffuse2_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.Region2RunB.lean ====
import proofs.«140086_j17265768530288_2_alg».proof.Proof.K.Region2RunA

/-! # Region 2, the body's run at a middle grid point

Neither guard holds: the body adds its slab to each accumulator and touches nothing else. The accumulators go in at what
the point before left and come out at those contents with this point's slab store written over them. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The stores the body leaves in the two accumulators at a middle point (last first), with the proof that from the four
    inputs at their contents and the accumulators at `xs0 xs1` the body runs and hands back the inputs as they were and
    each accumulator at its previous contents overwritten by its list. The outputs' buffers are not mentioned. -/
noncomputable def kernelRun2_B (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)
    (hc0 : ¬cond2_0 i) (hc1 : ¬cond2_1 i)
    (x0 : Vec F S512x512 .f32) (x1 x2 x3 xs0 xs1 : Vec F S4096x128 .f32) :
    Σ' (LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc2__diffuse2_kernel i arg2 harg2 arg3 harg3 arg4 harg4 arg5 harg5 arg6 harg6 arg7 harg7 arg8 harg8 arg9 harg9) K } := by
  refine ⟨?_, ?_, fun E K => ?run⟩
  case run =>
    simp only [cc2__diffuse2_kernel_eq_skeleton]; unfold cc2__diffuse2_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexact HS0
    iexact HS1

end Cert.Kernel.Hand

end
-- ==== Proof.K.Region2RunC.lean ====
import proofs.«140086_j17265768530288_2_alg».proof.Proof.K.Region2RunB

/-! # Region 2, the body's run at the last grid point

The combine guard holds: after adding its slab to each accumulator the body reads each accumulator and its y whole and
stores half of y plus a quarter of the accumulator over the whole of each output's buffer. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The stores the body leaves in the two outputs' buffers and in the two accumulators at the last point (last first),
    with the proof that from the four inputs at their contents, the outputs' buffers at anything and the accumulators at
    `xs0 xs1` the body runs and hands back the inputs as they were, each output's buffer overwritten by its list, and each
    accumulator at its previous contents overwritten by its list. -/
noncomputable def kernelRun2_C (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)
    (hc0 : ¬cond2_0 i) (hc1 : cond2_1 i)
    (x0 : Vec F S512x512 .f32) (x1 x2 x3 xs0 xs1 : Vec F S4096x128 .f32) :
    Σ' (L4 L5 LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc2__diffuse2_kernel i arg2 harg2 arg3 harg3 arg4 harg4 arg5 harg5 arg6 harg6 arg7 harg7 arg8 harg8 arg9 harg9) K } := by
  refine ⟨?_, ?_, ?_, ?_, fun E K => ?run⟩
  case run =>
    simp only [cc2__diffuse2_kernel_eq_skeleton]; unfold cc2__diffuse2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexact HS0
    iexact HS1

end Cert.Kernel.Hand

end
-- ==== Proof.K.Region2.lean ====
import proofs.«140086_j17265768530288_2_alg».proof.Proof.K.Region2RunC

/-! # Region 2 of @main (the second diffusion pass): its half of the frame

What the two accumulators and the two outputs' buffers hold after each of the 64 points, as a recursion on the point over
the body's three runs; the invariant that carries the accumulators from one point to the next; the proof data; the body
obligation; and that the invariant begins at, and ends in, what the region is handed and hands back. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

/-! ## What one run of the body leaves -/

/-- The four 4096 × 128 contents a point leaves: the two outputs' staging buffers and the two accumulators. -/
structure Outs2 (F : FTy → Type) where
  o4 : Vec F S4096x128 .f32
  o5 : Vec F S4096x128 .f32
  s0 : Vec F S4096x128 .f32
  s1 : Vec F S4096x128 .f32

/-- Contents standing for "unspecified": where an output is idle nothing consults what the proof data says of it. -/
def unset2 : Vec F S4096x128 .f32 := VO2.read (Elt F) VO2.junk

/-- At the first point each accumulator's stores cover it: the first of them zeroes the whole buffer. -/
theorem scover2_A_0 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec F S512x512 .f32) (x1 x2 x3 : Vec F S4096x128 .f32) (y : S4096x128.Idx) :
    ∃ pc ∈ (kernelRun2_A c i arg2 harg2 arg3 harg3 arg4 harg4 arg5 harg5 arg6 harg6 arg7 harg7 arg8 harg8 arg9 harg9 hc0 hc1 x0 x1 x2 x3).1, y ∈ pc.1.set :=
  View.cover_of_tiledL _ S4096x128.size (by sl_kernel_rfl) y
theorem scover2_A_1 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec F S512x512 .f32) (x1 x2 x3 : Vec F S4096x128 .f32) (y : S4096x128.Idx) :
    ∃ pc ∈ (kernelRun2_A c i arg2 harg2 arg3 harg3 arg4 harg4 arg5 harg5 arg6 harg6 arg7 harg7 arg8 harg8 arg9 harg9 hc0 hc1 x0 x1 x2 x3).2.1, y ∈ pc.1.set :=
  View.cover_of_tiledL _ S4096x128.size (by sl_kernel_rfl) y

/-- What each accumulator holds after the first point: its stores read back (over anything, since they cover). -/
def sout2_A_0 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec F S512x512 .f32) (x1 x2 x3 : Vec F S4096x128 .f32) : Vec F S4096x128 .f32 :=
  VO2.read (Elt F) (VO2.writes (Elt F) VO2.junk (kernelRun2_A c i arg2 harg2 arg3 harg3 arg4 harg4 arg5 harg5 arg6 harg6 arg7 harg7 arg8 harg8 arg9 harg9 hc0 hc1 x0 x1 x2 x3).1)
def sout2_A_1 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec F S512x512 .f32) (x1 x2 x3 : Vec F S4096x128 .f32) : Vec F S4096x128 .f32 :=
  VO2.read (Elt F) (VO2.writes (Elt F) VO2.junk (kernelRun2_A c i arg2 harg2 arg3 harg3 arg4 harg4 arg5 harg5 arg6 harg6 arg7 harg7 arg8 harg8 arg9 harg9 hc0 hc1 x0 x1 x2 x3).2.1)

/-- What each accumulator holds after a middle point: what the point before left, with this point's one slab store written over it. -/
def sout2_B_0 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : ¬cond2_1 i)
    (x0 : Vec F S512x512 .f32) (x1 x2 x3 xs0 xs1 : Vec F S4096x128 .f32) : Vec F S4096x128 .f32 :=
  arg8.view.read (Elt F) (arg8.view.writes (Elt F) (harg8.unread xs0) (kernelRun2_B c i arg2 harg2 arg3 harg3 arg4 harg4 arg5 harg5 arg6 harg6 arg7 harg7 arg8 harg8 arg9 harg9 hc0 hc1 x0 x1 x2 x3 xs0 xs1).1)
def sout2_B_1 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : ¬cond2_1 i)
    (x0 : Vec F S512x512 .f32) (x1 x2 x3 xs0 xs1 : Vec F S4096x128 .f32) : Vec F S4096x128 .f32 :=
  arg9.view.read (Elt F) (arg9.view.writes (Elt F) (harg9.unread xs1) (kernelRun2_B c i arg2 harg2 arg3 harg3 arg4 harg4 arg5 harg5 arg6 harg6 arg7 harg7 arg8 harg8 arg9 harg9 hc0 hc1 x0 x1 x2 x3 xs0 xs1).2.1)

/-- The last point leaves the accumulators as a middle point does; -/
def sout2_C_0 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) : Vec F S4096x128 .f32 :=
  arg8.view.read (Elt F) (arg8.view.writes (Elt F) (harg8.unread xs0) (kernelRun2_C c i arg2 harg2 arg3 harg3 arg4 harg4 arg5 harg5 arg6 harg6 arg7 harg7 arg8 harg8 arg9 harg9 hc0 hc1 x0 x1 x2 x3 xs0 xs1).2.2.1)
def sout2_C_1 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) : Vec F S4096x128 .f32 :=
  arg9.view.read (Elt F) (arg9.view.writes (Elt F) (harg9.unread xs1) (kernelRun2_C c i arg2 harg2 arg3 harg3 arg4 harg4 arg5 harg5 arg6 harg6 arg7 harg7 arg8 harg8 arg9 harg9 hc0 hc1 x0 x1 x2 x3 xs0 xs1).2.2.2.1)

/-- each output's buffer is covered by its one whole store, -/
theorem cover2_C_4 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) (y : S4096x128.Idx) :
    ∃ pc ∈ (kernelRun2_C c i arg2 harg2 arg3 harg3 arg4 harg4 arg5 harg5 arg6 harg6 arg7 harg7 arg8 harg8 arg9 harg9 hc0 hc1 x0 x1 x2 x3 xs0 xs1).1, y ∈ pc.1.set :=
  View.cover_of_tiledL _ S4096x128.size (by sl_kernel_rfl) y
theorem cover2_C_5 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) (y : S4096x128.Idx) :
    ∃ pc ∈ (kernelRun2_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL _ S4096x128.size (by sl_kernel_rfl) y

/-- and so holds that store read back. -/
def out2_C_4 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) : Vec F S4096x128 .f32 :=
  VO2.read (Elt F) (VO2.writes (Elt F) VO2.junk (kernelRun2_C c i arg2 harg2 arg3 harg3 arg4 harg4 arg5 harg5 arg6 harg6 arg7 harg7 arg8 harg8 arg9 harg9 hc0 hc1 x0 x1 x2 x3 xs0 xs1).1)
def out2_C_5 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) : Vec F S4096x128 .f32 :=
  VO2.read (Elt F) (VO2.writes (Elt F) VO2.junk (kernelRun2_C c i arg2 harg2 arg3 harg3 arg4 harg4 arg5 harg5 arg6 harg6 arg7 harg7 arg8 harg8 arg9 harg9 hc0 hc1 x0 x1 x2 x3 xs0 xs1).2.1)

/-! ## Point by point -/

/-- What the first point leaves. -/
def stepA2 (c : Dev nD) (t : Fin cfg2.N) (h0 : t.val = 0) : Outs2 F where
  o4 := unset2
  o5 := unset2
  s0 := sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 ((hcond2_0 t).mpr h0) (fun h => by have := (hcond2_1 t).mp h; omega) (iblk2 V c 0 t) (iblk2 V c 1 t) (iblk2 V c 2 t) (iblk2 V c 3 t)
  s1 := sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 ((hcond2_0 t).mpr h0) (fun h => by have := (hcond2_1 t).mp h; omega) (iblk2 V c 0 t) (iblk2 V c 1 t) (iblk2 V c 2 t) (iblk2 V c 3 t)

/-- What a middle point leaves, over what the point before left (`p`). -/
def stepB2 (c : Dev nD) (t : Fin cfg2.N) (h0 : t.val ≠ 0) (h1 : t.val ≠ 63) (p : Outs2 F) : Outs2 F where
  o4 := unset2
  o5 := unset2
  s0 := sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) (fun h => h1 ((hcond2_1 t).mp h)) (iblk2 V c 0 t) (iblk2 V c 1 t) (iblk2 V c 2 t) (iblk2 V c 3 t) p.s0 p.s1
  s1 := sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) (fun h => h1 ((hcond2_1 t).mp h)) (iblk2 V c 0 t) (iblk2 V c 1 t) (iblk2 V c 2 t) (iblk2 V c 3 t) p.s0 p.s1

/-- What the last point leaves, over what the point before left. -/
def stepC2 (c : Dev nD) (t : Fin cfg2.N) (h0 : t.val ≠ 0) (h1 : t.val = 63) (p : Outs2 F) : Outs2 F where
  o4 := out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) ((hcond2_1 t).mpr h1) (iblk2 V c 0 t) (iblk2 V c 1 t) (iblk2 V c 2 t) (iblk2 V c 3 t) p.s0 p.s1
  o5 := out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) ((hcond2_1 t).mpr h1) (iblk2 V c 0 t) (iblk2 V c 1 t) (iblk2 V c 2 t) (iblk2 V c 3 t) p.s0 p.s1
  s0 := sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) ((hcond2_1 t).mpr h1) (iblk2 V c 0 t) (iblk2 V c 1 t) (iblk2 V c 2 t) (iblk2 V c 3 t) p.s0 p.s1
  s1 := sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) ((hcond2_1 t).mpr h1) (iblk2 V c 0 t) (iblk2 V c 1 t) (iblk2 V c 2 t) (iblk2 V c 3 t) p.s0 p.s1

/-- The accumulation: what the outputs' buffers and the accumulators hold after the body at position `n`. -/
def outsAt2 (c : Dev nD) : (n : ℕ) → n < cfg2.N → Outs2 F
  | 0, hn => stepA2 V c ⟨0, hn⟩ rfl
  | n + 1, hn =>
    if h1 : n + 1 = 63 then stepC2 V c ⟨n + 1, hn⟩ (Nat.succ_ne_zero n) h1 (outsAt2 c n (Nat.lt_of_succ_lt hn))
    else stepB2 V c ⟨n + 1, hn⟩ (Nat.succ_ne_zero n) h1 (outsAt2 c n (Nat.lt_of_succ_lt hn))

theorem outsAt2_first (c : Dev nD) (t : Fin cfg2.N) (h0 : t.val = 0) : outsAt2 V c t.val t.isLt = stepA2 V c t h0 := by
  obtain ⟨n, hn⟩ := t
  cases n with
  | zero => rfl
  | succ n => exact absurd h0 (Nat.succ_ne_zero n)

theorem outsAt2_mid (c : Dev nD) (t : Fin cfg2.N) (h0 : t.val ≠ 0) (h1 : t.val ≠ 63) :
    outsAt2 V c t.val t.isLt = stepB2 V c t h0 h1 (outsAt2 V c (t.val - 1) (Nat.lt_of_le_of_lt (Nat.sub_le _ _) t.isLt)) := by
  obtain ⟨n, hn⟩ := t
  cases n with
  | zero => exact absurd rfl h0
  | succ n => exact (dif_neg h1).trans rfl

theorem outsAt2_last (c : Dev nD) (t : Fin cfg2.N) (h0 : t.val ≠ 0) (h1 : t.val = 63) :
    outsAt2 V c t.val t.isLt = stepC2 V c t h0 h1 (outsAt2 V c (t.val - 1) (Nat.lt_of_le_of_lt (Nat.sub_le _ _) t.isLt)) := by
  obtain ⟨n, hn⟩ := t
  cases n with
  | zero => exact absurd rfl h0
  | succ n => exact (dif_pos h1).trans rfl

/-! ## The invariant that carries the accumulators -/

/-- Before position `n`: at the start what the region is handed (both accumulators at anything); afterwards both
    accumulators at exactly what the point before left in them, beside the core's other scoped buffers, unopened, and the
    generator register at some state. -/
def PhiS2 (c : Dev nD) : (n : ℕ) → n ≤ cfg2.N → sProp 𝕄
  | 0, _ => Pipeline.ΦA spec2 c
  | n + 1, hn =>
    iprop(iprop(iprop(owns (c : Thread nD τ) scM2_0 fullShare (outsAt2 V c n hn).s0 ∗ owns (c : Thread nD τ) scM2_1 fullShare (outsAt2 V c n hn).s1)
          ∗ Pipeline.scopedRestBut (Ix := Unit) (Name := ℕ) (U := Pipeline.UD sig nD τ) (Lvl := ℕ) (Val := Elt F) spec2 c [cc2_scratch0, cc2_scratch1])
        ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn =
      iprop(iprop(iprop(owns (c : Thread nD τ) scM2_0 fullShare (outsAt2 V c n hn).s0 ∗ owns (c : Thread nD τ) scM2_1 fullShare (outsAt2 V c n hn).s1)
          ∗ Pipeline.scopedRestBut (Ix := Unit) (Name := ℕ) (U := Pipeline.UD sig nD τ) (Lvl := ℕ) (Val := Elt F) spec2 c [cc2_scratch0, cc2_scratch1])
        ∗ (∃ r, prngReg c r)) := rfl

theorem PhiS2_pos (c : Dev nD) (n : ℕ) (h : n ≤ cfg2.N) (hz : n ≠ 0) :
    PhiS2 V c n h =
      iprop(iprop(iprop(owns (c : Thread nD τ) scM2_0 fullShare (outsAt2 V c (n - 1) (by omega)).s0 ∗ owns (c : Thread nD τ) scM2_1 fullShare (outsAt2 V c (n - 1) (by omega)).s1)
          ∗ Pipeline.scopedRestBut (Ix := Unit) (Name := ℕ) (U := Pipeline.UD sig nD τ) (Lvl := ℕ) (Val := Elt F) spec2 c [cc2_scratch0, cc2_scratch1])
        ∗ (∃ r, prngReg c r)) := by
  cases n with
  | zero => exact absurd rfl hz
  | succ n => rfl

/-! ## The proof data -/

/-- Pipeline 2 on core `c`: the arrays as the region finds them; after the body each input's buffer at its block, each
    output's at what `outsAt2` says; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).o4
    | ⟨5, _⟩ => (outsAt2 V c t.val t.isLt).o5
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).o4 := by dsimp only [dat2]
theorem after2_5 (c : Dev nD) (t : Fin cfg2.N) : (dat2 V c).after 5 t = (outsAt2 V c t.val t.isLt).o5 := by dsimp only [dat2]

/-- Each input's staging buffer holds its block whenever the body starts. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the six windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it must hand back. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' buffers hold their blocks; the point's number says which of the three runs applies;
    the invariant hands over the accumulators (at anything at the first point, at what the point before left afterwards)
    and takes them back at this point's contents; before the last point the outputs' buffers go back untouched, at the
    last point each comes back covered by its one store; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val = 0
  · -- the first point
    have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1),
      Dat.leavesExact_idle (dat2 V c) 5 t (idleAt2_5 t hc1) (noFlush2_5 t hc1)]
    rw [outsAt2_first V c t h0]
    unfold stepA2 sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, H4, H5⟩
    iapply ((kernelRun2_A c (grid2.coords t) _ _ _ _ _ _ _ _ _ _ _ _ _ _ _ _ hc0 hc1 (iblk2 V c 0 t) (iblk2 V c 1 t) (iblk2 V c 2 t) (iblk2 V c 3 t)).2.2 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond2_0 (grid2.coords t) := fun h => h0 ((hcond2_0 t).mp h)
    by_cases h1 : t.val = 63
    · -- the last point
      have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [outsAt2_last V c t h0 h1]
      unfold stepC2 out2_C_4 out2_C_5 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ hc0 hc1 (iblk2 V c 0 t) (iblk2 V c 1 t) (iblk2 V c 2 t) (iblk2 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, HS0, HS1⟩
      isplitl [HS0 HS1 HR Hg]
      · isplitl [HS0 HS1 HR]
        · isplitl [HS0 HS1]
          · isplitl [HS0]
            · unfold owns; iexists _; isplitr
              swap; · iexact HS0
              ipureintro; rfl
            · unfold owns; iexists _; isplitr
              swap; · iexact HS1
              ipureintro; rfl
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _ _ _ _)
    · -- a middle point
      have hc1 : ¬cond2_1 (grid2.coords t) := fun h => h1 ((hcond2_1 t).mp h)
      rw [Dat.leavesExact_idle (dat2 V c) 4 t (idleAt2_4 t hc1) (noFlush2_4 t hc1),
        Dat.leavesExact_idle (dat2 V c) 5 t (idleAt2_5 t hc1) (noFlush2_5 t hc1)]
      rw [outsAt2_mid V c t h0 h1]
      unfold stepB2 sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, H4, H5⟩
      iapply ((kernelRun2_B c (grid2.coords t) _ _ _ _ _ _ _ _ _ _ _ _ _ _ _ _ hc0 hc1 (iblk2 V c 0 t) (iblk2 V c 1 t) (iblk2 V c 2 t) (iblk2 V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0 HS1]
          · isplitl [HS0]
            · unfold owns; iexists _; isplitr
              swap; · iexact HS0
              ipureintro; rfl
            · unfold owns; iexists _; isplitr
              swap; · iexact HS1
              ipureintro; rfl
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The obligation as the library states it, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem PhiIn2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives that back: what the accumulators hold is forgotten. -/
theorem PhiOut2 (c : Dev nD) : (dat2 V c).Φ (Fin.last cfg2.N) ⊢ (Pipeline.ΦA spec2 c : sProp 𝕄) := by
  have hN : cfg2.N = 64 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region2

end Cert.Kernel.Hand

end
-- ==== Proof.K.Region3.lean ====
import proofs.«140086_j17265768530288_2_alg».proof.Proof.Gen.Kernel.Launch
import proofs.«140086_j17265768530288_2_alg».proof.Proof.Gen.Kernel.Skeleton
import proofs.«140086_j17265768530288_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main: the update kernel (pipeline 3), at the contents the region is entered with

Seven windows over a grid of four points. Windows 0 and 1 are the two aggregated feature arrays, read a row block of
1024 rows per point; windows 2 to 5 are the two transposed weight matrices and the two bias rows, read whole at the
first point and kept; window 6 is the result, written a row block of 1024 rows per point. The body reads its six input
buffers whole and stores one value, a function of the six, over the whole output buffer. There is no scratch and no
branch, so the invariant carried between points is the untouched rest of the core. -/

-- membership in a rectangle of these extents: the elaborator recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place: where the window is not fetched its block
    index has not moved, so the block kept from the point before is this point's. -/
theorem kept3_0 {c : Dev nD} (dat : Dat τ (Elt F) Unit ℕ (Pipeline.UD sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- Input window 1's current staging buffer holds its block at every point, fetched there or not, for any proof data
    whose array is the entry contents and whose body leaves the block in place: where the window is not fetched its block
    index has not moved, so the block kept from the point before is this point's. -/
theorem kept3_1 {c : Dev nD} (dat : Dat τ (Elt F) Unit ℕ (Pipeline.UD sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- Input window 2's current staging buffer holds its block at every point, fetched there or not, for any proof data
    whose array is the entry contents and whose body leaves the block in place: where the window is not fetched its block
    index has not moved, so the block kept from the point before is this point's. -/
theorem kept3_2 {c : Dev nD} (dat : Dat τ (Elt F) Unit ℕ (Pipeline.UD sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)

/-- Input window 3's current staging buffer holds its block at every point, fetched there or not, for any proof data
    whose array is the entry contents and whose body leaves the block in place: where the window is not fetched its block
    index has not moved, so the block kept from the point before is this point's. -/
theorem kept3_3 {c : Dev nD} (dat : Dat τ (Elt F) Unit ℕ (Pipeline.UD sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)

/-- Input window 4's current staging buffer holds its block at every point, fetched there or not, for any proof data
    whose array is the entry contents and whose body leaves the block in place: where the window is not fetched its block
    index has not moved, so the block kept from the point before is this point's. -/
theorem kept3_4 {c : Dev nD} (dat : Dat τ (Elt F) Unit ℕ (Pipeline.UD sig nD τ) ℕ cfg3 c) (hA : dat.A 4 = V c (Pipeline.arrRef spec3 4))
    (hafter : ∀ t, dat.after 4 t = blockAt3 V c 4 t) (t : Fin cfg3.N) (d) : dat.before 4 t d = blockAt3 V c 4 t :=
  (dat.before_in_eq_fetched 4 rfl (fun _ => rfl) (fun _ _ _ => rfl) (fun t => by rw [hafter]; unfold Dat.blockOf blockAt3; rw [hA]; try rfl) t d).trans
    (by unfold Dat.fetched Dat.blockOf blockAt3; rw [hA]; try rfl)

/-- Input window 5's current staging buffer holds its block at every point, fetched there or not, for any proof data
    whose array is the entry contents and whose body leaves the block in place: where the window is not fetched its block
    index has not moved, so the block kept from the point before is this point's. -/
theorem kept3_5 {c : Dev nD} (dat : Dat τ (Elt F) Unit ℕ (Pipeline.UD sig nD τ) ℕ cfg3 c) (hA : dat.A 5 = V c (Pipeline.arrRef spec3 5))
    (hafter : ∀ t, dat.after 5 t = blockAt3 V c 5 t) (t : Fin cfg3.N) (d) : dat.before 5 t d = blockAt3 V c 5 t :=
  (dat.before_in_eq_fetched 5 rfl (fun _ => rfl) (fun _ _ _ => rfl) (fun t => by rw [hafter]; unfold Dat.blockOf blockAt3; rw [hA]; try rfl) t d).trans
    (by unfold Dat.fetched Dat.blockOf blockAt3; rw [hA]; try rfl)

/-! ## The body's accesses -/

abbrev whole_1024x128 : Rect S1024x128 := Rect.unit (s := S1024x128) ![0, 0] S1024x128.size inb_S1024x128_S1024x128_0_0
abbrev whole_128x128 : Rect S128x128 := Rect.unit (s := S128x128) ![0, 0] S128x128.size inb_S128x128_S128x128_0_0
abbrev whole_1x128 : Rect S1x128 := Rect.unit (s := S1x128) ![0, 0] S1x128.size inb_S1x128_S1x128_0_0

/-! ## What the body leaves in the output window's buffer -/

/-- Window 6's staging buffer after the body, from the input windows' blocks: its one store, of the payload over the
    six whole reads, as a single piece. -/
def resultBuf3 (x0 x1 : Vec F S1024x128 .f32) (x2 : Vec F S128x128 .f32) (x3 : Vec F S1x128 .f32) (x4 : Vec F S128x128 .f32) (x5 : Vec F S1x128 .f32) : Vec F S1024x128 .f32 :=
  View.canon [⟨whole_1024x128, k3_pay1 (View.ld x0 whole_1024x128) (View.ld x1 whole_1024x128) (View.ld x2 whole_128x128) (View.ld x3 whole_1x128) (View.ld x4 whole_128x128) (View.ld x5 whole_1x128)⟩]

/-- The one store is over the whole buffer, so it covers it. -/
theorem resultBuf3_covered (p0 : Vec F S1024x128 .f32) (y : S1024x128.Idx) :
    ∃ pc ∈ ([⟨whole_1024x128, p0⟩] : List (View.Piece (Elt F) S1024x128 .f32)), y ∈ pc.1.set :=
  View.cover_of_tiled [⟨whole_1024x128, p0⟩] S1024x128.size (by rfl) y

/-! ## The body's triple -/

set_option maxHeartbeats 1000000 in
/-- The kernel body on whole staging memrefs, the six inputs' at read contents and the output's at anything, runs to the
    continuation holding the inputs' as they were and the output's at `resultBuf3` of the inputs': the body is its skeleton
    of seven whole loads and one whole store, run operation by operation. -/
theorem update_body_runs (c : Dev nD) (E : Set ℕ) (i : grid3.Coords)
    (arg1 : Memref sig .tc .vmem S1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S1024x128 .f32) (harg7 : arg7.IsWhole)
    (x0 x1 : Vec F S1024x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (resultBuf3 x0 x1 x2 x3 x4 x5)) -∗ K ⟨⟩))
      ⊢ wp frame (wpE (defs₀ (F := F)) Variants.none c none) E (cc3__update_kernel i arg1 harg1 arg2 harg2 arg3 harg3 arg4 harg4 arg5 harg5 arg6 harg6 arg7 harg7) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (resultBuf3_covered _)

/-! ## The pipeline's proof data -/

/-- The proof data of pipeline 3 on core `c`: the arrays as the region finds them; after the body at point `t` each
    input's buffer at its block and the output's at `resultBuf3` of the six input blocks; the invariant the untouched rest of
    the core (its other scoped buffers and the generator register); nothing owed; full shares. -/
def dat3 (c : Dev nD) : Dat τ (Elt F) Unit ℕ (Pipeline.UD sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => blockAt3 V c 5 t
    | ⟨6, _⟩ => resultBuf3 (blockAt3 V c 0 t) (blockAt3 V c 1 t) (blockAt3 V c 2 t) (blockAt3 V c 3 t) (blockAt3 V c 4 t) (blockAt3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem dat3_after_0 (c : Dev nD) (t : Fin cfg3.N) : (dat3 V c).after 0 t = blockAt3 V c 0 t := by dsimp only [dat3]
theorem dat3_after_1 (c : Dev nD) (t : Fin cfg3.N) : (dat3 V c).after 1 t = blockAt3 V c 1 t := by dsimp only [dat3]
theorem dat3_after_2 (c : Dev nD) (t : Fin cfg3.N) : (dat3 V c).after 2 t = blockAt3 V c 2 t := by dsimp only [dat3]
theorem dat3_after_3 (c : Dev nD) (t : Fin cfg3.N) : (dat3 V c).after 3 t = blockAt3 V c 3 t := by dsimp only [dat3]
theorem dat3_after_4 (c : Dev nD) (t : Fin cfg3.N) : (dat3 V c).after 4 t = blockAt3 V c 4 t := by dsimp only [dat3]
theorem dat3_after_5 (c : Dev nD) (t : Fin cfg3.N) : (dat3 V c).after 5 t = blockAt3 V c 5 t := by dsimp only [dat3]
theorem dat3_after_6 (c : Dev nD) (t : Fin cfg3.N) : (dat3 V c).after 6 t
    = resultBuf3 (blockAt3 V c 0 t) (blockAt3 V c 1 t) (blockAt3 V c 2 t) (blockAt3 V c 3 t) (blockAt3 V c 4 t) (blockAt3 V c 5 t) := by dsimp only [dat3]

/-- Each input's current staging buffer holds its block at every point, fetched there or not. -/
theorem dat3_before_0 (c : Dev nD) (t : Fin cfg3.N) (d) : (dat3 V c).before 0 t d = blockAt3 V c 0 t :=
  kept3_0 V (dat3 V c) (A_eq3 V c 0) (dat3_after_0 V c) t d
theorem dat3_before_1 (c : Dev nD) (t : Fin cfg3.N) (d) : (dat3 V c).before 1 t d = blockAt3 V c 1 t :=
  kept3_1 V (dat3 V c) (A_eq3 V c 1) (dat3_after_1 V c) t d
theorem dat3_before_2 (c : Dev nD) (t : Fin cfg3.N) (d) : (dat3 V c).before 2 t d = blockAt3 V c 2 t :=
  kept3_2 V (dat3 V c) (A_eq3 V c 2) (dat3_after_2 V c) t d
theorem dat3_before_3 (c : Dev nD) (t : Fin cfg3.N) (d) : (dat3 V c).before 3 t d = blockAt3 V c 3 t :=
  kept3_3 V (dat3 V c) (A_eq3 V c 3) (dat3_after_3 V c) t d
theorem dat3_before_4 (c : Dev nD) (t : Fin cfg3.N) (d) : (dat3 V c).before 4 t d = blockAt3 V c 4 t :=
  kept3_4 V (dat3 V c) (A_eq3 V c 4) (dat3_after_4 V c) t d
theorem dat3_before_5 (c : Dev nD) (t : Fin cfg3.N) (d) : (dat3 V c).before 5 t d = blockAt3 V c 5 t :=
  kept3_5 V (dat3 V c) (A_eq3 V c 5) (dat3_after_5 V c) t d

/-! ## The body obligation, at a generic point -/

/-- What the body is called with at point `t`, the windows one by one, -/
def pointPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def pointPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and the
    core's record of what it owes pass through unread. -/
theorem point_runs3 (c : Dev nD) (t : Fin cfg3.N) :
    pointPre3 V c t ⊢ wp frame (wpE (defs₀ (F := F)) Variants.none c none) Set.univ (bodyAt3 t) (fun _ => pointPost3 V c t) := by
  unfold pointPre3 pointPost3 bodyAt3
  simp only [dat3_before_0, dat3_before_1, dat3_before_2, dat3_before_3, dat3_before_4, dat3_before_5]
  rw [show (dat3 V c).Φ t.succ = (dat3 V c).Φ t.castSucc from rfl,
    show (dat3 V c).owesAt () t.succ = (dat3 V c).owesAt () t.castSucc from rfl,
    dat3_after_0, dat3_after_1, dat3_after_2, dat3_after_3, dat3_after_4, dat3_after_5, dat3_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (update_body_runs c Set.univ (grid3.coords t) _ _ _ _ _ _ _ _ _ _ _ _ _ _
    (blockAt3 V c 0 t) (blockAt3 V c 1 t) (blockAt3 V c 2 t) (blockAt3 V c 3 t) (blockAt3 V c 4 t) (blockAt3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact point_runs3 V c t

/-- The invariant before the first point is the untouched rest of the core, as the region hands it over, -/
theorem PhiIn3 (c : Dev nD) : (Pipeline.ΦA spec3 c : sProp 𝕄) ⊢ (dat3 V c).Φ 0 := .rfl

/-- and after the last point it is handed back as it was. -/
theorem PhiOut3 (c : Dev nD) : (dat3 V c).Φ (Fin.last cfg3.N) ⊢ (Pipeline.ΦA spec3 c : sProp 𝕄) := .rfl

end Cert.Kernel.Hand

end
-- ==== Proof.K.Run.lean ====
/-
  The run of the whole program: @main as eight segments — region 0, three stretches of host operations, regions 1
  and 2, a stretch of host operations, region 3 — from the launch to the return, over the thread state "every unscoped
  buffer at the boundary's contents, the generator register at some state, nothing owed". The contents at each boundary
  are a fold from the launch memory: a host stretch applies its operations, a region leaves its arrays at what its
  write-backs produce and every other buffer as it found it. Every weakly fair execution terminates and the final
  memory holds every unscoped buffer at the last boundary's contents.
-/
import proofs.«140086_j17265768530288_2_alg».proof.Proof.K.Region0
import proofs.«140086_j17265768530288_2_alg».proof.Proof.K.Region1
import proofs.«140086_j17265768530288_2_alg».proof.Proof.K.Region2
import proofs.«140086_j17265768530288_2_alg».proof.Proof.K.Region3
import proofs.«140086_j17265768530288_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves (an input as entered, an output's write-backs folded), every
    other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch `hostOps1`. -/
abbrev W2 (c : Dev nD) : Valuation τ sig (Elt F) := StableHlo.after hostOps1 (W1 m ρ c)
abbrev V2 : (c : Dev nD) → (b : Ref sig .tc) → Buf (Elt F) ((c : Thread nD τ).loc b) := fun c b => W2 m ρ c b

/-- After the host stretch `hostOps1_1`. -/
abbrev W3 (c : Dev nD) : Valuation τ sig (Elt F) := StableHlo.after hostOps1_1 (W2 m ρ c)
abbrev V3 : (c : Dev nD) → (b : Ref sig .tc) → Buf (Elt F) ((c : Thread nD τ).loc b) := fun c b => W3 m ρ c b

/-- After the host stretch `hostOps1_2`. -/
abbrev W4 (c : Dev nD) : Valuation τ sig (Elt F) := StableHlo.after hostOps1_2 (W3 m ρ c)
abbrev V4 : (c : Dev nD) → (b : Ref sig .tc) → Buf (Elt F) ((c : Thread nD τ).loc b) := fun c b => W4 m ρ c b

/-- After region 1: its arrays at what the pipeline leaves (an input as entered, an output's write-backs folded), every
    other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After region 2: its arrays at what the pipeline leaves (an input as entered, an output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 (c : Dev nD) : Valuation τ sig (Elt F) := StableHlo.after hostOps3 (W6 m ρ c)
abbrev V7 : (c : Dev nD) → (b : Ref sig .tc) → Buf (Elt F) ((c : Thread nD τ).loc b) := fun c b => W7 m ρ c b

/-- After region 3: its arrays at what the pipeline leaves (an input as entered, an output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V4 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at the contents before it, left with the
    region's arrays at what its write-backs leave and every other buffer as entered. Its arrays are split out of the
    unscoped buffers and put back; the generator register goes into the region's invariant and comes out; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn0 (V0 m ρ) c)
    unfold Pipeline.ΦA
    iintro ⟨Hp, -, Hr⟩
    isplitl [Hr]; · iexact Hr
    iexact Hp
  hout c := by
    rw [Pipeline.ownSems0_none]
    refine BIBase.Entails.trans (PhiOut0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at the contents before it, left with the
    region's arrays at what its write-backs leave and every other buffer as entered. Its arrays are split out of the
    unscoped buffers and put back; the generator register goes into the region's invariant and comes out; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn1 (V4 m ρ) c)
    unfold Pipeline.ΦA
    iintro ⟨Hp, -, Hr⟩
    isplitl [Hr]; · iexact Hr
    iexact Hp
  hout c := by
    rw [Pipeline.ownSems0_none]
    refine BIBase.Entails.trans (PhiOut1 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at the contents before it, left with the
    region's arrays at what its write-backs leave and every other buffer as entered. Its arrays are split out of the
    unscoped buffers and put back; the generator register goes into the region's invariant and comes out; nothing is
    owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn2 (V5 m ρ) c)
    unfold Pipeline.ΦA
    iintro ⟨Hp, -, Hr⟩
    isplitl [Hr]; · iexact Hr
    iexact Hp
  hout c := by
    rw [Pipeline.ownSems0_none]
    refine BIBase.Entails.trans (PhiOut2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at the contents before it, left with the
    region's arrays at what its write-backs leave and every other buffer as entered. Its arrays are split out of the
    unscoped buffers and put back; the generator register goes into the region's invariant and comes out; nothing is
    owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn3 (V7 m ρ) c)
    unfold Pipeline.ΦA
    iintro ⟨Hp, -, Hr⟩
    isplitl [Hr]; · iexact Hr
    iexact Hp
  hout c := by
    rw [Pipeline.ownSems0_none]
    refine BIBase.Entails.trans (PhiOut3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final memory holds every unscoped TensorCore buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.K.Kept.lean ====
/-
  Which buffers a stretch of the program leaves alone: a host stretch changes only the buffers its operations write, a
  region only its output windows' arrays (an input window's array is read, and ends as it was). Chaining these facts
  walks a buffer's contents at a later boundary back to an earlier one. In particular the six argument arrays end
  holding their launch contents.
-/
import proofs.«140086_j17265768530288_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The arguments, from the last boundary back to the launch -/

theorem W8_main_arg0_from0 (c : Dev nD) : W8 m ρ c (Proc.devRef .tc main_arg0) = W0 m ρ c (Proc.devRef .tc main_arg0) :=
  calc W8 m ρ c (Proc.devRef .tc main_arg0)
    _ = W7 m ρ c (Proc.devRef .tc main_arg0) := (W8_of_ne m ρ c main_arg0 (by decide))
    _ = W6 m ρ c (Proc.devRef .tc main_arg0) := (StableHlo.after_of_writes_sub hostOps3 _ hostOps3_writes (by decide))
    _ = W5 m ρ c (Proc.devRef .tc main_arg0) := (W6_of_ne m ρ c main_arg0 (by decide))
    _ = W4 m ρ c (Proc.devRef .tc main_arg0) := ((W5_arr m ρ c 2).trans (((dat1 (V4 m ρ) c).arrAt_in 2 rfl _).trans (A_eq1 (V4 m ρ) c 2)))
    _ = W3 m ρ c (Proc.devRef .tc main_arg0) := (StableHlo.after_of_writes_sub hostOps1_2 _ hostOps1_2_writes (by decide))
    _ = W2 m ρ c (Proc.devRef .tc main_arg0) := (StableHlo.after_of_writes_sub hostOps1_1 _ hostOps1_1_writes (by decide))
    _ = W1 m ρ c (Proc.devRef .tc main_arg0) := (StableHlo.after_of_writes_sub hostOps1 _ hostOps1_writes (by decide))
    _ = W0 m ρ c (Proc.devRef .tc main_arg0) := (W1_of_ne m ρ c main_arg0 (by decide))

theorem W8_main_arg1_from0 (c : Dev nD) : W8 m ρ c (Proc.devRef .tc main_arg1) = W0 m ρ c (Proc.devRef .tc main_arg1) :=
  calc W8 m ρ c (Proc.devRef .tc main_arg1)
    _ = W7 m ρ c (Proc.devRef .tc main_arg1) := (W8_of_ne m ρ c main_arg1 (by decide))
    _ = W6 m ρ c (Proc.devRef .tc main_arg1) := (StableHlo.after_of_writes_sub hostOps3 _ hostOps3_writes (by decide))
    _ = W5 m ρ c (Proc.devRef .tc main_arg1) := ((W6_arr m ρ c 0).trans (((dat2 (V5 m ρ) c).arrAt_in 0 rfl _).trans (A_eq2 (V5 m ρ) c 0)))
    _ = W4 m ρ c (Proc.devRef .tc main_arg1) := ((W5_arr m ρ c 0).trans (((dat1 (V4 m ρ) c).arrAt_in 0 rfl _).trans (A_eq1 (V4 m ρ) c 0)))
    _ = W3 m ρ c (Proc.devRef .tc main_arg1) := (StableHlo.after_of_writes_sub hostOps1_2 _ hostOps1_2_writes (by decide))
    _ = W2 m ρ c (Proc.devRef .tc main_arg1) := (StableHlo.after_of_writes_sub hostOps1_1 _ hostOps1_1_writes (by decide))
    _ = W1 m ρ c (Proc.devRef .tc main_arg1) := (StableHlo.after_of_writes_sub hostOps1 _ hostOps1_writes (by decide))
    _ = W0 m ρ c (Proc.devRef .tc main_arg1) := ((W1_arr m ρ c 0).trans (((dat0 (V0 m ρ) c).arrAt_in 0 rfl _).trans (A_eq0 (V0 m ρ) c 0)))

theorem W8_main_arg2_from0 (c : Dev nD) : W8 m ρ c (Proc.devRef .tc main_arg2) = W0 m ρ c (Proc.devRef .tc main_arg2) :=
  calc W8 m ρ c (Proc.devRef .tc main_arg2)
    _ = W7 m ρ c (Proc.devRef .tc main_arg2) := (W8_of_ne m ρ c main_arg2 (by decide))
    _ = W6 m ρ c (Proc.devRef .tc main_arg2) := (StableHlo.after_of_writes_sub hostOps3 _ hostOps3_writes (by decide))
    _ = W5 m ρ c (Proc.devRef .tc main_arg2) := (W6_of_ne m ρ c main_arg2 (by decide))
    _ = W4 m ρ c (Proc.devRef .tc main_arg2) := (W5_of_ne m ρ c main_arg2 (by decide))
    _ = W3 m ρ c (Proc.devRef .tc main_arg2) := (StableHlo.after_of_writes_sub hostOps1_2 _ hostOps1_2_writes (by decide))
    _ = W2 m ρ c (Proc.devRef .tc main_arg2) := (StableHlo.after_of_writes_sub hostOps1_1 _ hostOps1_1_writes (by decide))
    _ = W1 m ρ c (Proc.devRef .tc main_arg2) := (StableHlo.after_of_writes_sub hostOps1 _ hostOps1_writes (by decide))
    _ = W0 m ρ c (Proc.devRef .tc main_arg2) := (W1_of_ne m ρ c main_arg2 (by decide))

theorem W8_main_arg3_from0 (c : Dev nD) : W8 m ρ c (Proc.devRef .tc main_arg3) = W0 m ρ c (Proc.devRef .tc main_arg3) :=
  calc W8 m ρ c (Proc.devRef .tc main_arg3)
    _ = W7 m ρ c (Proc.devRef .tc main_arg3) := (W8_of_ne m ρ c main_arg3 (by decide))
    _ = W6 m ρ c (Proc.devRef .tc main_arg3) := (StableHlo.after_of_writes_sub hostOps3 _ hostOps3_writes (by decide))
    _ = W5 m ρ c (Proc.devRef .tc main_arg3) := (W6_of_ne m ρ c main_arg3 (by decide))
    _ = W4 m ρ c (Proc.devRef .tc main_arg3) := (W5_of_ne m ρ c main_arg3 (by decide))
    _ = W3 m ρ c (Proc.devRef .tc main_arg3) := (StableHlo.after_of_writes_sub hostOps1_2 _ hostOps1_2_writes (by decide))
    _ = W2 m ρ c (Proc.devRef .tc main_arg3) := (StableHlo.after_of_writes_sub hostOps1_1 _ hostOps1_1_writes (by decide))
    _ = W1 m ρ c (Proc.devRef .tc main_arg3) := (StableHlo.after_of_writes_sub hostOps1 _ hostOps1_writes (by decide))
    _ = W0 m ρ c (Proc.devRef .tc main_arg3) := (W1_of_ne m ρ c main_arg3 (by decide))

theorem W8_main_arg4_from0 (c : Dev nD) : W8 m ρ c (Proc.devRef .tc main_arg4) = W0 m ρ c (Proc.devRef .tc main_arg4) :=
  calc W8 m ρ c (Proc.devRef .tc main_arg4)
    _ = W7 m ρ c (Proc.devRef .tc main_arg4) := (W8_of_ne m ρ c main_arg4 (by decide))
    _ = W6 m ρ c (Proc.devRef .tc main_arg4) := (StableHlo.after_of_writes_sub hostOps3 _ hostOps3_writes (by decide))
    _ = W5 m ρ c (Proc.devRef .tc main_arg4) := (W6_of_ne m ρ c main_arg4 (by decide))
    _ = W4 m ρ c (Proc.devRef .tc main_arg4) := (W5_of_ne m ρ c main_arg4 (by decide))
    _ = W3 m ρ c (Proc.devRef .tc main_arg4) := (StableHlo.after_of_writes_sub hostOps1_2 _ hostOps1_2_writes (by decide))
    _ = W2 m ρ c (Proc.devRef .tc main_arg4) := (StableHlo.after_of_writes_sub hostOps1_1 _ hostOps1_1_writes (by decide))
    _ = W1 m ρ c (Proc.devRef .tc main_arg4) := (StableHlo.after_of_writes_sub hostOps1 _ hostOps1_writes (by decide))
    _ = W0 m ρ c (Proc.devRef .tc main_arg4) := (W1_of_ne m ρ c main_arg4 (by decide))

theorem W8_main_arg5_from0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := (W8_of_ne m ρ c main_arg5 (by decide))
    _ = W6 m ρ c (Proc.devRef .tc main_arg5) := (StableHlo.after_of_writes_sub hostOps3 _ hostOps3_writes (by decide))
    _ = W5 m ρ c (Proc.devRef .tc main_arg5) := (W6_of_ne m ρ c main_arg5 (by decide))
    _ = W4 m ρ c (Proc.devRef .tc main_arg5) := (W5_of_ne m ρ c main_arg5 (by decide))
    _ = W3 m ρ c (Proc.devRef .tc main_arg5) := (StableHlo.after_of_writes_sub hostOps1_2 _ hostOps1_2_writes (by decide))
    _ = W2 m ρ c (Proc.devRef .tc main_arg5) := (StableHlo.after_of_writes_sub hostOps1_1 _ hostOps1_1_writes (by decide))
    _ = W1 m ρ c (Proc.devRef .tc main_arg5) := (StableHlo.after_of_writes_sub hostOps1 _ hostOps1_writes (by decide))
    _ = W0 m ρ c (Proc.devRef .tc main_arg5) := (W1_of_ne m ρ c main_arg5 (by decide))

/-! ### Intermediate buffers, between the boundaries where they are written and where they are read -/

theorem W4_main_arg1_from0 (c : Dev nD) : W4 m ρ c (Proc.devRef .tc main_arg1) = W0 m ρ c (Proc.devRef .tc main_arg1) :=
  calc W4 m ρ c (Proc.devRef .tc main_arg1)
    _ = W3 m ρ c (Proc.devRef .tc main_arg1) := (StableHlo.after_of_writes_sub hostOps1_2 _ hostOps1_2_writes (by decide))
    _ = W2 m ρ c (Proc.devRef .tc main_arg1) := (StableHlo.after_of_writes_sub hostOps1_1 _ hostOps1_1_writes (by decide))
    _ = W1 m ρ c (Proc.devRef .tc main_arg1) := (StableHlo.after_of_writes_sub hostOps1 _ hostOps1_writes (by decide))
    _ = W0 m ρ c (Proc.devRef .tc main_arg1) := ((W1_arr m ρ c 0).trans (((dat0 (V0 m ρ) c).arrAt_in 0 rfl _).trans (A_eq0 (V0 m ρ) c 0)))

theorem W4_main_arg0_from0 (c : Dev nD) : W4 m ρ c (Proc.devRef .tc main_arg0) = W0 m ρ c (Proc.devRef .tc main_arg0) :=
  calc W4 m ρ c (Proc.devRef .tc main_arg0)
    _ = W3 m ρ c (Proc.devRef .tc main_arg0) := (StableHlo.after_of_writes_sub hostOps1_2 _ hostOps1_2_writes (by decide))
    _ = W2 m ρ c (Proc.devRef .tc main_arg0) := (StableHlo.after_of_writes_sub hostOps1_1 _ hostOps1_1_writes (by decide))
    _ = W1 m ρ c (Proc.devRef .tc main_arg0) := (StableHlo.after_of_writes_sub hostOps1 _ hostOps1_writes (by decide))
    _ = W0 m ρ c (Proc.devRef .tc main_arg0) := (W1_of_ne m ρ c main_arg0 (by decide))

theorem W5_main_v12_from4 (c : Dev nD) : W5 m ρ c (Proc.devRef .tc main_v12) = W4 m ρ c (Proc.devRef .tc main_v12) :=
  calc W5 m ρ c (Proc.devRef .tc main_v12)
    _ = W4 m ρ c (Proc.devRef .tc main_v12) := ((W5_arr m ρ c 1).trans (((dat1 (V4 m ρ) c).arrAt_in 1 rfl _).trans (A_eq1 (V4 m ρ) c 1)))

theorem W5_main_arg1_from0 (c : Dev nD) : W5 m ρ c (Proc.devRef .tc main_arg1) = W0 m ρ c (Proc.devRef .tc main_arg1) :=
  calc W5 m ρ c (Proc.devRef .tc main_arg1)
    _ = W4 m ρ c (Proc.devRef .tc main_arg1) := ((W5_arr m ρ c 0).trans (((dat1 (V4 m ρ) c).arrAt_in 0 rfl _).trans (A_eq1 (V4 m ρ) c 0)))
    _ = W3 m ρ c (Proc.devRef .tc main_arg1) := (StableHlo.after_of_writes_sub hostOps1_2 _ hostOps1_2_writes (by decide))
    _ = W2 m ρ c (Proc.devRef .tc main_arg1) := (StableHlo.after_of_writes_sub hostOps1_1 _ hostOps1_1_writes (by decide))
    _ = W1 m ρ c (Proc.devRef .tc main_arg1) := (StableHlo.after_of_writes_sub hostOps1 _ hostOps1_writes (by decide))
    _ = W0 m ρ c (Proc.devRef .tc main_arg1) := ((W1_arr m ρ c 0).trans (((dat0 (V0 m ρ) c).arrAt_in 0 rfl _).trans (A_eq0 (V0 m ρ) c 0)))

theorem W7_main_v14_0_from6 (c : Dev nD) : W7 m ρ c (Proc.devRef .tc main_v14_0) = W6 m ρ c (Proc.devRef .tc main_v14_0) :=
  calc W7 m ρ c (Proc.devRef .tc main_v14_0)
    _ = W6 m ρ c (Proc.devRef .tc main_v14_0) := (StableHlo.after_of_writes_sub hostOps3 _ hostOps3_writes (by decide))

theorem W7_main_v14_1_from6 (c : Dev nD) : W7 m ρ c (Proc.devRef .tc main_v14_1) = W6 m ρ c (Proc.devRef .tc main_v14_1) :=
  calc W7 m ρ c (Proc.devRef .tc main_v14_1)
    _ = W6 m ρ c (Proc.devRef .tc main_v14_1) := (StableHlo.after_of_writes_sub hostOps3 _ hostOps3_writes (by decide))

theorem W6_main_arg2_from0 (c : Dev nD) : W6 m ρ c (Proc.devRef .tc main_arg2) = W0 m ρ c (Proc.devRef .tc main_arg2) :=
  calc W6 m ρ c (Proc.devRef .tc main_arg2)
    _ = W5 m ρ c (Proc.devRef .tc main_arg2) := (W6_of_ne m ρ c main_arg2 (by decide))
    _ = W4 m ρ c (Proc.devRef .tc main_arg2) := (W5_of_ne m ρ c main_arg2 (by decide))
    _ = W3 m ρ c (Proc.devRef .tc main_arg2) := (StableHlo.after_of_writes_sub hostOps1_2 _ hostOps1_2_writes (by decide))
    _ = W2 m ρ c (Proc.devRef .tc main_arg2) := (StableHlo.after_of_writes_sub hostOps1_1 _ hostOps1_1_writes (by decide))
    _ = W1 m ρ c (Proc.devRef .tc main_arg2) := (StableHlo.after_of_writes_sub hostOps1 _ hostOps1_writes (by decide))
    _ = W0 m ρ c (Proc.devRef .tc main_arg2) := (W1_of_ne m ρ c main_arg2 (by decide))

theorem W6_main_arg3_from0 (c : Dev nD) : W6 m ρ c (Proc.devRef .tc main_arg3) = W0 m ρ c (Proc.devRef .tc main_arg3) :=
  calc W6 m ρ c (Proc.devRef .tc main_arg3)
    _ = W5 m ρ c (Proc.devRef .tc main_arg3) := (W6_of_ne m ρ c main_arg3 (by decide))
    _ = W4 m ρ c (Proc.devRef .tc main_arg3) := (W5_of_ne m ρ c main_arg3 (by decide))
    _ = W3 m ρ c (Proc.devRef .tc main_arg3) := (StableHlo.after_of_writes_sub hostOps1_2 _ hostOps1_2_writes (by decide))
    _ = W2 m ρ c (Proc.devRef .tc main_arg3) := (StableHlo.after_of_writes_sub hostOps1_1 _ hostOps1_1_writes (by decide))
    _ = W1 m ρ c (Proc.devRef .tc main_arg3) := (StableHlo.after_of_writes_sub hostOps1 _ hostOps1_writes (by decide))
    _ = W0 m ρ c (Proc.devRef .tc main_arg3) := (W1_of_ne m ρ c main_arg3 (by decide))

theorem W6_main_arg4_from0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := (W6_of_ne m ρ c main_arg4 (by decide))
    _ = W4 m ρ c (Proc.devRef .tc main_arg4) := (W5_of_ne m ρ c main_arg4 (by decide))
    _ = W3 m ρ c (Proc.devRef .tc main_arg4) := (StableHlo.after_of_writes_sub hostOps1_2 _ hostOps1_2_writes (by decide))
    _ = W2 m ρ c (Proc.devRef .tc main_arg4) := (StableHlo.after_of_writes_sub hostOps1_1 _ hostOps1_1_writes (by decide))
    _ = W1 m ρ c (Proc.devRef .tc main_arg4) := (StableHlo.after_of_writes_sub hostOps1 _ hostOps1_writes (by decide))
    _ = W0 m ρ c (Proc.devRef .tc main_arg4) := (W1_of_ne m ρ c main_arg4 (by decide))

theorem W6_main_arg5_from0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := (W6_of_ne m ρ c main_arg5 (by decide))
    _ = W4 m ρ c (Proc.devRef .tc main_arg5) := (W5_of_ne m ρ c main_arg5 (by decide))
    _ = W3 m ρ c (Proc.devRef .tc main_arg5) := (StableHlo.after_of_writes_sub hostOps1_2 _ hostOps1_2_writes (by decide))
    _ = W2 m ρ c (Proc.devRef .tc main_arg5) := (StableHlo.after_of_writes_sub hostOps1_1 _ hostOps1_1_writes (by decide))
    _ = W1 m ρ c (Proc.devRef .tc main_arg5) := (StableHlo.after_of_writes_sub hostOps1 _ hostOps1_writes (by decide))
    _ = W0 m ρ c (Proc.devRef .tc main_arg5) := (W1_of_ne m ρ c main_arg5 (by decide))

/-- The frame: every weakly fair execution of @main terminates and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0_from0 m ρ c),
     (h c _ (mem_uc main_arg1 (by decide))).trans (W8_main_arg1_from0 m ρ c),
     (h c _ (mem_uc main_arg2 (by decide))).trans (W8_main_arg2_from0 m ρ c),
     (h c _ (mem_uc main_arg3 (by decide))).trans (W8_main_arg3_from0 m ρ c),
     (h c _ (mem_uc main_arg4 (by decide))).trans (W8_main_arg4_from0 m ρ c),
     (h c _ (mem_uc main_arg5 (by decide))).trans (W8_main_arg5_from0 m ρ c)⟩) (run_main m ρ)

end Cert.Kernel.Hand

end
-- ==== Proof.KI.Region0Base.lean ====
/- Region 0 of @main (the degree kernel, grid [8]): what the three per-case runs of its body and the region's
   proof data share — the two branch conditions of the body in closed form over the grid, the table of idle
   points of the column-sum output, the blocks of the windows read off the region-entry contents, the memrefs
   the pipeline passes at a point, and the region invariant with the kernel's accumulator split off. -/
import proofs.«140086_j17265768530288_2_alg».proof.Proof.Gen.KernelIdeal.Launch
import proofs.«140086_j17265768530288_2_alg».proof.Proof.Gen.KernelIdeal.Skeleton
import proofs.«140086_j17265768530288_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The two conditions of the body -/

/-- "This is the first row block": the condition under which the body zeroes its column-sum accumulator, as the
    body computes it from the grid coordinate. -/
abbrev isFirst0 (i : grid0.Coords) : Prop :=
  (Scalar.cmpi .ne (Scalar.extui (Scalar.cmpi .eq (BitVec.ofNat 32 (i 0).val) 0#32)) 0#32) = 1#1

/-- "This is the last row block": the condition under which the body copies the accumulator out. -/
abbrev isLast0 (i : grid0.Coords) : Prop := k0_cond2 i = 1#1

/-- Of the eight points only point 0 is first, -/
theorem isFirst0_iff : ∀ t : Fin cfg0.N, isFirst0 (grid0.coords t) ↔ t.val % 8 = 0 :=
  (by decide +kernel : ∀ t : Fin grid0.N, isFirst0 (grid0.coords t) ↔ t.val % 8 = 0)

/-- and only point 7 is last. -/
theorem isLast0_iff : ∀ t : Fin cfg0.N, isLast0 (grid0.coords t) ↔ t.val % 8 = 7 :=
  (by decide +kernel : ∀ t : Fin grid0.N, isLast0 (grid0.coords t) ↔ t.val % 8 = 7)

/-! ## Where the windows are idle -/

/-- The adjacency tile (an input) and the row-sum output are stored or read at every point. -/
theorem live0_0 : ∀ t : Fin cfg0.N, cfg0.idle 0 (grid0.coords t) = false := by decide +kernel
theorem live0_1 : ∀ t : Fin cfg0.N, cfg0.idle 1 (grid0.coords t) = false := by decide +kernel
/-- The column-sum output is stored into at the last point only: at every other point the configuration calls it
    idle and the pipeline does not write it back there. -/
theorem idle0_2 : ∀ t : Fin cfg0.N, ¬isLast0 (grid0.coords t) → cfg0.idle 2 (grid0.coords t) = true := by decide +kernel
theorem noFlush0_2 : ∀ t : Fin cfg0.N, ¬isLast0 (grid0.coords t) → (cfg0.win 2).flush t = false := by decide +kernel
theorem live0_2 : ∀ t : Fin cfg0.N, isLast0 (grid0.coords t) → cfg0.idle 2 (grid0.coords t) = false := by decide +kernel

/-! ## The windows' blocks at the region-entry contents -/

/-- The block of window w the pipeline addresses at point t, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency's current staging buffer holds the adjacency's row block t when the body runs at t, for any
    proof data over the entry contents whose body leaves that block in place: the window is fetched at every point,
    and a fetch fills the buffer with the array's block. -/
theorem in0_before {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The memrefs of a point -/

/-- The staging memrefs the pipeline passes the body at point t — the adjacency tile's, the row-sum block's, the
    column-sum block's — each a whole buffer, and the accumulator, the kernel's own whole scratch buffer. -/
abbrev tileM0 (t : Fin cfg0.N) : Memref sig .tc .vmem S512x4096 .f32 := win0_0.stage (cfg0.slots t 0)
abbrev tileW0 (t : Fin cfg0.N) : (tileM0 t).IsWhole := hstage0_0 ((cfg0.slots t 0).cast nbuf0_0)
abbrev rowM0 (t : Fin cfg0.N) : Memref sig .tc .vmem S512x128 .f32 := win0_1.stage (cfg0.slots t 1)
abbrev rowW0 (t : Fin cfg0.N) : (rowM0 t).IsWhole := hstage0_1 ((cfg0.slots t 1).cast nbuf0_1)
abbrev colM0 (t : Fin cfg0.N) : Memref sig .tc .vmem S8x4096 .f32 := win0_2.stage (cfg0.slots t 2)
abbrev colW0 (t : Fin cfg0.N) : (colM0 t).IsWhole := hstage0_2 ((cfg0.slots t 2).cast nbuf0_2)
abbrev accM0 : Memref sig .tc .vmem S8x4096 .f32 := Memref.whole cc0_scratch0

/-- Views through which the contents of the two outputs and of the accumulator are stated (any whole buffer of the
    shape serves: what is read back through a covering list of pieces does not depend on it). -/
abbrev rowV0 : View sig .tc .vmem S512x128 .f32 := (Memref.whole cc0_stg1_0 : Memref sig .tc .vmem S512x128 .f32).view
abbrev colV0 : View sig .tc .vmem S8x4096 .f32 := (Memref.whole cc0_stg2_0 : Memref sig .tc .vmem S8x4096 .f32).view
abbrev accV0 : View sig .tc .vmem S8x4096 .f32 := accM0.view

/-! ## The region invariant, the accumulator split off -/

/-- The class's invariant for this region: the accumulator owned at some contents, every other scoped buffer of the
    program that is no staging buffer of this call unopened, and the generator register at some state. -/
theorem PhiA0_split (c : Dev nD) :
    (Pipeline.ΦA spec0 c : sProp 𝕄)
      = iprop(iprop(iprop(∃ d, owns (c : Thread nD τ) accM0 fullShare d) ∗ Pipeline.scopedRestBut spec0 c [cc0_scratch0]) ∗ (∃ r, prngReg c r)) := by
  unfold Pipeline.ΦA; rw [scopedRest0_split]; simp only [accM0, owns_whole]; try rfl

end Cert.KernelIdeal.Hand

end
-- ==== Proof.KI.Region0First.lean ====
/- Region 0, the body at the FIRST row block (it zeroes the accumulator, then adds this block's column sums
   into it; it stores the row sums; it does not touch the column-sum output). -/
import proofs.«140086_j17265768530288_2_alg».proof.Proof.KI.Region0Base

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body's stores at the first point, as lists of pieces (last store first) — the row-sum buffer's and the
    accumulator's — with the triple: on whole memrefs, the tile's at contents x, the row-sum buffer's and the
    accumulator's at anything, the column-sum buffer's at contents y, the body runs to a continuation that is
    handed the tile's buffer and the column-sum buffer as they were, and the other two with their pieces written.
    The first conditional is taken and the second is not (hf, hl). The lists are what running the body's
    skeleton finds; they do not depend on what the two overwritten buffers held. -/
noncomputable def runFirst0 (c : Dev nD) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (hf : isFirst0 i) (hl : ¬isLast0 i) (x : Vec F S512x4096 .f32) :
    Σ' (Lrow : List (View.Piece (Elt F) S512x128 .f32)), { Lacc : List (View.Piece (Elt F) S8x4096 .f32) //
      ∀ (y : Vec F S8x4096 .f32) (E : Set ℕ) (K : PUnit → sProp 𝕄),
        iprop(owns (c : Thread nD τ) arg1 fullShare x ∗ (∃ d, owns (c : Thread nD τ) arg2 fullShare d) ∗ owns (c : Thread nD τ) arg3 fullShare y ∗ (∃ d, owns (c : Thread nD τ) arg4 fullShare d)
            ∗ (iprop(owns (c : Thread nD τ) arg1 fullShare x
                  ∗ (∃ f, arg2.view.loc (c : Thread nD τ) ↦[arg2.view.set]{fullShare} arg2.view.writes (Elt F) f Lrow)
                  ∗ owns (c : Thread nD τ) arg3 fullShare y
                  ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg1 harg1 arg2 harg2 arg3 harg3 arg4 harg4) K } := by
  refine ⟨?_, ?_, fun y E K => ?run⟩
  case run =>
    simp only [cc0__degree_kernel_eq_skeleton]; unfold cc0__degree_kernel_skel
    unfold owns
    iintro ⟨⟨%f1, %hf1, H1⟩, ⟨%d2, %f2, -, H2⟩, ⟨%f3, %hf3, H3⟩, ⟨%d4, %f4, -, H4⟩, Hk⟩
    obtain rfl := harg1.eq_unread hf1; obtain rfl := harg3.eq_unread hf3
    sl_exec (disch := first | exact hf | exact hl)
    sl_step
    iapply Hk
    isplitl [H1]
    · iexists _; isplitr; · ipureintro; exact harg1.read_unread _
      iexact H1
    isplitl [H2]; · iexists _; iexact H2
    isplitl [H3]
    · iexists _; isplitr; · ipureintro; exact harg3.read_unread _
      iexact H3
    iexists _; iexact H4

end Cert.KernelIdeal.Hand

end
-- ==== Proof.KI.Region0Mid.lean ====
/- Region 0, the body at a MIDDLE row block (neither first nor last: it adds this block's column sums into the
   accumulator as the point before left it; it stores the row sums; it does not touch the column-sum output). -/
import proofs.«140086_j17265768530288_2_alg».proof.Proof.KI.Region0First

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body's stores at a middle point, as lists of pieces (last store first), with the triple: on whole memrefs,
    the tile's at contents x, the row-sum buffer's at anything, the column-sum buffer's at contents y, the
    accumulator at contents a, the body runs to a continuation that is handed the tile's buffer and the column-sum
    buffer as they were, and the row-sum buffer and the accumulator with their pieces written. Neither conditional
    is taken (hf, hl). -/
noncomputable def runMid0 (c : Dev nD) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (hf : ¬isFirst0 i) (hl : ¬isLast0 i) (x : Vec F S512x4096 .f32) (a : Vec F S8x4096 .f32) :
    Σ' (Lrow : List (View.Piece (Elt F) S512x128 .f32)), { Lacc : List (View.Piece (Elt F) S8x4096 .f32) //
      ∀ (y : Vec F S8x4096 .f32) (E : Set ℕ) (K : PUnit → sProp 𝕄),
        iprop(owns (c : Thread nD τ) arg1 fullShare x ∗ (∃ d, owns (c : Thread nD τ) arg2 fullShare d) ∗ owns (c : Thread nD τ) arg3 fullShare y ∗ owns (c : Thread nD τ) arg4 fullShare a
            ∗ (iprop(owns (c : Thread nD τ) arg1 fullShare x
                  ∗ (∃ f, arg2.view.loc (c : Thread nD τ) ↦[arg2.view.set]{fullShare} arg2.view.writes (Elt F) f Lrow)
                  ∗ owns (c : Thread nD τ) arg3 fullShare y
                  ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg1 harg1 arg2 harg2 arg3 harg3 arg4 harg4) K } := by
  refine ⟨?_, ?_, fun y E K => ?run⟩
  case run =>
    simp only [cc0__degree_kernel_eq_skeleton]; unfold cc0__degree_kernel_skel
    unfold owns
    iintro ⟨⟨%f1, %hf1, H1⟩, ⟨%d2, %f2, -, H2⟩, ⟨%f3, %hf3, H3⟩, ⟨%f4, %hf4, H4⟩, Hk⟩
    obtain rfl := harg1.eq_unread hf1; obtain rfl := harg3.eq_unread hf3; obtain rfl := harg4.eq_unread hf4
    sl_exec (disch := first | exact hf | exact hl)
    sl_step
    iapply Hk
    isplitl [H1]
    · iexists _; isplitr; · ipureintro; exact harg1.read_unread _
      iexact H1
    isplitl [H2]; · iexists _; iexact H2
    isplitl [H3]
    · iexists _; isplitr; · ipureintro; exact harg3.read_unread _
      iexact H3
    iexists _; iexact H4

end Cert.KernelIdeal.Hand

end
-- ==== Proof.KI.Region0Last.lean ====
/- Region 0, the body at the LAST row block (it adds this block's column sums into the accumulator as the point
   before left it, stores the row sums, and copies the accumulator into the column-sum output). -/
import proofs.«140086_j17265768530288_2_alg».proof.Proof.KI.Region0Mid

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body's stores at the last point, as lists of pieces (last store first) — the row-sum buffer's, the
    column-sum buffer's and the accumulator's — with the triple: on whole memrefs, the tile's at contents x, the two
    output buffers' at anything, the accumulator at contents a, the body runs to a continuation that is handed the
    tile's buffer as it was and the other three with their pieces written. The first conditional is not taken, the
    second is (hf, hl). -/
noncomputable def runLast0 (c : Dev nD) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (hf : ¬isFirst0 i) (hl : isLast0 i) (x : Vec F S512x4096 .f32) (a : Vec F S8x4096 .f32) :
    Σ' (Lrow : List (View.Piece (Elt F) S512x128 .f32)) (Lcol : List (View.Piece (Elt F) S8x4096 .f32)), { Lacc : List (View.Piece (Elt F) S8x4096 .f32) //
      ∀ (E : Set ℕ) (K : PUnit → sProp 𝕄),
        iprop(owns (c : Thread nD τ) arg1 fullShare x ∗ (∃ d, owns (c : Thread nD τ) arg2 fullShare d) ∗ (∃ d, owns (c : Thread nD τ) arg3 fullShare d) ∗ owns (c : Thread nD τ) arg4 fullShare a
            ∗ (iprop(owns (c : Thread nD τ) arg1 fullShare x
                  ∗ (∃ f, arg2.view.loc (c : Thread nD τ) ↦[arg2.view.set]{fullShare} arg2.view.writes (Elt F) f Lrow)
                  ∗ (∃ f, arg3.view.loc (c : Thread nD τ) ↦[arg3.view.set]{fullShare} arg3.view.writes (Elt F) f Lcol)
                  ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg1 harg1 arg2 harg2 arg3 harg3 arg4 harg4) K } := by
  refine ⟨?_, ?_, ?_, fun E K => ?run⟩
  case run =>
    simp only [cc0__degree_kernel_eq_skeleton]; unfold cc0__degree_kernel_skel
    unfold owns
    iintro ⟨⟨%f1, %hf1, H1⟩, ⟨%d2, %f2, -, H2⟩, ⟨%d3, %f3, -, H3⟩, ⟨%f4, %hf4, H4⟩, Hk⟩
    obtain rfl := harg1.eq_unread hf1; obtain rfl := harg4.eq_unread hf4
    sl_exec (disch := first | exact hf | exact hl)
    sl_step
    iapply Hk
    isplitl [H1]
    · iexists _; isplitr; · ipureintro; exact harg1.read_unread _
      iexact H1
    isplitl [H2]; · iexists _; iexact H2
    isplitl [H3]; · iexists _; iexact H3
    iexists _; iexact H4

end Cert.KernelIdeal.Hand

end
-- ==== Proof.KI.Region0.lean ====
/- Region 0 of @main (the degree kernel, grid [8]) at the region-entry contents V: what the row-sum buffer, the
   column-sum buffer and the accumulator hold after each point, the region's proof data over an invariant that
   carries the accumulator's contents from point to point, the body obligation, and the invariant's two ends. -/
import proofs.«140086_j17265768530288_2_alg».proof.Proof.KI.Region0Last

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## Each case's pieces cover the buffer they are stored into

Every store of the body writes a whole buffer, so each list of pieces tiles its shape; the check is an evaluation. -/

section Covers
variable (c : Dev nD) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (x : Vec F S512x4096 .f32) (a : Vec F S8x4096 .f32)

theorem rowCover0_first (hf : isFirst0 i) (hl : ¬isLast0 i) (y : S512x128.Idx) :
    ∃ pc ∈ (runFirst0 c i arg1 harg1 arg2 harg2 arg3 harg3 arg4 harg4 hf hl x).1, y ∈ pc.1.set :=
  View.cover_of_tiledL (runFirst0 c i arg1 harg1 arg2 harg2 arg3 harg3 arg4 harg4 hf hl x).1 S512x128.size (by sl_kernel_rfl) y
theorem accCover0_first (hf : isFirst0 i) (hl : ¬isLast0 i) (y : S8x4096.Idx) :
    ∃ pc ∈ (runFirst0 c i arg1 harg1 arg2 harg2 arg3 harg3 arg4 harg4 hf hl x).2.1, y ∈ pc.1.set :=
  View.cover_of_tiledL (runFirst0 c i arg1 harg1 arg2 harg2 arg3 harg3 arg4 harg4 hf hl x).2.1 S8x4096.size (by sl_kernel_rfl) y

theorem rowCover0_mid (hf : ¬isFirst0 i) (hl : ¬isLast0 i) (y : S512x128.Idx) :
    ∃ pc ∈ (runMid0 c i arg1 harg1 arg2 harg2 arg3 harg3 arg4 harg4 hf hl x a).1, y ∈ pc.1.set :=
  View.cover_of_tiledL (runMid0 c i arg1 harg1 arg2 harg2 arg3 harg3 arg4 harg4 hf hl x a).1 S512x128.size (by sl_kernel_rfl) y
theorem accCover0_mid (hf : ¬isFirst0 i) (hl : ¬isLast0 i) (y : S8x4096.Idx) :
    ∃ pc ∈ (runMid0 c i arg1 harg1 arg2 harg2 arg3 harg3 arg4 harg4 hf hl x a).2.1, y ∈ pc.1.set :=
  View.cover_of_tiledL (runMid0 c i arg1 harg1 arg2 harg2 arg3 harg3 arg4 harg4 hf hl x a).2.1 S8x4096.size (by sl_kernel_rfl) y

theorem rowCover0_last (hf : ¬isFirst0 i) (hl : isLast0 i) (y : S512x128.Idx) :
    ∃ pc ∈ (runLast0 c i arg1 harg1 arg2 harg2 arg3 harg3 arg4 harg4 hf hl x a).1, y ∈ pc.1.set :=
  View.cover_of_tiledL (runLast0 c i arg1 harg1 arg2 harg2 arg3 harg3 arg4 harg4 hf hl x a).1 S512x128.size (by sl_kernel_rfl) y
theorem colCover0_last (hf : ¬isFirst0 i) (hl : isLast0 i) (y : S8x4096.Idx) :
    ∃ pc ∈ (runLast0 c i arg1 harg1 arg2 harg2 arg3 harg3 arg4 harg4 hf hl x a).2.1, y ∈ pc.1.set :=
  View.cover_of_tiledL (runLast0 c i arg1 harg1 arg2 harg2 arg3 harg3 arg4 harg4 hf hl x a).2.1 S8x4096.size (by sl_kernel_rfl) y
theorem accCover0_last (hf : ¬isFirst0 i) (hl : isLast0 i) (y : S8x4096.Idx) :
    ∃ pc ∈ (runLast0 c i arg1 harg1 arg2 harg2 arg3 harg3 arg4 harg4 hf hl x a).2.2.1, y ∈ pc.1.set :=
  View.cover_of_tiledL (runLast0 c i arg1 harg1 arg2 harg2 arg3 harg3 arg4 harg4 hf hl x a).2.2.1 S8x4096.size (by sl_kernel_rfl) y
end Covers

/-! ## The three runs at a point of the grid

Each run taken at the memrefs the pipeline passes at point t, on the adjacency's row block t, the case's two
conditions discharged from the point's number. -/

abbrev firstAt0 (c : Dev nD) (t : Fin cfg0.N) (hf : t.val % 8 = 0) (hl : ¬t.val % 8 = 7) :=
  runFirst0 c (grid0.coords t) (tileM0 t) (tileW0 t) (rowM0 t) (rowW0 t) (colM0 t) (colW0 t) accM0 (Memref.isWhole_whole _)
    ((isFirst0_iff t).mpr hf) (fun h => hl ((isLast0_iff t).mp h)) (blk0 V c 0 t)

abbrev midAt0 (c : Dev nD) (t : Fin cfg0.N) (hf : ¬t.val % 8 = 0) (hl : ¬t.val % 8 = 7) (a : Vec F S8x4096 .f32) :=
  runMid0 c (grid0.coords t) (tileM0 t) (tileW0 t) (rowM0 t) (rowW0 t) (colM0 t) (colW0 t) accM0 (Memref.isWhole_whole _)
    (fun h => hf ((isFirst0_iff t).mp h)) (fun h => hl ((isLast0_iff t).mp h)) (blk0 V c 0 t) a

abbrev lastAt0 (c : Dev nD) (t : Fin cfg0.N) (hf : ¬t.val % 8 = 0) (hl : t.val % 8 = 7) (a : Vec F S8x4096 .f32) :=
  runLast0 c (grid0.coords t) (tileM0 t) (tileW0 t) (rowM0 t) (rowW0 t) (colM0 t) (colW0 t) accM0 (Memref.isWhole_whole _)
    (fun h => hf ((isFirst0_iff t).mp h)) ((isLast0_iff t).mpr hl) (blk0 V c 0 t) a

/-! ## What the buffers hold after each point -/

/-- After the body at position n: what the row-sum buffer, the column-sum buffer and the accumulator hold, each the
    overlay of the pieces its case stored. Position 0 is the first case; a later position is the last case when it
    is 7 and a middle case otherwise, run on the accumulator as position n - 1 left it. Where the column-sum
    buffer is not stored into (every position but 7) its component repeats the accumulator's: nothing reads it, the
    window being idle and not written back there. -/
def outsAt0 (c : Dev nD) : (n : ℕ) → n < cfg0.N → Vec F S512x128 .f32 × Vec F S8x4096 .f32 × Vec F S8x4096 .f32
  | 0, hn =>
    (View.canon (firstAt0 V c ⟨0, hn⟩ (Nat.zero_mod _) (fun h => by (try dsimp only at h); omega)).1,
     View.canon (firstAt0 V c ⟨0, hn⟩ (Nat.zero_mod _) (fun h => by (try dsimp only at h); omega)).2.1,
     View.canon (firstAt0 V c ⟨0, hn⟩ (Nat.zero_mod _) (fun h => by (try dsimp only at h); omega)).2.1)
  | n + 1, hn =>
    if h : (n + 1) % 8 = 7 then
      (View.canon (lastAt0 V c ⟨n + 1, hn⟩ (fun h0 => by have hN : n + 1 < 8 := lt_of_lt_of_eq hn (show cfg0.N = 8 from N_0); (try dsimp only at h0); omega) h (outsAt0 c n (Nat.lt_of_succ_lt hn)).2.2).1,
       View.canon (lastAt0 V c ⟨n + 1, hn⟩ (fun h0 => by have hN : n + 1 < 8 := lt_of_lt_of_eq hn (show cfg0.N = 8 from N_0); (try dsimp only at h0); omega) h (outsAt0 c n (Nat.lt_of_succ_lt hn)).2.2).2.1,
       View.canon (lastAt0 V c ⟨n + 1, hn⟩ (fun h0 => by have hN : n + 1 < 8 := lt_of_lt_of_eq hn (show cfg0.N = 8 from N_0); (try dsimp only at h0); omega) h (outsAt0 c n (Nat.lt_of_succ_lt hn)).2.2).2.2.1)
    else
      (View.canon (midAt0 V c ⟨n + 1, hn⟩ (fun h0 => by have hN : n + 1 < 8 := lt_of_lt_of_eq hn (show cfg0.N = 8 from N_0); (try dsimp only at h0); omega) h (outsAt0 c n (Nat.lt_of_succ_lt hn)).2.2).1,
       View.canon (midAt0 V c ⟨n + 1, hn⟩ (fun h0 => by have hN : n + 1 < 8 := lt_of_lt_of_eq hn (show cfg0.N = 8 from N_0); (try dsimp only at h0); omega) h (outsAt0 c n (Nat.lt_of_succ_lt hn)).2.2).2.1,
       View.canon (midAt0 V c ⟨n + 1, hn⟩ (fun h0 => by have hN : n + 1 < 8 := lt_of_lt_of_eq hn (show cfg0.N = 8 from N_0); (try dsimp only at h0); omega) h (outsAt0 c n (Nat.lt_of_succ_lt hn)).2.2).2.1)

/-- The triple at the first point, -/
theorem outsAt0_first (c : Dev nD) (t : Fin cfg0.N) (hf : t.val % 8 = 0) (hl : ¬t.val % 8 = 7) :
    outsAt0 V c t.val t.isLt = (View.canon (firstAt0 V c t hf hl).1, View.canon (firstAt0 V c t hf hl).2.1, View.canon (firstAt0 V c t hf hl).2.1) := by
  obtain ⟨n, hn⟩ := t
  cases n with
  | zero => exact rfl
  | succ n => exact (by exfalso; have hN : n + 1 < 8 := lt_of_lt_of_eq hn (show cfg0.N = 8 from N_0); (try dsimp only at hf); omega)

/-- at a middle point (over the accumulator the point before left), -/
theorem outsAt0_mid (c : Dev nD) (t : Fin cfg0.N) (hf : ¬t.val % 8 = 0) (hl : ¬t.val % 8 = 7) :
    outsAt0 V c t.val t.isLt
      = (View.canon (midAt0 V c t hf hl (outsAt0 V c (t.val - 1) (Nat.lt_of_le_of_lt (Nat.sub_le _ _) t.isLt)).2.2).1,
         View.canon (midAt0 V c t hf hl (outsAt0 V c (t.val - 1) (Nat.lt_of_le_of_lt (Nat.sub_le _ _) t.isLt)).2.2).2.1,
         View.canon (midAt0 V c t hf hl (outsAt0 V c (t.val - 1) (Nat.lt_of_le_of_lt (Nat.sub_le _ _) t.isLt)).2.2).2.1) := by
  obtain ⟨n, hn⟩ := t
  cases n with
  | zero => exact (by exfalso; (try dsimp only at hf); exact absurd (Nat.zero_mod _) hf)
  | succ n => exact (dif_neg hl).trans rfl

/-- and at the last point (likewise). -/
theorem outsAt0_last (c : Dev nD) (t : Fin cfg0.N) (hf : ¬t.val % 8 = 0) (hl : t.val % 8 = 7) :
    outsAt0 V c t.val t.isLt
      = (View.canon (lastAt0 V c t hf hl (outsAt0 V c (t.val - 1) (Nat.lt_of_le_of_lt (Nat.sub_le _ _) t.isLt)).2.2).1,
         View.canon (lastAt0 V c t hf hl (outsAt0 V c (t.val - 1) (Nat.lt_of_le_of_lt (Nat.sub_le _ _) t.isLt)).2.2).2.1,
         View.canon (lastAt0 V c t hf hl (outsAt0 V c (t.val - 1) (Nat.lt_of_le_of_lt (Nat.sub_le _ _) t.isLt)).2.2).2.2.1) := by
  obtain ⟨n, hn⟩ := t
  cases n with
  | zero => exact (by exfalso; (try dsimp only at hf); exact absurd (Nat.zero_mod _) hf)
  | succ n => exact (dif_pos hl).trans rfl

/-! ## The invariant: the accumulator carried from point to point -/

/-- Before position n. Before the first point nothing is known of the accumulator: the class's invariant. After it,
    the accumulator is owned at exactly what the point before left in it; the program's other scoped buffers stay
    unopened and the generator register at some state. -/
def PhiS0 (c : Dev nD) : (n : ℕ) → n ≤ cfg0.N → sProp 𝕄
  | 0, _ => Pipeline.ΦA spec0 c
  | n + 1, hn => iprop(iprop(owns (c : Thread nD τ) accM0 fullShare ((outsAt0 V c n hn).2.2) ∗ Pipeline.scopedRestBut spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare ((outsAt0 V c n hn).2.2) ∗ Pipeline.scopedRestBut spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) accM0 fullShare ((outsAt0 V c (n - 1) (by omega)).2.2) ∗ Pipeline.scopedRestBut spec0 c [cc0_scratch0]) ∗ (∃ r, prngReg c r)) := by
  cases n with
  | zero => exact absurd rfl hz
  | succ n => rfl

/-! ## The region's proof data -/

/-- The proof data of pipeline 0 on core c at the entry contents V: the arrays as the region finds them; after the
    body at point t the tile's buffer still at the adjacency's row block t, the row-sum buffer and the column-sum
    buffer at the first two components of outsAt0; the invariant PhiS0; full shares; nothing owed. -/
def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- The tile's buffer holds the adjacency's row block t when the body runs at t. -/
theorem tile_before0 (c : Dev nD) (t : Fin cfg0.N) (d) : (dat0 V c).before 0 t d = blk0 V c 0 t :=
  in0_before V (dat0 V c) (A_eq0 V c 0) (after0_0 V c) t d

/-- The invariant at a point's start, restated at the point's number. -/
theorem Phi0_castSucc (c : Dev nD) (t : Fin cfg0.N) :
    (dat0 V c).Φ t.castSucc = PhiS0 V c t.val (Nat.le_of_lt t.isLt) := rfl

/-- The tile's and the row-sum buffer's windows are live at every point: what the body must leave there is the
    proof data's after. -/
theorem leaves0_0 (c : Dev nD) (t : Fin cfg0.N) :
    ((dat0 V c).leavesExact 0 t : sProp 𝕄) = owns (c : Thread nD τ) (tileM0 t) fullShare ((dat0 V c).after 0 t) := by
  unfold Dat.leavesExact; rw [live0_0 t]
theorem leaves0_1 (c : Dev nD) (t : Fin cfg0.N) :
    ((dat0 V c).leavesExact 1 t : sProp 𝕄) = owns (c : Thread nD τ) (rowM0 t) fullShare ((dat0 V c).after 1 t) := by
  unfold Dat.leavesExact; rw [live0_1 t]
/-- The column-sum window is live at the last point, -/
theorem leaves0_2_last (c : Dev nD) (t : Fin cfg0.N) (hl : t.val % 8 = 7) :
    ((dat0 V c).leavesExact 2 t : sProp 𝕄) = owns (c : Thread nD τ) (colM0 t) fullShare ((dat0 V c).after 2 t) := by
  unfold Dat.leavesExact; rw [live0_2 t ((isLast0_iff t).mpr hl)]
/-- and idle and not written back at every other: there the body hands its buffer back as it found it. -/
theorem leaves0_2_idle (c : Dev nD) (t : Fin cfg0.N) (hl : ¬t.val % 8 = 7) :
    ((dat0 V c).leavesExact 2 t : sProp 𝕄) = iprop(∃ d, owns (c : Thread nD τ) (colM0 t) fullShare ((dat0 V c).before 2 t d)) :=
  Dat.leavesExact_idle (dat0 V c) 2 t (idle0_2 t (fun h => hl ((isLast0_iff t).mp h))) (noFlush0_2 t (fun h => hl ((isLast0_iff t).mp h)))

/-! ## The body obligation at a point -/

/-- What the body is called with at point t: the invariant, the core's owes, and the three current staging
    buffers at what the pipeline leaves in them, -/
def bodyPre0 (c : Dev nD) (t : Fin cfg0.N) : sProp 𝕄 :=
  iprop((dat0 V c).Φ t.castSucc ∗ (dat0 V c).owesAt () t.castSucc
    ∗ (∃ d, owns (c : Thread nD τ) (tileM0 t) fullShare ((dat0 V c).before 0 t d))
    ∗ (∃ d, owns (c : Thread nD τ) (rowM0 t) fullShare ((dat0 V c).before 1 t d))
    ∗ (∃ d, owns (c : Thread nD τ) (colM0 t) fullShare ((dat0 V c).before 2 t d)))

/-- and what it must return. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- At the first point the invariant is the class's: the accumulator comes at anything, the run zeroes it and adds
    the block's column sums, and the invariant takes it back at the overlay of the run's pieces; the column-sum buffer
    goes through untouched. -/
theorem sound_first0 (c : Dev nD) (t : Fin cfg0.N) (hf : t.val % 8 = 0) :
    bodyPre0 V c t ⊢ wp frame (wpE (defs₀ (F := F)) Variants.none c none) Set.univ (bodyAt0 t) (fun _ => bodyPost0 V c t) := by
  have hN : t.val < 8 := lt_of_lt_of_eq t.isLt (show cfg0.N = 8 from N_0)
  have hl : ¬t.val % 8 = 7 := by omega
  have hz : t.val = 0 := by omega
  unfold bodyPre0 bodyPost0 bodyAt0
  simp only [tile_before0]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_idle V c t hl, after0_0, after0_1]
  rw [outsAt0_first V c t hf hl]
  (try dsimp only)
  rw [Phi0_castSucc V c t, PhiS0_zero V c _ _ hz, PhiA0_split]
  iintro ⟨⟨⟨HS, HR⟩, Hg⟩, Ho, ⟨%d0, H0⟩, ⟨%d1, H1⟩, ⟨%d2, H2⟩⟩
  iapply ((firstAt0 V c t hf hl).2.2 _ Set.univ _)
  isplitl [H0]; · iexact H0
  isplitl [H1]; · iexists _; iexact H1
  isplitl [H2]; · iexact H2
  isplitl [HS]; · iexact HS
  iintro ⟨H0, ⟨%e1, H1⟩, H2, ⟨%es, HS⟩⟩
  isplitl [HS HR Hg]
  · isplitl [HS HR]
    · isplitl [HS]
      · unfold owns; iexists _; isplitr
        swap; · iexact HS
        ipureintro; exact View.read_writes_eq_canon _ _ _ (accCover0_first c _ _ _ _ _ _ _ _ _ _ _ _)
      iexact HR
    iexact Hg
  isplitl [Ho]; · iexact Ho
  isplitl [H0]; · iexact H0
  isplitl [H1]
  · unfold owns; iexists _; isplitr
    swap; · iexact H1
    ipureintro; exact View.read_writes_eq_canon _ _ _ (rowCover0_first c _ _ _ _ _ _ _ _ _ _ _ _)
  iexists _; iexact H2

set_option maxHeartbeats 4800000 in
/-- At a middle point the invariant hands the accumulator at what the point before left; the run adds the block's
    column sums and the invariant takes it back at the overlay of the run's pieces; the column-sum buffer goes
    through untouched. -/
theorem sound_mid0 (c : Dev nD) (t : Fin cfg0.N) (hf : ¬t.val % 8 = 0) (hl : ¬t.val % 8 = 7) :
    bodyPre0 V c t ⊢ wp frame (wpE (defs₀ (F := F)) Variants.none c none) Set.univ (bodyAt0 t) (fun _ => bodyPost0 V c t) := by
  have hz : t.val ≠ 0 := fun h => hf (by rw [h])
  unfold bodyPre0 bodyPost0 bodyAt0
  simp only [tile_before0]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_idle V c t hl, after0_0, after0_1]
  rw [outsAt0_mid V c t hf hl]
  (try dsimp only)
  rw [Phi0_castSucc V c t, PhiS0_pos V c _ _ hz]
  iintro ⟨⟨⟨HS, HR⟩, Hg⟩, Ho, ⟨%d0, H0⟩, ⟨%d1, H1⟩, ⟨%d2, H2⟩⟩
  iapply ((midAt0 V c t hf hl _).2.2 _ Set.univ _)
  isplitl [H0]; · iexact H0
  isplitl [H1]; · iexists _; iexact H1
  isplitl [H2]; · iexact H2
  isplitl [HS]; · iexact HS
  iintro ⟨H0, ⟨%e1, H1⟩, H2, ⟨%es, HS⟩⟩
  isplitl [HS HR Hg]
  · isplitl [HS HR]
    · isplitl [HS]
      · unfold owns; iexists _; isplitr
        swap; · iexact HS
        ipureintro; exact View.read_writes_eq_canon _ _ _ (accCover0_mid c _ _ _ _ _ _ _ _ _ _ _ _ _)
      iexact HR
    iexact Hg
  isplitl [Ho]; · iexact Ho
  isplitl [H0]; · iexact H0
  isplitl [H1]
  · unfold owns; iexists _; isplitr
    swap; · iexact H1
    ipureintro; exact View.read_writes_eq_canon _ _ _ (rowCover0_mid c _ _ _ _ _ _ _ _ _ _ _ _ _)
  iexists _; iexact H2

set_option maxHeartbeats 4800000 in
/-- At the last point likewise, and the column-sum buffer, which comes at anything, is left at the overlay of the
    one piece the run copies into it. -/
theorem sound_last0 (c : Dev nD) (t : Fin cfg0.N) (hl : t.val % 8 = 7) :
    bodyPre0 V c t ⊢ wp frame (wpE (defs₀ (F := F)) Variants.none c none) Set.univ (bodyAt0 t) (fun _ => bodyPost0 V c t) := by
  have hf : ¬t.val % 8 = 0 := by omega
  have hz : t.val ≠ 0 := fun h => hf (by rw [h])
  unfold bodyPre0 bodyPost0 bodyAt0
  simp only [tile_before0]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2_last V c t hl, after0_0, after0_1, after0_2]
  rw [outsAt0_last V c t hf hl]
  (try dsimp only)
  rw [Phi0_castSucc V c t, PhiS0_pos V c _ _ hz]
  iintro ⟨⟨⟨HS, HR⟩, Hg⟩, Ho, ⟨%d0, H0⟩, ⟨%d1, H1⟩, ⟨%d2, H2⟩⟩
  iapply ((lastAt0 V c t hf hl _).2.2.2 Set.univ _)
  isplitl [H0]; · iexact H0
  isplitl [H1]; · iexists _; iexact H1
  isplitl [H2]; · iexists _; iexact H2
  isplitl [HS]; · iexact HS
  iintro ⟨H0, ⟨%e1, H1⟩, ⟨%e2, H2⟩, ⟨%es, HS⟩⟩
  isplitl [HS HR Hg]
  · isplitl [HS HR]
    · isplitl [HS]
      · unfold owns; iexists _; isplitr
        swap; · iexact HS
        ipureintro; exact View.read_writes_eq_canon _ _ _ (accCover0_last c _ _ _ _ _ _ _ _ _ _ _ _ _)
      iexact HR
    iexact Hg
  isplitl [Ho]; · iexact Ho
  isplitl [H0]; · iexact H0
  isplitl [H1]
  · unfold owns; iexists _; isplitr
    swap; · iexact H1
    ipureintro; exact View.read_writes_eq_canon _ _ _ (rowCover0_last c _ _ _ _ _ _ _ _ _ _ _ _ _)
  unfold owns; iexists _; isplitr
  swap; · iexact H2
  ipureintro; exact View.read_writes_eq_canon _ _ _ (colCover0_last c _ _ _ _ _ _ _ _ _ _ _ _ _)

/-- The body at any point: by the point's case. -/
theorem sound_body0 (c : Dev nD) (t : Fin cfg0.N) :
    bodyPre0 V c t ⊢ wp frame (wpE (defs₀ (F := F)) Variants.none c none) Set.univ (bodyAt0 t) (fun _ => bodyPost0 V c t) := by
  by_cases hf : t.val % 8 = 0
  · exact sound_first0 V c t hf
  · by_cases hl : t.val % 8 = 7
    · exact sound_last0 V c t hl
    · exact sound_mid0 V c t hf hl

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem PhiIn0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the class's back: the accumulator's contents are forgotten. -/
theorem PhiOut0 (c : Dev nD) : (dat0 V c).Φ (Fin.last cfg0.N) ⊢ (Pipeline.ΦA spec0 c : sProp 𝕄) := by
  have ht : (Fin.last cfg0.N).val ≠ 0 := by rw [Fin.val_last]; have : cfg0.N = 8 := N_0; omega
  rw [show (dat0 V c).Φ (Fin.last cfg0.N) = PhiS0 V c (Fin.last cfg0.N).val (Nat.le_of_lt_succ (Fin.last cfg0.N).isLt) from rfl,
    PhiS0_pos V c _ _ ht, PhiA0_split]
  iintro ⟨⟨HS, HR⟩, Hg⟩
  isplitl [HS HR]
  · isplitl [HS]
    · iexists _; iexact HS
    iexact HR
  iexact Hg

end Cert.KernelIdeal.Hand

end
-- ==== Proof.KI.Region1Base.lean ====
/- Region 1 (the first mat-vec pass, grid 8 × 8) — what its three whole-body runs and its frame half share:
   the windows' blocks at a point, what each input's staging buffer holds there, the two branch conditions of the
   body in closed form over the point's number, where the two outputs are idle, and the region invariant with the
   two accumulators made visible. -/
import proofs.«140086_j17265768530288_2_alg».proof.Proof.Gen.KernelIdeal.Launch
import proofs.«140086_j17265768530288_2_alg».proof.Proof.Gen.KernelIdeal.Skeleton
import proofs.«140086_j17265768530288_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-! ## Blocks of the windows -/

/-- The block of window `w` at point `t`, cut out of the array as it stands when the region starts. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile (window 0, fetched at every point): when the body starts, its staging buffer holds the
    tile of the point. Holds for any proof data over `V` whose body hands the tile back unchanged. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The reciprocal degrees (window 1, one whole block fetched at the first point only): the buffer still holds
    that block at every later point, the block index never moving and the body only reading it. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The features (window 2, likewise one whole block fetched once). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two conditionals of the body, over the point's number -/

/-- "This is the first grid point" (row block 0 and column block 0): the guard of the zeroing of both accumulators,
    spelt as the body computes it. -/
abbrev cond1_0 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Over the 64 points it holds at point 0 only. -/
theorem hcond1_0 : ∀ t : Fin cfg1.N, cond1_0 (grid1.coords t) ↔ t.val = 0 :=
  (by decide +kernel : ∀ t : Fin grid1.N, cond1_0 (grid1.coords t) ↔ t.val = 0)

/-- "This is the last grid point" (row block 7 and column block 7): the guard of the copy of both accumulators
    into the outputs. -/
abbrev cond1_1 (i : grid1.Coords) : Prop := k1_cond2 i = 1#1
/-- Over the 64 points it holds at point 63 only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

/-- The three inputs are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last point the body stores nothing into either output, and the pipeline writes neither back. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- At the last point both outputs are stored whole. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-! ## The memrefs the body is called with -/

/-- A fixed view of a 4096 × 128 staging buffer through which output contents are stated (which buffer is immaterial:
    a covering list of stores reads back the same through any). -/
abbrev VO1 : View sig .tc .vmem S4096x128 .f32 := (Memref.whole cc1_stg3_0 : Memref sig .tc .vmem S4096x128 .f32).view
/-- The staging memref each window is on at point `t`, as the pipeline passes it to the body, with its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x128 .f32 := win1_4.stage (cfg1.slots t 4)
abbrev hs1_4 (t : Fin cfg1.N) : (ms1_4 t).IsWhole := hstage1_4 ((cfg1.slots t 4).cast nbuf1_4)
/-- The two accumulators: whole scoped buffers of the call's own. -/
abbrev scM1_0 : Memref sig .tc .vmem S4096x128 .f32 := Memref.whole cc1_scratch0
abbrev scM1_1 : Memref sig .tc .vmem S4096x128 .f32 := Memref.whole cc1_scratch1
abbrev hscM1_0 : (scM1_0).IsWhole := Memref.isWhole_whole _
abbrev hscM1_1 : (scM1_1).IsWhole := Memref.isWhole_whole _

/-- What the region is entered with, the two accumulators taken out of the scoped rest as memrefs owned at some
    contents; everything else scoped stays unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
            ∗ Pipeline.scopedRestBut (Ix := Unit) (Name := ℕ) (U := Pipeline.UD sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

end Cert.KernelIdeal.Hand

end
-- ==== Proof.KI.Region1RunB.lean ====
/- Region 1, the body at a point that is neither the first nor the last: both guards fail, so the body reads the
   adjacency tile and two row slabs of the features and of the reciprocal degrees, and adds one 512-row slab into each
   accumulator. The run finds, for each accumulator, the one store (rectangle and payload) the body makes. -/
import proofs.«140086_j17265768530288_2_alg».proof.Proof.KI.Region1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 4000000 in
/-- The store lists the body leaves in the two accumulators at a middle point (last store first), with the proof
    that from the three inputs at their contents `x0 x1 x2` and the accumulators at what the point before left
    (`xs0 xs1`) the body runs and returns the inputs as they were and each accumulator at its previous raw
    contents overwritten by its list. The outputs are not touched and are not mentioned. -/
noncomputable def kernelRun1_B (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole)
    (hc0 : ¬cond1_0 i) (hc1 : ¬cond1_1 i)
    (x0 : Vec F S512x512 .f32) (x1 x2 xs0 xs1 : Vec F S4096x128 .f32) :
    Σ' (LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (arg7.view.loc (c : Thread nD τ) ↦[arg7.view.set]{fullShare} arg7.view.writes (Elt F) (harg7.unread xs0) LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__matvec_kernel i arg2 harg2 arg3 harg3 arg4 harg4 arg5 harg5 arg6 harg6 arg7 harg7 arg8 harg8) K } := by
  refine ⟨?_, ?_, fun E K => ?run⟩
  case run =>
    simp only [cc1__matvec_kernel_eq_skeleton]; unfold cc1__matvec_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexact HS0
    iexact HS1

end Cert.KernelIdeal.Hand

end
-- ==== Proof.KI.Region1RunA.lean ====
/- Region 1, the body at the first grid point: the first guard holds, so both accumulators are stored whole (zeros)
   before anything is read from them; then the body proceeds as at any point and adds one 512-row slab into each.
   The run finds, per accumulator, its two stores; the whole-buffer store makes the list cover the buffer, so what the
   accumulators held before is immaterial. -/
import proofs.«140086_j17265768530288_2_alg».proof.Proof.KI.Region1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 4000000 in
/-- The store lists the body leaves in the two accumulators at the first point (last store first), with the proof
    that from the three inputs at their contents and the accumulators at ANY contents the body runs and returns the
    inputs as they were and each accumulator overwritten by its list. The outputs are not touched. -/
noncomputable def kernelRun1_A (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole)
    (hc0 : cond1_0 i) (hc1 : ¬cond1_1 i)
    (x0 : Vec F S512x512 .f32) (x1 x2 : Vec F S4096x128 .f32) :
    Σ' (LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__matvec_kernel i arg2 harg2 arg3 harg3 arg4 harg4 arg5 harg5 arg6 harg6 arg7 harg7 arg8 harg8) K } := by
  refine ⟨?_, ?_, fun E K => ?run⟩
  case run =>
    simp only [cc1__matvec_kernel_eq_skeleton]; unfold cc1__matvec_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.Region1RunC.lean ====
/- Region 1, the body at the last grid point: the first guard fails and the second holds, so after adding one
   512-row slab into each accumulator the body loads each accumulator whole and stores it whole into its output's
   staging buffer. The run finds the accumulators' stores and, per output, its one whole store. -/
import proofs.«140086_j17265768530288_2_alg».proof.Proof.KI.Region1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 4000000 in
/-- The store lists the body leaves in the two outputs' staging buffers and in the two accumulators at the last point
    (last store first), with the proof that from the three inputs at their contents, the outputs' buffers at anything
    and the accumulators at what the point before left the body runs and returns the inputs as they were, each
    output's buffer overwritten by its list, and each accumulator at its previous raw contents overwritten by its list. -/
noncomputable def kernelRun1_C (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole)
    (hc0 : ¬cond1_0 i) (hc1 : cond1_1 i)
    (x0 : Vec F S512x512 .f32) (x1 x2 xs0 xs1 : Vec F S4096x128 .f32) :
    Σ' (L3 L4 LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (arg7.view.loc (c : Thread nD τ) ↦[arg7.view.set]{fullShare} arg7.view.writes (Elt F) (harg7.unread xs0) LS0)
                ∗ (arg8.view.loc (c : Thread nD τ) ↦[arg8.view.set]{fullShare} arg8.view.writes (Elt F) (harg8.unread xs1) LS1)) -∗ K ⟨⟩))
          ⊢ wp frame (wpE (defs₀ (F := F)) Variants.none c none) E (cc1__matvec_kernel i arg2 harg2 arg3 harg3 arg4 harg4 arg5 harg5 arg6 harg6 arg7 harg7 arg8 harg8) K } := by
  refine ⟨?_, ?_, ?_, ?_, fun E K => ?run⟩
  case run =>
    simp only [cc1__matvec_kernel_eq_skeleton]; unfold cc1__matvec_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexact HS0
    iexact HS1

end Cert.KernelIdeal.Hand

end
-- ==== Proof.KI.Region1.lean ====
/- Region 1 (the first mat-vec pass): its half of the frame. What the two accumulators and the two outputs hold after
   each of the 64 points, as a recursion on the point over the three runs of the body; the region invariant that
   carries the accumulators from point to point; the proof data; the body obligation; and that the invariant starts
   from and ends in what the launch hands over. -/
import proofs.«140086_j17265768530288_2_alg».proof.Proof.KI.Region1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-! ## What one run of the body leaves -/

/-- The four 4096 × 128 contents a point leaves behind: the two outputs' staging buffers and the two accumulators. -/
structure Outs1 (F : FTy → Type) where
  o3 : Vec F S4096x128 .f32
  o4 : Vec F S4096x128 .f32
  s0 : Vec F S4096x128 .f32
  s1 : Vec F S4096x128 .f32

/-- Contents standing for "not specified": at a point where an output is idle nothing reads what the proof data
    says of it. -/
def unset1 : Vec F S4096x128 .f32 := VO1.read (Elt F) VO1.junk

/-- First point: each accumulator's store list covers it (its first store is the whole buffer). -/
theorem scover1_A_0 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : cond1_0 i) (hc1 : ¬cond1_1 i)
    (x0 : Vec F S512x512 .f32) (x1 x2 : Vec F S4096x128 .f32) (y : S4096x128.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL _ S4096x128.size (by sl_kernel_rfl) y
theorem scover1_A_1 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : cond1_0 i) (hc1 : ¬cond1_1 i)
    (x0 : Vec F S512x512 .f32) (x1 x2 : Vec F S4096x128 .f32) (y : S4096x128.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL _ S4096x128.size (by sl_kernel_rfl) y

/-- First point: what each accumulator holds afterwards — its stores read back (over anything, by the cover). -/
def sout1_A_0 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : cond1_0 i) (hc1 : ¬cond1_1 i)
    (x0 : Vec F S512x512 .f32) (x1 x2 : Vec F S4096x128 .f32) : Vec F S4096x128 .f32 :=
  VO1.read (Elt F) (VO1.writes (Elt F) VO1.junk (kernelRun1_A c i arg2 harg2 arg3 harg3 arg4 harg4 arg5 harg5 arg6 harg6 arg7 harg7 arg8 harg8 hc0 hc1 x0 x1 x2).1)
def sout1_A_1 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : cond1_0 i) (hc1 : ¬cond1_1 i)
    (x0 : Vec F S512x512 .f32) (x1 x2 : Vec F S4096x128 .f32) : Vec F S4096x128 .f32 :=
  VO1.read (Elt F) (VO1.writes (Elt F) VO1.junk (kernelRun1_A c i arg2 harg2 arg3 harg3 arg4 harg4 arg5 harg5 arg6 harg6 arg7 harg7 arg8 harg8 hc0 hc1 x0 x1 x2).2.1)

/-- A middle point: what each accumulator holds afterwards — the contents the point before left, with this point's
    one slab store written over them. -/
def sout1_B_0 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : ¬cond1_1 i)
    (x0 : Vec F S512x512 .f32) (x1 x2 xs0 xs1 : Vec F S4096x128 .f32) : Vec F S4096x128 .f32 :=
  arg7.view.read (Elt F) (arg7.view.writes (Elt F) (harg7.unread xs0) (kernelRun1_B c i arg2 harg2 arg3 harg3 arg4 harg4 arg5 harg5 arg6 harg6 arg7 harg7 arg8 harg8 hc0 hc1 x0 x1 x2 xs0 xs1).1)
def sout1_B_1 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : ¬cond1_1 i)
    (x0 : Vec F S512x512 .f32) (x1 x2 xs0 xs1 : Vec F S4096x128 .f32) : Vec F S4096x128 .f32 :=
  arg8.view.read (Elt F) (arg8.view.writes (Elt F) (harg8.unread xs1) (kernelRun1_B c i arg2 harg2 arg3 harg3 arg4 harg4 arg5 harg5 arg6 harg6 arg7 harg7 arg8 harg8 hc0 hc1 x0 x1 x2 xs0 xs1).2.1)

/-- The last point: the accumulators as at a middle point; -/
def sout1_C_0 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) : Vec F S4096x128 .f32 :=
  arg7.view.read (Elt F) (arg7.view.writes (Elt F) (harg7.unread xs0) (kernelRun1_C c i arg2 harg2 arg3 harg3 arg4 harg4 arg5 harg5 arg6 harg6 arg7 harg7 arg8 harg8 hc0 hc1 x0 x1 x2 xs0 xs1).2.2.1)
def sout1_C_1 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) : Vec F S4096x128 .f32 :=
  arg8.view.read (Elt F) (arg8.view.writes (Elt F) (harg8.unread xs1) (kernelRun1_C c i arg2 harg2 arg3 harg3 arg4 harg4 arg5 harg5 arg6 harg6 arg7 harg7 arg8 harg8 hc0 hc1 x0 x1 x2 xs0 xs1).2.2.2.1)

/-- and each output's staging buffer is covered by its one whole store, -/
theorem cover1_C_3 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) (y : S4096x128.Idx) :
    ∃ pc ∈ (kernelRun1_C c i arg2 harg2 arg3 harg3 arg4 harg4 arg5 harg5 arg6 harg6 arg7 harg7 arg8 harg8 hc0 hc1 x0 x1 x2 xs0 xs1).1, y ∈ pc.1.set :=
  View.cover_of_tiledL _ S4096x128.size (by sl_kernel_rfl) y
theorem cover1_C_4 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) (y : S4096x128.Idx) :
    ∃ pc ∈ (kernelRun1_C c i arg2 harg2 arg3 harg3 arg4 harg4 arg5 harg5 arg6 harg6 arg7 harg7 arg8 harg8 hc0 hc1 x0 x1 x2 xs0 xs1).2.1, y ∈ pc.1.set :=
  View.cover_of_tiledL _ S4096x128.size (by sl_kernel_rfl) y

/-- so that it holds that store read back. -/
def out1_C_3 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) : Vec F S4096x128 .f32 :=
  VO1.read (Elt F) (VO1.writes (Elt F) VO1.junk (kernelRun1_C c i arg2 harg2 arg3 harg3 arg4 harg4 arg5 harg5 arg6 harg6 arg7 harg7 arg8 harg8 hc0 hc1 x0 x1 x2 xs0 xs1).1)
def out1_C_4 (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (hc0 : ¬cond1_0 i) (hc1 : cond1_1 i)
    (x0 : Vec F S512x512 .f32) (x1 x2 xs0 xs1 : Vec F S4096x128 .f32) : Vec F S4096x128 .f32 :=
  VO1.read (Elt F) (VO1.writes (Elt F) VO1.junk (kernelRun1_C c i arg2 harg2 arg3 harg3 arg4 harg4 arg5 harg5 arg6 harg6 arg7 harg7 arg8 harg8 hc0 hc1 x0 x1 x2 xs0 xs1).2.1)

/-! ## Point by point -/

/-- What the first point leaves. -/
def stepA1 (c : Dev nD) (t : Fin cfg1.N) (h0 : t.val = 0) : Outs1 F where
  o3 := unset1
  o4 := unset1
  s0 := sout1_A_0 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 ((hcond1_0 t).mpr h0) (fun h => by have := (hcond1_1 t).mp h; omega) (iblk1 V c 0 t) (iblk1 V c 1 t) (iblk1 V c 2 t)
  s1 := sout1_A_1 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 ((hcond1_0 t).mpr h0) (fun h => by have := (hcond1_1 t).mp h; omega) (iblk1 V c 0 t) (iblk1 V c 1 t) (iblk1 V c 2 t)

/-- What a middle point leaves, over what the point before left (`p`). -/
def stepB1 (c : Dev nD) (t : Fin cfg1.N) (h0 : t.val ≠ 0) (h1 : t.val ≠ 63) (p : Outs1 F) : Outs1 F where
  o3 := unset1
  o4 := unset1
  s0 := sout1_B_0 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) (fun h => h1 ((hcond1_1 t).mp h)) (iblk1 V c 0 t) (iblk1 V c 1 t) (iblk1 V c 2 t) p.s0 p.s1
  s1 := sout1_B_1 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) (fun h => h1 ((hcond1_1 t).mp h)) (iblk1 V c 0 t) (iblk1 V c 1 t) (iblk1 V c 2 t) p.s0 p.s1

/-- What the last point leaves, over what the point before left. -/
def stepC1 (c : Dev nD) (t : Fin cfg1.N) (h0 : t.val ≠ 0) (h1 : t.val = 63) (p : Outs1 F) : Outs1 F where
  o3 := out1_C_3 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) ((hcond1_1 t).mpr h1) (iblk1 V c 0 t) (iblk1 V c 1 t) (iblk1 V c 2 t) p.s0 p.s1
  o4 := out1_C_4 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) ((hcond1_1 t).mpr h1) (iblk1 V c 0 t) (iblk1 V c 1 t) (iblk1 V c 2 t) p.s0 p.s1
  s0 := sout1_C_0 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) ((hcond1_1 t).mpr h1) (iblk1 V c 0 t) (iblk1 V c 1 t) (iblk1 V c 2 t) p.s0 p.s1
  s1 := sout1_C_1 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (fun h => h0 ((hcond1_0 t).mp h)) ((hcond1_1 t).mpr h1) (iblk1 V c 0 t) (iblk1 V c 1 t) (iblk1 V c 2 t) p.s0 p.s1

/-- The accumulation: what the outputs' buffers and the accumulators hold after the body at position `n`. -/
def outsAt1 (c : Dev nD) : (n : ℕ) → n < cfg1.N → Outs1 F
  | 0, hn => stepA1 V c ⟨0, hn⟩ rfl
  | n + 1, hn =>
    if h1 : n + 1 = 63 then stepC1 V c ⟨n + 1, hn⟩ (Nat.succ_ne_zero n) h1 (outsAt1 c n (Nat.lt_of_succ_lt hn))
    else stepB1 V c ⟨n + 1, hn⟩ (Nat.succ_ne_zero n) h1 (outsAt1 c n (Nat.lt_of_succ_lt hn))

theorem outsAt1_first (c : Dev nD) (t : Fin cfg1.N) (h0 : t.val = 0) : outsAt1 V c t.val t.isLt = stepA1 V c t h0 := by
  obtain ⟨n, hn⟩ := t
  cases n with
  | zero => rfl
  | succ n => exact absurd h0 (Nat.succ_ne_zero n)

theorem outsAt1_mid (c : Dev nD) (t : Fin cfg1.N) (h0 : t.val ≠ 0) (h1 : t.val ≠ 63) :
    outsAt1 V c t.val t.isLt = stepB1 V c t h0 h1 (outsAt1 V c (t.val - 1) (Nat.lt_of_le_of_lt (Nat.sub_le _ _) t.isLt)) := by
  obtain ⟨n, hn⟩ := t
  cases n with
  | zero => exact absurd rfl h0
  | succ n => exact (dif_neg h1).trans rfl

theorem outsAt1_last (c : Dev nD) (t : Fin cfg1.N) (h0 : t.val ≠ 0) (h1 : t.val = 63) :
    outsAt1 V c t.val t.isLt = stepC1 V c t h0 h1 (outsAt1 V c (t.val - 1) (Nat.lt_of_le_of_lt (Nat.sub_le _ _) t.isLt)) := by
  obtain ⟨n, hn⟩ := t
  cases n with
  | zero => exact absurd rfl h0
  | succ n => exact (dif_pos h1).trans rfl

/-! ## The invariant that carries the accumulators -/

/-- Before position `n`: at the start what the launch hands over (both accumulators at anything); afterwards both
    accumulators at exactly what the point before left in them, beside the unopened scoped rest and the generator
    register at some state. -/
def PhiS1 (c : Dev nD) : (n : ℕ) → n ≤ cfg1.N → sProp 𝕄
  | 0, _ => Pipeline.ΦA spec1 c
  | n + 1, hn =>
    iprop(iprop(iprop(owns (c : Thread nD τ) scM1_0 fullShare (outsAt1 V c n hn).s0 ∗ owns (c : Thread nD τ) scM1_1 fullShare (outsAt1 V c n hn).s1)
        ∗ Pipeline.scopedRestBut (Ix := Unit) (Name := ℕ) (U := Pipeline.UD sig nD τ) (Lvl := ℕ) (Val := Elt F) spec1 c [cc1_scratch0, cc1_scratch1])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn =
      iprop(iprop(iprop(owns (c : Thread nD τ) scM1_0 fullShare (outsAt1 V c n hn).s0 ∗ owns (c : Thread nD τ) scM1_1 fullShare (outsAt1 V c n hn).s1)
          ∗ Pipeline.scopedRestBut (Ix := Unit) (Name := ℕ) (U := Pipeline.UD sig nD τ) (Lvl := ℕ) (Val := Elt F) spec1 c [cc1_scratch0, cc1_scratch1])
        ∗ (∃ r, prngReg c r)) := rfl

theorem PhiS1_pos (c : Dev nD) (n : ℕ) (h : n ≤ cfg1.N) (hz : n ≠ 0) :
    PhiS1 V c n h =
      iprop(iprop(iprop(owns (c : Thread nD τ) scM1_0 fullShare (outsAt1 V c (n - 1) (by omega)).s0 ∗ owns (c : Thread nD τ) scM1_1 fullShare (outsAt1 V c (n - 1) (by omega)).s1)
          ∗ Pipeline.scopedRestBut (Ix := Unit) (Name := ℕ) (U := Pipeline.UD sig nD τ) (Lvl := ℕ) (Val := Elt F) spec1 c [cc1_scratch0, cc1_scratch1])
        ∗ (∃ r, prngReg c r)) := by
  cases n with
  | zero => exact absurd rfl hz
  | succ n => rfl

/-! ## The proof data -/

/-- Pipeline 1 on core `c`: the arrays as the region finds them; after the body each input's buffer at its block,
    each output's at what `outsAt1` says; the invariant `PhiS1`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).o3
    | ⟨4, _⟩ => (outsAt1 V c t.val t.isLt).o4
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).o3 := by dsimp only [dat1]
theorem after1_4 (c : Dev nD) (t : Fin cfg1.N) : (dat1 V c).after 4 t = (outsAt1 V c t.val t.isLt).o4 := by dsimp only [dat1]

/-- Each input's staging buffer holds its block whenever the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the five windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it must return. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's number decides which of the three runs
    applies; the invariant hands over the accumulators (at anything at the first point, at what the point before left
    otherwise) and takes them back at this point's contents; away from the last point the outputs' buffers go back
    untouched, at the last point each comes back covered by its one store; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val = 0
  · -- the first point
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1),
      Dat.leavesExact_idle (dat1 V c) 4 t (idleAt1_4 t hc1) (noFlush1_4 t hc1)]
    rw [outsAt1_first V c t h0]
    unfold stepA1 sout1_A_0 sout1_A_1; (try dsimp only)
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, H3, H4⟩
    iapply ((kernelRun1_A c (grid1.coords t) _ _ _ _ _ _ _ _ _ _ _ _ _ _ hc0 hc1 (iblk1 V c 0 t) (iblk1 V c 1 t) (iblk1 V c 2 t)).2.2 Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    iexact H4
  · have hc0 : ¬cond1_0 (grid1.coords t) := fun h => h0 ((hcond1_0 t).mp h)
    by_cases h1 : t.val = 63
    · -- the last point
      have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [show (dat1 V c).leavesExact 4 t = owns (c : Thread nD τ) (ms1_4 t) fullShare ((dat1 V c).after 4 t) from by
        unfold Dat.leavesExact; rw [liveAt1_4 t hc1], after1_4]
      rw [outsAt1_last V c t h0 h1]
      unfold stepC1 out1_C_3 out1_C_4 sout1_C_0 sout1_C_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ hc0 hc1 (iblk1 V c 0 t) (iblk1 V c 1 t) (iblk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, HS1⟩
      isplitl [HS0 HS1 HR Hg]
      · isplitl [HS0 HS1 HR]
        · isplitl [HS0 HS1]
          · isplitl [HS0]
            · unfold owns; iexists _; isplitr
              swap; · iexact HS0
              ipureintro; rfl
            · unfold owns; iexists _; isplitr
              swap; · iexact HS1
              ipureintro; rfl
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _ _ _ _)
      unfold owns; iexists _; isplitr
      swap; · iexact H4
      ipureintro; exact View.read_writes_of_cover _ _ _ _ _ (cover1_C_4 c _ _ _ _ _ _ _ _ _ _ _ _ _ _ _ _ _ _ _ _ _ _)
    · -- a middle point
      have hc1 : ¬cond1_1 (grid1.coords t) := fun h => h1 ((hcond1_1 t).mp h)
      rw [Dat.leavesExact_idle (dat1 V c) 3 t (idleAt1_3 t hc1) (noFlush1_3 t hc1),
        Dat.leavesExact_idle (dat1 V c) 4 t (idleAt1_4 t hc1) (noFlush1_4 t hc1)]
      rw [outsAt1_mid V c t h0 h1]
      unfold stepB1 sout1_B_0 sout1_B_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, H3, H4⟩
      iapply ((kernelRun1_B c (grid1.coords t) _ _ _ _ _ _ _ _ _ _ _ _ _ _ hc0 hc1 (iblk1 V c 0 t) (iblk1 V c 1 t) (iblk1 V c 2 t) _ _).2.2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]
            · unfold owns; iexists _; isplitr
              swap; · iexact HS0
              ipureintro; rfl
            · unfold owns; iexists _; isplitr
              swap; · iexact HS1
              ipureintro; rfl
          iexact HR
        iexact Hg
      isplitl [Ho]; · iexact Ho
      isplitl [H0]; · iexact H0
      isplitl [H1]; · iexact H1
      isplitl [H2]; · iexact H2
      isplitl [H3]; · iexact H3
      iexact H4

/-- The obligation as the library states it, at every point. -/
theorem body_obligation1 (c : Dev nD) : BodyObligation (dat1 (F := F) V c) (defs₀ (F := F)) Variants.none () Set.univ := fun t => by
  rw [bigSep_W1, bigSep_W1]
  exact sound_body1 V c t

/-- The launch's hand-over is the invariant before the first point. -/
theorem PhiIn1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the hand-over back: what the accumulators hold is forgotten. -/
theorem PhiOut1 (c : Dev nD) : (dat1 V c).Φ (Fin.last cfg1.N) ⊢ (Pipeline.ΦA spec1 c : sProp 𝕄) := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region1

end Cert.KernelIdeal.Hand

end
-- ==== Proof.KI.Region2Base.lean ====
import proofs.«140086_j17265768530288_2_alg».proof.Proof.Gen.KernelIdeal.Launch
import proofs.«140086_j17265768530288_2_alg».proof.Proof.Gen.KernelIdeal.Skeleton
import proofs.«140086_j17265768530288_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (the second diffusion pass, grid 8 × 8): what its three runs and its frame half share

The body accumulates, tile by tile of the adjacency matrix, P·y1 into one scratch accumulator and Pᵀ·y2 into the other:
both are zeroed at the first grid point, each point adds one 512-row slab to each, and the last point combines each
accumulator with its y into an output. Here: the windows' blocks at a point, what each input's staging buffer holds
there, the two guards of the body in closed form over the point's number, where the two outputs are idle, the memrefs
the body is called with, and the region's hand-over with the two accumulators made visible. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Blocks
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency tile (window 0) is fetched at every point, so its buffer holds the point's tile when the body starts. For any proof data over these arrays whose body hands the block back. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The reciprocal degrees (window 1) are one whole block fetched at the first point; the block index never moves and the body only reads the buffer, so it holds that block at every point. For any proof data over these arrays whose body hands the block back. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The first pass's forward result y1 (window 2): one whole block fetched once, likewise. For any proof data over these arrays whose body hands the block back. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The first pass's reverse result y2 (window 3): one whole block fetched once, likewise. For any proof data over these arrays whose body hands the block back. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's two guards, over the point's number -/

/-- "Row block 0 and column block 0": the guard under which both accumulators are zeroed, as the body computes it. -/
abbrev cond2_0 (i : grid2.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Of the 64 points only point 0 meets it. -/
theorem hcond2_0 : ∀ t : Fin cfg2.N, cond2_0 (grid2.coords t) ↔ t.val = 0 :=
  (by decide +kernel : ∀ t : Fin grid2.N, cond2_0 (grid2.coords t) ↔ t.val = 0)

/-- "Row block 7 and column block 7": the guard under which the accumulators are combined into the outputs. -/
abbrev cond2_1 (i : grid2.Coords) : Prop := k2_cond2 i = 1#1
/-- Of the 64 points only point 63 meets it. -/
theorem hcond2_1 : ∀ t : Fin cfg2.N, cond2_1 (grid2.coords t) ↔ t.val = 63 :=
  (by decide +kernel : ∀ t : Fin grid2.N, cond2_1 (grid2.coords t) ↔ t.val = 63)

/-! ## Where the windows are idle -/

/-- The four inputs are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
/-- Before the last point the body stores into neither output and the pipeline writes neither back; -/
theorem idleAt2_4 : ∀ t : Fin cfg2.N, ¬cond2_1 (grid2.coords t) → cfg2.idle 4 (grid2.coords t) = true := by decide +kernel
theorem idleAt2_5 : ∀ t : Fin cfg2.N, ¬cond2_1 (grid2.coords t) → cfg2.idle 5 (grid2.coords t) = true := by decide +kernel
theorem noFlush2_4 : ∀ t : Fin cfg2.N, ¬cond2_1 (grid2.coords t) → (cfg2.win 4).flush t = false := by decide +kernel
theorem noFlush2_5 : ∀ t : Fin cfg2.N, ¬cond2_1 (grid2.coords t) → (cfg2.win 5).flush t = false := by decide +kernel
/-- at the last point both are stored whole. -/
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

/-! ## The memrefs the body is called with -/

/-- One 4096 × 128 staging buffer's view, through which output contents are stated (a covering list of stores reads back
    the same through any such view). -/
abbrev VO2 : View sig .tc .vmem S4096x128 .f32 := (Memref.whole cc2_stg4_0 : Memref sig .tc .vmem S4096x128 .f32).view
/-- The staging memref each window is on at point `t`, as the pipeline hands it to the body, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x128 .f32 := win2_5.stage (cfg2.slots t 5)
abbrev hs2_5 (t : Fin cfg2.N) : (ms2_5 t).IsWhole := hstage2_5 ((cfg2.slots t 5).cast nbuf2_5)
/-- The two accumulators: whole scoped buffers of the call's own. -/
abbrev scM2_0 : Memref sig .tc .vmem S4096x128 .f32 := Memref.whole cc2_scratch0
abbrev scM2_1 : Memref sig .tc .vmem S4096x128 .f32 := Memref.whole cc2_scratch1
abbrev hscM2_0 : (scM2_0).IsWhole := Memref.isWhole_whole _
abbrev hscM2_1 : (scM2_1).IsWhole := Memref.isWhole_whole _

/-- What the region is entered with, the two accumulators taken out of the core's other scoped buffers as memrefs owned
    at some contents; the others stay unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
            ∗ Pipeline.scopedRestBut (Ix := Unit) (Name := ℕ) (U := Pipeline.UD sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

end Cert.KernelIdeal.Hand

end
-- ==== Proof.KI.Region2RunA.lean ====
import proofs.«140086_j17265768530288_2_alg».proof.Proof.KI.Region2Base

/-! # Region 2, the body's run at the first grid point

Both guards decided (zero the accumulators: yes; combine into the outputs: no), the body zeroes both accumulators whole
and then adds its slab to each. The run finds the list of stores each accumulator ends with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The stores the body leaves in the two accumulators at the first point (last first), with the proof that from the four
    inputs at their contents and the accumulators at ANY contents the body runs and hands back the inputs as they were
    and each accumulator overwritten by its list. The outputs' buffers are not touched and not mentioned. -/
noncomputable def kernelRun2_A (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)
    (hc0 : cond2_0 i) (hc1 : ¬cond2_1 i)
    (x0 : Vec F S512x512 .f32) (x1 x2 x3 : Vec F S4096x128 .f32) :
    Σ' (LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc2__diffuse2_kernel i arg2 harg2 arg3 harg3 arg4 harg4 arg5 harg5 arg6 harg6 arg7 harg7 arg8 harg8 arg9 harg9) K } := by
  refine ⟨?_, ?_, fun E K => ?run⟩
  case run =>
    simp only [cc2__diffuse2_kernel_eq_skeleton]; unfold cc2__diffuse2_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.Region2RunB.lean ====
import proofs.«140086_j17265768530288_2_alg».proof.Proof.KI.Region2RunA

/-! # Region 2, the body's run at a middle grid point

Neither guard holds: the body adds its slab to each accumulator and touches nothing else. The accumulators go in at what
the point before left and come out at those contents with this point's slab store written over them. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The stores the body leaves in the two accumulators at a middle point (last first), with the proof that from the four
    inputs at their contents and the accumulators at `xs0 xs1` the body runs and hands back the inputs as they were and
    each accumulator at its previous contents overwritten by its list. The outputs' buffers are not mentioned. -/
noncomputable def kernelRun2_B (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)
    (hc0 : ¬cond2_0 i) (hc1 : ¬cond2_1 i)
    (x0 : Vec F S512x512 .f32) (x1 x2 x3 xs0 xs1 : Vec F S4096x128 .f32) :
    Σ' (LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc2__diffuse2_kernel i arg2 harg2 arg3 harg3 arg4 harg4 arg5 harg5 arg6 harg6 arg7 harg7 arg8 harg8 arg9 harg9) K } := by
  refine ⟨?_, ?_, fun E K => ?run⟩
  case run =>
    simp only [cc2__diffuse2_kernel_eq_skeleton]; unfold cc2__diffuse2_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexact HS0
    iexact HS1

end Cert.KernelIdeal.Hand

end
-- ==== Proof.KI.Region2RunC.lean ====
import proofs.«140086_j17265768530288_2_alg».proof.Proof.KI.Region2RunB

/-! # Region 2, the body's run at the last grid point

The combine guard holds: after adding its slab to each accumulator the body reads each accumulator and its y whole and
stores half of y plus a quarter of the accumulator over the whole of each output's buffer. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The stores the body leaves in the two outputs' buffers and in the two accumulators at the last point (last first),
    with the proof that from the four inputs at their contents, the outputs' buffers at anything and the accumulators at
    `xs0 xs1` the body runs and hands back the inputs as they were, each output's buffer overwritten by its list, and each
    accumulator at its previous contents overwritten by its list. -/
noncomputable def kernelRun2_C (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole)
    (hc0 : ¬cond2_0 i) (hc1 : cond2_1 i)
    (x0 : Vec F S512x512 .f32) (x1 x2 x3 xs0 xs1 : Vec F S4096x128 .f32) :
    Σ' (L4 L5 LS0 : List (View.Piece (Elt F) S4096x128 .f32)), { LS1 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)) -∗ K ⟨⟩))
          ⊢ wp frame (wpE (defs₀ (F := F)) Variants.none c none) E (cc2__diffuse2_kernel i arg2 harg2 arg3 harg3 arg4 harg4 arg5 harg5 arg6 harg6 arg7 harg7 arg8 harg8 arg9 harg9) K } := by
  refine ⟨?_, ?_, ?_, ?_, fun E K => ?run⟩
  case run =>
    simp only [cc2__diffuse2_kernel_eq_skeleton]; unfold cc2__diffuse2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexact HS0
    iexact HS1

end Cert.KernelIdeal.Hand

end
-- ==== Proof.KI.Region2.lean ====
import proofs.«140086_j17265768530288_2_alg».proof.Proof.KI.Region2RunC

/-! # Region 2 of @main (the second diffusion pass): its half of the frame

What the two accumulators and the two outputs' buffers hold after each of the 64 points, as a recursion on the point over
the body's three runs; the invariant that carries the accumulators from one point to the next; the proof data; the body
obligation; and that the invariant begins at, and ends in, what the region is handed and hands back. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

/-! ## What one run of the body leaves -/

/-- The four 4096 × 128 contents a point leaves: the two outputs' staging buffers and the two accumulators. -/
structure Outs2 (F : FTy → Type) where
  o4 : Vec F S4096x128 .f32
  o5 : Vec F S4096x128 .f32
  s0 : Vec F S4096x128 .f32
  s1 : Vec F S4096x128 .f32

/-- Contents standing for "unspecified": where an output is idle nothing consults what the proof data says of it. -/
def unset2 : Vec F S4096x128 .f32 := VO2.read (Elt F) VO2.junk

/-- At the first point each accumulator's stores cover it: the first of them zeroes the whole buffer. -/
theorem scover2_A_0 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec F S512x512 .f32) (x1 x2 x3 : Vec F S4096x128 .f32) (y : S4096x128.Idx) :
    ∃ pc ∈ (kernelRun2_A c i arg2 harg2 arg3 harg3 arg4 harg4 arg5 harg5 arg6 harg6 arg7 harg7 arg8 harg8 arg9 harg9 hc0 hc1 x0 x1 x2 x3).1, y ∈ pc.1.set :=
  View.cover_of_tiledL _ S4096x128.size (by sl_kernel_rfl) y
theorem scover2_A_1 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec F S512x512 .f32) (x1 x2 x3 : Vec F S4096x128 .f32) (y : S4096x128.Idx) :
    ∃ pc ∈ (kernelRun2_A c i arg2 harg2 arg3 harg3 arg4 harg4 arg5 harg5 arg6 harg6 arg7 harg7 arg8 harg8 arg9 harg9 hc0 hc1 x0 x1 x2 x3).2.1, y ∈ pc.1.set :=
  View.cover_of_tiledL _ S4096x128.size (by sl_kernel_rfl) y

/-- What each accumulator holds after the first point: its stores read back (over anything, since they cover). -/
def sout2_A_0 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec F S512x512 .f32) (x1 x2 x3 : Vec F S4096x128 .f32) : Vec F S4096x128 .f32 :=
  VO2.read (Elt F) (VO2.writes (Elt F) VO2.junk (kernelRun2_A c i arg2 harg2 arg3 harg3 arg4 harg4 arg5 harg5 arg6 harg6 arg7 harg7 arg8 harg8 arg9 harg9 hc0 hc1 x0 x1 x2 x3).1)
def sout2_A_1 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec F S512x512 .f32) (x1 x2 x3 : Vec F S4096x128 .f32) : Vec F S4096x128 .f32 :=
  VO2.read (Elt F) (VO2.writes (Elt F) VO2.junk (kernelRun2_A c i arg2 harg2 arg3 harg3 arg4 harg4 arg5 harg5 arg6 harg6 arg7 harg7 arg8 harg8 arg9 harg9 hc0 hc1 x0 x1 x2 x3).2.1)

/-- What each accumulator holds after a middle point: what the point before left, with this point's one slab store written over it. -/
def sout2_B_0 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : ¬cond2_1 i)
    (x0 : Vec F S512x512 .f32) (x1 x2 x3 xs0 xs1 : Vec F S4096x128 .f32) : Vec F S4096x128 .f32 :=
  arg8.view.read (Elt F) (arg8.view.writes (Elt F) (harg8.unread xs0) (kernelRun2_B c i arg2 harg2 arg3 harg3 arg4 harg4 arg5 harg5 arg6 harg6 arg7 harg7 arg8 harg8 arg9 harg9 hc0 hc1 x0 x1 x2 x3 xs0 xs1).1)
def sout2_B_1 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : ¬cond2_1 i)
    (x0 : Vec F S512x512 .f32) (x1 x2 x3 xs0 xs1 : Vec F S4096x128 .f32) : Vec F S4096x128 .f32 :=
  arg9.view.read (Elt F) (arg9.view.writes (Elt F) (harg9.unread xs1) (kernelRun2_B c i arg2 harg2 arg3 harg3 arg4 harg4 arg5 harg5 arg6 harg6 arg7 harg7 arg8 harg8 arg9 harg9 hc0 hc1 x0 x1 x2 x3 xs0 xs1).2.1)

/-- The last point leaves the accumulators as a middle point does; -/
def sout2_C_0 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) : Vec F S4096x128 .f32 :=
  arg8.view.read (Elt F) (arg8.view.writes (Elt F) (harg8.unread xs0) (kernelRun2_C c i arg2 harg2 arg3 harg3 arg4 harg4 arg5 harg5 arg6 harg6 arg7 harg7 arg8 harg8 arg9 harg9 hc0 hc1 x0 x1 x2 x3 xs0 xs1).2.2.1)
def sout2_C_1 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) : Vec F S4096x128 .f32 :=
  arg9.view.read (Elt F) (arg9.view.writes (Elt F) (harg9.unread xs1) (kernelRun2_C c i arg2 harg2 arg3 harg3 arg4 harg4 arg5 harg5 arg6 harg6 arg7 harg7 arg8 harg8 arg9 harg9 hc0 hc1 x0 x1 x2 x3 xs0 xs1).2.2.2.1)

/-- each output's buffer is covered by its one whole store, -/
theorem cover2_C_4 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) (y : S4096x128.Idx) :
    ∃ pc ∈ (kernelRun2_C c i arg2 harg2 arg3 harg3 arg4 harg4 arg5 harg5 arg6 harg6 arg7 harg7 arg8 harg8 arg9 harg9 hc0 hc1 x0 x1 x2 x3 xs0 xs1).1, y ∈ pc.1.set :=
  View.cover_of_tiledL _ S4096x128.size (by sl_kernel_rfl) y
theorem cover2_C_5 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) (y : S4096x128.Idx) :
    ∃ pc ∈ (kernelRun2_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL _ S4096x128.size (by sl_kernel_rfl) y

/-- and so holds that store read back. -/
def out2_C_4 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) : Vec F S4096x128 .f32 :=
  VO2.read (Elt F) (VO2.writes (Elt F) VO2.junk (kernelRun2_C c i arg2 harg2 arg3 harg3 arg4 harg4 arg5 harg5 arg6 harg6 arg7 harg7 arg8 harg8 arg9 harg9 hc0 hc1 x0 x1 x2 x3 xs0 xs1).1)
def out2_C_5 (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec F S512x512 .f32) (x1 x2 x3 xs0 xs1 : Vec F S4096x128 .f32) : Vec F S4096x128 .f32 :=
  VO2.read (Elt F) (VO2.writes (Elt F) VO2.junk (kernelRun2_C c i arg2 harg2 arg3 harg3 arg4 harg4 arg5 harg5 arg6 harg6 arg7 harg7 arg8 harg8 arg9 harg9 hc0 hc1 x0 x1 x2 x3 xs0 xs1).2.1)

/-! ## Point by point -/

/-- What the first point leaves. -/
def stepA2 (c : Dev nD) (t : Fin cfg2.N) (h0 : t.val = 0) : Outs2 F where
  o4 := unset2
  o5 := unset2
  s0 := sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 ((hcond2_0 t).mpr h0) (fun h => by have := (hcond2_1 t).mp h; omega) (iblk2 V c 0 t) (iblk2 V c 1 t) (iblk2 V c 2 t) (iblk2 V c 3 t)
  s1 := sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 ((hcond2_0 t).mpr h0) (fun h => by have := (hcond2_1 t).mp h; omega) (iblk2 V c 0 t) (iblk2 V c 1 t) (iblk2 V c 2 t) (iblk2 V c 3 t)

/-- What a middle point leaves, over what the point before left (`p`). -/
def stepB2 (c : Dev nD) (t : Fin cfg2.N) (h0 : t.val ≠ 0) (h1 : t.val ≠ 63) (p : Outs2 F) : Outs2 F where
  o4 := unset2
  o5 := unset2
  s0 := sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) (fun h => h1 ((hcond2_1 t).mp h)) (iblk2 V c 0 t) (iblk2 V c 1 t) (iblk2 V c 2 t) (iblk2 V c 3 t) p.s0 p.s1
  s1 := sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) (fun h => h1 ((hcond2_1 t).mp h)) (iblk2 V c 0 t) (iblk2 V c 1 t) (iblk2 V c 2 t) (iblk2 V c 3 t) p.s0 p.s1

/-- What the last point leaves, over what the point before left. -/
def stepC2 (c : Dev nD) (t : Fin cfg2.N) (h0 : t.val ≠ 0) (h1 : t.val = 63) (p : Outs2 F) : Outs2 F where
  o4 := out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) ((hcond2_1 t).mpr h1) (iblk2 V c 0 t) (iblk2 V c 1 t) (iblk2 V c 2 t) (iblk2 V c 3 t) p.s0 p.s1
  o5 := out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) ((hcond2_1 t).mpr h1) (iblk2 V c 0 t) (iblk2 V c 1 t) (iblk2 V c 2 t) (iblk2 V c 3 t) p.s0 p.s1
  s0 := sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) ((hcond2_1 t).mpr h1) (iblk2 V c 0 t) (iblk2 V c 1 t) (iblk2 V c 2 t) (iblk2 V c 3 t) p.s0 p.s1
  s1 := sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 (fun h => h0 ((hcond2_0 t).mp h)) ((hcond2_1 t).mpr h1) (iblk2 V c 0 t) (iblk2 V c 1 t) (iblk2 V c 2 t) (iblk2 V c 3 t) p.s0 p.s1

/-- The accumulation: what the outputs' buffers and the accumulators hold after the body at position `n`. -/
def outsAt2 (c : Dev nD) : (n : ℕ) → n < cfg2.N → Outs2 F
  | 0, hn => stepA2 V c ⟨0, hn⟩ rfl
  | n + 1, hn =>
    if h1 : n + 1 = 63 then stepC2 V c ⟨n + 1, hn⟩ (Nat.succ_ne_zero n) h1 (outsAt2 c n (Nat.lt_of_succ_lt hn))
    else stepB2 V c ⟨n + 1, hn⟩ (Nat.succ_ne_zero n) h1 (outsAt2 c n (Nat.lt_of_succ_lt hn))

theorem outsAt2_first (c : Dev nD) (t : Fin cfg2.N) (h0 : t.val = 0) : outsAt2 V c t.val t.isLt = stepA2 V c t h0 := by
  obtain ⟨n, hn⟩ := t
  cases n with
  | zero => rfl
  | succ n => exact absurd h0 (Nat.succ_ne_zero n)

theorem outsAt2_mid (c : Dev nD) (t : Fin cfg2.N) (h0 : t.val ≠ 0) (h1 : t.val ≠ 63) :
    outsAt2 V c t.val t.isLt = stepB2 V c t h0 h1 (outsAt2 V c (t.val - 1) (Nat.lt_of_le_of_lt (Nat.sub_le _ _) t.isLt)) := by
  obtain ⟨n, hn⟩ := t
  cases n with
  | zero => exact absurd rfl h0
  | succ n => exact (dif_neg h1).trans rfl

theorem outsAt2_last (c : Dev nD) (t : Fin cfg2.N) (h0 : t.val ≠ 0) (h1 : t.val = 63) :
    outsAt2 V c t.val t.isLt = stepC2 V c t h0 h1 (outsAt2 V c (t.val - 1) (Nat.lt_of_le_of_lt (Nat.sub_le _ _) t.isLt)) := by
  obtain ⟨n, hn⟩ := t
  cases n with
  | zero => exact absurd rfl h0
  | succ n => exact (dif_pos h1).trans rfl

/-! ## The invariant that carries the accumulators -/

/-- Before position `n`: at the start what the region is handed (both accumulators at anything); afterwards both
    accumulators at exactly what the point before left in them, beside the core's other scoped buffers, unopened, and the
    generator register at some state. -/
def PhiS2 (c : Dev nD) : (n : ℕ) → n ≤ cfg2.N → sProp 𝕄
  | 0, _ => Pipeline.ΦA spec2 c
  | n + 1, hn =>
    iprop(iprop(iprop(owns (c : Thread nD τ) scM2_0 fullShare (outsAt2 V c n hn).s0 ∗ owns (c : Thread nD τ) scM2_1 fullShare (outsAt2 V c n hn).s1)
          ∗ Pipeline.scopedRestBut (Ix := Unit) (Name := ℕ) (U := Pipeline.UD sig nD τ) (Lvl := ℕ) (Val := Elt F) spec2 c [cc2_scratch0, cc2_scratch1])
        ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn =
      iprop(iprop(iprop(owns (c : Thread nD τ) scM2_0 fullShare (outsAt2 V c n hn).s0 ∗ owns (c : Thread nD τ) scM2_1 fullShare (outsAt2 V c n hn).s1)
          ∗ Pipeline.scopedRestBut (Ix := Unit) (Name := ℕ) (U := Pipeline.UD sig nD τ) (Lvl := ℕ) (Val := Elt F) spec2 c [cc2_scratch0, cc2_scratch1])
        ∗ (∃ r, prngReg c r)) := rfl

theorem PhiS2_pos (c : Dev nD) (n : ℕ) (h : n ≤ cfg2.N) (hz : n ≠ 0) :
    PhiS2 V c n h =
      iprop(iprop(iprop(owns (c : Thread nD τ) scM2_0 fullShare (outsAt2 V c (n - 1) (by omega)).s0 ∗ owns (c : Thread nD τ) scM2_1 fullShare (outsAt2 V c (n - 1) (by omega)).s1)
          ∗ Pipeline.scopedRestBut (Ix := Unit) (Name := ℕ) (U := Pipeline.UD sig nD τ) (Lvl := ℕ) (Val := Elt F) spec2 c [cc2_scratch0, cc2_scratch1])
        ∗ (∃ r, prngReg c r)) := by
  cases n with
  | zero => exact absurd rfl hz
  | succ n => rfl

/-! ## The proof data -/

/-- Pipeline 2 on core `c`: the arrays as the region finds them; after the body each input's buffer at its block, each
    output's at what `outsAt2` says; the invariant `PhiS2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).o4
    | ⟨5, _⟩ => (outsAt2 V c t.val t.isLt).o5
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).o4 := by dsimp only [dat2]
theorem after2_5 (c : Dev nD) (t : Fin cfg2.N) : (dat2 V c).after 5 t = (outsAt2 V c t.val t.isLt).o5 := by dsimp only [dat2]

/-- Each input's staging buffer holds its block whenever the body starts. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the six windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it must hand back. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' buffers hold their blocks; the point's number says which of the three runs applies;
    the invariant hands over the accumulators (at anything at the first point, at what the point before left afterwards)
    and takes them back at this point's contents; before the last point the outputs' buffers go back untouched, at the
    last point each comes back covered by its one store; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val = 0
  · -- the first point
    have hc0 : cond2_0 (grid2.coords t) := (hcond2_0 t).mpr h0
    have hc1 : ¬cond2_1 (grid2.coords t) := fun h => by have := (hcond2_1 t).mp h; omega
    rw [Dat.leavesExact_idle (dat2 V c) 4 t (idleAt2_4 t hc1) (noFlush2_4 t hc1),
      Dat.leavesExact_idle (dat2 V c) 5 t (idleAt2_5 t hc1) (noFlush2_5 t hc1)]
    rw [outsAt2_first V c t h0]
    unfold stepA2 sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, H4, H5⟩
    iapply ((kernelRun2_A c (grid2.coords t) _ _ _ _ _ _ _ _ _ _ _ _ _ _ _ _ hc0 hc1 (iblk2 V c 0 t) (iblk2 V c 1 t) (iblk2 V c 2 t) (iblk2 V c 3 t)).2.2 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond2_0 (grid2.coords t) := fun h => h0 ((hcond2_0 t).mp h)
    by_cases h1 : t.val = 63
    · -- the last point
      have hc1 : cond2_1 (grid2.coords t) := (hcond2_1 t).mpr h1
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [outsAt2_last V c t h0 h1]
      unfold stepC2 out2_C_4 out2_C_5 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ hc0 hc1 (iblk2 V c 0 t) (iblk2 V c 1 t) (iblk2 V c 2 t) (iblk2 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, HS0, HS1⟩
      isplitl [HS0 HS1 HR Hg]
      · isplitl [HS0 HS1 HR]
        · isplitl [HS0 HS1]
          · isplitl [HS0]
            · unfold owns; iexists _; isplitr
              swap; · iexact HS0
              ipureintro; rfl
            · unfold owns; iexists _; isplitr
              swap; · iexact HS1
              ipureintro; rfl
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _ _ _ _)
    · -- a middle point
      have hc1 : ¬cond2_1 (grid2.coords t) := fun h => h1 ((hcond2_1 t).mp h)
      rw [Dat.leavesExact_idle (dat2 V c) 4 t (idleAt2_4 t hc1) (noFlush2_4 t hc1),
        Dat.leavesExact_idle (dat2 V c) 5 t (idleAt2_5 t hc1) (noFlush2_5 t hc1)]
      rw [outsAt2_mid V c t h0 h1]
      unfold stepB2 sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, H4, H5⟩
      iapply ((kernelRun2_B c (grid2.coords t) _ _ _ _ _ _ _ _ _ _ _ _ _ _ _ _ hc0 hc1 (iblk2 V c 0 t) (iblk2 V c 1 t) (iblk2 V c 2 t) (iblk2 V c 3 t) _ _).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0 HS1]
          · isplitl [HS0]
            · unfold owns; iexists _; isplitr
              swap; · iexact HS0
              ipureintro; rfl
            · unfold owns; iexists _; isplitr
              swap; · iexact HS1
              ipureintro; rfl
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The obligation as the library states it, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem PhiIn2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives that back: what the accumulators hold is forgotten. -/
theorem PhiOut2 (c : Dev nD) : (dat2 V c).Φ (Fin.last cfg2.N) ⊢ (Pipeline.ΦA spec2 c : sProp 𝕄) := by
  have hN : cfg2.N = 64 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region2

end Cert.KernelIdeal.Hand

end
-- ==== Proof.KI.Region3.lean ====
import proofs.«140086_j17265768530288_2_alg».proof.Proof.Gen.KernelIdeal.Launch
import proofs.«140086_j17265768530288_2_alg».proof.Proof.Gen.KernelIdeal.Skeleton
import proofs.«140086_j17265768530288_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main: the update kernel (pipeline 3), at the contents the region is entered with

Seven windows over a grid of four points. Windows 0 and 1 are the two aggregated feature arrays, read a row block of
1024 rows per point; windows 2 to 5 are the two transposed weight matrices and the two bias rows, read whole at the
first point and kept; window 6 is the result, written a row block of 1024 rows per point. The body reads its six input
buffers whole and stores one value, a function of the six, over the whole output buffer. There is no scratch and no
branch, so the invariant carried between points is the untouched rest of the core. -/

-- membership in a rectangle of these extents: the elaborator recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place: where the window is not fetched its block
    index has not moved, so the block kept from the point before is this point's. -/
theorem kept3_0 {c : Dev nD} (dat : Dat τ (Elt F) Unit ℕ (Pipeline.UD sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- Input window 1's current staging buffer holds its block at every point, fetched there or not, for any proof data
    whose array is the entry contents and whose body leaves the block in place: where the window is not fetched its block
    index has not moved, so the block kept from the point before is this point's. -/
theorem kept3_1 {c : Dev nD} (dat : Dat τ (Elt F) Unit ℕ (Pipeline.UD sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- Input window 2's current staging buffer holds its block at every point, fetched there or not, for any proof data
    whose array is the entry contents and whose body leaves the block in place: where the window is not fetched its block
    index has not moved, so the block kept from the point before is this point's. -/
theorem kept3_2 {c : Dev nD} (dat : Dat τ (Elt F) Unit ℕ (Pipeline.UD sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)

/-- Input window 3's current staging buffer holds its block at every point, fetched there or not, for any proof data
    whose array is the entry contents and whose body leaves the block in place: where the window is not fetched its block
    index has not moved, so the block kept from the point before is this point's. -/
theorem kept3_3 {c : Dev nD} (dat : Dat τ (Elt F) Unit ℕ (Pipeline.UD sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)

/-- Input window 4's current staging buffer holds its block at every point, fetched there or not, for any proof data
    whose array is the entry contents and whose body leaves the block in place: where the window is not fetched its block
    index has not moved, so the block kept from the point before is this point's. -/
theorem kept3_4 {c : Dev nD} (dat : Dat τ (Elt F) Unit ℕ (Pipeline.UD sig nD τ) ℕ cfg3 c) (hA : dat.A 4 = V c (Pipeline.arrRef spec3 4))
    (hafter : ∀ t, dat.after 4 t = blockAt3 V c 4 t) (t : Fin cfg3.N) (d) : dat.before 4 t d = blockAt3 V c 4 t :=
  (dat.before_in_eq_fetched 4 rfl (fun _ => rfl) (fun _ _ _ => rfl) (fun t => by rw [hafter]; unfold Dat.blockOf blockAt3; rw [hA]; try rfl) t d).trans
    (by unfold Dat.fetched Dat.blockOf blockAt3; rw [hA]; try rfl)

/-- Input window 5's current staging buffer holds its block at every point, fetched there or not, for any proof data
    whose array is the entry contents and whose body leaves the block in place: where the window is not fetched its block
    index has not moved, so the block kept from the point before is this point's. -/
theorem kept3_5 {c : Dev nD} (dat : Dat τ (Elt F) Unit ℕ (Pipeline.UD sig nD τ) ℕ cfg3 c) (hA : dat.A 5 = V c (Pipeline.arrRef spec3 5))
    (hafter : ∀ t, dat.after 5 t = blockAt3 V c 5 t) (t : Fin cfg3.N) (d) : dat.before 5 t d = blockAt3 V c 5 t :=
  (dat.before_in_eq_fetched 5 rfl (fun _ => rfl) (fun _ _ _ => rfl) (fun t => by rw [hafter]; unfold Dat.blockOf blockAt3; rw [hA]; try rfl) t d).trans
    (by unfold Dat.fetched Dat.blockOf blockAt3; rw [hA]; try rfl)

/-! ## The body's accesses -/

abbrev whole_1024x128 : Rect S1024x128 := Rect.unit (s := S1024x128) ![0, 0] S1024x128.size inb_S1024x128_S1024x128_0_0
abbrev whole_128x128 : Rect S128x128 := Rect.unit (s := S128x128) ![0, 0] S128x128.size inb_S128x128_S128x128_0_0
abbrev whole_1x128 : Rect S1x128 := Rect.unit (s := S1x128) ![0, 0] S1x128.size inb_S1x128_S1x128_0_0

/-! ## What the body leaves in the output window's buffer -/

/-- Window 6's staging buffer after the body, from the input windows' blocks: its one store, of the payload over the
    six whole reads, as a single piece. -/
def resultBuf3 (x0 x1 : Vec F S1024x128 .f32) (x2 : Vec F S128x128 .f32) (x3 : Vec F S1x128 .f32) (x4 : Vec F S128x128 .f32) (x5 : Vec F S1x128 .f32) : Vec F S1024x128 .f32 :=
  View.canon [⟨whole_1024x128, k3_pay1 (View.ld x0 whole_1024x128) (View.ld x1 whole_1024x128) (View.ld x2 whole_128x128) (View.ld x3 whole_1x128) (View.ld x4 whole_128x128) (View.ld x5 whole_1x128)⟩]

/-- The one store is over the whole buffer, so it covers it. -/
theorem resultBuf3_covered (p0 : Vec F S1024x128 .f32) (y : S1024x128.Idx) :
    ∃ pc ∈ ([⟨whole_1024x128, p0⟩] : List (View.Piece (Elt F) S1024x128 .f32)), y ∈ pc.1.set :=
  View.cover_of_tiled [⟨whole_1024x128, p0⟩] S1024x128.size (by rfl) y

/-! ## The body's triple -/

set_option maxHeartbeats 1000000 in
/-- The kernel body on whole staging memrefs, the six inputs' at read contents and the output's at anything, runs to the
    continuation holding the inputs' as they were and the output's at `resultBuf3` of the inputs': the body is its skeleton
    of seven whole loads and one whole store, run operation by operation. -/
theorem update_body_runs (c : Dev nD) (E : Set ℕ) (i : grid3.Coords)
    (arg1 : Memref sig .tc .vmem S1024x128 .f32) (harg1 : arg1.IsWhole) (arg2 : Memref sig .tc .vmem S1024x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S1024x128 .f32) (harg7 : arg7.IsWhole)
    (x0 x1 : Vec F S1024x128 .f32) (x2 : Vec F S128x128 .f32) (x3 : Vec F S1x128 .f32) (x4 : Vec F S128x128 .f32) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (resultBuf3 x0 x1 x2 x3 x4 x5)) -∗ K ⟨⟩))
      ⊢ wp frame (wpE (defs₀ (F := F)) Variants.none c none) E (cc3__update_kernel i arg1 harg1 arg2 harg2 arg3 harg3 arg4 harg4 arg5 harg5 arg6 harg6 arg7 harg7) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (resultBuf3_covered _)

/-! ## The pipeline's proof data -/

/-- The proof data of pipeline 3 on core `c`: the arrays as the region finds them; after the body at point `t` each
    input's buffer at its block and the output's at `resultBuf3` of the six input blocks; the invariant the untouched rest of
    the core (its other scoped buffers and the generator register); nothing owed; full shares. -/
def dat3 (c : Dev nD) : Dat τ (Elt F) Unit ℕ (Pipeline.UD sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => blockAt3 V c 5 t
    | ⟨6, _⟩ => resultBuf3 (blockAt3 V c 0 t) (blockAt3 V c 1 t) (blockAt3 V c 2 t) (blockAt3 V c 3 t) (blockAt3 V c 4 t) (blockAt3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem dat3_after_0 (c : Dev nD) (t : Fin cfg3.N) : (dat3 V c).after 0 t = blockAt3 V c 0 t := by dsimp only [dat3]
theorem dat3_after_1 (c : Dev nD) (t : Fin cfg3.N) : (dat3 V c).after 1 t = blockAt3 V c 1 t := by dsimp only [dat3]
theorem dat3_after_2 (c : Dev nD) (t : Fin cfg3.N) : (dat3 V c).after 2 t = blockAt3 V c 2 t := by dsimp only [dat3]
theorem dat3_after_3 (c : Dev nD) (t : Fin cfg3.N) : (dat3 V c).after 3 t = blockAt3 V c 3 t := by dsimp only [dat3]
theorem dat3_after_4 (c : Dev nD) (t : Fin cfg3.N) : (dat3 V c).after 4 t = blockAt3 V c 4 t := by dsimp only [dat3]
theorem dat3_after_5 (c : Dev nD) (t : Fin cfg3.N) : (dat3 V c).after 5 t = blockAt3 V c 5 t := by dsimp only [dat3]
theorem dat3_after_6 (c : Dev nD) (t : Fin cfg3.N) : (dat3 V c).after 6 t
    = resultBuf3 (blockAt3 V c 0 t) (blockAt3 V c 1 t) (blockAt3 V c 2 t) (blockAt3 V c 3 t) (blockAt3 V c 4 t) (blockAt3 V c 5 t) := by dsimp only [dat3]

/-- Each input's current staging buffer holds its block at every point, fetched there or not. -/
theorem dat3_before_0 (c : Dev nD) (t : Fin cfg3.N) (d) : (dat3 V c).before 0 t d = blockAt3 V c 0 t :=
  kept3_0 V (dat3 V c) (A_eq3 V c 0) (dat3_after_0 V c) t d
theorem dat3_before_1 (c : Dev nD) (t : Fin cfg3.N) (d) : (dat3 V c).before 1 t d = blockAt3 V c 1 t :=
  kept3_1 V (dat3 V c) (A_eq3 V c 1) (dat3_after_1 V c) t d
theorem dat3_before_2 (c : Dev nD) (t : Fin cfg3.N) (d) : (dat3 V c).before 2 t d = blockAt3 V c 2 t :=
  kept3_2 V (dat3 V c) (A_eq3 V c 2) (dat3_after_2 V c) t d
theorem dat3_before_3 (c : Dev nD) (t : Fin cfg3.N) (d) : (dat3 V c).before 3 t d = blockAt3 V c 3 t :=
  kept3_3 V (dat3 V c) (A_eq3 V c 3) (dat3_after_3 V c) t d
theorem dat3_before_4 (c : Dev nD) (t : Fin cfg3.N) (d) : (dat3 V c).before 4 t d = blockAt3 V c 4 t :=
  kept3_4 V (dat3 V c) (A_eq3 V c 4) (dat3_after_4 V c) t d
theorem dat3_before_5 (c : Dev nD) (t : Fin cfg3.N) (d) : (dat3 V c).before 5 t d = blockAt3 V c 5 t :=
  kept3_5 V (dat3 V c) (A_eq3 V c 5) (dat3_after_5 V c) t d

/-! ## The body obligation, at a generic point -/

/-- What the body is called with at point `t`, the windows one by one, -/
def pointPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def pointPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and the
    core's record of what it owes pass through unread. -/
theorem point_runs3 (c : Dev nD) (t : Fin cfg3.N) :
    pointPre3 V c t ⊢ wp frame (wpE (defs₀ (F := F)) Variants.none c none) Set.univ (bodyAt3 t) (fun _ => pointPost3 V c t) := by
  unfold pointPre3 pointPost3 bodyAt3
  simp only [dat3_before_0, dat3_before_1, dat3_before_2, dat3_before_3, dat3_before_4, dat3_before_5]
  rw [show (dat3 V c).Φ t.succ = (dat3 V c).Φ t.castSucc from rfl,
    show (dat3 V c).owesAt () t.succ = (dat3 V c).owesAt () t.castSucc from rfl,
    dat3_after_0, dat3_after_1, dat3_after_2, dat3_after_3, dat3_after_4, dat3_after_5, dat3_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (update_body_runs c Set.univ (grid3.coords t) _ _ _ _ _ _ _ _ _ _ _ _ _ _
    (blockAt3 V c 0 t) (blockAt3 V c 1 t) (blockAt3 V c 2 t) (blockAt3 V c 3 t) (blockAt3 V c 4 t) (blockAt3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact point_runs3 V c t

/-- The invariant before the first point is the untouched rest of the core, as the region hands it over, -/
theorem PhiIn3 (c : Dev nD) : (Pipeline.ΦA spec3 c : sProp 𝕄) ⊢ (dat3 V c).Φ 0 := .rfl

/-- and after the last point it is handed back as it was. -/
theorem PhiOut3 (c : Dev nD) : (dat3 V c).Φ (Fin.last cfg3.N) ⊢ (Pipeline.ΦA spec3 c : sProp 𝕄) := .rfl

end Cert.KernelIdeal.Hand

end
-- ==== Proof.KI.Run.lean ====
/-
  The run of the whole program: @main as eight segments — region 0, three stretches of host operations, regions 1
  and 2, a stretch of host operations, region 3 — from the launch to the return, over the thread state "every unscoped
  buffer at the boundary's contents, the generator register at some state, nothing owed". The contents at each boundary
  are a fold from the launch memory: a host stretch applies its operations, a region leaves its arrays at what its
  write-backs produce and every other buffer as it found it. Every weakly fair execution terminates and the final
  memory holds every unscoped buffer at the last boundary's contents.
-/
import proofs.«140086_j17265768530288_2_alg».proof.Proof.KI.Region0
import proofs.«140086_j17265768530288_2_alg».proof.Proof.KI.Region1
import proofs.«140086_j17265768530288_2_alg».proof.Proof.KI.Region2
import proofs.«140086_j17265768530288_2_alg».proof.Proof.KI.Region3
import proofs.«140086_j17265768530288_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves (an input as entered, an output's write-backs folded), every
    other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch `hostOps1`. -/
abbrev W2 (c : Dev nD) : Valuation τ sig (Elt F) := StableHlo.after hostOps1 (W1 m ρ c)
abbrev V2 : (c : Dev nD) → (b : Ref sig .tc) → Buf (Elt F) ((c : Thread nD τ).loc b) := fun c b => W2 m ρ c b

/-- After the host stretch `hostOps1_1`. -/
abbrev W3 (c : Dev nD) : Valuation τ sig (Elt F) := StableHlo.after hostOps1_1 (W2 m ρ c)
abbrev V3 : (c : Dev nD) → (b : Ref sig .tc) → Buf (Elt F) ((c : Thread nD τ).loc b) := fun c b => W3 m ρ c b

/-- After the host stretch `hostOps1_2`. -/
abbrev W4 (c : Dev nD) : Valuation τ sig (Elt F) := StableHlo.after hostOps1_2 (W3 m ρ c)
abbrev V4 : (c : Dev nD) → (b : Ref sig .tc) → Buf (Elt F) ((c : Thread nD τ).loc b) := fun c b => W4 m ρ c b

/-- After region 1: its arrays at what the pipeline leaves (an input as entered, an output's write-backs folded), every
    other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After region 2: its arrays at what the pipeline leaves (an input as entered, an output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 (c : Dev nD) : Valuation τ sig (Elt F) := StableHlo.after hostOps3 (W6 m ρ c)
abbrev V7 : (c : Dev nD) → (b : Ref sig .tc) → Buf (Elt F) ((c : Thread nD τ).loc b) := fun c b => W7 m ρ c b

/-- After region 3: its arrays at what the pipeline leaves (an input as entered, an output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V4 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at the contents before it, left with the
    region's arrays at what its write-backs leave and every other buffer as entered. Its arrays are split out of the
    unscoped buffers and put back; the generator register goes into the region's invariant and comes out; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn0 (V0 m ρ) c)
    unfold Pipeline.ΦA
    iintro ⟨Hp, -, Hr⟩
    isplitl [Hr]; · iexact Hr
    iexact Hp
  hout c := by
    rw [Pipeline.ownSems0_none]
    refine BIBase.Entails.trans (PhiOut0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at the contents before it, left with the
    region's arrays at what its write-backs leave and every other buffer as entered. Its arrays are split out of the
    unscoped buffers and put back; the generator register goes into the region's invariant and comes out; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn1 (V4 m ρ) c)
    unfold Pipeline.ΦA
    iintro ⟨Hp, -, Hr⟩
    isplitl [Hr]; · iexact Hr
    iexact Hp
  hout c := by
    rw [Pipeline.ownSems0_none]
    refine BIBase.Entails.trans (PhiOut1 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at the contents before it, left with the
    region's arrays at what its write-backs leave and every other buffer as entered. Its arrays are split out of the
    unscoped buffers and put back; the generator register goes into the region's invariant and comes out; nothing is
    owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn2 (V5 m ρ) c)
    unfold Pipeline.ΦA
    iintro ⟨Hp, -, Hr⟩
    isplitl [Hr]; · iexact Hr
    iexact Hp
  hout c := by
    rw [Pipeline.ownSems0_none]
    refine BIBase.Entails.trans (PhiOut2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at the contents before it, left with the
    region's arrays at what its write-backs leave and every other buffer as entered. Its arrays are split out of the
    unscoped buffers and put back; the generator register goes into the region's invariant and comes out; nothing is
    owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn3 (V7 m ρ) c)
    unfold Pipeline.ΦA
    iintro ⟨Hp, -, Hr⟩
    isplitl [Hr]; · iexact Hr
    iexact Hp
  hout c := by
    rw [Pipeline.ownSems0_none]
    refine BIBase.Entails.trans (PhiOut3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final memory holds every unscoped TensorCore buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KI.Kept.lean ====
/-
  Which buffers a stretch of the program leaves alone: a host stretch changes only the buffers its operations write, a
  region only its output windows' arrays (an input window's array is read, and ends as it was). Chaining these facts
  walks a buffer's contents at a later boundary back to an earlier one. In particular the six argument arrays end
  holding their launch contents.
-/
import proofs.«140086_j17265768530288_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The arguments, from the last boundary back to the launch -/

theorem W8_main_arg0_from0 (c : Dev nD) : W8 m ρ c (Proc.devRef .tc main_arg0) = W0 m ρ c (Proc.devRef .tc main_arg0) :=
  calc W8 m ρ c (Proc.devRef .tc main_arg0)
    _ = W7 m ρ c (Proc.devRef .tc main_arg0) := (W8_of_ne m ρ c main_arg0 (by decide))
    _ = W6 m ρ c (Proc.devRef .tc main_arg0) := (StableHlo.after_of_writes_sub hostOps3 _ hostOps3_writes (by decide))
    _ = W5 m ρ c (Proc.devRef .tc main_arg0) := (W6_of_ne m ρ c main_arg0 (by decide))
    _ = W4 m ρ c (Proc.devRef .tc main_arg0) := ((W5_arr m ρ c 2).trans (((dat1 (V4 m ρ) c).arrAt_in 2 rfl _).trans (A_eq1 (V4 m ρ) c 2)))
    _ = W3 m ρ c (Proc.devRef .tc main_arg0) := (StableHlo.after_of_writes_sub hostOps1_2 _ hostOps1_2_writes (by decide))
    _ = W2 m ρ c (Proc.devRef .tc main_arg0) := (StableHlo.after_of_writes_sub hostOps1_1 _ hostOps1_1_writes (by decide))
    _ = W1 m ρ c (Proc.devRef .tc main_arg0) := (StableHlo.after_of_writes_sub hostOps1 _ hostOps1_writes (by decide))
    _ = W0 m ρ c (Proc.devRef .tc main_arg0) := (W1_of_ne m ρ c main_arg0 (by decide))

theorem W8_main_arg1_from0 (c : Dev nD) : W8 m ρ c (Proc.devRef .tc main_arg1) = W0 m ρ c (Proc.devRef .tc main_arg1) :=
  calc W8 m ρ c (Proc.devRef .tc main_arg1)
    _ = W7 m ρ c (Proc.devRef .tc main_arg1) := (W8_of_ne m ρ c main_arg1 (by decide))
    _ = W6 m ρ c (Proc.devRef .tc main_arg1) := (StableHlo.after_of_writes_sub hostOps3 _ hostOps3_writes (by decide))
    _ = W5 m ρ c (Proc.devRef .tc main_arg1) := ((W6_arr m ρ c 0).trans (((dat2 (V5 m ρ) c).arrAt_in 0 rfl _).trans (A_eq2 (V5 m ρ) c 0)))
    _ = W4 m ρ c (Proc.devRef .tc main_arg1) := ((W5_arr m ρ c 0).trans (((dat1 (V4 m ρ) c).arrAt_in 0 rfl _).trans (A_eq1 (V4 m ρ) c 0)))
    _ = W3 m ρ c (Proc.devRef .tc main_arg1) := (StableHlo.after_of_writes_sub hostOps1_2 _ hostOps1_2_writes (by decide))
    _ = W2 m ρ c (Proc.devRef .tc main_arg1) := (StableHlo.after_of_writes_sub hostOps1_1 _ hostOps1_1_writes (by decide))
    _ = W1 m ρ c (Proc.devRef .tc main_arg1) := (StableHlo.after_of_writes_sub hostOps1 _ hostOps1_writes (by decide))
    _ = W0 m ρ c (Proc.devRef .tc main_arg1) := ((W1_arr m ρ c 0).trans (((dat0 (V0 m ρ) c).arrAt_in 0 rfl _).trans (A_eq0 (V0 m ρ) c 0)))

theorem W8_main_arg2_from0 (c : Dev nD) : W8 m ρ c (Proc.devRef .tc main_arg2) = W0 m ρ c (Proc.devRef .tc main_arg2) :=
  calc W8 m ρ c (Proc.devRef .tc main_arg2)
    _ = W7 m ρ c (Proc.devRef .tc main_arg2) := (W8_of_ne m ρ c main_arg2 (by decide))
    _ = W6 m ρ c (Proc.devRef .tc main_arg2) := (StableHlo.after_of_writes_sub hostOps3 _ hostOps3_writes (by decide))
    _ = W5 m ρ c (Proc.devRef .tc main_arg2) := (W6_of_ne m ρ c main_arg2 (by decide))
    _ = W4 m ρ c (Proc.devRef .tc main_arg2) := (W5_of_ne m ρ c main_arg2 (by decide))
    _ = W3 m ρ c (Proc.devRef .tc main_arg2) := (StableHlo.after_of_writes_sub hostOps1_2 _ hostOps1_2_writes (by decide))
    _ = W2 m ρ c (Proc.devRef .tc main_arg2) := (StableHlo.after_of_writes_sub hostOps1_1 _ hostOps1_1_writes (by decide))
    _ = W1 m ρ c (Proc.devRef .tc main_arg2) := (StableHlo.after_of_writes_sub hostOps1 _ hostOps1_writes (by decide))
    _ = W0 m ρ c (Proc.devRef .tc main_arg2) := (W1_of_ne m ρ c main_arg2 (by decide))

theorem W8_main_arg3_from0 (c : Dev nD) : W8 m ρ c (Proc.devRef .tc main_arg3) = W0 m ρ c (Proc.devRef .tc main_arg3) :=
  calc W8 m ρ c (Proc.devRef .tc main_arg3)
    _ = W7 m ρ c (Proc.devRef .tc main_arg3) := (W8_of_ne m ρ c main_arg3 (by decide))
    _ = W6 m ρ c (Proc.devRef .tc main_arg3) := (StableHlo.after_of_writes_sub hostOps3 _ hostOps3_writes (by decide))
    _ = W5 m ρ c (Proc.devRef .tc main_arg3) := (W6_of_ne m ρ c main_arg3 (by decide))
    _ = W4 m ρ c (Proc.devRef .tc main_arg3) := (W5_of_ne m ρ c main_arg3 (by decide))
    _ = W3 m ρ c (Proc.devRef .tc main_arg3) := (StableHlo.after_of_writes_sub hostOps1_2 _ hostOps1_2_writes (by decide))
    _ = W2 m ρ c (Proc.devRef .tc main_arg3) := (StableHlo.after_of_writes_sub hostOps1_1 _ hostOps1_1_writes (by decide))
    _ = W1 m ρ c (Proc.devRef .tc main_arg3) := (StableHlo.after_of_writes_sub hostOps1 _ hostOps1_writes (by decide))
    _ = W0 m ρ c (Proc.devRef .tc main_arg3) := (W1_of_ne m ρ c main_arg3 (by decide))

theorem W8_main_arg4_from0 (c : Dev nD) : W8 m ρ c (Proc.devRef .tc main_arg4) = W0 m ρ c (Proc.devRef .tc main_arg4) :=
  calc W8 m ρ c (Proc.devRef .tc main_arg4)
    _ = W7 m ρ c (Proc.devRef .tc main_arg4) := (W8_of_ne m ρ c main_arg4 (by decide))
    _ = W6 m ρ c (Proc.devRef .tc main_arg4) := (StableHlo.after_of_writes_sub hostOps3 _ hostOps3_writes (by decide))
    _ = W5 m ρ c (Proc.devRef .tc main_arg4) := (W6_of_ne m ρ c main_arg4 (by decide))
    _ = W4 m ρ c (Proc.devRef .tc main_arg4) := (W5_of_ne m ρ c main_arg4 (by decide))
    _ = W3 m ρ c (Proc.devRef .tc main_arg4) := (StableHlo.after_of_writes_sub hostOps1_2 _ hostOps1_2_writes (by decide))
    _ = W2 m ρ c (Proc.devRef .tc main_arg4) := (StableHlo.after_of_writes_sub hostOps1_1 _ hostOps1_1_writes (by decide))
    _ = W1 m ρ c (Proc.devRef .tc main_arg4) := (StableHlo.after_of_writes_sub hostOps1 _ hostOps1_writes (by decide))
    _ = W0 m ρ c (Proc.devRef .tc main_arg4) := (W1_of_ne m ρ c main_arg4 (by decide))

theorem W8_main_arg5_from0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := (W8_of_ne m ρ c main_arg5 (by decide))
    _ = W6 m ρ c (Proc.devRef .tc main_arg5) := (StableHlo.after_of_writes_sub hostOps3 _ hostOps3_writes (by decide))
    _ = W5 m ρ c (Proc.devRef .tc main_arg5) := (W6_of_ne m ρ c main_arg5 (by decide))
    _ = W4 m ρ c (Proc.devRef .tc main_arg5) := (W5_of_ne m ρ c main_arg5 (by decide))
    _ = W3 m ρ c (Proc.devRef .tc main_arg5) := (StableHlo.after_of_writes_sub hostOps1_2 _ hostOps1_2_writes (by decide))
    _ = W2 m ρ c (Proc.devRef .tc main_arg5) := (StableHlo.after_of_writes_sub hostOps1_1 _ hostOps1_1_writes (by decide))
    _ = W1 m ρ c (Proc.devRef .tc main_arg5) := (StableHlo.after_of_writes_sub hostOps1 _ hostOps1_writes (by decide))
    _ = W0 m ρ c (Proc.devRef .tc main_arg5) := (W1_of_ne m ρ c main_arg5 (by decide))

/-! ### Intermediate buffers, between the boundaries where they are written and where they are read -/

theorem W4_main_arg1_from0 (c : Dev nD) : W4 m ρ c (Proc.devRef .tc main_arg1) = W0 m ρ c (Proc.devRef .tc main_arg1) :=
  calc W4 m ρ c (Proc.devRef .tc main_arg1)
    _ = W3 m ρ c (Proc.devRef .tc main_arg1) := (StableHlo.after_of_writes_sub hostOps1_2 _ hostOps1_2_writes (by decide))
    _ = W2 m ρ c (Proc.devRef .tc main_arg1) := (StableHlo.after_of_writes_sub hostOps1_1 _ hostOps1_1_writes (by decide))
    _ = W1 m ρ c (Proc.devRef .tc main_arg1) := (StableHlo.after_of_writes_sub hostOps1 _ hostOps1_writes (by decide))
    _ = W0 m ρ c (Proc.devRef .tc main_arg1) := ((W1_arr m ρ c 0).trans (((dat0 (V0 m ρ) c).arrAt_in 0 rfl _).trans (A_eq0 (V0 m ρ) c 0)))

theorem W4_main_arg0_from0 (c : Dev nD) : W4 m ρ c (Proc.devRef .tc main_arg0) = W0 m ρ c (Proc.devRef .tc main_arg0) :=
  calc W4 m ρ c (Proc.devRef .tc main_arg0)
    _ = W3 m ρ c (Proc.devRef .tc main_arg0) := (StableHlo.after_of_writes_sub hostOps1_2 _ hostOps1_2_writes (by decide))
    _ = W2 m ρ c (Proc.devRef .tc main_arg0) := (StableHlo.after_of_writes_sub hostOps1_1 _ hostOps1_1_writes (by decide))
    _ = W1 m ρ c (Proc.devRef .tc main_arg0) := (StableHlo.after_of_writes_sub hostOps1 _ hostOps1_writes (by decide))
    _ = W0 m ρ c (Proc.devRef .tc main_arg0) := (W1_of_ne m ρ c main_arg0 (by decide))

theorem W5_main_v12_from4 (c : Dev nD) : W5 m ρ c (Proc.devRef .tc main_v12) = W4 m ρ c (Proc.devRef .tc main_v12) :=
  calc W5 m ρ c (Proc.devRef .tc main_v12)
    _ = W4 m ρ c (Proc.devRef .tc main_v12) := ((W5_arr m ρ c 1).trans (((dat1 (V4 m ρ) c).arrAt_in 1 rfl _).trans (A_eq1 (V4 m ρ) c 1)))

theorem W5_main_arg1_from0 (c : Dev nD) : W5 m ρ c (Proc.devRef .tc main_arg1) = W0 m ρ c (Proc.devRef .tc main_arg1) :=
  calc W5 m ρ c (Proc.devRef .tc main_arg1)
    _ = W4 m ρ c (Proc.devRef .tc main_arg1) := ((W5_arr m ρ c 0).trans (((dat1 (V4 m ρ) c).arrAt_in 0 rfl _).trans (A_eq1 (V4 m ρ) c 0)))
    _ = W3 m ρ c (Proc.devRef .tc main_arg1) := (StableHlo.after_of_writes_sub hostOps1_2 _ hostOps1_2_writes (by decide))
    _ = W2 m ρ c (Proc.devRef .tc main_arg1) := (StableHlo.after_of_writes_sub hostOps1_1 _ hostOps1_1_writes (by decide))
    _ = W1 m ρ c (Proc.devRef .tc main_arg1) := (StableHlo.after_of_writes_sub hostOps1 _ hostOps1_writes (by decide))
    _ = W0 m ρ c (Proc.devRef .tc main_arg1) := ((W1_arr m ρ c 0).trans (((dat0 (V0 m ρ) c).arrAt_in 0 rfl _).trans (A_eq0 (V0 m ρ) c 0)))

theorem W7_main_v14_0_from6 (c : Dev nD) : W7 m ρ c (Proc.devRef .tc main_v14_0) = W6 m ρ c (Proc.devRef .tc main_v14_0) :=
  calc W7 m ρ c (Proc.devRef .tc main_v14_0)
    _ = W6 m ρ c (Proc.devRef .tc main_v14_0) := (StableHlo.after_of_writes_sub hostOps3 _ hostOps3_writes (by decide))

theorem W7_main_v14_1_from6 (c : Dev nD) : W7 m ρ c (Proc.devRef .tc main_v14_1) = W6 m ρ c (Proc.devRef .tc main_v14_1) :=
  calc W7 m ρ c (Proc.devRef .tc main_v14_1)
    _ = W6 m ρ c (Proc.devRef .tc main_v14_1) := (StableHlo.after_of_writes_sub hostOps3 _ hostOps3_writes (by decide))

theorem W6_main_arg2_from0 (c : Dev nD) : W6 m ρ c (Proc.devRef .tc main_arg2) = W0 m ρ c (Proc.devRef .tc main_arg2) :=
  calc W6 m ρ c (Proc.devRef .tc main_arg2)
    _ = W5 m ρ c (Proc.devRef .tc main_arg2) := (W6_of_ne m ρ c main_arg2 (by decide))
    _ = W4 m ρ c (Proc.devRef .tc main_arg2) := (W5_of_ne m ρ c main_arg2 (by decide))
    _ = W3 m ρ c (Proc.devRef .tc main_arg2) := (StableHlo.after_of_writes_sub hostOps1_2 _ hostOps1_2_writes (by decide))
    _ = W2 m ρ c (Proc.devRef .tc main_arg2) := (StableHlo.after_of_writes_sub hostOps1_1 _ hostOps1_1_writes (by decide))
    _ = W1 m ρ c (Proc.devRef .tc main_arg2) := (StableHlo.after_of_writes_sub hostOps1 _ hostOps1_writes (by decide))
    _ = W0 m ρ c (Proc.devRef .tc main_arg2) := (W1_of_ne m ρ c main_arg2 (by decide))

theorem W6_main_arg3_from0 (c : Dev nD) : W6 m ρ c (Proc.devRef .tc main_arg3) = W0 m ρ c (Proc.devRef .tc main_arg3) :=
  calc W6 m ρ c (Proc.devRef .tc main_arg3)
    _ = W5 m ρ c (Proc.devRef .tc main_arg3) := (W6_of_ne m ρ c main_arg3 (by decide))
    _ = W4 m ρ c (Proc.devRef .tc main_arg3) := (W5_of_ne m ρ c main_arg3 (by decide))
    _ = W3 m ρ c (Proc.devRef .tc main_arg3) := (StableHlo.after_of_writes_sub hostOps1_2 _ hostOps1_2_writes (by decide))
    _ = W2 m ρ c (Proc.devRef .tc main_arg3) := (StableHlo.after_of_writes_sub hostOps1_1 _ hostOps1_1_writes (by decide))
    _ = W1 m ρ c (Proc.devRef .tc main_arg3) := (StableHlo.after_of_writes_sub hostOps1 _ hostOps1_writes (by decide))
    _ = W0 m ρ c (Proc.devRef .tc main_arg3) := (W1_of_ne m ρ c main_arg3 (by decide))

theorem W6_main_arg4_from0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := (W6_of_ne m ρ c main_arg4 (by decide))
    _ = W4 m ρ c (Proc.devRef .tc main_arg4) := (W5_of_ne m ρ c main_arg4 (by decide))
    _ = W3 m ρ c (Proc.devRef .tc main_arg4) := (StableHlo.after_of_writes_sub hostOps1_2 _ hostOps1_2_writes (by decide))
    _ = W2 m ρ c (Proc.devRef .tc main_arg4) := (StableHlo.after_of_writes_sub hostOps1_1 _ hostOps1_1_writes (by decide))
    _ = W1 m ρ c (Proc.devRef .tc main_arg4) := (StableHlo.after_of_writes_sub hostOps1 _ hostOps1_writes (by decide))
    _ = W0 m ρ c (Proc.devRef .tc main_arg4) := (W1_of_ne m ρ c main_arg4 (by decide))

theorem W6_main_arg5_from0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := (W6_of_ne m ρ c main_arg5 (by decide))
    _ = W4 m ρ c (Proc.devRef .tc main_arg5) := (W5_of_ne m ρ c main_arg5 (by decide))
    _ = W3 m ρ c (Proc.devRef .tc main_arg5) := (StableHlo.after_of_writes_sub hostOps1_2 _ hostOps1_2_writes (by decide))
    _ = W2 m ρ c (Proc.devRef .tc main_arg5) := (StableHlo.after_of_writes_sub hostOps1_1 _ hostOps1_1_writes (by decide))
    _ = W1 m ρ c (Proc.devRef .tc main_arg5) := (StableHlo.after_of_writes_sub hostOps1 _ hostOps1_writes (by decide))
    _ = W0 m ρ c (Proc.devRef .tc main_arg5) := (W1_of_ne m ρ c main_arg5 (by decide))

/-- The frame: every weakly fair execution of @main terminates and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_main_arg0_from0 m ρ c),
     (h c _ (mem_uc main_arg1 (by decide))).trans (W8_main_arg1_from0 m ρ c),
     (h c _ (mem_uc main_arg2 (by decide))).trans (W8_main_arg2_from0 m ρ c),
     (h c _ (mem_uc main_arg3 (by decide))).trans (W8_main_arg3_from0 m ρ c),
     (h c _ (mem_uc main_arg4 (by decide))).trans (W8_main_arg4_from0 m ρ c),
     (h c _ (mem_uc main_arg5 (by decide))).trans (W8_main_arg5_from0 m ρ c)⟩) (run_main m ρ)

end Cert.KernelIdeal.Hand

end
-- ==== Proof.LibTypedRefs.lean ====
/-
  Typed buffer references: the two transports between a value's type and its buffer's type cancel.

  A module-local function's operations are stated at the type of the tensor value (`T.Contents`), and moved to the
  buffer's own contents type along the reference's type equation, `toBuf`, and back, `ofBuf`. When a fold over such
  operations is read back, every intermediate value comes wrapped `x.ofBuf (x.toBuf v)`; the wrapper is the identity,
  for any typed reference `x` whatever its buffer. A value that crosses between such a function and the caller is
  wrapped once only (`x.ofBuf v` or `x.toBuf v` at a literal buffer whose type IS the value's); those go by unfolding
  the two transports to `cast` and core's `cast_eq`. So
      simp only [Cert.TypedRefs.ofBuf_toBuf, Cert.TypedRefs.toBuf_ofBuf, TRef.ofBuf, TRef.toBuf, cast_eq]
  leaves the plain term of the operations, which a closing `rfl` can then meet; with the wrappers still in place a
  `rfl` has to see through one cast per intermediate value and does not come back on a long function.
-/
import Idealize.ShloMosaic.Lib.StableHlo

namespace Cert.TypedRefs

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  unfold TRef.ofBuf TRef.toBuf
  rw [cast_cast]
  exact cast_eq _ _

/-- Buffer contents moved to the value's type and back are the buffer contents. -/
theorem toBuf_ofBuf (x : TRef sig T) (v : x.ref.ty.Contents Val) : x.toBuf (x.ofBuf v) = v := by
  unfold TRef.ofBuf TRef.toBuf
  rw [cast_cast]
  exact cast_eq _ _

end Cert.TypedRefs
-- ==== Proof.KI.HostReads.lean ====
/-
  The host operations between the regions, read at an index (exact reading of floats).

  Between region 0 and region 1 the program takes column 0 of the row-sum array and row 0 of the column-sum array,
  adds them (the degree), compares the degree with zero, divides one by it, selects zero where the degree is zero,
  and repeats the result along 128 lanes: entry (i, f) of the array handed to the next regions is the guarded
  reciprocal of (row sum i + column sum i). Before region 3 the two weight matrices are transposed and the two
  biases laid out as rows.
-/
import proofs.«140086_j17265768530288_2_alg».proof.Proof.Gen.KernelIdeal.Launch
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«140086_j17265768530288_2_alg».proof.Proof.LibTypedRefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

abbrev IdealF := Idealize.ShloMosaic.Ideal

/-! ### Small layout reads -/

/-- A column [a,1] flattened to [a], read at i, is the column's entry (i, 0). -/
theorem cast_column_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] placed as the column [a,1], read at (i, u), is entry i. -/
theorem column_of_vector_apply {α : Type} {a : ℕ} (ha : a ≠ 1) (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun ax => match ax with
    | ⟨0, _⟩ => by show i.val = if a = 1 then 0 else i.val; rw [if_neg ha])

/-- A column [a,1] repeated along b lanes, read at (i, f), is the column's entry (i, 0). -/
theorem lanes_of_column_apply {α : Type} {a b : ℕ} (ha : a ≠ 1) (x : (⟨2, ![a, 1]⟩ : Shape).Idx → α)
    (h : (⟨2, ![a, 1]⟩ : Shape).BroadcastsInDim ⟨2, ![a, b]⟩ ![0, 1]) (i : Fin a) (f : Fin b) :
    broadcastInDim ⟨2, ![a, b]⟩ ![0, 1] h x (ix2 i f) = x (ix2 i (0 : Fin 1)) :=
  broadcastInDim_apply _ h x _ _ (fun ax => match ax with
    | ⟨0, _⟩ => by show i.val = if a = 1 then 0 else i.val; rw [if_neg ha]
    | ⟨1, _⟩ => by show 0 = if (1 : ℕ) = 1 then 0 else f.val; rw [if_pos rfl])

/-- A scalar repeated over a vector reads the scalar. -/
theorem splat_apply {α : Type} {a : ℕ} (x : (⟨0, ![]⟩ : Shape).Idx → α) (h : (⟨0, ![]⟩ : Shape).BroadcastsInDim ⟨1, ![a]⟩ ![])
    (i : Fin a) : broadcastInDim ⟨1, ![a]⟩ ![] h x (ix1 i) = x ix0 :=
  broadcastInDim_apply _ h x _ _ (fun ax => ax.elim0)

/-! ### The degree and its guarded reciprocal -/

/-- Row sum i (column 0 of the first array) plus column sum i (row 0 of the second). -/
abbrev degOf (W : Valuation τ sig (Elt IdealF)) (i : Fin 4096) : EReal :=
  let r : S4096x128.Idx → EReal := W (Proc.devRef .tc main_v0_0)
  let s : S8x4096.Idx → EReal := W (Proc.devRef .tc main_v0_1)
  r (ix2 i (0 : Fin 128)) + s (ix2 (0 : Fin 8) i)

/-- The flattened column 0 of an [4096,128] array at i. -/
theorem col0_apply (x : S4096x128.Idx → EReal) (i : Fin 4096) :
    shapeCast S4096 (extractStridedSlice S4096x1 ![0, 0] x slices_S4096x128_S4096x1_0_0) shapeCasts_S4096x1_S4096 (ix1 i)
      = x (ix2 i (0 : Fin 128)) := by
  rw [cast_column_apply]
  exact extractStridedSlice_apply _ x _ _ _ (fun ax => match ax with
    | ⟨0, _⟩ => by show i.val = 0 + i.val; omega
    | ⟨1, _⟩ => rfl)

/-- The flattened row 0 of an [8,4096] array at i. -/
theorem row0_apply (x : S8x4096.Idx → EReal) (i : Fin 4096) :
    shapeCast S4096 (extractStridedSlice S1x4096 ![0, 0] x slices_S8x4096_S1x4096_0_0) shapeCasts_S1x4096_S4096 (ix1 i)
      = x (ix2 (0 : Fin 8) i) := by
  rw [shapeCast_1a_a_apply]
  exact extractStridedSlice_apply _ x _ _ _ (fun ax => match ax with
    | ⟨0, _⟩ => rfl
    | ⟨1, _⟩ => by show i.val = 0 + i.val; omega)

set_option maxHeartbeats 4000000 in
/-- One over the degree. -/
theorem host1_v9 (W : Valuation τ sig (Elt IdealF)) (i : Fin 4096) :
    (StableHlo.after hostOps1 W (Proc.devRef .tc main_v9) : S4096.Idx → EReal) (ix1 i)
      = Ideal.div (Ideal.ofBits .f32 0x3F800000#32) (degOf W i) := by
  after_results
  show Ideal.div (broadcastInDim S4096 ![] bcast_S_S4096 (constant (F := IdealF) S_ .f32 0x3F800000#32) (ix1 i))
      ((shapeCast S4096 (extractStridedSlice S4096x1 ![0, 0] (W (Proc.devRef .tc main_v0_0) : S4096x128.Idx → EReal) slices_S4096x128_S4096x1_0_0) shapeCasts_S4096x1_S4096 (ix1 i) : EReal)
        + (shapeCast S4096 (extractStridedSlice S1x4096 ![0, 0] (W (Proc.devRef .tc main_v0_1) : S8x4096.Idx → EReal) slices_S8x4096_S1x4096_0_0) shapeCasts_S1x4096_S4096 (ix1 i) : EReal)) = _
  rw [splat_apply, col0_apply, row0_apply]
  rfl

set_option maxHeartbeats 4000000 in
/-- The degree compared with zero. -/
theorem host1_v7 (W : Valuation τ sig (Elt IdealF)) (i : Fin 4096) :
    (StableHlo.after hostOps1 W (Proc.devRef .tc main_v7) : S4096.Idx → BitVec 1) (ix1 i)
      = Ideal.cmp .oeq (degOf W i) (Ideal.ofBits .f32 0x00000000#32) := by
  after_results
  show Ideal.cmp .oeq
      ((shapeCast S4096 (extractStridedSlice S4096x1 ![0, 0] (W (Proc.devRef .tc main_v0_0) : S4096x128.Idx → EReal) slices_S4096x128_S4096x1_0_0) shapeCasts_S4096x1_S4096 (ix1 i) : EReal)
        + (shapeCast S4096 (extractStridedSlice S1x4096 ![0, 0] (W (Proc.devRef .tc main_v0_1) : S8x4096.Idx → EReal) slices_S8x4096_S1x4096_0_0) shapeCasts_S1x4096_S4096 (ix1 i) : EReal))
      (broadcastInDim S4096 ![] bcast_S_S4096 (constant (F := IdealF) S_ .f32 0x00000000#32) (ix1 i)) = _
  rw [splat_apply, col0_apply, row0_apply]
  rfl

set_option maxHeartbeats 4000000 in
/-- The zero the select chooses. -/
theorem host1_cst1 (W : Valuation τ sig (Elt IdealF)) :
    (StableHlo.after hostOps1 W (Proc.devRef .tc main_cst_1) : S_.Idx → EReal) ix0 = Ideal.ofBits .f32 0x00000000#32 := by
  after_results
  rfl

set_option maxHeartbeats 4000000 in
/-- The select of the outlined where: zero where the comparison holds, the quotient elsewhere. -/
theorem host11_v10 (W : Valuation τ sig (Elt IdealF)) (i : Fin 4096) :
    (StableHlo.after hostOps1_1 W (Proc.devRef .tc main_v10) : S4096.Idx → EReal) (ix1 i)
      = Scalar.select ((W (Proc.devRef .tc main_v7) : S4096.Idx → BitVec 1) (ix1 i))
          ((W (Proc.devRef .tc main_cst_1) : S_.Idx → EReal) ix0)
          ((W (Proc.devRef .tc main_v9) : S4096.Idx → EReal) (ix1 i)) := by
  after_results
  simp only [Cert.TypedRefs.ofBuf_toBuf, Cert.TypedRefs.toBuf_ofBuf, TRef.ofBuf, TRef.toBuf, cast_eq, id]
  show Scalar.select _ (broadcastInDim S4096 ![] bcast_S_S4096 (W (Proc.devRef .tc main_cst_1)) (ix1 i)) _ = _
  rw [splat_apply]

set_option maxHeartbeats 4000000 in
/-- The result repeated along the lanes. -/
theorem host12_v12 (W : Valuation τ sig (Elt IdealF)) (i : Fin 4096) (f : Fin 128) :
    (StableHlo.after hostOps1_2 W (Proc.devRef .tc main_v12) : S4096x128.Idx → EReal) (ix2 i f)
      = (W (Proc.devRef .tc main_v10) : S4096.Idx → EReal) (ix1 i) := by
  after_results
  rw [lanes_of_column_apply (by decide), column_of_vector_apply (by decide)]

/-- Entry (i, f) of the array the next regions normalise with: the guarded reciprocal of the degree. -/
theorem recip_deg_apply (W : Valuation τ sig (Elt IdealF)) (i : Fin 4096) (f : Fin 128) :
    (StableHlo.after hostOps1_2 (StableHlo.after hostOps1_1 (StableHlo.after hostOps1 W)) (Proc.devRef .tc main_v12) : S4096x128.Idx → EReal) (ix2 i f)
      = Scalar.select (Ideal.cmp .oeq (degOf W i) (Ideal.ofBits .f32 0x00000000#32)) (Ideal.ofBits .f32 0x00000000#32)
          (Ideal.div (Ideal.ofBits .f32 0x3F800000#32) (degOf W i)) := by
  rw [host12_v12, host11_v10, host1_v7, host1_cst1, host1_v9]

/-! ### Before region 3 -/

set_option maxHeartbeats 4000000 in
theorem host3_v15 (W : Valuation τ sig (Elt IdealF)) (f g : Fin 128) :
    (StableHlo.after hostOps3 W (Proc.devRef .tc main_v15) : S128x128.Idx → EReal) (ix2 f g)
      = (W (Proc.devRef .tc main_arg2) : S128x128.Idx → EReal) (ix2 g f) := by
  after_results
  exact transpose_ix2_apply _ _ f g

set_option maxHeartbeats 4000000 in
theorem host3_v16 (W : Valuation τ sig (Elt IdealF)) (f g : Fin 128) :
    (StableHlo.after hostOps3 W (Proc.devRef .tc main_v16) : S128x128.Idx → EReal) (ix2 f g)
      = (W (Proc.devRef .tc main_arg4) : S128x128.Idx → EReal) (ix2 g f) := by
  after_results
  exact transpose_ix2_apply _ _ f g

set_option maxHeartbeats 4000000 in
theorem host3_v17 (W : Valuation τ sig (Elt IdealF)) (g : Fin 128) :
    (StableHlo.after hostOps3 W (Proc.devRef .tc main_v17) : S1x128.Idx → EReal) (ix2 (0 : Fin 1) g)
      = (W (Proc.devRef .tc main_arg3) : S128.Idx → EReal) (ix1 g) := by
  after_results
  exact shapeCast_a_1a_apply _ _ _ g

set_option maxHeartbeats 4000000 in
theorem host3_v18 (W : Valuation τ sig (Elt IdealF)) (g : Fin 128) :
    (StableHlo.after hostOps3 W (Proc.devRef .tc main_v18) : S1x128.Idx → EReal) (ix2 (0 : Fin 1) g)
      = (W (Proc.devRef .tc main_arg5) : S128.Idx → EReal) (ix1 g) := by
  after_results
  exact shapeCast_a_1a_apply _ _ _ g

end Cert.KernelIdeal.Hand

end
-- ==== Proof.KI.Mask.lean ====
/-
  The self-loop mask on an array of extended reals: zero on the diagonal, the entry elsewhere; and the position of
  entry q of block b among 4096 = 8 · 512 rows.
-/
import Idealize.ShloMosaic.Lib.ValueIdx

noncomputable section

namespace Cert.KernelIdeal.Hand

open Idealize.ShloMosaic Idealize.ShloMosaic.ValueIdx

/-- Zero on the diagonal, the entry elsewhere. -/
def offE (A : (⟨2, ![4096, 4096]⟩ : Shape).Idx → EReal) (i k : Fin 4096) : EReal := if i.val = k.val then 0 else A (ix2 i k)

/-- Row q of row block b. -/
abbrev blockRow (b : Fin 8) (q : Fin 512) : Fin 4096 := ⟨b.val * 512 + q.val, by omega⟩

end Cert.KernelIdeal.Hand

end
-- ==== Proof.LibDiffusion.lean ====
/-
  Two steps of a row-normalised diffusion applied to a column, over the reals.

  For a square matrix M over a finite index type, a row scale d and a column x, write P = diag(d) M, so
  P i k = d i * M i k. The two-step diffusion matrix is K = 0 + (1/2) P + (1/4) P P. Applied to the
  column, K x can be computed without ever forming P P: with y = P x (each row of M x scaled by d afterwards)
  and z = P y, one has K x = (1/2) y + (1/4) z. The proof is distributivity and the exchange of the two
  finite sums in (P P) x = P (P x).
-/
import Mathlib.Algebra.BigOperators.Ring.Finset
import Mathlib.Algebra.BigOperators.Group.Finset.Sigma
import Mathlib.Data.Real.Basic
import Mathlib.Tactic.Ring

open scoped BigOperators

namespace Cert.Math

/-- (0 + (1/2) P + (1/4) P P) x = (1/2) (P x) + (1/4) P (P x) at row i, with P = diag(d) M and the products
    P x, P y taken as "scale the finished row sum of M by d". -/
theorem diffusion_two_step {N : Type} [Fintype N] (M : N → N → ℝ) (d : N → ℝ) (x : N → ℝ) (i : N) :
    ∑ k, ((0 + 2⁻¹ * (d i * M i k)) + 4⁻¹ * ∑ j, (d i * M i j) * (d j * M j k)) * x k
      = 2⁻¹ * (d i * ∑ k, M i k * x k) + 4⁻¹ * (d i * ∑ j, M i j * (d j * ∑ k, M j k * x k)) := by
  have h1 : ∀ k, ((0 + 2⁻¹ * (d i * M i k)) + 4⁻¹ * ∑ j, (d i * M i j) * (d j * M j k)) * x k
      = 2⁻¹ * (d i * (M i k * x k)) + ∑ j, 4⁻¹ * (d i * (M i j * (d j * (M j k * x k)))) := by
    intro k
    rw [zero_add, add_mul, Finset.mul_sum, Finset.sum_mul]
    congr 1
    · ring
    · exact Finset.sum_congr rfl (fun j _ => by ring)
  have h2 : 2⁻¹ * (d i * ∑ k, M i k * x k) = ∑ k, 2⁻¹ * (d i * (M i k * x k)) := by
    rw [Finset.mul_sum, Finset.mul_sum]
  have h3 : 4⁻¹ * (d i * ∑ j, M i j * (d j * ∑ k, M j k * x k))
      = ∑ k, ∑ j, 4⁻¹ * (d i * (M i j * (d j * (M j k * x k)))) := by
    rw [Finset.sum_comm, Finset.mul_sum, Finset.mul_sum]
    refine Finset.sum_congr rfl (fun j _ => ?_)
    rw [Finset.mul_sum, Finset.mul_sum, Finset.mul_sum, Finset.mul_sum]
  rw [Finset.sum_congr rfl (fun k _ => h1 k), Finset.sum_add_distrib, h2, h3]

end Cert.Math
-- ==== Proof.DiffusionSpec.lean ====
/-
  The bidirectional two-step graph diffusion layer, as real-valued formulas, in two arrangements.

  Inputs: node features x (4096 × 128), a dense adjacency a (4096 × 4096), two weight matrices w1, w2 (128 × 128)
  and two biases b1, b2 (128). Self loops are removed (off a), the degree of a node is its off-diagonal row sum
  plus its off-diagonal column sum (deg a), and rows are normalised by the guarded reciprocal of the degree,
  which on the reals is the inverse with 0⁻¹ = 0 (dinv a).

  The first arrangement (refOut) forms the diffusion matrix K = 0 + (1/2) P + (1/4) P P with P = diag(dinv) off,
  applies it to x, then the linear layer, the bias and max(·, 0); the reverse direction does the same with the
  transposed adjacency; the two directions are added.

  The second arrangement (kerOut) never forms K: y = P x is computed as the row sum of off · x scaled by dinv
  afterwards, z = P y likewise, and K x = (1/2) y + (1/4) z; the reverse direction contracts the ROW index of the
  same adjacency (so no transposed matrix is formed) and uses the same degrees, which is right because the degree
  is symmetric under transposition.

  refOut_eq_kerOut: the two arrangements agree, entry by entry.
-/
import proofs.«140086_j17265768530288_2_alg».proof.Proof.LibDiffusion

noncomputable section

open scoped BigOperators

namespace Cert.Spec

abbrev Mat := Fin 4096 → Fin 4096 → ℝ
abbrev Feat := Fin 4096 → Fin 128 → ℝ
abbrev Wt := Fin 128 → Fin 128 → ℝ
abbrev Bias := Fin 128 → ℝ

/-- The adjacency with self loops removed. -/
def off (a : Mat) (i k : Fin 4096) : ℝ := if i.val = k.val then 0 else a i k
/-- Out-degree plus in-degree, self loops removed. -/
def deg (a : Mat) (i : Fin 4096) : ℝ := (∑ k, off a i k) + ∑ k, off a k i
/-- The guarded reciprocal of the degree (zero where the degree is zero). -/
def dinv (a : Mat) (i : Fin 4096) : ℝ := (deg a i)⁻¹

/-! ### The arrangement that forms the diffusion matrix -/

def P (a : Mat) (i k : Fin 4096) : ℝ := dinv a i * off a i k
def Kmat (a : Mat) (i k : Fin 4096) : ℝ := (0 + 2⁻¹ * P a i k) + 4⁻¹ * ∑ j, P a i j * P a j k
def aggRef (a : Mat) (x : Feat) (i : Fin 4096) (f : Fin 128) : ℝ := ∑ k, Kmat a i k * x k f
/-- Linear layer (weights indexed output-first), bias, and max(·, 0). -/
def branch (agg : Feat) (w : Wt) (b : Bias) (i : Fin 4096) (g : Fin 128) : ℝ :=
  max ((∑ f, agg i f * w g f) + b g) 0
def refOut (x : Feat) (a : Mat) (w1 : Wt) (b1 : Bias) (w2 : Wt) (b2 : Bias) (i : Fin 4096) (g : Fin 128) : ℝ :=
  branch (aggRef a x) w1 b1 i g + branch (aggRef (fun i k => a k i) x) w2 b2 i g

/-! ### The arrangement that only applies it -/

def y1 (a : Mat) (x : Feat) (i : Fin 4096) (f : Fin 128) : ℝ := dinv a i * ∑ k, off a i k * x k f
def y2 (a : Mat) (x : Feat) (k : Fin 4096) (f : Fin 128) : ℝ := dinv a k * ∑ i, off a i k * x i f
def z1 (a : Mat) (x : Feat) (i : Fin 4096) (f : Fin 128) : ℝ := dinv a i * ∑ k, off a i k * y1 a x k f
def z2 (a : Mat) (x : Feat) (k : Fin 4096) (f : Fin 128) : ℝ := dinv a k * ∑ i, off a i k * y2 a x i f
def agg1 (a : Mat) (x : Feat) (i : Fin 4096) (f : Fin 128) : ℝ := 2⁻¹ * y1 a x i f + 4⁻¹ * z1 a x i f
def agg2 (a : Mat) (x : Feat) (i : Fin 4096) (f : Fin 128) : ℝ := 2⁻¹ * y2 a x i f + 4⁻¹ * z2 a x i f
def kerOut (x : Feat) (a : Mat) (w1 : Wt) (b1 : Bias) (w2 : Wt) (b2 : Bias) (i : Fin 4096) (g : Fin 128) : ℝ :=
  branch (agg1 a x) w1 b1 i g + branch (agg2 a x) w2 b2 i g

/-! ### They agree -/

/-- Removing self loops commutes with transposition. -/
theorem off_transpose (a : Mat) (i k : Fin 4096) : off (fun i k => a k i) i k = off a k i := by
  unfold off
  by_cases h : i.val = k.val
  · rw [if_pos h, if_pos h.symm]
  · rw [if_neg h, if_neg (fun e => h e.symm)]

/-- The degree is symmetric under transposition: row sums and column sums trade places. -/
theorem deg_transpose (a : Mat) (i : Fin 4096) : deg (fun i k => a k i) i = deg a i := by
  unfold deg
  simp only [off_transpose]
  exact add_comm _ _

theorem dinv_transpose (a : Mat) (i : Fin 4096) : dinv (fun i k => a k i) i = dinv a i := by
  unfold dinv; rw [deg_transpose]

/-- Forward direction: K x = (1/2) y + (1/4) z. -/
theorem aggRef_eq_agg1 (a : Mat) (x : Feat) (i : Fin 4096) (f : Fin 128) : aggRef a x i f = agg1 a x i f := by
  unfold aggRef Kmat P agg1 z1 y1
  exact Cert.Math.diffusion_two_step (off a) (dinv a) (fun k => x k f) i

/-- Reverse direction: the same law for the transposed adjacency, whose off-diagonal entries and degrees are
    those of the adjacency itself read with the indices exchanged. -/
theorem aggRef_transpose_eq_agg2 (a : Mat) (x : Feat) (i : Fin 4096) (f : Fin 128) :
    aggRef (fun i k => a k i) x i f = agg2 a x i f := by
  unfold aggRef Kmat P agg2 z2 y2
  simp only [off_transpose, dinv_transpose]
  exact Cert.Math.diffusion_two_step (fun i k => off a k i) (dinv a) (fun k => x k f) i

theorem refOut_eq_kerOut (x : Feat) (a : Mat) (w1 : Wt) (b1 : Bias) (w2 : Wt) (b2 : Bias) (i : Fin 4096) (g : Fin 128) :
    refOut x a w1 b1 w2 b2 i g = kerOut x a w1 b1 w2 b2 i g := by
  have h1 : aggRef a x = agg1 a x := funext fun i => funext fun f => aggRef_eq_agg1 a x i f
  have h2 : aggRef (fun i k => a k i) x = agg2 a x := funext fun i => funext fun f => aggRef_transpose_eq_agg2 a x i f
  unfold refOut kerOut
  rw [h2, h1]

end Cert.Spec

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.LibBlockSums.lean ====
/-
  Sums over 4096 = 8 · 512 positions taken block by block, and the two shapes in which a blocked kernel meets them.

  sum_blocks: the sum of f over Fin 4096 is the sum over the 8 blocks of the sums over the 512 positions of a
  block (position q of block b is b · 512 + q); any additive commutative monoid, so also the extended reals.
  coe_ite_zero: a zero-or-real choice, made on the extended reals, is the real choice.
  scaled_block_sums: for reals, Σ_b d · Σ_q u(b,q) · v(b,q) = d · Σ_k u k · v k — the row scale applied to every
  block's partial product sum is the row scale applied to the whole product sum.
-/
import Mathlib.Algebra.BigOperators.Fin
import Mathlib.Data.EReal.Basic
import Mathlib.Logic.Equiv.Fin.Basic
import proofs.«140086_j17265768530288_2_alg».proof.Proof.LibRealSums

open scoped BigOperators

namespace Cert.Math

/-- The sum over Fin 4096 is the sum over 8 consecutive blocks of 512. -/
theorem sum_blocks {M : Type*} [AddCommMonoid M] (f : Fin 4096 → M) :
    ∑ b : Fin 8, ∑ q : Fin 512, f ⟨b.val * 512 + q.val, by omega⟩ = ∑ i : Fin 4096, f i := by
  have h := Equiv.sum_comp (finProdFinEquiv : Fin 8 × Fin 512 ≃ Fin (8 * 512)) (fun i : Fin (8 * 512) => f ⟨i.val, by omega⟩)
  rw [Fintype.sum_prod_type] at h
  refine Eq.trans ?_ (h.trans ?_)
  · refine Finset.sum_congr rfl fun b _ => Finset.sum_congr rfl fun q _ => congrArg f (Fin.ext ?_)
    show b.val * 512 + q.val = (finProdFinEquiv (b, q)).val
    simp only [finProdFinEquiv_apply_val]
    omega
  · exact Finset.sum_congr rfl fun i _ => rfl

/-- A choice between zero and a real, made on the extended reals, is the real choice. -/
theorem coe_ite_zero (p : Prop) [Decidable p] (a : ℝ) :
    (if p then (0 : EReal) else ((a : ℝ) : EReal)) = ((if p then 0 else a : ℝ) : EReal) := by
  by_cases h : p
  · rw [if_pos h, if_pos h, EReal.coe_zero]
  · rw [if_neg h, if_neg h]

/-- For reals: the row scale applied to every block's partial sum of products is the row scale applied to the
    whole sum of products. -/
theorem scaled_block_sums (d : ℝ) (u v : Fin 4096 → ℝ) :
    ∑ b : Fin 8, (d : EReal) * ∑ q : Fin 512, ((u ⟨b.val * 512 + q.val, by omega⟩ : ℝ) : EReal) * ((v ⟨b.val * 512 + q.val, by omega⟩ : ℝ) : EReal)
      = ((d * ∑ k : Fin 4096, u k * v k : ℝ) : EReal) := by
  have e : ∀ b : Fin 8, (d : EReal) * ∑ q : Fin 512, ((u ⟨b.val * 512 + q.val, by omega⟩ : ℝ) : EReal) * ((v ⟨b.val * 512 + q.val, by omega⟩ : ℝ) : EReal)
      = ((d * ∑ q : Fin 512, u ⟨b.val * 512 + q.val, by omega⟩ * v ⟨b.val * 512 + q.val, by omega⟩ : ℝ) : EReal) := by
    intro b
    rw [EReal.coe_mul, coe_sum]
    refine congrArg ((d : EReal) * ·) (Finset.sum_congr rfl fun q _ => (EReal.coe_mul _ _).symm)
  rw [Finset.sum_congr rfl fun b _ => e b, ← coe_sum, ← Finset.mul_sum]
  exact congrArg (fun r : ℝ => (r : EReal)) (congrArg (d * ·) (sum_blocks (fun k => u k * v k)))

end Cert.Math
-- ==== Proof.LibIdealReal.lean ====
/-
  Scalar facts about the exact (extended-real) reading of float operations when the operands are real numbers.

  The f32 words of 1/2 and 1/4; the comparison of two row/column counters below 4096 as a bit; the self-loop
  mask a * (1 - [i = k]) as "0 on the diagonal, a off it"; the guarded reciprocal
  where(d == 0, 0, 1 / d), which on a real d is the real inverse d⁻¹ (with 0⁻¹ = 0); and the maximum of two
  reals.
-/
import Mathlib.Data.EReal.Inv
import Idealize.ShloMosaic.PureOps.Ideal
import Idealize.ShloMosaic.PureOps.Ideal.Laws
import Idealize.ShloMosaic.Lib.IdealHost
import Idealize.ShloMosaic.Lib.ValueIdx

noncomputable section

namespace Cert.Math

open Idealize.ShloMosaic

/-- The f32 word 0x3F000000 denotes the real 1/2. -/
theorem ofBits_half_f32 : Ideal.ofBits .f32 0x3F000000#32 = ((2⁻¹ : ℝ) : EReal) := by
  simp [Ideal.ofBits, Ideal.ieee, -EReal.coe_mul]; norm_num

/-- The f32 word 0x3E800000 denotes the real 1/4. -/
theorem ofBits_quarter_f32 : Ideal.ofBits .f32 0x3E800000#32 = ((4⁻¹ : ℝ) : EReal) := by
  simp [Ideal.ofBits, Ideal.ieee, -EReal.coe_mul]; norm_num

/-- Two counters below 4096, as 32-bit words (the first with a zero added), compare equal exactly when the
    numbers are equal. -/
theorem iota_eq_bit (i k : Nat) (hi : i < 4096) (hk : k < 4096) :
    IntOp.cmpi .eq (IntOp.addi (BitVec.ofNat 32 i) 0#32) (BitVec.ofNat 32 k) = if i = k then 1#1 else 0#1 := by
  have h : (BitVec.ofNat 32 i == BitVec.ofNat 32 k) = decide (i = k) := by
    rw [Bool.eq_iff_iff]; simp only [beq_iff_eq, decide_eq_true_eq]
    constructor
    · intro h
      have h2 := congrArg BitVec.toNat h
      simp only [BitVec.toNat_ofNat] at h2
      rw [Nat.mod_eq_of_lt (by omega), Nat.mod_eq_of_lt (by omega)] at h2
      exact h2
    · rintro rfl; rfl
  simp only [IntOp.cmpi, IntOp.addi, BitVec.add_zero, h]
  by_cases e : i = k <;> simp [e]

/-- The self-loop mask: a real a times (1 − [p]) is 0 when p holds and a otherwise. -/
theorem mask_mul (a : ℝ) (p : Prop) [Decidable p] :
    (a : EReal) * (Ideal.ofBits .f32 0x3F800000#32 - (((if p then 1#1 else 0#1 : BitVec 1).toNat : ℝ) : EReal))
      = ((if p then 0 else a : ℝ) : EReal) := by
  rw [Ideal.ofBits_one_f32]
  by_cases h : p
  · rw [if_pos h, if_pos h]
    have : ((((1#1 : BitVec 1).toNat : ℝ)) : EReal) = 1 := by norm_num
    rw [this, sub_self_one_ereal, mul_zero, EReal.coe_zero]
  · rw [if_neg h, if_neg h]
    have : ((((0#1 : BitVec 1).toNat : ℝ)) : EReal) = 0 := by norm_num
    rw [this, sub_zero, mul_one]
where
  sub_self_one_ereal : (1 : EReal) - 1 = 0 := by
    rw [show (1 : EReal) = ((1 : ℝ) : EReal) by norm_cast, ← EReal.coe_sub, sub_self, EReal.coe_zero]

/-- The guarded reciprocal where(d == 0, 0, 1 / d) of a real d is the real inverse of d (zero at zero). -/
theorem guarded_inv (r : ℝ) :
    Scalar.select (Ideal.cmp .oeq (r : EReal) (Ideal.ofBits .f32 0x00000000#32)) (Ideal.ofBits .f32 0x00000000#32)
        (Ideal.div (Ideal.ofBits .f32 0x3F800000#32) (r : EReal))
      = ((r⁻¹ : ℝ) : EReal) := by
  rw [Ideal.ofBits_zero_f32, Ideal.ofBits_one_f32]
  by_cases h : r = 0
  · subst h
    have : Ideal.cmp .oeq ((0 : ℝ) : EReal) 0 = 1#1 := by simp [Ideal.cmp]
    rw [this, ValueIdx.select_one, inv_zero, EReal.coe_zero]
  · have : Ideal.cmp .oeq (r : EReal) 0 = 0#1 := by
      have h' : ¬ ((r : EReal) = 0) := by
        rw [← EReal.coe_zero, EReal.coe_eq_coe_iff]; exact h
      simp [Ideal.cmp, h']
    rw [this, ValueIdx.select_zero, Ideal.div_coe h, one_mul, one_div]

/-- The maximum of two reals, taken on the extended reals, is the real maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

end Cert.Math

end
-- ==== Proof.KernelRealForms.lean ====
/-
  The blocked, extended-real expressions a tiled evaluation of the diffusion layer produces, as coercions of the
  real formulas of the second arrangement (kerOut's pieces), when every input entry is real.

  offE is the self-loop mask on extended reals. For a real matrix a: a masked row or column sum is the real
  off-diagonal sum (the column sum taken block by block); a row scale times a block's partial product sum, summed
  over the blocks, is the scaled whole product sum (the y and z of the second arrangement, in either direction);
  the final combination with the words of 1/2 and 1/4, and the linear layer with bias and max(·, 0), are the real
  ones.
-/
import proofs.«140086_j17265768530288_2_alg».proof.Proof.DiffusionSpec
import proofs.«140086_j17265768530288_2_alg».proof.Proof.LibBlockSums
import proofs.«140086_j17265768530288_2_alg».proof.Proof.LibIdealReal

noncomputable section

open scoped BigOperators

namespace Cert.KernelReal

open Cert.Math Cert.Spec Idealize.ShloMosaic

/-- The self-loop mask on extended reals: zero on the diagonal, the entry elsewhere. -/
def offE (A : Fin 4096 → Fin 4096 → EReal) (i k : Fin 4096) : EReal := if i.val = k.val then 0 else A i k

/-- Position q of block b among 4096 = 8 · 512 positions. -/
abbrev pos (b : Fin 8) (q : Fin 512) : Fin 4096 := ⟨b.val * 512 + q.val, by omega⟩

variable (a : Mat)

/-- The mask of a real matrix is the real mask. -/
theorem offE_coe (i k : Fin 4096) : offE (fun i k => ((a i k : ℝ) : EReal)) i k = ((off a i k : ℝ) : EReal) := by
  unfold offE off
  exact coe_ite_zero _ _

/-- A masked row sum. -/
theorem row_sum_real (i : Fin 4096) :
    ∑ k : Fin 4096, offE (fun i k => ((a i k : ℝ) : EReal)) i k = ((∑ k, off a i k : ℝ) : EReal) := by
  rw [coe_sum]; exact Finset.sum_congr rfl fun k _ => offE_coe a i k

/-- A masked column sum, taken block by block. -/
theorem col_sum_real (k : Fin 4096) :
    ∑ b : Fin 8, ∑ q : Fin 512, offE (fun i k => ((a i k : ℝ) : EReal)) (pos b q) k = ((∑ i, off a i k : ℝ) : EReal) := by
  rw [sum_blocks (fun i => offE (fun i k => ((a i k : ℝ) : EReal)) i k), coe_sum]
  exact Finset.sum_congr rfl fun i _ => offE_coe a i k

/-- The degree: a masked row sum plus a masked column sum. -/
theorem deg_real (i : Fin 4096) (r s : EReal) (hr : r = ∑ k : Fin 4096, offE (fun i k => ((a i k : ℝ) : EReal)) i k)
    (hs : s = ∑ b : Fin 8, ∑ q : Fin 512, offE (fun i k => ((a i k : ℝ) : EReal)) (pos b q) i) :
    r + s = ((deg a i : ℝ) : EReal) := by
  rw [hr, hs, row_sum_real, col_sum_real, ← EReal.coe_add]; rfl

/-- Forward direction: the row scale times each block's partial sum of (masked row) · (column of v), over the blocks. -/
theorem fwd_real (d : ℝ) (v : Fin 4096 → ℝ) (i : Fin 4096) :
    ∑ b : Fin 8, (d : EReal) * ∑ q : Fin 512, offE (fun i k => ((a i k : ℝ) : EReal)) i (pos b q) * ((v (pos b q) : ℝ) : EReal)
      = ((d * ∑ k, off a i k * v k : ℝ) : EReal) := by
  rw [← scaled_block_sums d (fun k => off a i k) v]
  refine Finset.sum_congr rfl fun b _ => congrArg ((d : EReal) * ·) (Finset.sum_congr rfl fun q _ => ?_)
  rw [offE_coe]

/-- Reverse direction: the same with the matrix's ROW index contracted. -/
theorem rev_real (d : ℝ) (v : Fin 4096 → ℝ) (k : Fin 4096) :
    ∑ b : Fin 8, (d : EReal) * ∑ q : Fin 512, offE (fun i k => ((a i k : ℝ) : EReal)) (pos b q) k * ((v (pos b q) : ℝ) : EReal)
      = ((d * ∑ i, off a i k * v i : ℝ) : EReal) := by
  rw [← scaled_block_sums d (fun i => off a i k) v]
  refine Finset.sum_congr rfl fun b _ => congrArg ((d : EReal) * ·) (Finset.sum_congr rfl fun q _ => ?_)
  rw [offE_coe]

/-- The combination (1/2) y + (1/4) z with the two f32 words. -/
theorem combine_real (y z : ℝ) :
    Ideal.ofBits .f32 0x3F000000#32 * (y : EReal) + Ideal.ofBits .f32 0x3E800000#32 * (z : EReal)
      = ((2⁻¹ * y + 4⁻¹ * z : ℝ) : EReal) := by
  rw [ofBits_half_f32, ofBits_quarter_f32, ← EReal.coe_mul, ← EReal.coe_mul, ← EReal.coe_add]

/-- One branch of the update: linear layer through the transposed weights, bias, max(·, 0). -/
theorem branch_real (agg : Feat) (w : Wt) (b : Bias) (i : Fin 4096) (g : Fin 128) :
    max ((∑ f : Fin 128, ((agg i f : ℝ) : EReal) * ((w g f : ℝ) : EReal)) + ((b g : ℝ) : EReal)) 0
      = ((branch agg w b i g : ℝ) : EReal) := by
  unfold branch
  rw [← coe_max, EReal.coe_zero, EReal.coe_add, coe_sum]
  refine congrArg (fun z : EReal => max z 0) (congrArg (· + ((b g : ℝ) : EReal)) (Finset.sum_congr rfl fun f _ => ?_))
  rw [EReal.coe_mul]

end Cert.KernelReal

end
-- ==== Proof.KI.Value.lean ====
/-
  The value of the result array at the exact reading of floats, for real inputs.

  Given what each of the four regions leaves in its output arrays (as sums over the arrays it was entered with), the
  contents are followed through the program: the masked row and column sums give the degree, the host operations its
  guarded reciprocal, the two matrix-vector regions y and then (1/2) y + (1/4) z in both directions, the last region
  the linear layers with bias and max(·, 0). With every input entry a real number each stage is the coercion of the
  real formula, and the result is the second arrangement kerOut of the specification.
-/
import proofs.«140086_j17265768530288_2_alg».proof.Proof.KI.Kept
import proofs.«140086_j17265768530288_2_alg».proof.Proof.KI.HostReads
import proofs.«140086_j17265768530288_2_alg».proof.Proof.KI.Mask
import proofs.«140086_j17265768530288_2_alg».proof.Proof.KernelRealForms
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Math Cert.Spec Cert.KernelReal

/-- A buffer's contents read as an array of extended reals. -/
abbrev arr {S : Shape} (x : S.Idx → EReal) : S.Idx → EReal := x

variable (m : (ℓ : Loc nD τ sig) → Buf (Elt IdealF) ℓ) (ρ : Dev nD → PrngReg) (c : Dev nD)

/-- What the four regions leave in their output arrays, each as sums over the arrays the region was entered with. -/
structure RegionValues : Prop where
  rows : ∀ (i : Fin 4096) (j : Fin 128), arr (S := S4096x128) ((dat0 (F := IdealF) (V0 m ρ) c).arrAt 1 cfg0.N) (ix2 i j)
      = ∑ k : Fin 4096, offE (V0 m ρ c main_arg1) i k
  cols : ∀ (r : Fin 8) (k : Fin 4096), arr (S := S8x4096) ((dat0 (F := IdealF) (V0 m ρ) c).arrAt 2 cfg0.N) (ix2 r k)
      = ∑ b : Fin 8, ∑ q : Fin 512, offE (V0 m ρ c main_arg1) (blockRow b q) k
  y1 : ∀ (i : Fin 4096) (f : Fin 128), arr (S := S4096x128) ((dat1 (F := IdealF) (V4 m ρ) c).arrAt 3 cfg1.N) (ix2 i f)
      = ∑ b : Fin 8, arr (S := S4096x128) (V4 m ρ c main_v12) (ix2 i (0 : Fin 128))
          * ∑ q : Fin 512, offE (V4 m ρ c main_arg1) i (blockRow b q) * arr (S := S4096x128) (V4 m ρ c main_arg0) (ix2 (blockRow b q) f)
  y2 : ∀ (k : Fin 4096) (f : Fin 128), arr (S := S4096x128) ((dat1 (F := IdealF) (V4 m ρ) c).arrAt 4 cfg1.N) (ix2 k f)
      = ∑ b : Fin 8, arr (S := S4096x128) (V4 m ρ c main_v12) (ix2 k (0 : Fin 128))
          * ∑ q : Fin 512, offE (V4 m ρ c main_arg1) (blockRow b q) k * arr (S := S4096x128) (V4 m ρ c main_arg0) (ix2 (blockRow b q) f)
  a1 : ∀ (i : Fin 4096) (f : Fin 128), arr (S := S4096x128) ((dat2 (F := IdealF) (V5 m ρ) c).arrAt 4 cfg2.N) (ix2 i f)
      = Ideal.ofBits .f32 0x3F000000#32 * arr (S := S4096x128) (V5 m ρ c main_v13_0) (ix2 i f)
        + Ideal.ofBits .f32 0x3E800000#32 * (∑ b : Fin 8, arr (S := S4096x128) (V5 m ρ c main_v12) (ix2 i (0 : Fin 128))
          * ∑ q : Fin 512, offE (V5 m ρ c main_arg1) i (blockRow b q) * arr (S := S4096x128) (V5 m ρ c main_v13_0) (ix2 (blockRow b q) f))
  a2 : ∀ (k : Fin 4096) (f : Fin 128), arr (S := S4096x128) ((dat2 (F := IdealF) (V5 m ρ) c).arrAt 5 cfg2.N) (ix2 k f)
      = Ideal.ofBits .f32 0x3F000000#32 * arr (S := S4096x128) (V5 m ρ c main_v13_1) (ix2 k f)
        + Ideal.ofBits .f32 0x3E800000#32 * (∑ b : Fin 8, arr (S := S4096x128) (V5 m ρ c main_v12) (ix2 k (0 : Fin 128))
          * ∑ q : Fin 512, offE (V5 m ρ c main_arg1) (blockRow b q) k * arr (S := S4096x128) (V5 m ρ c main_v13_1) (ix2 (blockRow b q) f))
  out : ∀ (i : Fin 4096) (g : Fin 128), arr (S := S4096x128) ((dat3 (F := IdealF) (V7 m ρ) c).arrAt 6 cfg3.N) (ix2 i g)
      = max ((∑ f : Fin 128, arr (S := S4096x128) (V7 m ρ c main_v14_0) (ix2 i f) * arr (S := S128x128) (V7 m ρ c main_v15) (ix2 f g))
            + arr (S := S1x128) (V7 m ρ c main_v17) (ix2 (0 : Fin 1) g)) 0
        + max ((∑ f : Fin 128, arr (S := S4096x128) (V7 m ρ c main_v14_1) (ix2 i f) * arr (S := S128x128) (V7 m ρ c main_v16) (ix2 f g))
            + arr (S := S1x128) (V7 m ρ c main_v18) (ix2 (0 : Fin 1) g)) 0

variable (X : S4096x128.Idx → ℝ) (A : S4096x4096.Idx → ℝ) (Wa Wb : S128x128.Idx → ℝ) (Ba Bb : S128.Idx → ℝ)

/-- The real arrays by coordinates. -/
abbrev matK (A : S4096x4096.Idx → ℝ) : Mat := fun i k => A (ix2 i k)
abbrev featK (X : S4096x128.Idx → ℝ) : Feat := fun i f => X (ix2 i f)
abbrev wtK (W : S128x128.Idx → ℝ) : Wt := fun g f => W (ix2 g f)
abbrev biasK (B : S128.Idx → ℝ) : Bias := fun g => B (ix1 g)

/-- The launch memory holds real numbers in the six arguments. -/
structure RealInputs : Prop where
  x : arr (S := S4096x128) (m ((c.tc : Thread nD τ).loc main_arg0)) = fun j => ((X j : ℝ) : EReal)
  adj : arr (S := S4096x4096) (m ((c.tc : Thread nD τ).loc main_arg1)) = fun j => ((A j : ℝ) : EReal)
  w1 : arr (S := S128x128) (m ((c.tc : Thread nD τ).loc main_arg2)) = fun j => ((Wa j : ℝ) : EReal)
  b1 : arr (S := S128) (m ((c.tc : Thread nD τ).loc main_arg3)) = fun j => ((Ba j : ℝ) : EReal)
  w2 : arr (S := S128x128) (m ((c.tc : Thread nD τ).loc main_arg4)) = fun j => ((Wb j : ℝ) : EReal)
  b2 : arr (S := S128) (m ((c.tc : Thread nD τ).loc main_arg5)) = fun j => ((Bb j : ℝ) : EReal)

variable {m ρ c X A Wa Wb Ba Bb}

/-- The mask of the adjacency as launched is the real mask. -/
theorem offE_launch (hin : RealInputs m c X A Wa Wb Ba Bb) (i k : Fin 4096) :
    offE (arr (S := S4096x4096) (m ((c.tc : Thread nD τ).loc main_arg1))) i k = ((off (matK A) i k : ℝ) : EReal) := by
  rw [hin.adj]
  exact Cert.KernelReal.offE_coe (matK A) i k

/-- The degree, from what region 0 leaves. -/
theorem deg_value (hv : RegionValues m ρ c) (hin : RealInputs m c X A Wa Wb Ba Bb) (i : Fin 4096) :
    degOf (W1 m ρ c) i = ((deg (matK A) i : ℝ) : EReal) := by
  have hr : arr (S := S4096x128) (W1 m ρ c (Proc.devRef .tc main_v0_0)) (ix2 i (0 : Fin 128)) = ((∑ k, off (matK A) i k : ℝ) : EReal) := by
    rw [show W1 m ρ c (Proc.devRef .tc main_v0_0) = (dat0 (F := IdealF) (V0 m ρ) c).arrAt 1 cfg0.N from W1_arr m ρ c 1, hv.rows, coe_sum]
    exact Finset.sum_congr rfl fun k _ => offE_launch hin i k
  have hs : arr (S := S8x4096) (W1 m ρ c (Proc.devRef .tc main_v0_1)) (ix2 (0 : Fin 8) i) = ((∑ k, off (matK A) k i : ℝ) : EReal) := by
    rw [show W1 m ρ c (Proc.devRef .tc main_v0_1) = (dat0 (F := IdealF) (V0 m ρ) c).arrAt 2 cfg0.N from W1_arr m ρ c 2, hv.cols,
      sum_blocks (fun r => offE (V0 m ρ c main_arg1) r i), coe_sum]
    exact Finset.sum_congr rfl fun k _ => offE_launch hin k i
  show arr (S := S4096x128) (W1 m ρ c (Proc.devRef .tc main_v0_0)) (ix2 i (0 : Fin 128))
      + arr (S := S8x4096) (W1 m ρ c (Proc.devRef .tc main_v0_1)) (ix2 (0 : Fin 8) i) = _
  rw [hr, hs, ← EReal.coe_add]; rfl

/-- The guarded reciprocal of the degree, as regions 1 and 2 find it. -/
theorem dinv_value (hv : RegionValues m ρ c) (hin : RealInputs m c X A Wa Wb Ba Bb) (i : Fin 4096) (f : Fin 128) :
    arr (S := S4096x128) (W4 m ρ c (Proc.devRef .tc main_v12)) (ix2 i f) = ((dinv (matK A) i : ℝ) : EReal) := by
  show arr (S := S4096x128) (StableHlo.after hostOps1_2 (StableHlo.after hostOps1_1 (StableHlo.after hostOps1 (W1 m ρ c))) (Proc.devRef .tc main_v12)) (ix2 i f) = _
  rw [show arr (S := S4096x128) (StableHlo.after hostOps1_2 (StableHlo.after hostOps1_1 (StableHlo.after hostOps1 (W1 m ρ c))) (Proc.devRef .tc main_v12)) (ix2 i f)
      = _ from recip_deg_apply (W1 m ρ c) i f, deg_value hv hin i]
  exact guarded_inv _

/-! ### The two matrix-vector products, block by block -/

/-- Forward: a real row scale times each block's partial sum of (masked row) · (real column), over the blocks. -/
theorem fwd_sum_real (a : Mat) (d : ℝ) (v : Fin 4096 → ℝ) (i : Fin 4096) (Dv : EReal) (Adj : S4096x4096.Idx → EReal)
    (Y : Fin 4096 → EReal) (hD : Dv = ((d : ℝ) : EReal)) (hAdj : ∀ k, offE Adj i k = ((off a i k : ℝ) : EReal))
    (hY : ∀ k, Y k = ((v k : ℝ) : EReal)) :
    ∑ b : Fin 8, Dv * ∑ q : Fin 512, offE Adj i (blockRow b q) * Y (blockRow b q) = ((d * ∑ k, off a i k * v k : ℝ) : EReal) := by
  rw [← scaled_block_sums d (fun k => off a i k) v, hD]
  refine Finset.sum_congr rfl fun b _ => congrArg (((d : ℝ) : EReal) * ·) (Finset.sum_congr rfl fun q _ => ?_)
  rw [hAdj, hY]

/-- Reverse: the same with the matrix's row index contracted. -/
theorem rev_sum_real (a : Mat) (d : ℝ) (v : Fin 4096 → ℝ) (k : Fin 4096) (Dv : EReal) (Adj : S4096x4096.Idx → EReal)
    (Y : Fin 4096 → EReal) (hD : Dv = ((d : ℝ) : EReal)) (hAdj : ∀ r, offE Adj r k = ((off a r k : ℝ) : EReal))
    (hY : ∀ r, Y r = ((v r : ℝ) : EReal)) :
    ∑ b : Fin 8, Dv * ∑ q : Fin 512, offE Adj (blockRow b q) k * Y (blockRow b q) = ((d * ∑ r, off a r k * v r : ℝ) : EReal) := by
  rw [← scaled_block_sums d (fun r => off a r k) v, hD]
  refine Finset.sum_congr rfl fun b _ => congrArg (((d : ℝ) : EReal) * ·) (Finset.sum_congr rfl fun q _ => ?_)
  rw [hAdj, hY]

/-- y in the forward direction, as region 2 finds it. -/
theorem y1_value (hv : RegionValues m ρ c) (hin : RealInputs m c X A Wa Wb Ba Bb) (i : Fin 4096) (f : Fin 128) :
    arr (S := S4096x128) (W5 m ρ c (Proc.devRef .tc main_v13_0)) (ix2 i f) = ((y1 (matK A) (featK X) i f : ℝ) : EReal) := by
  rw [show W5 m ρ c (Proc.devRef .tc main_v13_0) = (dat1 (F := IdealF) (V4 m ρ) c).arrAt 3 cfg1.N from W5_arr m ρ c 3, hv.y1]
  refine fwd_sum_real (matK A) (dinv (matK A) i) (fun k => featK X k f) i _ _
    (fun k => arr (S := S4096x128) (V4 m ρ c main_arg0) (ix2 k f)) (dinv_value hv hin i 0) (fun k => ?_) (fun k => ?_)
  · rw [show V4 m ρ c main_arg1 = m ((c.tc : Thread nD τ).loc main_arg1) from W4_main_arg1_from0 m ρ c]
    exact offE_launch hin i k
  · rw [show V4 m ρ c main_arg0 = m ((c.tc : Thread nD τ).loc main_arg0) from W4_main_arg0_from0 m ρ c]
    exact congrFun hin.x (ix2 k f)

/-- y in the reverse direction. -/
theorem y2_value (hv : RegionValues m ρ c) (hin : RealInputs m c X A Wa Wb Ba Bb) (k : Fin 4096) (f : Fin 128) :
    arr (S := S4096x128) (W5 m ρ c (Proc.devRef .tc main_v13_1)) (ix2 k f) = ((y2 (matK A) (featK X) k f : ℝ) : EReal) := by
  rw [show W5 m ρ c (Proc.devRef .tc main_v13_1) = (dat1 (F := IdealF) (V4 m ρ) c).arrAt 4 cfg1.N from W5_arr m ρ c 4, hv.y2]
  refine rev_sum_real (matK A) (dinv (matK A) k) (fun r => featK X r f) k _ _
    (fun r => arr (S := S4096x128) (V4 m ρ c main_arg0) (ix2 r f)) (dinv_value hv hin k 0) (fun r => ?_) (fun r => ?_)
  · rw [show V4 m ρ c main_arg1 = m ((c.tc : Thread nD τ).loc main_arg1) from W4_main_arg1_from0 m ρ c]
    exact offE_launch hin r k
  · rw [show V4 m ρ c main_arg0 = m ((c.tc : Thread nD τ).loc main_arg0) from W4_main_arg0_from0 m ρ c]
    exact congrFun hin.x (ix2 r f)

/-- (1/2) y + (1/4) z in the forward direction, as region 3 finds it. -/
theorem a1_value (hv : RegionValues m ρ c) (hin : RealInputs m c X A Wa Wb Ba Bb) (i : Fin 4096) (f : Fin 128) :
    arr (S := S4096x128) (W6 m ρ c (Proc.devRef .tc main_v14_0)) (ix2 i f) = ((agg1 (matK A) (featK X) i f : ℝ) : EReal) := by
  rw [show W6 m ρ c (Proc.devRef .tc main_v14_0) = (dat2 (F := IdealF) (V5 m ρ) c).arrAt 4 cfg2.N from W6_arr m ρ c 4, hv.a1]
  have hz : (∑ b : Fin 8, arr (S := S4096x128) (V5 m ρ c main_v12) (ix2 i (0 : Fin 128))
      * ∑ q : Fin 512, offE (V5 m ρ c main_arg1) i (blockRow b q) * arr (S := S4096x128) (V5 m ρ c main_v13_0) (ix2 (blockRow b q) f))
      = ((z1 (matK A) (featK X) i f : ℝ) : EReal) := by
    refine fwd_sum_real (matK A) (dinv (matK A) i) (fun k => y1 (matK A) (featK X) k f) i _ _
      (fun k => arr (S := S4096x128) (V5 m ρ c main_v13_0) (ix2 k f)) ?_ (fun k => ?_) (fun k => y1_value hv hin k f)
    · rw [show V5 m ρ c main_v12 = W4 m ρ c (Proc.devRef .tc main_v12) from W5_main_v12_from4 m ρ c]
      exact dinv_value hv hin i 0
    · rw [show V5 m ρ c main_arg1 = m ((c.tc : Thread nD τ).loc main_arg1) from W5_main_arg1_from0 m ρ c]
      exact offE_launch hin i k
  rw [hz, show arr (S := S4096x128) (V5 m ρ c main_v13_0) (ix2 i f) = _ from y1_value hv hin i f]
  exact combine_real _ _

/-- (1/2) y + (1/4) z in the reverse direction. -/
theorem a2_value (hv : RegionValues m ρ c) (hin : RealInputs m c X A Wa Wb Ba Bb) (k : Fin 4096) (f : Fin 128) :
    arr (S := S4096x128) (W6 m ρ c (Proc.devRef .tc main_v14_1)) (ix2 k f) = ((agg2 (matK A) (featK X) k f : ℝ) : EReal) := by
  rw [show W6 m ρ c (Proc.devRef .tc main_v14_1) = (dat2 (F := IdealF) (V5 m ρ) c).arrAt 5 cfg2.N from W6_arr m ρ c 5, hv.a2]
  have hz : (∑ b : Fin 8, arr (S := S4096x128) (V5 m ρ c main_v12) (ix2 k (0 : Fin 128))
      * ∑ q : Fin 512, offE (V5 m ρ c main_arg1) (blockRow b q) k * arr (S := S4096x128) (V5 m ρ c main_v13_1) (ix2 (blockRow b q) f))
      = ((z2 (matK A) (featK X) k f : ℝ) : EReal) := by
    refine rev_sum_real (matK A) (dinv (matK A) k) (fun r => y2 (matK A) (featK X) r f) k _ _
      (fun r => arr (S := S4096x128) (V5 m ρ c main_v13_1) (ix2 r f)) ?_ (fun r => ?_) (fun r => y2_value hv hin r f)
    · rw [show V5 m ρ c main_v12 = W4 m ρ c (Proc.devRef .tc main_v12) from W5_main_v12_from4 m ρ c]
      exact dinv_value hv hin k 0
    · rw [show V5 m ρ c main_arg1 = m ((c.tc : Thread nD τ).loc main_arg1) from W5_main_arg1_from0 m ρ c]
      exact offE_launch hin r k
  rw [hz, show arr (S := S4096x128) (V5 m ρ c main_v13_1) (ix2 k f) = _ from y2_value hv hin k f]
  exact combine_real _ _

/-- The transposed weights and the bias rows region 3 finds. -/
theorem wt1_value (hin : RealInputs m c X A Wa Wb Ba Bb) (f g : Fin 128) :
    arr (S := S128x128) (W7 m ρ c (Proc.devRef .tc main_v15)) (ix2 f g) = ((wtK Wa g f : ℝ) : EReal) := by
  show arr (S := S128x128) (StableHlo.after hostOps3 (W6 m ρ c) (Proc.devRef .tc main_v15)) (ix2 f g) = _
  rw [show arr (S := S128x128) (StableHlo.after hostOps3 (W6 m ρ c) (Proc.devRef .tc main_v15)) (ix2 f g) = _ from host3_v15 (W6 m ρ c) f g,
    show W6 m ρ c (Proc.devRef .tc main_arg2) = m ((c.tc : Thread nD τ).loc main_arg2) from W6_main_arg2_from0 m ρ c]
  exact congrFun hin.w1 (ix2 g f)
theorem wt2_value (hin : RealInputs m c X A Wa Wb Ba Bb) (f g : Fin 128) :
    arr (S := S128x128) (W7 m ρ c (Proc.devRef .tc main_v16)) (ix2 f g) = ((wtK Wb g f : ℝ) : EReal) := by
  show arr (S := S128x128) (StableHlo.after hostOps3 (W6 m ρ c) (Proc.devRef .tc main_v16)) (ix2 f g) = _
  rw [show arr (S := S128x128) (StableHlo.after hostOps3 (W6 m ρ c) (Proc.devRef .tc main_v16)) (ix2 f g) = _ from host3_v16 (W6 m ρ c) f g,
    show W6 m ρ c (Proc.devRef .tc main_arg4) = m ((c.tc : Thread nD τ).loc main_arg4) from W6_main_arg4_from0 m ρ c]
  exact congrFun hin.w2 (ix2 g f)
theorem bias1_value (hin : RealInputs m c X A Wa Wb Ba Bb) (g : Fin 128) :
    arr (S := S1x128) (W7 m ρ c (Proc.devRef .tc main_v17)) (ix2 (0 : Fin 1) g) = ((biasK Ba g : ℝ) : EReal) := by
  show arr (S := S1x128) (StableHlo.after hostOps3 (W6 m ρ c) (Proc.devRef .tc main_v17)) (ix2 (0 : Fin 1) g) = _
  rw [show arr (S := S1x128) (StableHlo.after hostOps3 (W6 m ρ c) (Proc.devRef .tc main_v17)) (ix2 (0 : Fin 1) g) = _ from host3_v17 (W6 m ρ c) g,
    show W6 m ρ c (Proc.devRef .tc main_arg3) = m ((c.tc : Thread nD τ).loc main_arg3) from W6_main_arg3_from0 m ρ c]
  exact congrFun hin.b1 (ix1 g)
theorem bias2_value (hin : RealInputs m c X A Wa Wb Ba Bb) (g : Fin 128) :
    arr (S := S1x128) (W7 m ρ c (Proc.devRef .tc main_v18)) (ix2 (0 : Fin 1) g) = ((biasK Bb g : ℝ) : EReal) := by
  show arr (S := S1x128) (StableHlo.after hostOps3 (W6 m ρ c) (Proc.devRef .tc main_v18)) (ix2 (0 : Fin 1) g) = _
  rw [show arr (S := S1x128) (StableHlo.after hostOps3 (W6 m ρ c) (Proc.devRef .tc main_v18)) (ix2 (0 : Fin 1) g) = _ from host3_v18 (W6 m ρ c) g,
    show W6 m ρ c (Proc.devRef .tc main_arg5) = m ((c.tc : Thread nD τ).loc main_arg5) from W6_main_arg5_from0 m ρ c]
  exact congrFun hin.b2 (ix1 g)

/-- THE RESULT: every entry of the result array is the second arrangement of the specification. -/
theorem result_value (hv : RegionValues m ρ c) (hin : RealInputs m c X A Wa Wb Ba Bb) (i : Fin 4096) (g : Fin 128) :
    arr (S := S4096x128) (W8 m ρ c (Proc.devRef .tc main_v19)) (ix2 i g)
      = ((kerOut (featK X) (matK A) (wtK Wa) (biasK Ba) (wtK Wb) (biasK Bb) i g : ℝ) : EReal) := by
  rw [show W8 m ρ c (Proc.devRef .tc main_v19) = (dat3 (F := IdealF) (V7 m ρ) c).arrAt 6 cfg3.N from W8_arr m ρ c 6, hv.out]
  have e1 : ∀ f : Fin 128, arr (S := S4096x128) (V7 m ρ c main_v14_0) (ix2 i f) = ((agg1 (matK A) (featK X) i f : ℝ) : EReal) := fun f => by
    rw [show V7 m ρ c main_v14_0 = W6 m ρ c (Proc.devRef .tc main_v14_0) from W7_main_v14_0_from6 m ρ c]
    exact a1_value hv hin i f
  have e2 : ∀ f : Fin 128, arr (S := S4096x128) (V7 m ρ c main_v14_1) (ix2 i f) = ((agg2 (matK A) (featK X) i f : ℝ) : EReal) := fun f => by
    rw [show V7 m ρ c main_v14_1 = W6 m ρ c (Proc.devRef .tc main_v14_1) from W7_main_v14_1_from6 m ρ c]
    exact a2_value hv hin i f
  simp only [e1, e2, wt1_value hin, wt2_value hin, bias1_value hin, bias2_value hin]
  unfold kerOut
  rw [EReal.coe_add, ← branch_real, ← branch_real]

end Cert.KernelIdeal.Hand

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.KI.Region0Pay.lean ====
/- The degree kernel's four stored values on the extended reals, read index by index: the masked tile
   (the adjacency tile with the entries on the matrix diagonal replaced by zero), its row sums spread over 128 lanes,
   the zero fill of the accumulator, and the accumulator plus the tile's column sums spread over 8 rows. -/
import proofs.«140086_j17265768530288_2_alg».proof.Proof.Gen.KernelIdeal.Skeleton
import proofs.«140086_j17265768530288_2_alg».proof.Proof.LibKeepdims
import proofs.«140086_j17265768530288_2_alg».proof.Proof.LibColumnBroadcast
import proofs.«140086_j17265768530288_2_alg».proof.Proof.LibColumnReads
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section

namespace Cert.KernelIdeal.Hand

open Cert.KernelIdeal.Gen
open Idealize.ShloMosaic Idealize.ShloMosaic.ValueIdx

/-- Two 32-bit words of numbers below 2^32 are equal exactly when the numbers are. -/
theorem ofNat32_eq_iff0 {a b : ℕ} (ha : a < 2 ^ 32) (hb : b < 2 ^ 32) : BitVec.ofNat 32 a = BitVec.ofNat 32 b ↔ a = b := by
  constructor
  · intro h
    have h' := congrArg BitVec.toNat h
    simp only [BitVec.toNat_ofNat] at h'
    rwa [Nat.mod_eq_of_lt ha, Nat.mod_eq_of_lt hb] at h'
  · rintro rfl; rfl

/-- The row number the body computes for local row p of row block i0, as a word, is the word of i0 * 512 + p. -/
theorem rowWord0 (i0 p : ℕ) :
    IntOp.addi (Scalar.muli (BitVec.ofNat 32 i0) 512#32) (BitVec.ofNat 32 p) = BitVec.ofNat 32 (i0 * 512 + p) := by
  show BitVec.ofNat 32 i0 * BitVec.ofNat 32 512 + BitVec.ofNat 32 p = _
  rw [← BitVec.ofNat_mul, ← BitVec.ofNat_add]

/-- The masked tile at local row p and column q: zero where the row's number in the whole matrix, i0 * 512 + p, is
    the column's, the tile's entry elsewhere. -/
theorem pay0_1_apply (i : grid0.Coords) (x : Vec Ideal S512x4096 .f32) (p : Fin 512) (q : Fin 4096) :
    k0_pay1 (F := Ideal) i x (ix2 p q) = if (i 0).val * 512 + p.val = q.val then 0 else x (ix2 p q) := by
  have hi : (i 0).val < 8 := (i 0).isLt
  have hp : p.val < 512 := p.isLt
  have hq : q.val < 4096 := q.isLt
  unfold k0_pay1
  dsimp only
  rw [select_apply]
  show Scalar.select (IntOp.cmpi .eq (IntOp.addi (Scalar.muli (BitVec.ofNat 32 (i 0).val) 512#32) (iota .tc S512x4096 32 [0] iota_S512x4096_d0_w32 (ix2 p q)))
        (iota .tc S512x4096 32 [1] iota_S512x4096_d1_w32 (ix2 p q))) (Ideal.ofBits .f32 0x00000000#32) (x (ix2 p q)) = _
  rw [iota_single_apply, iota_single_apply, Ideal.ofBits_zero_f32]
  show Scalar.select (IntOp.cmpi .eq (IntOp.addi (Scalar.muli (BitVec.ofNat 32 (i 0).val) 512#32) (BitVec.ofNat 32 p.val)) (BitVec.ofNat 32 q.val)) 0 (x (ix2 p q)) = _
  rw [rowWord0]
  unfold Scalar.select
  exact if_congr (IntOp.cmpi_eq.trans (ofNat32_eq_iff0 (by omega) (by omega))) rfl rfl

/-- The row-sum payload at local row p, any lane: the sum of the masked tile's row p. -/
theorem pay0_2_apply (i : grid0.Coords) (x : Vec Ideal S512x4096 .f32) (p : Fin 512) (j : Fin 128) :
    k0_pay2 (F := Ideal) i x (ix2 p j) = ∑ q : Fin 4096, k0_pay1 (F := Ideal) i x (ix2 p q) := by
  unfold k0_pay2
  dsimp only
  rw [Cert.WeightUpdate.Layout.broadcastTo_a1_ab_apply, shapeCast_self, Cert.MemAttn.Layout.shapeCast_a_a1_apply]
  exact Cert.MemAttn.Layout.multiReduction_add_row _ _ _ _ _ p

/-- The accumulator's fill is zero everywhere. -/
theorem pay0_3_apply (r : Fin 8) (k : Fin 4096) : k0_pay3 (F := Ideal) (ix2 r k) = 0 := by
  unfold k0_pay3
  rw [shapeCast_self]
  show Ideal.ofBits .f32 0x00000000#32 = 0
  exact Ideal.ofBits_zero_f32

/-- The accumulated payload at any of the 8 rows and column k: the accumulator's entry plus the sum of the masked
    tile's column k. -/
theorem pay0_4_apply (i : grid0.Coords) (x : Vec Ideal S512x4096 .f32) (a : Vec Ideal S8x4096 .f32) (r : Fin 8) (k : Fin 4096) :
    k0_pay4 (F := Ideal) i x a (ix2 r k) = a (ix2 r k) + ∑ p : Fin 512, k0_pay1 (F := Ideal) i x (ix2 p k) := by
  unfold k0_pay4
  dsimp only
  rw [shapeCast_self, addf_apply, broadcastTo_1b_ab_apply, shapeCast_self, shapeCast_a_1a_apply]
  exact congrArg (a (ix2 r k) + ·) (Cert.ColumnReads.multiReduction_add_col _ _ _ _ _ k)

end Cert.KernelIdeal.Hand

end
-- ==== Proof.KI.Region0Value.lean ====
/- Region 0 of @main (the degree kernel) on the extended reals: what its two output arrays hold after the region,
   index by index, as sums of the masked adjacency as the region finds it — the row-sum array holds, in every lane
   of row i, the sum of masked row i; the column-sum array holds, in every one of its 8 rows, at column k, the sum
   over the 8 row blocks of the masked column k's entries in the block. -/
import proofs.«140086_j17265768530288_2_alg».proof.Proof.KI.Region0
import proofs.«140086_j17265768530288_2_alg».proof.Proof.KI.Region0Pay
import proofs.«140086_j17265768530288_2_alg».proof.Proof.KI.Mask

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## The contents each case leaves, as payloads

Every store of the body covers its whole buffer, so the overlay of a case's pieces is the payload of the last store;
a whole-buffer load of contents reads them, and a whole-buffer load after a whole-buffer store reads the stored
payload. Stated at any float instance. -/

theorem zeros0 : (![0, 0] : Fin 2 → Nat) = fun _ => 0 := funext fun a => by fin_cases a <;> rfl

section Payloads
variable {F : FTy → Type} [FloatOps F]
variable (c : Dev nD) (i : grid0.Coords)
    (arg1 : Memref sig .tc .vmem S512x4096 .f32) (harg1 : arg1.IsWhole) (arg2 : Memref sig .tc .vmem S512x128 .f32) (harg2 : arg2.IsWhole)
    (arg3 : Memref sig .tc .vmem S8x4096 .f32) (harg3 : arg3.IsWhole) (arg4 : Memref sig .tc .vmem S8x4096 .f32) (harg4 : arg4.IsWhole)
    (x : Vec F S512x4096 .f32) (a : Vec F S8x4096 .f32)

theorem rowFirst0_eq (hf : isFirst0 i) (hl : ¬isLast0 i) :
    View.canon (runFirst0 c i arg1 harg1 arg2 harg2 arg3 harg3 arg4 harg4 hf hl x).1 = k0_pay2 i x := by
  unfold runFirst0
  dsimp only
  rw [View.canon_unit_zero zeros0]
  simp only [View.readAt_eq_ld, harg1.read_unread, View.ld_unit_zero (S := S512x4096) zeros0]

theorem accFirst0_eq (hf : isFirst0 i) (hl : ¬isLast0 i) :
    View.canon (runFirst0 c i arg1 harg1 arg2 harg2 arg3 harg3 arg4 harg4 hf hl x).2.1 = k0_pay4 i x (k0_pay3 (F := F)) := by
  unfold runFirst0
  dsimp only
  sl_unfold_run_names
  rw [View.canon_cons_unit_zero zeros0, View.readCov_unit_zero _ zeros0]
  simp only [View.readAt_eq_ld, harg1.read_unread, View.ld_unit_zero (S := S512x4096) zeros0]

theorem rowMid0_eq (hf : ¬isFirst0 i) (hl : ¬isLast0 i) :
    View.canon (runMid0 c i arg1 harg1 arg2 harg2 arg3 harg3 arg4 harg4 hf hl x a).1 = k0_pay2 i x := by
  unfold runMid0
  dsimp only
  rw [View.canon_unit_zero zeros0]
  simp only [View.readAt_eq_ld, harg1.read_unread, View.ld_unit_zero (S := S512x4096) zeros0]

theorem accMid0_eq (hf : ¬isFirst0 i) (hl : ¬isLast0 i) :
    View.canon (runMid0 c i arg1 harg1 arg2 harg2 arg3 harg3 arg4 harg4 hf hl x a).2.1 = k0_pay4 i x a := by
  unfold runMid0
  dsimp only
  rw [View.canon_unit_zero zeros0]
  simp only [View.readAt_eq_ld, harg1.read_unread, harg4.read_unread, View.ld_unit_zero (S := S512x4096) zeros0, View.ld_unit_zero (S := S8x4096) zeros0]

theorem rowLast0_eq (hf : ¬isFirst0 i) (hl : isLast0 i) :
    View.canon (runLast0 c i arg1 harg1 arg2 harg2 arg3 harg3 arg4 harg4 hf hl x a).1 = k0_pay2 i x := by
  unfold runLast0
  dsimp only
  rw [View.canon_unit_zero zeros0]
  simp only [View.readAt_eq_ld, harg1.read_unread, View.ld_unit_zero (S := S512x4096) zeros0]

theorem colLast0_eq (hf : ¬isFirst0 i) (hl : isLast0 i) :
    View.canon (runLast0 c i arg1 harg1 arg2 harg2 arg3 harg3 arg4 harg4 hf hl x a).2.1 = k0_pay4 i x a := by
  unfold runLast0
  dsimp only
  sl_unfold_run_names
  rw [View.canon_unit_zero zeros0, View.readCov_unit_zero _ zeros0]
  simp only [View.readAt_eq_ld, harg1.read_unread, harg4.read_unread, View.ld_unit_zero (S := S512x4096) zeros0, View.ld_unit_zero (S := S8x4096) zeros0]

theorem accLast0_eq (hf : ¬isFirst0 i) (hl : isLast0 i) :
    View.canon (runLast0 c i arg1 harg1 arg2 harg2 arg3 harg3 arg4 harg4 hf hl x a).2.2.1 = k0_pay4 i x a := by
  unfold runLast0
  dsimp only
  sl_unfold_run_names
  rw [View.canon_unit_zero zeros0]
  simp only [View.readAt_eq_ld, harg1.read_unread, harg4.read_unread, View.ld_unit_zero (S := S512x4096) zeros0, View.ld_unit_zero (S := S8x4096) zeros0]

end Payloads

/-! ## The three components point by point, as a recurrence of payloads -/

section Recurrence
variable {F : FTy → Type} [FloatOps F]
variable (V : (c : Dev nD) → (b : Ref sig .tc) → Buf (Elt F) ((c : Thread nD τ).loc b))

/-- Each case's payload equations at the memrefs and the tile of a point t. -/
theorem rowFirstAt0 (c : Dev nD) (t : Fin cfg0.N) (hf : t.val % 8 = 0) (hl : ¬t.val % 8 = 7) :
    View.canon (firstAt0 V c t hf hl).1 = k0_pay2 (grid0.coords t) (blk0 V c 0 t) :=
  rowFirst0_eq c (grid0.coords t) (tileM0 t) (tileW0 t) (rowM0 t) (rowW0 t) (colM0 t) (colW0 t) accM0 (Memref.isWhole_whole _) (blk0 V c 0 t) _ _
theorem accFirstAt0 (c : Dev nD) (t : Fin cfg0.N) (hf : t.val % 8 = 0) (hl : ¬t.val % 8 = 7) :
    View.canon (firstAt0 V c t hf hl).2.1 = k0_pay4 (grid0.coords t) (blk0 V c 0 t) (k0_pay3 (F := F)) :=
  accFirst0_eq c (grid0.coords t) (tileM0 t) (tileW0 t) (rowM0 t) (rowW0 t) (colM0 t) (colW0 t) accM0 (Memref.isWhole_whole _) (blk0 V c 0 t) _ _
theorem rowMidAt0 (c : Dev nD) (t : Fin cfg0.N) (hf : ¬t.val % 8 = 0) (hl : ¬t.val % 8 = 7) (a : Vec F S8x4096 .f32) :
    View.canon (midAt0 V c t hf hl a).1 = k0_pay2 (grid0.coords t) (blk0 V c 0 t) :=
  rowMid0_eq c (grid0.coords t) (tileM0 t) (tileW0 t) (rowM0 t) (rowW0 t) (colM0 t) (colW0 t) accM0 (Memref.isWhole_whole _) (blk0 V c 0 t) a _ _
theorem accMidAt0 (c : Dev nD) (t : Fin cfg0.N) (hf : ¬t.val % 8 = 0) (hl : ¬t.val % 8 = 7) (a : Vec F S8x4096 .f32) :
    View.canon (midAt0 V c t hf hl a).2.1 = k0_pay4 (grid0.coords t) (blk0 V c 0 t) a :=
  accMid0_eq c (grid0.coords t) (tileM0 t) (tileW0 t) (rowM0 t) (rowW0 t) (colM0 t) (colW0 t) accM0 (Memref.isWhole_whole _) (blk0 V c 0 t) a _ _
theorem rowLastAt0 (c : Dev nD) (t : Fin cfg0.N) (hf : ¬t.val % 8 = 0) (hl : t.val % 8 = 7) (a : Vec F S8x4096 .f32) :
    View.canon (lastAt0 V c t hf hl a).1 = k0_pay2 (grid0.coords t) (blk0 V c 0 t) :=
  rowLast0_eq c (grid0.coords t) (tileM0 t) (tileW0 t) (rowM0 t) (rowW0 t) (colM0 t) (colW0 t) accM0 (Memref.isWhole_whole _) (blk0 V c 0 t) a _ _
theorem colLastAt0 (c : Dev nD) (t : Fin cfg0.N) (hf : ¬t.val % 8 = 0) (hl : t.val % 8 = 7) (a : Vec F S8x4096 .f32) :
    View.canon (lastAt0 V c t hf hl a).2.1 = k0_pay4 (grid0.coords t) (blk0 V c 0 t) a :=
  colLast0_eq c (grid0.coords t) (tileM0 t) (tileW0 t) (rowM0 t) (rowW0 t) (colM0 t) (colW0 t) accM0 (Memref.isWhole_whole _) (blk0 V c 0 t) a _ _
theorem accLastAt0 (c : Dev nD) (t : Fin cfg0.N) (hf : ¬t.val % 8 = 0) (hl : t.val % 8 = 7) (a : Vec F S8x4096 .f32) :
    View.canon (lastAt0 V c t hf hl a).2.2.1 = k0_pay4 (grid0.coords t) (blk0 V c 0 t) a :=
  accLast0_eq c (grid0.coords t) (tileM0 t) (tileW0 t) (rowM0 t) (rowW0 t) (colM0 t) (colW0 t) accM0 (Memref.isWhole_whole _) (blk0 V c 0 t) a _ _

-- the recurrence is read through the three unfolding equations of Region0.lean only
attribute [local irreducible] outsAt0

/-- The accumulator as the point before t left it. -/
abbrev prevAcc0 (c : Dev nD) (t : Fin cfg0.N) : Vec F S8x4096 .f32 :=
  (outsAt0 V c (t.val - 1) (Nat.lt_of_le_of_lt (Nat.sub_le _ _) t.isLt)).2.2

/-- The components of a triple that is known by an equation. -/
theorem tripleFst0 {α β γ : Type} {p : α × β × γ} {x : α} {y : β} {z : γ} (h : p = (x, y, z)) : p.1 = x := by subst h; rfl
theorem tripleSnd0 {α β γ : Type} {p : α × β × γ} {x : α} {y : β} {z : γ} (h : p = (x, y, z)) : p.2.1 = y := by subst h; rfl
theorem tripleThd0 {α β γ : Type} {p : α × β × γ} {x : α} {y : β} {z : γ} (h : p = (x, y, z)) : p.2.2 = z := by subst h; rfl

/-- The row-sum buffer after point t: the row-sum payload of the adjacency's row block t. -/
theorem row0_at (c : Dev nD) (t : Fin cfg0.N) :
    (outsAt0 V c t.val t.isLt).1 = k0_pay2 (grid0.coords t) (blk0 V c 0 t) := by
  have hN : t.val < 8 := lt_of_lt_of_eq t.isLt (show cfg0.N = 8 from N_0)
  by_cases hf : t.val % 8 = 0
  · have hl : ¬t.val % 8 = 7 := by omega
    exact (tripleFst0 (outsAt0_first V c t hf hl)).trans (rowFirstAt0 V c t hf hl)
  · by_cases hl : t.val % 8 = 7
    · exact (tripleFst0 (outsAt0_last V c t hf hl)).trans (rowLastAt0 V c t hf hl (prevAcc0 V c t))
    · exact (tripleFst0 (outsAt0_mid V c t hf hl)).trans (rowMidAt0 V c t hf hl (prevAcc0 V c t))

/-- The accumulator after the first point: the accumulated payload of its row block over the zero fill. -/
theorem acc0_first (c : Dev nD) (t : Fin cfg0.N) (hf : t.val % 8 = 0) :
    (outsAt0 V c t.val t.isLt).2.2 = k0_pay4 (grid0.coords t) (blk0 V c 0 t) (k0_pay3 (F := F)) := by
  have hN : t.val < 8 := lt_of_lt_of_eq t.isLt (show cfg0.N = 8 from N_0)
  have hl : ¬t.val % 8 = 7 := by omega
  exact (tripleThd0 (outsAt0_first V c t hf hl)).trans (accFirstAt0 V c t hf hl)

/-- The accumulator after a later point: the accumulated payload of its row block over the accumulator the point
    before left. -/
theorem acc0_later (c : Dev nD) (t : Fin cfg0.N) (hf : ¬t.val % 8 = 0) :
    (outsAt0 V c t.val t.isLt).2.2 = k0_pay4 (grid0.coords t) (blk0 V c 0 t) (prevAcc0 V c t) := by
  by_cases hl : t.val % 8 = 7
  · exact (tripleThd0 (outsAt0_last V c t hf hl)).trans (accLastAt0 V c t hf hl (prevAcc0 V c t))
  · exact (tripleThd0 (outsAt0_mid V c t hf hl)).trans (accMidAt0 V c t hf hl (prevAcc0 V c t))

/-- At the last point the column-sum buffer is left at what the accumulator is left at. -/
theorem col0_last (c : Dev nD) (t : Fin cfg0.N) (hl : t.val % 8 = 7) :
    (outsAt0 V c t.val t.isLt).2.1 = (outsAt0 V c t.val t.isLt).2.2 := by
  have hf : ¬t.val % 8 = 0 := by omega
  exact ((tripleSnd0 (outsAt0_last V c t hf hl)).trans (colLastAt0 V c t hf hl (prevAcc0 V c t))).trans
    ((tripleThd0 (outsAt0_last V c t hf hl)).trans (accLastAt0 V c t hf hl (prevAcc0 V c t))).symm

end Recurrence

/-! ## On the extended reals -/

section Values
variable (V : (c : Dev nD) → (b : Ref sig .tc) → Buf (Elt Ideal) ((c : Thread nD τ).loc b))

attribute [local irreducible] outsAt0

/-- The adjacency's window is at row block t, column block 0, at point t; so is the row-sum window; the column-sum
    window is at block (0, 0) throughout; and the grid coordinate of point t is t. Decided over the grid. -/
theorem index0_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ ((grid0.coords t) 0).val = t.val :=
  (by decide +kernel : ∀ t : Fin grid0.N, _)

/-- Row p of row block b, for a block number below 8. -/
abbrev rowOf0 (b : ℕ) (hb : b < 8) (p : Fin 512) : Fin 4096 := ⟨b * 512 + p.val, by omega⟩

/-- The adjacency tile of point t at local row p and column q is the adjacency at row t * 512 + p, column q. -/
theorem tile0_apply (c : Dev nD) (t : Fin cfg0.N) (ht : t.val < 8) (p : Fin 512) (q : Fin 4096) :
    blk0 V c 0 t (ix2 p q) = V c main_arg1 (ix2 (rowOf0 t.val ht p) q) := by
  obtain ⟨e0, e1, -⟩ := index0_facts t
  show V c main_arg1 (((cfg0.win 0).blk t).view.emb (ix2 p q)) = V c main_arg1 (ix2 (rowOf0 t.val ht p) q)
  refine congrArg (V c main_arg1) (funext fun ax => Fin.ext ?_)
  match ax with
  | ⟨0, _⟩ => show win0_0.index t (0 : Fin 2) * 512 + 1 * p.val = t.val * 512 + p.val; rw [e0]; omega
  | ⟨1, _⟩ => show win0_0.index t (1 : Fin 2) * 4096 + 1 * q.val = q.val; rw [e1]; omega

/-- The masked tile of point t at local row p and column q is the masked adjacency at row t * 512 + p, column q. -/
theorem masked0_apply (c : Dev nD) (t : Fin cfg0.N) (ht : t.val < 8) (p : Fin 512) (q : Fin 4096) :
    k0_pay1 (F := Ideal) (grid0.coords t) (blk0 V c 0 t) (ix2 p q) = offE (V c main_arg1) (rowOf0 t.val ht p) q := by
  obtain ⟨-, -, -, -, -, -, ec⟩ := index0_facts t
  refine (pay0_1_apply (grid0.coords t) (blk0 V c 0 t) p q).trans ?_
  rw [ec, tile0_apply V c t ht p q]
  rfl

/-- The sum of masked column k's entries in row block b (zero for a block number that is none). -/
def colPart0 (A : S4096x4096.Idx → EReal) (b : ℕ) (k : Fin 4096) : EReal :=
  if hb : b < 8 then ∑ p : Fin 512, offE A (rowOf0 b hb p) k else 0

/-- After point t the row-sum buffer holds, at local row p and any lane, the sum of the masked adjacency's row t * 512 + p. -/
theorem row0_val (c : Dev nD) (t : Fin cfg0.N) (ht : t.val < 8) (p : Fin 512) (j : Fin 128) :
    (outsAt0 V c t.val t.isLt).1 (ix2 p j) = ∑ q : Fin 4096, offE (V c main_arg1) (rowOf0 t.val ht p) q := by
  rw [row0_at V c t]
  refine (pay0_2_apply (grid0.coords t) (blk0 V c 0 t) p j).trans ?_
  exact Finset.sum_congr rfl fun q _ => masked0_apply V c t ht p q

/-- After position n the accumulator holds, in every row at column k, the sum over the row blocks 0 … n of masked
    column k's entries in the block. -/
theorem acc0_val (c : Dev nD) : ∀ (n : ℕ) (hn : n < cfg0.N) (r : Fin 8) (k : Fin 4096),
    (outsAt0 V c n hn).2.2 (ix2 r k) = ∑ b ∈ Finset.range (n + 1), colPart0 (V c main_arg1) b k
  | 0, hn, r, k => by
    have h8 : (0 : ℕ) < 8 := by decide
    rw [show (outsAt0 V c 0 hn).2.2 = k0_pay4 (grid0.coords ⟨0, hn⟩) (blk0 V c 0 ⟨0, hn⟩) (k0_pay3 (F := Ideal)) from
      acc0_first V c ⟨0, hn⟩ (Nat.zero_mod _)]
    refine (pay0_4_apply (grid0.coords ⟨0, hn⟩) (blk0 V c 0 ⟨0, hn⟩) _ r k).trans ?_
    rw [pay0_3_apply, zero_add, Finset.sum_range_one]
    unfold colPart0
    rw [dif_pos h8]
    exact Finset.sum_congr rfl fun p _ => masked0_apply V c ⟨0, hn⟩ h8 p k
  | n + 1, hn, r, k => by
    have h8 : n + 1 < 8 := lt_of_lt_of_eq hn (show cfg0.N = 8 from N_0)
    rw [show (outsAt0 V c (n + 1) hn).2.2
        = k0_pay4 (grid0.coords ⟨n + 1, hn⟩) (blk0 V c 0 ⟨n + 1, hn⟩) (outsAt0 V c n (Nat.lt_of_succ_lt hn)).2.2 from
      acc0_later V c ⟨n + 1, hn⟩ (fun h => by (try dsimp only at h); omega)]
    refine (pay0_4_apply (grid0.coords ⟨n + 1, hn⟩) (blk0 V c 0 ⟨n + 1, hn⟩) _ r k).trans ?_
    rw [acc0_val c n (Nat.lt_of_succ_lt hn) r k, Finset.sum_range_succ _ (n + 1)]
    refine congrArg (_ + ·) ?_
    unfold colPart0
    rw [dif_pos h8]
    exact Finset.sum_congr rfl fun p _ => masked0_apply V c ⟨n + 1, hn⟩ h8 p k

/-- The sum over the eight block numbers is the sum over the eight row blocks. -/
theorem colParts0_sum (A : S4096x4096.Idx → EReal) (k : Fin 4096) :
    ∑ b ∈ Finset.range 8, colPart0 A b k = ∑ b : Fin 8, ∑ q : Fin 512, offE A (blockRow b q) k := by
  rw [Finset.sum_range]
  refine Finset.sum_congr rfl fun b _ => ?_
  unfold colPart0
  rw [dif_pos b.isLt]

/-! ### The row-sum array -/

/-- What the row-sum array ends holding: in every lane of row i, the sum of masked row i. -/
def rowSums0 (A : S4096x4096.Idx → EReal) : S4096x128.Idx → EReal :=
  fun y => ∑ k : Fin 4096, offE A ⟨(y 0).val, idx2_lt0 y⟩ k

/-- What point t writes back into the row-sum array is block t of that function. -/
theorem rowFlushed0_eq (c : Dev nD) (t : Fin cfg0.N) :
    (dat0 V c).flushed 1 t = ((cfg0.win 1).blk t).view.read (Elt Ideal) (rowSums0 (V c main_arg1)) := by
  have ht : t.val < 8 := lt_of_lt_of_eq t.isLt (show cfg0.N = 8 from N_0)
  obtain ⟨-, -, e0, e1, -⟩ := index0_facts t
  show (cfg0.win 1).cut (grid0.coords t) ((dat0 V c).after 1 t) = _
  rw [after0_1]
  funext y
  obtain ⟨p, l, rfl⟩ : ∃ (p : Fin 512) (l : Fin 128), y = ix2 p l := ⟨y 0, y 1, eq_ix2 y⟩
  show (outsAt0 V c t.val t.isLt).1 (ix2 p l) = rowSums0 (V c main_arg1) (((cfg0.win 1).blk t).view.emb (ix2 p l))
  rw [row0_val V c t ht p l]
  unfold rowSums0
  refine Finset.sum_congr rfl fun k _ => congrArg (fun i => offE (V c main_arg1) i k) (Fin.ext ?_)
  show t.val * 512 + p.val = win0_1.index t (0 : Fin 2) * 512 + 1 * p.val
  rw [e0]; omega

/-- An index of the row-sum array is in point t's block iff each coordinate is in the block's range. -/
theorem mem_rowBlk0 (t : Fin cfg0.N) (i : S4096x128.Idx) :
    i ∈ ((cfg0.win 1).blk t).view.set ↔ ∀ a : Fin 2, win0_1.index t a * S512x128.size a ≤ (i a).val ∧ (i a).val < win0_1.index t a * S512x128.size a + S512x128.size a := by
  show i ∈ ((View.whole main_v0_0).slice (win0_1.rect t)).set ↔ _
  rw [View.set_slice_whole, Rect.mem_set_unit]
  exact Iff.rfl

/-- Every index of the row-sum array is in the block of the point its row's block number names, and every point
    writes its block back. -/
theorem rowCover0 (i : S4096x128.Idx) : ∃ t : Fin cfg0.N, (cfg0.win 1).flush t = true ∧ i ∈ ((cfg0.win 1).blk t).view.set := by
  have hi0 : (i 0).val < 4096 := (i 0).isLt
  have hi1 : (i 1).val < 128 := (i 1).isLt
  have hN : cfg0.N = 8 := N_0
  let t : Fin cfg0.N := ⟨(i 0).val / 512, by rw [hN]; omega⟩
  obtain ⟨-, -, e0, e1, -⟩ := index0_facts t
  have et : t.val = (i 0).val / 512 := rfl
  refine ⟨t, flush0_1 t, ?_⟩
  rw [mem_rowBlk0]
  intro a
  match a with
  | ⟨0, _⟩ => show win0_1.index t (0 : Fin 2) * 512 ≤ (i 0).val ∧ (i 0).val < win0_1.index t (0 : Fin 2) * 512 + 512; rw [e0, et]; omega
  | ⟨1, _⟩ => show win0_1.index t (1 : Fin 2) * 128 ≤ (i 1).val ∧ (i 1).val < win0_1.index t (1 : Fin 2) * 128 + 128; rw [e1]; omega

/-- The row-sum array after the region. -/
theorem rowFinal0 (c : Dev nD) : (dat0 V c).arrAt 1 cfg0.N = rowSums0 (V c main_arg1) :=
  (dat0 V c).arrAt_eq_of_cover 1 (rowSums0 (V c main_arg1)) (fun t _ => rowFlushed0_eq V c t) rowCover0

/-- THE ROW-SUM ARRAY, index by index: every lane of row i holds the sum of masked row i of the adjacency as the
    region finds it. -/
theorem value0_1 (c : Dev nD) (i : Fin 4096) (j : Fin 128) :
    (dat0 (F := Ideal) V c).arrAt 1 cfg0.N (ix2 i j) = ∑ k : Fin 4096, offE (V c main_arg1) i k := by
  rw [rowFinal0 V c]
  rfl

/-! ### The column-sum array -/

/-- What the column-sum array ends holding: in each of its 8 rows, at column k, the sum over the row blocks of the
    masked column k's entries in the block. -/
def colSums0 (A : S4096x4096.Idx → EReal) : S8x4096.Idx → EReal :=
  fun y => ∑ b : Fin 8, ∑ q : Fin 512, offE A (blockRow b q) ⟨(y 1).val, idx2_lt1 y⟩

/-- What the last point writes back into the column-sum array is that function (the window is the whole array). -/
theorem colFlushed0_eq (c : Dev nD) (t : Fin cfg0.N) (hf : (cfg0.win 2).flush t = true) :
    (dat0 V c).flushed 2 t = ((cfg0.win 2).blk t).view.read (Elt Ideal) (colSums0 (V c main_arg1)) := by
  have ht : t.val < 8 := lt_of_lt_of_eq t.isLt (show cfg0.N = 8 from N_0)
  have hl : t.val % 8 = 7 := (flush0_2 t).mp hf
  have h7 : t.val + 1 = 8 := by omega
  obtain ⟨-, -, -, -, e0, e1, -⟩ := index0_facts t
  show (cfg0.win 2).cut (grid0.coords t) ((dat0 V c).after 2 t) = _
  rw [after0_2, col0_last V c t hl]
  funext y
  obtain ⟨r, k, rfl⟩ : ∃ (r : Fin 8) (k : Fin 4096), y = ix2 r k := ⟨y 0, y 1, eq_ix2 y⟩
  show (outsAt0 V c t.val t.isLt).2.2 (ix2 r k) = colSums0 (V c main_arg1) (((cfg0.win 2).blk t).view.emb (ix2 r k))
  rw [acc0_val V c t.val t.isLt r k, h7, colParts0_sum]
  unfold colSums0
  refine Finset.sum_congr rfl fun b _ => Finset.sum_congr rfl fun q _ => congrArg (offE (V c main_arg1) (blockRow b q)) (Fin.ext ?_)
  show k.val = win0_2.index t (1 : Fin 2) * 4096 + 1 * k.val
  rw [e1]; omega

/-- An index of the column-sum array is in point t's block iff each coordinate is in the block's range. -/
theorem mem_colBlk0 (t : Fin cfg0.N) (i : S8x4096.Idx) :
    i ∈ ((cfg0.win 2).blk t).view.set ↔ ∀ a : Fin 2, win0_2.index t a * S8x4096.size a ≤ (i a).val ∧ (i a).val < win0_2.index t a * S8x4096.size a + S8x4096.size a := by
  show i ∈ ((View.whole main_v0_1).slice (win0_2.rect t)).set ↔ _
  rw [View.set_slice_whole, Rect.mem_set_unit]
  exact Iff.rfl

/-- The last point's block is the whole column-sum array, and the last point writes it back. -/
theorem colCover0 (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  obtain ⟨-, -, -, -, e0, e1, -⟩ := index0_facts t0_7
  refine ⟨t0_7, (flush0_2 t0_7).mpr rfl, ?_⟩
  rw [mem_colBlk0]
  intro a
  match a with
  | ⟨0, _⟩ => show win0_2.index t0_7 (0 : Fin 2) * 8 ≤ (i 0).val ∧ (i 0).val < win0_2.index t0_7 (0 : Fin 2) * 8 + 8; rw [e0]; omega
  | ⟨1, _⟩ => show win0_2.index t0_7 (1 : Fin 2) * 4096 ≤ (i 1).val ∧ (i 1).val < win0_2.index t0_7 (1 : Fin 2) * 4096 + 4096; rw [e1]; omega

/-- The column-sum array after the region. -/
theorem colFinal0 (c : Dev nD) : (dat0 V c).arrAt 2 cfg0.N = colSums0 (V c main_arg1) :=
  (dat0 V c).arrAt_eq_of_cover 2 (colSums0 (V c main_arg1)) (fun t hf => colFlushed0_eq V c t hf) colCover0

/-- THE COLUMN-SUM ARRAY, index by index: each of the 8 rows holds, at column k, the sum over the 8 row blocks of the
    masked adjacency's column k within the block. -/
theorem value0_2 (c : Dev nD) (r : Fin 8) (k : Fin 4096) :
    (dat0 (F := Ideal) V c).arrAt 2 cfg0.N (ix2 r k) = ∑ b : Fin 8, ∑ q : Fin 512, offE (V c main_arg1) (blockRow b q) k := by
  rw [colFinal0 V c]
  rfl

end Values

end Cert.KernelIdeal.Hand

end
-- ==== Proof.KI.Region1Pay.lean ====
/- The arithmetic of the mat-vec body read at an index, on the extended reals (region 1; the shapes are those of
   one 512 × 512 adjacency tile and 512-row slabs of 4096 × 128 arrays).

   The tile is masked on the global diagonal (global row 512·I + p against global column 512·K + q); the forward
   product contracts the tile's columns with a slab's rows, the reverse product contracts the tile's ROWS with a
   slab's rows; the reciprocal degree enters as column 0 of a slab broadcast along the row; each accumulator update
   is "old + contribution". Also here: what a row-slab load reads, and what the three windows' blocks are as parts
   of the arrays the region finds. -/
import proofs.«140086_j17265768530288_2_alg».proof.Proof.KI.Region1Base
import proofs.«140086_j17265768530288_2_alg».proof.Proof.KI.Mask
import Idealize.ShloMosaic.Lib.Pipeline.Value
import Idealize.ShloMosaic.Lib.ValueIdx
import Idealize.ShloMosaic.Lib.WritesUnit
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

/-! ## The diagonal mask -/

/-- Two global counters 512·I + p and 512·K + q (I, K < 8; p, q < 512), computed in 32-bit words as the body does,
    compare equal as words exactly when they are equal as numbers: nothing wraps below 4096. -/
theorem diagWord1 (I K p q : ℕ) (hI : I < 8) (hK : K < 8) (hp : p < 512) (hq : q < 512) :
    IntOp.cmpi .eq (IntOp.addi (Scalar.muli (BitVec.ofNat 32 I) 512#32) (BitVec.ofNat 32 p))
        (IntOp.addi (Scalar.muli (BitVec.ofNat 32 K) 512#32) (BitVec.ofNat 32 q))
      = if 512 * I + p = 512 * K + q then 1#1 else 0#1 := by
  have e : ∀ J r : ℕ, J < 8 → r < 512 →
      IntOp.addi (Scalar.muli (BitVec.ofNat 32 J) 512#32) (BitVec.ofNat 32 r) = BitVec.ofNat 32 (512 * J + r) := by
    intro J r hJ hr
    apply BitVec.eq_of_toNat_eq
    simp only [IntOp.addi, Scalar.muli, IntOp.muli, BitVec.toNat_add, BitVec.toNat_mul, BitVec.toNat_ofNat]
    omega
  rw [e I p hI hp, e K q hK hq]
  have h : (BitVec.ofNat 32 (512 * I + p) == BitVec.ofNat 32 (512 * K + q)) = decide (512 * I + p = 512 * K + q) := by
    rw [Bool.eq_iff_iff]; simp only [beq_iff_eq, decide_eq_true_eq]
    constructor
    · intro h
      have h2 := congrArg BitVec.toNat h
      simp only [BitVec.toNat_ofNat] at h2
      omega
    · intro h; rw [h]
  simp only [IntOp.cmpi, h]
  by_cases e' : 512 * I + p = 512 * K + q <;> simp [e']

/-- The masked tile at (p, q): zero where the global row meets the global column, the tile's entry elsewhere. -/
theorem mask1_apply (i : grid1.Coords) (v17 : Vec Ideal S512x512 .f32) (p q : Fin 512) :
    k1_pay5 i v17 (ix2 p q) = if 512 * (i 0).val + p.val = 512 * (i 1).val + q.val then 0 else v17 (ix2 p q) := by
  have hI : (i 0).val < 8 := (i 0).isLt
  have hK : (i 1).val < 8 := (i 1).isLt
  unfold k1_pay5
  show Scalar.select (IntOp.cmpi .eq
        (IntOp.addi (Scalar.muli (BitVec.ofNat 32 (i 0).val) 512#32) (iota .tc S512x512 32 [0] _ (ix2 p q)))
        (IntOp.addi (Scalar.muli (BitVec.ofNat 32 (i 1).val) 512#32) (iota .tc S512x512 32 [1] _ (ix2 p q))))
      (Ideal.ofBits .f32 0x00000000#32) (v17 (ix2 p q)) = _
  rw [iota_single_apply, iota_single_apply]
  show Scalar.select (IntOp.cmpi .eq
        (IntOp.addi (Scalar.muli (BitVec.ofNat 32 (i 0).val) 512#32) (BitVec.ofNat 32 p.val))
        (IntOp.addi (Scalar.muli (BitVec.ofNat 32 (i 1).val) 512#32) (BitVec.ofNat 32 q.val)))
      (Ideal.ofBits .f32 0x00000000#32) (v17 (ix2 p q)) = _
  rw [diagWord1 _ _ _ _ hI hK p.isLt q.isLt, Ideal.ofBits_zero_f32]
  by_cases e : 512 * (i 0).val + p.val = 512 * (i 1).val + q.val
  · rw [if_pos e, if_pos e]; exact select_one _ _
  · rw [if_neg e, if_neg e]; exact select_zero _ _

/-! ## The two products -/

/-- The first record contracts the tile's column axis with the slab's row axis. -/
theorem dotF1_l0 (j : S512x128.Idx) (k : dot_S512x512_S512x128_S512x128_1_0_0_1_n_n.contr.Idx) :
    (dot_S512x512_S512x128_S512x128_1_0_0_1_n_n.lhsIdx j k 0).val = (j 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem dotF1_r1 (j : S512x128.Idx) (k : dot_S512x512_S512x128_S512x128_1_0_0_1_n_n.contr.Idx) :
    (dot_S512x512_S512x128_S512x128_1_0_0_1_n_n.rhsIdx j k 1).val = (j 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- Tile times slab into the zero accumulator, at (p, f): the sum over the tile's columns. -/
theorem dotF1_apply (lhs : FVec Ideal S512x512 .bf16) (rhs : FVec Ideal S512x128 .bf16) (p : Fin 512) (f : Fin 128) :
    matmul dot_S512x512_S512x128_S512x128_1_0_0_1_n_n none lhs rhs (constant S512x128 .f32 0x00000000#32) (ix2 p f)
      = ∑ q : Fin 512, lhs (ix2 p q) * rhs (ix2 q f) := by
  show FloatOps.matmul dot_S512x512_S512x128_S512x128_1_0_0_1_n_n none lhs rhs (constant S512x128 .f32 0x00000000#32) (ix2 p f) = _
  rw [Ideal.matmul_constant_zero_apply, ← Equiv.sum_comp (contrEquiv1 dot_S512x512_S512x128_S512x128_1_0_0_1_n_n 512 rfl rfl).symm]
  refine Finset.sum_congr rfl fun q _ => ?_
  have hk := contrEquiv1_symm_val dot_S512x512_S512x128_S512x128_1_0_0_1_n_n 512 rfl rfl q
  have el : dot_S512x512_S512x128_S512x128_1_0_0_1_n_n.lhsIdx (ix2 p f) ((contrEquiv1 dot_S512x512_S512x128_S512x128_1_0_0_1_n_n 512 rfl rfl).symm q) = ix2 p q :=
    funext fun a => Fin.ext (by
      match a with
      | ⟨0, _⟩ => exact dotF1_l0 _ _
      | ⟨1, _⟩ => exact (dot_S512x512_S512x128_S512x128_1_0_0_1_n_n.lhsIdx_val_of_single rfl _ _).trans hk)
  have er : dot_S512x512_S512x128_S512x128_1_0_0_1_n_n.rhsIdx (ix2 p f) ((contrEquiv1 dot_S512x512_S512x128_S512x128_1_0_0_1_n_n 512 rfl rfl).symm q) = ix2 q f :=
    funext fun a => Fin.ext (by
      match a with
      | ⟨0, _⟩ => exact (dot_S512x512_S512x128_S512x128_1_0_0_1_n_n.rhsIdx_val_of_single rfl _ _).trans hk
      | ⟨1, _⟩ => exact dotF1_r1 _ _)
  rw [el, er]

/-- The second record contracts the tile's ROW axis with the slab's row axis: its kept tile axis is the column. -/
theorem dotR1_l1 (j : S512x128.Idx) (k : dot_S512x512_S512x128_S512x128_0_0_1_1_n_n.contr.Idx) :
    (dot_S512x512_S512x128_S512x128_0_0_1_1_n_n.lhsIdx j k 1).val = (j 0).val := by
  unfold DotDims.lhsIdx
  rw [dif_neg (show ¬(1 : Fin S512x512.rank) ∈ dot_S512x512_S512x128_S512x128_0_0_1_1_n_n.lhsBatch by decide), dif_pos (show (1 : Fin S512x512.rank) ∈ dot_S512x512_S512x128_S512x128_0_0_1_1_n_n.lhsNonContracting by decide)]
  rfl
theorem dotR1_r1 (j : S512x128.Idx) (k : dot_S512x512_S512x128_S512x128_0_0_1_1_n_n.contr.Idx) :
    (dot_S512x512_S512x128_S512x128_0_0_1_1_n_n.rhsIdx j k 1).val = (j 1).val := by
  unfold DotDims.rhsIdx
  rw [dif_neg (show ¬(1 : Fin S512x128.rank) ∈ dot_S512x512_S512x128_S512x128_0_0_1_1_n_n.rhsBatch by decide), dif_pos (show (1 : Fin S512x128.rank) ∈ dot_S512x512_S512x128_S512x128_0_0_1_1_n_n.rhsNonContracting by decide)]
  rfl

/-- Transposed tile times slab into the zero accumulator, at (q, f): the sum over the tile's rows. -/
theorem dotR1_apply (lhs : FVec Ideal S512x512 .bf16) (rhs : FVec Ideal S512x128 .bf16) (q : Fin 512) (f : Fin 128) :
    matmul dot_S512x512_S512x128_S512x128_0_0_1_1_n_n none lhs rhs (constant S512x128 .f32 0x00000000#32) (ix2 q f)
      = ∑ p : Fin 512, lhs (ix2 p q) * rhs (ix2 p f) := by
  show FloatOps.matmul dot_S512x512_S512x128_S512x128_0_0_1_1_n_n none lhs rhs (constant S512x128 .f32 0x00000000#32) (ix2 q f) = _
  rw [Ideal.matmul_constant_zero_apply, ← Equiv.sum_comp (contrEquiv1 dot_S512x512_S512x128_S512x128_0_0_1_1_n_n 512 rfl rfl).symm]
  refine Finset.sum_congr rfl fun p _ => ?_
  have hk := contrEquiv1_symm_val dot_S512x512_S512x128_S512x128_0_0_1_1_n_n 512 rfl rfl p
  have el : dot_S512x512_S512x128_S512x128_0_0_1_1_n_n.lhsIdx (ix2 q f) ((contrEquiv1 dot_S512x512_S512x128_S512x128_0_0_1_1_n_n 512 rfl rfl).symm p) = ix2 p q :=
    funext fun a => Fin.ext (by
      match a with
      | ⟨0, _⟩ => exact (dot_S512x512_S512x128_S512x128_0_0_1_1_n_n.lhsIdx_val_of_single rfl _ _).trans hk
      | ⟨1, _⟩ => exact dotR1_l1 _ _)
  have er : dot_S512x512_S512x128_S512x128_0_0_1_1_n_n.rhsIdx (ix2 q f) ((contrEquiv1 dot_S512x512_S512x128_S512x128_0_0_1_1_n_n 512 rfl rfl).symm p) = ix2 p f :=
    funext fun a => Fin.ext (by
      match a with
      | ⟨0, _⟩ => exact (dot_S512x512_S512x128_S512x128_0_0_1_1_n_n.rhsIdx_val_of_single rfl _ _).trans hk
      | ⟨1, _⟩ => exact dotR1_r1 _ _)
  rw [el, er]

/-! ## Column 0 of a slab, broadcast along the row -/

/-- A 512 × 128 slab cut to its column 0 and broadcast back to 512 × 128 holds, at (p, f), the slab's (p, 0). -/
theorem col0Bcast1_apply (x : FVec Ideal S512x128 .f32) (hc : S512x128.ShapeCasts S512x128) (hs : S512x128.Slices ![0, 0] S512x1)
    (hb : S512x1.Broadcasts S512x128) (p : Fin 512) (f : Fin 128) :
    broadcastTo S512x128 (extractStridedSlice S512x1 ![0, 0] (shapeCast S512x128 x hc) hs) hb (ix2 p f) = x (ix2 p (0 : Fin 128)) := by
  refine (broadcastTo_apply _ hb (ix2 p f) (ix2 p (0 : Fin 1)) fun a => ?_).trans ?_
  · match a with
    | ⟨0, _⟩ => show p.val = if (512 : ℕ) = 1 then 0 else p.val; rw [if_neg (by decide)]
    | ⟨1, _⟩ => show (0 : ℕ) = if (1 : ℕ) = 1 then 0 else f.val; rw [if_pos rfl]
  refine (extractStridedSlice_apply ![0, 0] _ hs (ix2 p (0 : Fin 1)) (ix2 p (0 : Fin 128)) fun a => ?_).trans ?_
  · match a with
    | ⟨0, _⟩ => show p.val = 0 + p.val; omega
    | ⟨1, _⟩ => show (0 : ℕ) = 0 + 0; rfl
  exact congrFun (shapeCast_self x hc) _

/-! ## The payloads -/

/-- Forward contribution at (p, f): the row's reciprocal degree times the masked row of the tile against column f
    of the slab. -/
theorem pay6_apply1 (i : grid1.Coords) (v17 : Vec Ideal S512x512 .f32) (v23 v29 : Vec Ideal S512x128 .f32) (p : Fin 512) (f : Fin 128) :
    k1_pay6 i v17 v23 v29 (ix2 p f) = v29 (ix2 p (0 : Fin 128)) * ∑ q : Fin 512, k1_pay5 i v17 (ix2 p q) * v23 (ix2 q f) := by
  unfold k1_pay6
  show broadcastTo S512x128 (extractStridedSlice S512x1 ![0, 0] (shapeCast S512x128 v29 _) _) _ (ix2 p f)
      * matmul dot_S512x512_S512x128_S512x128_1_0_0_1_n_n none (k1_pay5 i v17) (truncf .bf16 v23 _) (constant S512x128 .f32 0x00000000#32) (ix2 p f) = _
  rw [col0Bcast1_apply, dotF1_apply]
  rfl

/-- Reverse raw product at (q, f): the masked COLUMN q of the tile against column f of the slab. -/
theorem pay7_apply1 (i : grid1.Coords) (v17 : Vec Ideal S512x512 .f32) (v26 : Vec Ideal S512x128 .f32) (q : Fin 512) (f : Fin 128) :
    k1_pay7 i v17 v26 (ix2 q f) = ∑ p : Fin 512, k1_pay5 i v17 (ix2 p q) * v26 (ix2 p f) := by
  unfold k1_pay7
  show matmul dot_S512x512_S512x128_S512x128_0_0_1_1_n_n none (k1_pay5 i v17) (truncf .bf16 v26 _) (constant S512x128 .f32 0x00000000#32) (ix2 q f) = _
  rw [dotR1_apply]
  rfl

/-- The reciprocal degree of the slab's row q, in every lane. -/
theorem pay8_apply1 (v33 : Vec Ideal S512x128 .f32) (q : Fin 512) (f : Fin 128) :
    k1_pay8 v33 (ix2 q f) = v33 (ix2 q (0 : Fin 128)) := by
  unfold k1_pay8
  exact col0Bcast1_apply v33 _ _ _ q f

/-- The forward accumulator's update: old plus contribution. -/
theorem pay1_apply1 (v38 : FVec Ideal S512x128 .f32) (v43 : Vec Ideal S512x128 .f32) (j : S512x128.Idx) :
    k1_pay1 v38 v43 j = v43 j + v38 j := by
  unfold k1_pay1
  exact congrFun (shapeCast_self (addf v43 v38) _) j

/-- The reverse accumulator's update: old plus reciprocal degree times raw product. -/
theorem pay2_apply1 (v39 v40 : FVec Ideal S512x128 .f32) (v50 : Vec Ideal S512x128 .f32) (j : S512x128.Idx) :
    k1_pay2 v39 v40 v50 j = v50 j + v40 j * v39 j := by
  unfold k1_pay2
  exact congrFun (shapeCast_self (addf v50 (mulf v40 v39)) _) j

/-- Both zeroing stores write zero everywhere. -/
theorem pay3_apply1 (j : S4096x128.Idx) : k1_pay3 (F := Ideal) j = 0 := by
  unfold k1_pay3
  refine (congrFun (shapeCast_self _ _) j).trans ?_
  exact Ideal.ofBits_zero_f32
theorem pay4_apply1 (j : S4096x128.Idx) : k1_pay4 (F := Ideal) j = 0 := by
  unfold k1_pay4
  refine (congrFun (shapeCast_self _ _) j).trans ?_
  exact Ideal.ofBits_zero_f32

/-! ## Row slabs of a 4096 × 128 array -/

/-- A load of the 512 rows from row o reads, at (p, f), the array's (o + p, f). -/
theorem ldRows1_apply {α : Type} (X : S4096x128.Idx → α) (off : Fin 2 → ℕ) (inb : ∀ a, off a + S512x128.size a ≤ S4096x128.size a)
    (o : ℕ) (hoff : off = ![o, 0]) (p : Fin 512) (f : Fin 128) (h : o + p.val < 4096) :
    X ((Rect.unit (s := S4096x128) off S512x128.size inb).idx (ix2 p f)) = X (ix2 ⟨o + p.val, h⟩ f) := by
  subst hoff
  refine congrArg X (funext fun a => Fin.ext ?_)
  match a with
  | ⟨0, _⟩ => show o + 1 * p.val = o + p.val; omega
  | ⟨1, _⟩ => show 0 + 1 * f.val = f.val; omega

/-! ## The windows' blocks as parts of the arrays the region finds -/

/-- Point t is row block t / 8, column block t % 8. -/
theorem coords1 : ∀ t : Fin cfg1.N, (grid1.coords t 0).val = t.val / 8 ∧ (grid1.coords t 1).val = t.val % 8 :=
  (by decide +kernel : ∀ t : Fin grid1.N, (grid1.coords t 0).val = t.val / 8 ∧ (grid1.coords t 1).val = t.val % 8)

/-- The adjacency window's block index is the point's (row block, column block); the two whole windows' is (0, 0). -/
theorem blkIdx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem blkIdx1_1 : ∀ t : Fin cfg1.N, win1_1.index t 0 = 0 ∧ win1_1.index t 1 = 0 :=
  (by decide +kernel : ∀ t : Fin grid1.N, win1_1.index t 0 = 0 ∧ win1_1.index t 1 = 0)
theorem blkIdx1_2 : ∀ t : Fin cfg1.N, win1_2.index t 0 = 0 ∧ win1_2.index t 1 = 0 :=
  (by decide +kernel : ∀ t : Fin grid1.N, win1_2.index t 0 = 0 ∧ win1_2.index t 1 = 0)

section Blocks
variable (V : (c : Dev nD) → (b : Ref sig .tc) → Buf (Elt Ideal) ((c : Thread nD τ).loc b))

/-- The adjacency tile of point t at (p, q) is the adjacency at (512·(t/8) + p, 512·(t%8) + q). -/
theorem iblk1_0_apply (c : Dev nD) (t : Fin cfg1.N) (p q : Fin 512) (hp : 512 * (t.val / 8) + p.val < 4096) (hq : 512 * (t.val % 8) + q.val < 4096) :
    (iblk1 V c 0 t : Vec Ideal S512x512 .f32) (ix2 p q)
      = (V c main_arg1 : S4096x4096.Idx → EReal) (ix2 ⟨512 * (t.val / 8) + p.val, hp⟩ ⟨512 * (t.val % 8) + q.val, hq⟩) := by
  have hi := blkIdx1_0 t
  unfold iblk1
  rw [View.read_apply]
  show V c main_arg1 _ = V c main_arg1 _
  congr 1
  funext a
  apply Fin.ext
  match a with
  | ⟨0, _⟩ => show win1_0.index t 0 * 512 + 1 * p.val = 512 * (t.val / 8) + p.val; rw [hi.1]; omega
  | ⟨1, _⟩ => show win1_0.index t 1 * 512 + 1 * q.val = 512 * (t.val % 8) + q.val; rw [hi.2]; omega

/-- The reciprocal-degree window's one block is the whole array. -/
theorem iblk1_1_eq (c : Dev nD) (t : Fin cfg1.N) : (iblk1 V c 1 t : Vec Ideal S4096x128 .f32) = (V c main_v12 : S4096x128.Idx → EReal) := by
  have hi := blkIdx1_1 t
  funext j
  unfold iblk1
  rw [View.read_apply]
  show V c main_v12 _ = V c main_v12 j
  congr 1
  funext a
  apply Fin.ext
  match a with
  | ⟨0, _⟩ => show win1_1.index t 0 * 4096 + 1 * (j 0).val = (j 0).val; rw [hi.1]; omega
  | ⟨1, _⟩ => show win1_1.index t 1 * 128 + 1 * (j 1).val = (j 1).val; rw [hi.2]; omega

/-- The feature window's one block is the whole array. -/
theorem iblk1_2_eq (c : Dev nD) (t : Fin cfg1.N) : (iblk1 V c 2 t : Vec Ideal S4096x128 .f32) = (V c main_arg0 : S4096x128.Idx → EReal) := by
  have hi := blkIdx1_2 t
  funext j
  unfold iblk1
  rw [View.read_apply]
  show V c main_arg0 _ = V c main_arg0 j
  congr 1
  funext a
  apply Fin.ext
  match a with
  | ⟨0, _⟩ => show win1_2.index t 0 * 4096 + 1 * (j 0).val = (j 0).val; rw [hi.1]; omega
  | ⟨1, _⟩ => show win1_2.index t 1 * 128 + 1 * (j 1).val = (j 1).val; rw [hi.2]; omega

end Blocks

end Cert.KernelIdeal.Hand

end
-- ==== Proof.KI.Region1ValueFwd.lean ====
/- Region 1, the forward output (y1 = P1 · x) on the extended reals.

   The forward accumulator is carried across all 64 points; point (I, K) adds, into the 512 rows of row block I,
   the reciprocal degree of the row times the masked tile (I, K) against row block K of the features. So after
   point n a row of row block R holds the contributions of the column blocks b with 8·R + b ≤ n, and after the last
   point all eight; the last point copies the accumulator into the output, whose one block is the whole array. -/
import proofs.«140086_j17265768530288_2_alg».proof.Proof.KI.Region1
import proofs.«140086_j17265768530288_2_alg».proof.Proof.KI.Region1Pay

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

theorem zerosFwd1 : (![0, 0] : Fin 2 → Nat) = fun _ => 0 := funext fun a => by fin_cases a <;> rfl

/-- One store through the whole shape at zero offsets leaves its payload, whatever was there. -/
theorem wholeStoreFwd1 {Val : EltTy → Type} [∀ e, Nonempty (Val e)] {S : Shape} {e : EltTy} {κ : Kind} {sp : Space}
    (v : View sig κ sp S e) (g : v.ty.Contents Val) {off : Fin S.rank → Nat} (h : off = fun _ => 0)
    (inb : ∀ a, off a + S.size a ≤ S.size a) (w : S.Idx → Val e) :
    v.read Val (v.writes Val g [(⟨Rect.unit off S.size inb, w⟩ : View.Piece Val S e)]) = w := by
  rw [View.read_writes_eq_canon v g _ (fun y => ⟨_, List.mem_singleton_self _, View.mem_set_unit_zero h inb y⟩), View.canon_unit_zero h]

/-! ## What the runs' stores into the forward accumulator are -/

section Pieces
variable {F : FTy → Type} [FloatOps F]

/-- The 512 rows of the point's row block, and of its column block, as rectangles of a 4096 × 128 buffer. -/
abbrev rowsIFwd1 (i : grid1.Coords) : Rect S4096x128 := Rect.unit (s := S4096x128) (k1_off2 i) S512x128.size (k1_off2_inb i)
abbrev rowsKFwd1 (i : grid1.Coords) : Rect S4096x128 := Rect.unit (s := S4096x128) (k1_off1 i) S512x128.size (k1_off1_inb i)

/-- The forward contribution of a point, from the tile and the two whole inputs. -/
abbrev payFwd1 (i : grid1.Coords) (x0 : Vec F S512x512 .f32) (x1 x2 : Vec F S4096x128 .f32) : FVec F S512x128 .f32 :=
  k1_pay6 i x0 (View.ld x2 (rowsKFwd1 i)) (View.ld x1 (rowsIFwd1 i))

variable (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole)
  (x0 : Vec F S512x512 .f32) (x1 x2 xs0 xs1 : Vec F S4096x128 .f32)

/-- A middle point leaves the previous contents with the row block's slab replaced by "old slab + contribution". -/
theorem accFwdB1_eq (hc0 : ¬cond1_0 i) (hc1 : ¬cond1_1 i) :
    sout1_B_0 c i arg2 harg2 arg3 harg3 arg4 harg4 arg5 harg5 arg6 harg6 arg7 harg7 arg8 harg8 hc0 hc1 x0 x1 x2 xs0 xs1
      = arg7.view.read (Elt F) (arg7.view.writes (Elt F) (harg7.unread xs0)
          [⟨rowsIFwd1 i, k1_pay1 (payFwd1 i x0 x1 x2) (View.ld xs0 (rowsIFwd1 i))⟩]) := by
  unfold sout1_B_0 kernelRun1_B
  dsimp only
  sl_unfold_run_names
  simp only [View.readAt_eq_ld, harg2.read_unread, harg3.read_unread, harg4.read_unread, harg7.read_unread, View.ld_unit_zero (S := S512x512) zerosFwd1]

/-- The last point does the same to the accumulator, -/
theorem accFwdC1_eq (hc0 : ¬cond1_0 i) (hc1 : cond1_1 i) :
    sout1_C_0 c i arg2 harg2 arg3 harg3 arg4 harg4 arg5 harg5 arg6 harg6 arg7 harg7 arg8 harg8 hc0 hc1 x0 x1 x2 xs0 xs1
      = arg7.view.read (Elt F) (arg7.view.writes (Elt F) (harg7.unread xs0)
          [⟨rowsIFwd1 i, k1_pay1 (payFwd1 i x0 x1 x2) (View.ld xs0 (rowsIFwd1 i))⟩]) := by
  unfold sout1_C_0 kernelRun1_C
  dsimp only
  sl_unfold_run_names
  simp only [View.readAt_eq_ld, harg2.read_unread, harg3.read_unread, harg4.read_unread, harg7.read_unread, View.ld_unit_zero (S := S512x512) zerosFwd1]

/-- and stores into the output exactly what the accumulator then holds. -/
theorem outFwdC1_eq (hc0 : ¬cond1_0 i) (hc1 : cond1_1 i) :
    out1_C_3 c i arg2 harg2 arg3 harg3 arg4 harg4 arg5 harg5 arg6 harg6 arg7 harg7 arg8 harg8 hc0 hc1 x0 x1 x2 xs0 xs1 = sout1_C_0 c i arg2 harg2 arg3 harg3 arg4 harg4 arg5 harg5 arg6 harg6 arg7 harg7 arg8 harg8 hc0 hc1 x0 x1 x2 xs0 xs1 := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1)]
  unfold sout1_C_0 kernelRun1_C
  dsimp only
  rw [View.canon_unit_zero zerosFwd1]
  sl_unfold_run_names
  simp only [View.readAt_eq_ld, View.ld_unit_zero (S := S4096x128) zerosFwd1]

/-- The first point leaves the zero fill with the slab of row block 0 replaced by "zero slab + contribution". -/
theorem accFwdA1_eq (hc0 : cond1_0 i) (hc1 : ¬cond1_1 i) :
    sout1_A_0 c i arg2 harg2 arg3 harg3 arg4 harg4 arg5 harg5 arg6 harg6 arg7 harg7 arg8 harg8 hc0 hc1 x0 x1 x2
      = VO1.read (Elt F) (VO1.writes (Elt F) VO1.junk
          [⟨rowsIFwd1 i, k1_pay1 (payFwd1 i x0 x1 x2) (View.ld (k1_pay3 (F := F)) (rowsIFwd1 i))⟩,
           ⟨Rect.unit (s := S4096x128) ![0, 0] S4096x128.size inb_S4096x128_S4096x128_0_0, k1_pay3 (F := F)⟩]) := by
  unfold sout1_A_0 kernelRun1_A
  dsimp only
  sl_unfold_run_names
  simp only [View.readAt_eq_ld, harg2.read_unread, harg3.read_unread, harg4.read_unread, View.ld_unit_zero (S := S512x512) zerosFwd1]
  rw [wholeStoreFwd1 arg7.view _ zerosFwd1]

end Pieces

/-! ## One slab store, read at an index -/

/-- After a store of the 512 rows from row o on top of a list of stores, an index in those rows reads the stored
    payload at its position in the slab, any other index what the earlier stores left. -/
theorem rowsStoreFwd1_apply {Val : EltTy → Type} {κ : Kind} {sp : Space} (v : View sig κ sp S4096x128 .f32) (g : v.ty.Contents Val)
    (off : Fin 2 → ℕ) (inb : ∀ a : Fin 2, off a + S512x128.size a ≤ S4096x128.size a) (o : ℕ) (hoff : off = ![o, 0])
    (w : (Rect.unit (s := S4096x128) off S512x128.size inb).shape.Idx → Val .f32) (L : List (View.Piece Val S4096x128 .f32))
    (r : Fin 4096) (f : Fin 128) :
    v.read Val (v.writes Val g ((⟨Rect.unit (s := S4096x128) off S512x128.size inb, w⟩ : View.Piece Val S4096x128 .f32) :: L)) (ix2 r f)
      = if h : o ≤ r.val ∧ r.val < o + 512 then w (ix2 (⟨r.val - o, by omega⟩ : Fin 512) f)
        else v.read Val (v.writes Val g L) (ix2 r f) := by
  by_cases h : o ≤ r.val ∧ r.val < o + 512
  · rw [dif_pos h]
    exact View.read_writes_cons_rows_of_mem v g inb w L (ix2 r f) (ix2 (⟨r.val - o, by omega⟩ : Fin 512) f) hoff
      (by show r.val = o + (r.val - o); omega) rfl
  · rw [dif_neg h]
    exact View.read_writes_cons_rows_of_not_mem v g inb w L (ix2 r f) hoff (W := 512) rfl (by show r.val < o ∨ o + 512 ≤ r.val; omega)

/-! ## The contribution of a point, over the arrays -/

/-- Row r's contribution from column block b: the row's reciprocal degree times the masked row against the block's
    rows of the features. -/
def fwdTerm1 (Adj : S4096x4096.Idx → EReal) (D X : S4096x128.Idx → EReal) (r : Fin 4096) (b : Fin 8) (f : Fin 128) : EReal :=
  D (ix2 r (0 : Fin 128)) * ∑ q : Fin 512, offE Adj r (blockRow b q) * X (ix2 (blockRow b q) f)

/-- The forward output entry: all eight column blocks' contributions, in block order. -/
def fwdEntry1 (Adj : S4096x4096.Idx → EReal) (D X : S4096x128.Idx → EReal) (i : Fin 4096) (f : Fin 128) : EReal :=
  ∑ b : Fin 8, D (ix2 i (0 : Fin 128)) * ∑ q : Fin 512, offE Adj i (blockRow b q) * X (ix2 (blockRow b q) f)

theorem fwdEntry1_eq (Adj : S4096x4096.Idx → EReal) (D X : S4096x128.Idx → EReal) (i : Fin 4096) (f : Fin 128) :
    fwdEntry1 Adj D X i f = ∑ b : Fin 8, fwdTerm1 Adj D X i b f := rfl

section Contribution
variable (i : grid1.Coords) (I K : Fin 8) (hI : (i 0).val = I.val) (hK : (i 1).val = K.val)
variable (Adj : S4096x4096.Idx → EReal) (x0 : Vec Ideal S512x512 .f32)
  (hx0 : ∀ p q : Fin 512, x0 (ix2 p q) = Adj (ix2 (blockRow I p) (blockRow K q)))
variable (D X : Vec Ideal S4096x128 .f32)

include hI hK in
/-- The row block's slab starts at row 512·I, the column block's at row 512·K. -/
theorem offIFwd1 : k1_off2 i = ![I.val * 512, 0] := (k1_off2_eq i).trans (by rw [hI, Nat.mul_comm])
include hI hK in
theorem offKFwd1 : k1_off1 i = ![K.val * 512, 0] := (k1_off1_eq i).trans (by rw [hK, Nat.mul_comm])

include hI hK hx0 in
/-- The masked tile of point (I, K) is the masked adjacency at the global positions. -/
theorem maskFwd1 (p q : Fin 512) : k1_pay5 i x0 (ix2 p q) = offE Adj (blockRow I p) (blockRow K q) := by
  rw [mask1_apply, hx0]
  unfold offE
  have e : (512 * (i 0).val + p.val = 512 * (i 1).val + q.val) ↔ ((blockRow I p).val = (blockRow K q).val) := by
    rw [hI, hK]; show _ ↔ I.val * 512 + p.val = K.val * 512 + q.val; omega
  exact if_congr e rfl rfl

include hI hK hx0 in
/-- The forward contribution at row p of the slab is row 512·I + p's term for column block K. -/
theorem payFwd1_apply (p : Fin 512) (f : Fin 128) :
    payFwd1 i x0 D X (ix2 p f) = fwdTerm1 Adj D X (blockRow I p) K f := by
  refine (pay6_apply1 i x0 _ _ p f).trans ?_
  unfold fwdTerm1
  show D ((rowsIFwd1 i).idx (ix2 p (0 : Fin 128))) * ∑ q : Fin 512, k1_pay5 i x0 (ix2 p q) * X ((rowsKFwd1 i).idx (ix2 q f)) = _
  rw [ldRows1_apply D _ _ (I.val * 512) (offIFwd1 i I K hI hK) p (0 : Fin 128) (by have := p.isLt; have := I.isLt; omega)]
  refine congrArg _ (Finset.sum_congr rfl fun q _ => ?_)
  rw [ldRows1_apply X _ _ (K.val * 512) (offKFwd1 i I K hI hK) q f (by have := q.isLt; have := K.isLt; omega), maskFwd1 i I K hI hK Adj x0 hx0 p q]

end Contribution

/-! ## The accumulator after one point, at an index -/

section Update
variable (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole)
variable (I K : Fin 8) (hI : (i 0).val = I.val) (hK : (i 1).val = K.val)
variable (Adj : S4096x4096.Idx → EReal) (x0 : Vec Ideal S512x512 .f32)
  (hx0 : ∀ p q : Fin 512, x0 (ix2 p q) = Adj (ix2 (blockRow I p) (blockRow K q)))
variable (D X xs0 xs1 : Vec Ideal S4096x128 .f32)

include hI hK hx0 in
/-- The slab store's payload at a row r of row block I: what the row held plus its term for column block K. -/
theorem slabFwd1 (old : Vec Ideal S4096x128 .f32) (r : Fin 4096) (f : Fin 128) (h : I.val * 512 ≤ r.val ∧ r.val < I.val * 512 + 512) :
    k1_pay1 (payFwd1 i x0 D X) (View.ld old (rowsIFwd1 i)) (ix2 (⟨r.val - I.val * 512, by omega⟩ : Fin 512) f)
      = old (ix2 r f) + fwdTerm1 Adj D X r K f := by
  have hr : blockRow I (⟨r.val - I.val * 512, by omega⟩ : Fin 512) = r := Fin.ext (by show I.val * 512 + (r.val - I.val * 512) = r.val; omega)
  rw [pay1_apply1, payFwd1_apply i I K hI hK Adj x0 hx0 D X, hr]
  show old ((rowsIFwd1 i).idx (ix2 (⟨r.val - I.val * 512, by omega⟩ : Fin 512) f)) + _ = _
  rw [ldRows1_apply old _ _ (I.val * 512) (offIFwd1 i I K hI hK) _ f (by show I.val * 512 + (r.val - I.val * 512) < 4096; have := r.isLt; omega)]
  exact congrArg (fun z => old (ix2 z f) + fwdTerm1 Adj D X r K f) hr

include hI hK hx0 in
theorem accFwdB1_apply (hc0 : ¬cond1_0 i) (hc1 : ¬cond1_1 i) (r : Fin 4096) (f : Fin 128) :
    sout1_B_0 (F := Ideal) c i arg2 harg2 arg3 harg3 arg4 harg4 arg5 harg5 arg6 harg6 arg7 harg7 arg8 harg8 hc0 hc1 x0 D X xs0 xs1 (ix2 r f)
      = if r.val / 512 = I.val then xs0 (ix2 r f) + fwdTerm1 Adj D X r K f else xs0 (ix2 r f) := by
  rw [accFwdB1_eq, rowsStoreFwd1_apply arg7.view _ _ _ (I.val * 512) (offIFwd1 i I K hI hK)]
  by_cases h : I.val * 512 ≤ r.val ∧ r.val < I.val * 512 + 512
  · rw [dif_pos h, if_pos (by omega)]
    exact slabFwd1 i I K hI hK Adj x0 hx0 D X xs0 r f h
  · rw [dif_neg h, if_neg (by omega)]
    exact congrFun (harg7.read_unread xs0) _

include hI hK hx0 in
theorem accFwdC1_apply (hc0 : ¬cond1_0 i) (hc1 : cond1_1 i) (r : Fin 4096) (f : Fin 128) :
    sout1_C_0 (F := Ideal) c i arg2 harg2 arg3 harg3 arg4 harg4 arg5 harg5 arg6 harg6 arg7 harg7 arg8 harg8 hc0 hc1 x0 D X xs0 xs1 (ix2 r f)
      = if r.val / 512 = I.val then xs0 (ix2 r f) + fwdTerm1 Adj D X r K f else xs0 (ix2 r f) := by
  rw [accFwdC1_eq, rowsStoreFwd1_apply arg7.view _ _ _ (I.val * 512) (offIFwd1 i I K hI hK)]
  by_cases h : I.val * 512 ≤ r.val ∧ r.val < I.val * 512 + 512
  · rw [dif_pos h, if_pos (by omega)]
    exact slabFwd1 i I K hI hK Adj x0 hx0 D X xs0 r f h
  · rw [dif_neg h, if_neg (by omega)]
    exact congrFun (harg7.read_unread xs0) _

include hI hK hx0 in
theorem accFwdA1_apply (hc0 : cond1_0 i) (hc1 : ¬cond1_1 i) (r : Fin 4096) (f : Fin 128) :
    sout1_A_0 (F := Ideal) c i arg2 harg2 arg3 harg3 arg4 harg4 arg5 harg5 arg6 harg6 arg7 harg7 arg8 harg8 hc0 hc1 x0 D X (ix2 r f)
      = if r.val / 512 = I.val then 0 + fwdTerm1 Adj D X r K f else 0 := by
  rw [accFwdA1_eq, rowsStoreFwd1_apply VO1 _ _ _ (I.val * 512) (offIFwd1 i I K hI hK)]
  by_cases h : I.val * 512 ≤ r.val ∧ r.val < I.val * 512 + 512
  · rw [dif_pos h, if_pos (by omega)]
    refine (slabFwd1 i I K hI hK Adj x0 hx0 D X (k1_pay3 (F := Ideal)) r f h).trans ?_
    rw [pay3_apply1]
  · rw [dif_neg h, if_neg (by omega)]
    rw [wholeStoreFwd1 VO1 _ zerosFwd1]
    exact pay3_apply1 _

end Update

/-! ## Counting the contributions -/

/-- The terms of a row of row block R that have arrived after point n: column block b's arrives at point 8·R + b. -/
def partialFwd1 (T : Fin 8 → EReal) (R n : ℕ) : EReal := ∑ b : Fin 8, if R * 8 + b.val ≤ n then T b else 0

theorem partialFwd1_zero (T : Fin 8 → EReal) (R : ℕ) : partialFwd1 T R 0 = if R = 0 then 0 + T 0 else 0 := by
  unfold partialFwd1
  by_cases hR : R = 0
  · subst hR
    rw [if_pos rfl, zero_add,
      Finset.sum_eq_single (0 : Fin 8) (fun b _ hb => if_neg (by have : b.val ≠ 0 := fun h => hb (Fin.ext h); omega))
        (fun h => absurd (Finset.mem_univ _) h)]
    exact if_pos (by show 0 * 8 + 0 ≤ 0; omega)
  · rw [if_neg hR]
    exact Finset.sum_eq_zero fun b _ => if_neg (by omega)

theorem partialFwd1_succ (T : Fin 8 → EReal) (R n : ℕ) (K : Fin 8) (hK : (n + 1) % 8 = K.val) :
    partialFwd1 T R (n + 1) = if R = (n + 1) / 8 then partialFwd1 T R n + T K else partialFwd1 T R n := by
  unfold partialFwd1
  by_cases hR : R = (n + 1) / 8
  · rw [if_pos hR]
    have e : ∀ b : Fin 8, (if R * 8 + b.val ≤ n + 1 then T b else 0)
        = (if R * 8 + b.val ≤ n then T b else 0) + (if b = K then T b else 0) := by
      intro b
      by_cases h1 : R * 8 + b.val ≤ n
      · have hb : b ≠ K := fun e => by have := congrArg Fin.val e; omega
        rw [if_pos h1, if_pos (by omega), if_neg hb, add_zero]
      · by_cases h2 : b = K
        · have : R * 8 + b.val ≤ n + 1 := by rw [h2]; omega
          rw [if_neg h1, if_pos h2, if_pos this, zero_add]
        · have hb : b.val ≠ K.val := fun e => h2 (Fin.ext e)
          rw [if_neg h1, if_neg h2, if_neg (by omega), add_zero]
    rw [Finset.sum_congr rfl (fun b _ => e b), Finset.sum_add_distrib, Finset.sum_ite_eq' Finset.univ K T, if_pos (Finset.mem_univ K)]
  · rw [if_neg hR]
    refine Finset.sum_congr rfl fun b _ => ?_
    have hb := b.isLt
    exact if_congr (by omega) rfl rfl

theorem partialFwd1_last (T : Fin 8 → EReal) (R : ℕ) (hR : R < 8) : partialFwd1 T R 63 = ∑ b : Fin 8, T b := by
  unfold partialFwd1
  exact Finset.sum_congr rfl fun b _ => if_pos (by have := b.isLt; omega)

/-! ## Point by point -/

section Points
variable (V : (c : Dev nD) → (b : Ref sig .tc) → Buf (Elt Ideal) ((c : Thread nD τ).loc b))

/-- The recursion on the point, one step at a time (the definition's own equations at a successor). -/
theorem outsAt1_succ_mid (c : Dev nD) (n : ℕ) (hn : n + 1 < cfg1.N) (h1 : n + 1 ≠ 63) :
    outsAt1 V c (n + 1) hn = stepB1 V c ⟨n + 1, hn⟩ (Nat.succ_ne_zero n) h1 (outsAt1 V c n (Nat.lt_of_succ_lt hn)) :=
  (dif_neg h1).trans rfl
theorem outsAt1_succ_last (c : Dev nD) (n : ℕ) (hn : n + 1 < cfg1.N) (h1 : n + 1 = 63) :
    outsAt1 V c (n + 1) hn = stepC1 V c ⟨n + 1, hn⟩ (Nat.succ_ne_zero n) h1 (outsAt1 V c n (Nat.lt_of_succ_lt hn)) :=
  (dif_pos h1).trans rfl
theorem outsAt1_zero (c : Dev nD) (hn : 0 < cfg1.N) : outsAt1 V c 0 hn = stepA1 V c ⟨0, hn⟩ rfl := rfl

-- from here on the recursion is read through these three equations only
attribute [local irreducible] outsAt1

/-- The adjacency tile of point t = 8·I + K holds the adjacency at the global positions of row block I, column block K. -/
theorem tileFwd1 (c : Dev nD) (t : Fin cfg1.N) (I K : Fin 8) (hI : t.val / 8 = I.val) (hK : t.val % 8 = K.val) (p q : Fin 512) :
    (iblk1 V c 0 t : Vec Ideal S512x512 .f32) (ix2 p q) = (V c main_arg1 : S4096x4096.Idx → EReal) (ix2 (blockRow I p) (blockRow K q)) := by
  have hp : 512 * (t.val / 8) + p.val < 4096 := by have := p.isLt; have := I.isLt; omega
  have hq : 512 * (t.val % 8) + q.val < 4096 := by have := q.isLt; omega
  have e1 : (⟨512 * (t.val / 8) + p.val, hp⟩ : Fin 4096) = blockRow I p := Fin.ext (by show 512 * (t.val / 8) + p.val = I.val * 512 + p.val; omega)
  have e2 : (⟨512 * (t.val % 8) + q.val, hq⟩ : Fin 4096) = blockRow K q := Fin.ext (by show 512 * (t.val % 8) + q.val = K.val * 512 + q.val; omega)
  rw [iblk1_0_apply V c t p q hp hq, e1, e2]

/-- The components of a record given by its four fields. -/
theorem outsFwd1_o3 {F : FTy → Type} (a b s u : Vec F S4096x128 .f32) : (Outs1.mk a b s u).o3 = a := rfl
theorem outsFwd1_s0 {F : FTy → Type} (a b s u : Vec F S4096x128 .f32) : (Outs1.mk a b s u).s0 = s := rfl

/-- The accumulator and output components of the three steps, as the runs' contents. -/
theorem stepA1_s0 (c : Dev nD) (t : Fin cfg1.N) (h0 : t.val = 0) (hc0 : cond1_0 (grid1.coords t)) (hc1 : ¬cond1_1 (grid1.coords t)) :
    (stepA1 V c t h0).s0 = sout1_A_0 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 hc0 hc1
      (iblk1 V c 0 t) (iblk1 V c 1 t) (iblk1 V c 2 t) := by
  unfold stepA1; exact outsFwd1_s0 _ _ _ _
theorem stepB1_s0 (c : Dev nD) (t : Fin cfg1.N) (h0 : t.val ≠ 0) (h1 : t.val ≠ 63) (p : Outs1 Ideal) (hc0 : ¬cond1_0 (grid1.coords t)) (hc1 : ¬cond1_1 (grid1.coords t)) :
    (stepB1 V c t h0 h1 p).s0 = sout1_B_0 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 hc0 hc1
      (iblk1 V c 0 t) (iblk1 V c 1 t) (iblk1 V c 2 t) p.s0 p.s1 := by
  unfold stepB1; exact outsFwd1_s0 _ _ _ _
theorem stepC1_s0 (c : Dev nD) (t : Fin cfg1.N) (h0 : t.val ≠ 0) (h1 : t.val = 63) (p : Outs1 Ideal) (hc0 : ¬cond1_0 (grid1.coords t)) (hc1 : cond1_1 (grid1.coords t)) :
    (stepC1 V c t h0 h1 p).s0 = sout1_C_0 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 hc0 hc1
      (iblk1 V c 0 t) (iblk1 V c 1 t) (iblk1 V c 2 t) p.s0 p.s1 := by
  unfold stepC1; exact outsFwd1_s0 _ _ _ _
theorem stepC1_o3 (c : Dev nD) (t : Fin cfg1.N) (h0 : t.val ≠ 0) (h1 : t.val = 63) (p : Outs1 Ideal) (hc0 : ¬cond1_0 (grid1.coords t)) (hc1 : cond1_1 (grid1.coords t)) :
    (stepC1 V c t h0 h1 p).o3 = out1_C_3 c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 hc0 hc1
      (iblk1 V c 0 t) (iblk1 V c 1 t) (iblk1 V c 2 t) p.s0 p.s1 := by
  unfold stepC1; exact outsFwd1_o3 _ _ _ _

variable (c : Dev nD) (t : Fin cfg1.N) (I K : Fin 8) (hI : t.val / 8 = I.val) (hK : t.val % 8 = K.val)

include hI hK in
/-- The first point: rows of row block 0 hold their term for column block 0, all other rows zero. -/
theorem firstFwd1 (h0 : t.val = 0) (r : Fin 4096) (f : Fin 128) :
    (stepA1 V c t h0).s0 (ix2 r f)
      = if r.val / 512 = I.val then 0 + fwdTerm1 (V c main_arg1) (V c main_v12) (V c main_arg0) r K f else 0 := by
  have hcrd := coords1 t
  rw [stepA1_s0 V c t h0 ((hcond1_0 t).mpr h0) (fun h => by have := (hcond1_1 t).mp h; omega)]
  refine (accFwdA1_apply c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 I K (hcrd.1.trans hI) (hcrd.2.trans hK)
    (V c main_arg1) (iblk1 V c 0 t) (tileFwd1 V c t I K hI hK) (iblk1 V c 1 t) (iblk1 V c 2 t)
    ((hcond1_0 t).mpr h0) (fun h => by have := (hcond1_1 t).mp h; omega) r f).trans ?_
  rw [iblk1_1_eq V c t, iblk1_2_eq V c t]

include hI hK in
/-- A middle point adds, on the rows of row block I, the term for column block K. -/
theorem midFwd1 (h0 : t.val ≠ 0) (h1 : t.val ≠ 63) (p : Outs1 Ideal) (r : Fin 4096) (f : Fin 128) :
    (stepB1 V c t h0 h1 p).s0 (ix2 r f)
      = if r.val / 512 = I.val then p.s0 (ix2 r f) + fwdTerm1 (V c main_arg1) (V c main_v12) (V c main_arg0) r K f else p.s0 (ix2 r f) := by
  have hcrd := coords1 t
  rw [stepB1_s0 V c t h0 h1 p (fun h => h0 ((hcond1_0 t).mp h)) (fun h => h1 ((hcond1_1 t).mp h))]
  refine (accFwdB1_apply c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 I K (hcrd.1.trans hI) (hcrd.2.trans hK)
    (V c main_arg1) (iblk1 V c 0 t) (tileFwd1 V c t I K hI hK) (iblk1 V c 1 t) (iblk1 V c 2 t) p.s0 p.s1
    (fun h => h0 ((hcond1_0 t).mp h)) (fun h => h1 ((hcond1_1 t).mp h)) r f).trans ?_
  rw [iblk1_1_eq V c t, iblk1_2_eq V c t]

include hI hK in
/-- So does the last point, -/
theorem lastFwd1 (h0 : t.val ≠ 0) (h1 : t.val = 63) (p : Outs1 Ideal) (r : Fin 4096) (f : Fin 128) :
    (stepC1 V c t h0 h1 p).s0 (ix2 r f)
      = if r.val / 512 = I.val then p.s0 (ix2 r f) + fwdTerm1 (V c main_arg1) (V c main_v12) (V c main_arg0) r K f else p.s0 (ix2 r f) := by
  have hcrd := coords1 t
  rw [stepC1_s0 V c t h0 h1 p (fun h => h0 ((hcond1_0 t).mp h)) ((hcond1_1 t).mpr h1)]
  refine (accFwdC1_apply c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 I K (hcrd.1.trans hI) (hcrd.2.trans hK)
    (V c main_arg1) (iblk1 V c 0 t) (tileFwd1 V c t I K hI hK) (iblk1 V c 1 t) (iblk1 V c 2 t) p.s0 p.s1
    (fun h => h0 ((hcond1_0 t).mp h)) ((hcond1_1 t).mpr h1) r f).trans ?_
  rw [iblk1_1_eq V c t, iblk1_2_eq V c t]

/-- which also leaves in the output's buffer what the accumulator then holds. -/
theorem lastOutFwd1 (h0 : t.val ≠ 0) (h1 : t.val = 63) (p : Outs1 Ideal) : (stepC1 V c t h0 h1 p).o3 = (stepC1 V c t h0 h1 p).s0 := by
  rw [stepC1_o3 V c t h0 h1 p (fun h => h0 ((hcond1_0 t).mp h)) ((hcond1_1 t).mpr h1), stepC1_s0 V c t h0 h1 p (fun h => h0 ((hcond1_0 t).mp h)) ((hcond1_1 t).mpr h1)]
  exact outFwdC1_eq c (grid1.coords t) (ms1_0 t) (hs1_0 t) (ms1_1 t) (hs1_1 t) (ms1_2 t) (hs1_2 t) (ms1_3 t) (hs1_3 t) (ms1_4 t) (hs1_4 t) scM1_0 hscM1_0 scM1_1 hscM1_1 (iblk1 V c 0 t) (iblk1 V c 1 t) (iblk1 V c 2 t) p.s0 p.s1
    (fun h => h0 ((hcond1_0 t).mp h)) ((hcond1_1 t).mpr h1)

end Points

section Values
variable (V : (c : Dev nD) → (b : Ref sig .tc) → Buf (Elt Ideal) ((c : Thread nD τ).loc b))

attribute [local irreducible] outsAt1

/-- After point n a row holds exactly the terms that have arrived. -/
theorem accFwd1_val (c : Dev nD) : ∀ (n : ℕ) (hn : n < cfg1.N) (r : Fin 4096) (f : Fin 128),
    (outsAt1 V c n hn).s0 (ix2 r f)
      = partialFwd1 (fun b => fwdTerm1 (V c main_arg1) (V c main_v12) (V c main_arg0) r b f) (r.val / 512) n
  | 0, hn, r, f => by
    rw [outsAt1_zero V c hn, firstFwd1 V c ⟨0, hn⟩ 0 0 (Nat.zero_div 8) (Nat.zero_mod 8) rfl r f, partialFwd1_zero]
    try rfl
  | n + 1, hn, r, f => by
    have hN : n + 1 < 64 := lt_of_lt_of_eq hn N_1
    have hI : (n + 1) / 8 < 8 := by omega
    have hK : (n + 1) % 8 < 8 := by omega
    have ih := accFwd1_val c n (Nat.lt_of_succ_lt hn) r f
    rw [partialFwd1_succ _ _ n ⟨(n + 1) % 8, hK⟩ rfl]
    by_cases h1 : n + 1 = 63
    · rw [outsAt1_succ_last V c n hn h1, lastFwd1 V c ⟨n + 1, hn⟩ ⟨(n + 1) / 8, hI⟩ ⟨(n + 1) % 8, hK⟩ rfl rfl (Nat.succ_ne_zero n) h1 _ r f, ih]
    · rw [outsAt1_succ_mid V c n hn h1, midFwd1 V c ⟨n + 1, hn⟩ ⟨(n + 1) / 8, hI⟩ ⟨(n + 1) % 8, hK⟩ rfl rfl (Nat.succ_ne_zero n) h1 _ r f, ih]

/-- What the forward output array ends holding. -/
def fwdSums1 (Adj : S4096x4096.Idx → EReal) (D X : S4096x128.Idx → EReal) : S4096x128.Idx → EReal :=
  fun y => fwdEntry1 Adj D X ⟨(y 0).val, idx2_lt0 y⟩ ⟨(y 1).val, idx2_lt1 y⟩

/-- The output window's one block is the whole array. -/
theorem blkIdxFwd1 : ∀ t : Fin cfg1.N, win1_3.index t 0 = 0 ∧ win1_3.index t 1 = 0 :=
  (by decide +kernel : ∀ t : Fin grid1.N, win1_3.index t 0 = 0 ∧ win1_3.index t 1 = 0)

/-- What the last point writes back into the forward output array is that function. -/
theorem flushedFwd1_eq (c : Dev nD) (t : Fin cfg1.N) (hf : (cfg1.win 3).flush t = true) :
    (dat1 V c).flushed 3 t = ((cfg1.win 3).blk t).view.read (Elt Ideal) (fwdSums1 (V c main_arg1) (V c main_v12) (V c main_arg0)) := by
  have ht : t.val < 64 := lt_of_lt_of_eq t.isLt (show cfg1.N = 64 from N_1)
  have hl : t.val = 63 := by have := (flush1_3 t).mp hf; omega
  obtain ⟨e0, e1⟩ := blkIdxFwd1 t
  obtain ⟨n, hn⟩ := t
  obtain rfl : n = 62 + 1 := hl
  show (cfg1.win 3).cut (grid1.coords ⟨62 + 1, hn⟩) ((dat1 V c).after 3 ⟨62 + 1, hn⟩) = _
  rw [after1_3]
  funext y
  obtain ⟨r, f, rfl⟩ : ∃ (r : Fin 4096) (f : Fin 128), y = ix2 r f := ⟨y 0, y 1, eq_ix2 y⟩
  show (outsAt1 V c (62 + 1) hn).o3 (ix2 r f) = fwdSums1 (V c main_arg1) (V c main_v12) (V c main_arg0) (((cfg1.win 3).blk ⟨62 + 1, hn⟩).view.emb (ix2 r f))
  have hs : (outsAt1 V c (62 + 1) hn).o3 = (outsAt1 V c (62 + 1) hn).s0 := by
    rw [outsAt1_succ_last V c 62 hn rfl]
    exact lastOutFwd1 V c ⟨62 + 1, hn⟩ (Nat.succ_ne_zero 62) rfl _
  rw [hs, accFwd1_val V c (62 + 1) hn r f, partialFwd1_last _ _ (by have := r.isLt; omega)]
  unfold fwdSums1
  rw [fwdEntry1_eq]
  have er : (⟨((((cfg1.win 3).blk ⟨62 + 1, hn⟩).view.emb (ix2 r f)) 0).val, idx2_lt0 _⟩ : Fin 4096) = r := Fin.ext (by
    show win1_3.index ⟨62 + 1, hn⟩ (0 : Fin 2) * 4096 + 1 * r.val = r.val
    rw [e0]; omega)
  have ef : (⟨((((cfg1.win 3).blk ⟨62 + 1, hn⟩).view.emb (ix2 r f)) 1).val, idx2_lt1 _⟩ : Fin 128) = f := Fin.ext (by
    show win1_3.index ⟨62 + 1, hn⟩ (1 : Fin 2) * 128 + 1 * f.val = f.val
    rw [e1]; omega)
  rw [er, ef]

/-- An index of the forward output array is in point t's block iff each coordinate is in the block's range. -/
theorem mem_blkFwd1 (t : Fin cfg1.N) (i : S4096x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v13_0).slice (win1_3.rect t)).set ↔ _
  rw [View.set_slice_whole, Rect.mem_set_unit]
  exact Iff.rfl

/-- The last point's block is the whole array, and the last point writes it back. -/
theorem coverFwd1 (i : S4096x128.Idx) : ∃ t : Fin cfg1.N, (cfg1.win 3).flush t = true ∧ i ∈ ((cfg1.win 3).blk t).view.set := by
  have hi0 : (i 0).val < 4096 := (i 0).isLt
  have hi1 : (i 1).val < 128 := (i 1).isLt
  have h63 : 63 < cfg1.N := by rw [show cfg1.N = 64 from N_1]; decide
  obtain ⟨e0, e1⟩ := blkIdxFwd1 ⟨63, h63⟩
  refine ⟨⟨63, h63⟩, (flush1_3 ⟨63, h63⟩).mpr rfl, ?_⟩
  rw [mem_blkFwd1]
  intro a
  match a with
  | ⟨0, _⟩ => show win1_3.index ⟨63, h63⟩ (0 : Fin 2) * 4096 ≤ (i 0).val ∧ (i 0).val < win1_3.index ⟨63, h63⟩ (0 : Fin 2) * 4096 + 4096; rw [e0]; omega
  | ⟨1, _⟩ => show win1_3.index ⟨63, h63⟩ (1 : Fin 2) * 128 ≤ (i 1).val ∧ (i 1).val < win1_3.index ⟨63, h63⟩ (1 : Fin 2) * 128 + 128; rw [e1]; omega

/-- The forward output array after the region. -/
theorem finalFwd1 (c : Dev nD) : (dat1 V c).arrAt 3 cfg1.N = fwdSums1 (V c main_arg1) (V c main_v12) (V c main_arg0) :=
  (dat1 V c).arrAt_eq_of_cover 3 (fwdSums1 (V c main_arg1) (V c main_v12) (V c main_arg0)) (fun t hf => flushedFwd1_eq V c t hf) coverFwd1

/-- THE FORWARD OUTPUT, index by index: row i holds, in lane f, the eight column blocks' contributions
    "reciprocal degree of row i times masked row i against the block's rows of the features", in block order. -/
theorem value1_3 (c : Dev nD) (i : Fin 4096) (f : Fin 128) :
    (dat1 (F := Ideal) V c).arrAt 3 cfg1.N (ix2 i f) = fwdEntry1 (V c main_arg1) (V c main_v12) (V c main_arg0) i f := by
  rw [finalFwd1 V c]
  rfl

end Values

end Cert.KernelIdeal.Hand

end
-- ==== Proof.KI.Region1ValueRev.lean ====
/- Region 1 of @main (the first mat-vec pass, grid 8 × 8), the REVERSE product: what the second accumulator holds
   after each point, and the array the region leaves in its second output, on the extended reals. At the point of
   row block i and column block k the body adds, into rows k · 512 … k · 512 + 511 of the accumulator, the reciprocal
   degree of each such row times the masked tile's column paired with the features of row block i. -/
import proofs.«140086_j17265768530288_2_alg».proof.Proof.KI.Region1
import proofs.«140086_j17265768530288_2_alg».proof.Proof.KI.Mask
import proofs.«140086_j17265768530288_2_alg».proof.Proof.KI.Region1Pay
import Idealize.ShloMosaic.Lib.WritesUnit
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## Sums that fill up block by block

The entry of row K is complete once the eight points of K's column block have passed; point n = 8 b + K / 512 adds
row block b's term. Over any additive commutative monoid. -/

section PartialRev1
variable {M : Type} [AddCommMonoid M]

/-- The terms of the row blocks b whose point 8 b + kk is at or before position n. -/
def partialRev1 (T : Fin 8 → M) (kk n : ℕ) : M := ∑ b : Fin 8, if b.val * 8 + kk ≤ n then T b else 0

/-- One term picked out of the eight. -/
theorem sumPickRev1 (T : Fin 8 → M) (m : ℕ) (hm : m < 8) : (∑ b : Fin 8, if b.val = m then T b else 0) = T ⟨m, hm⟩ := by
  rw [Finset.sum_eq_single (⟨m, hm⟩ : Fin 8)]
  · rw [if_pos rfl]
  · intro b _ hb
    rw [if_neg (fun h => hb (Fin.ext h))]
  · intro h; exact absurd (Finset.mem_univ _) h

/-- The point of column block kk and row block (n + 1) / 8 adds that row block's term; -/
theorem partialRev1_hit (T : Fin 8 → M) (kk n : ℕ) (hn : n + 1 < 64) (h : (n + 1) % 8 = kk) :
    partialRev1 T kk (n + 1) = partialRev1 T kk n + T ⟨(n + 1) / 8, by omega⟩ := by
  unfold partialRev1
  rw [← sumPickRev1 T ((n + 1) / 8) (by omega), ← Finset.sum_add_distrib]
  refine Finset.sum_congr rfl fun b _ => ?_
  have hb : b.val < 8 := b.isLt
  by_cases h1 : b.val * 8 + kk ≤ n
  · rw [if_pos (by omega : b.val * 8 + kk ≤ n + 1), if_pos h1, if_neg (by omega : ¬b.val = (n + 1) / 8), add_zero]
  · by_cases h2 : b.val = (n + 1) / 8
    · rw [if_pos (by omega : b.val * 8 + kk ≤ n + 1), if_neg h1, if_pos h2, zero_add]
    · rw [if_neg (by omega : ¬b.val * 8 + kk ≤ n + 1), if_neg h1, if_neg h2, add_zero]

/-- a point of another column block adds nothing to it. -/
theorem partialRev1_miss (T : Fin 8 → M) (kk n : ℕ) (hk : kk < 8) (h : (n + 1) % 8 ≠ kk) :
    partialRev1 T kk (n + 1) = partialRev1 T kk n := by
  unfold partialRev1
  refine Finset.sum_congr rfl fun b _ => ?_
  have hb : b.val < 8 := b.isLt
  by_cases h1 : b.val * 8 + kk ≤ n
  · rw [if_pos (by omega : b.val * 8 + kk ≤ n + 1), if_pos h1]
  · rw [if_neg (by omega : ¬b.val * 8 + kk ≤ n + 1), if_neg h1]

/-- After point 0 only column block 0 has a term, row block 0's; -/
theorem partialRev1_zero_hit (T : Fin 8 → M) : partialRev1 T 0 0 = T 0 := by
  unfold partialRev1
  refine Eq.trans (Finset.sum_congr rfl fun b _ => ?_) (sumPickRev1 T 0 (by decide))
  have hb : b.val < 8 := b.isLt
  by_cases h1 : b.val = 0
  · rw [if_pos (by omega), if_pos h1]
  · rw [if_neg (by omega), if_neg h1]

theorem partialRev1_zero_miss (T : Fin 8 → M) (kk : ℕ) (hk : 0 < kk) : partialRev1 T kk 0 = 0 := by
  unfold partialRev1
  exact Finset.sum_eq_zero fun b _ => if_neg (by omega)

/-- and after the last point every column block has all eight. -/
theorem partialRev1_last (T : Fin 8 → M) (kk : ℕ) (hk : kk < 8) : partialRev1 T kk 63 = ∑ b : Fin 8, T b := by
  unfold partialRev1
  refine Finset.sum_congr rfl fun b _ => ?_
  have hb : b.val < 8 := b.isLt
  rw [if_pos (by omega)]

end PartialRev1

/-! ## What a point leaves in the second accumulator, from what it found there

At any float instance. The body's one store into the accumulator at a point is the slab of 512 rows starting at
row 512 · (column block); its payload is the accumulator's slab as found plus the reciprocal-degree column times
the tile's transposed product with the features' slab. At the first point the slab store comes after the zero fill
of the whole accumulator, so the point behaves as a later point that found the zero fill. -/

theorem zerosRev1 : (![0, 0] : Fin 2 → Nat) = fun _ => 0 := funext fun a => by fin_cases a <;> rfl

section StepRev1
variable {F : FTy → Type} [FloatOps F]
variable (c : Dev nD) (i : grid1.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole)
    (x0 : Vec F S512x512 .f32) (x1 x2 xs0 xs1 : Vec F S4096x128 .f32)

/-- The slab payload: from the tile x0, the reciprocal degrees x1, the features x2 and the accumulator a as found. -/
abbrev slabRev1 (i : grid1.Coords) (x0 : Vec F S512x512 .f32) (x1 x2 a : Vec F S4096x128 .f32) : Vec F S512x128 .f32 :=
  k1_pay2 (k1_pay7 i x0 (View.ld x2 (Rect.unit (s := S4096x128) (k1_off2 i) S512x128.size (k1_off2_inb i))))
    (k1_pay8 (View.ld x1 (Rect.unit (s := S4096x128) (k1_off1 i) S512x128.size (k1_off1_inb i))))
    (View.ld a (Rect.unit (s := S4096x128) (k1_off1 i) S512x128.size (k1_off1_inb i)))

/-- A later point, at an index of its slab: the slab payload over what the point before left. -/
theorem midRev1_hit (hc0 : ¬cond1_0 i) (hc1 : ¬cond1_1 i) (y : S4096x128.Idx) (x : S512x128.Idx)
    (hx0 : (y (0 : Fin 2)).val = 512 * (i 1).val + (x (0 : Fin 2)).val) (hx1 : (y (1 : Fin 2)).val = (x (1 : Fin 2)).val) :
    sout1_B_1 c i arg2 harg2 arg3 harg3 arg4 harg4 arg5 harg5 arg6 harg6 arg7 harg7 arg8 harg8 hc0 hc1 x0 x1 x2 xs0 xs1 y = slabRev1 i x0 x1 x2 xs1 x := by
  unfold sout1_B_1 kernelRun1_B
  dsimp only
  sl_unfold_run_names
  refine (View.read_writes_cons_rows_of_mem (off := k1_off1 i) (size := S512x128.size) arg8.view _ (k1_off1_inb i) _ [] y x
    (k1_off1_eq i) hx0 hx1).trans ?_
  simp only [View.readAt_eq_ld, harg2.read_unread, harg3.read_unread, harg4.read_unread, harg8.read_unread,
    View.ld_unit_zero (S := S512x512) zerosRev1]

/-- A later point, at an index outside its slab: what the point before left. -/
theorem midRev1_miss (hc0 : ¬cond1_0 i) (hc1 : ¬cond1_1 i) (y : S4096x128.Idx)
    (h : (y (0 : Fin 2)).val < 512 * (i 1).val ∨ 512 * (i 1).val + 512 ≤ (y (0 : Fin 2)).val) :
    sout1_B_1 c i arg2 harg2 arg3 harg3 arg4 harg4 arg5 harg5 arg6 harg6 arg7 harg7 arg8 harg8 hc0 hc1 x0 x1 x2 xs0 xs1 y = xs1 y := by
  unfold sout1_B_1 kernelRun1_B
  dsimp only
  sl_unfold_run_names
  rw [View.read_writes_cons_rows_of_not_mem arg8.view _ _ _ [] y (k1_off1_eq i) rfl h]
  show arg8.view.read (Elt F) (harg8.unread xs1) y = xs1 y
  rw [harg8.read_unread]

/-- The last point leaves the accumulator as a later point does, -/
theorem lastRev1_hit (hc0 : ¬cond1_0 i) (hc1 : cond1_1 i) (y : S4096x128.Idx) (x : S512x128.Idx)
    (hx0 : (y (0 : Fin 2)).val = 512 * (i 1).val + (x (0 : Fin 2)).val) (hx1 : (y (1 : Fin 2)).val = (x (1 : Fin 2)).val) :
    sout1_C_1 c i arg2 harg2 arg3 harg3 arg4 harg4 arg5 harg5 arg6 harg6 arg7 harg7 arg8 harg8 hc0 hc1 x0 x1 x2 xs0 xs1 y = slabRev1 i x0 x1 x2 xs1 x := by
  unfold sout1_C_1 kernelRun1_C
  dsimp only
  sl_unfold_run_names
  refine (View.read_writes_cons_rows_of_mem (off := k1_off1 i) (size := S512x128.size) arg8.view _ (k1_off1_inb i) _ [] y x
    (k1_off1_eq i) hx0 hx1).trans ?_
  simp only [View.readAt_eq_ld, harg2.read_unread, harg3.read_unread, harg4.read_unread, harg8.read_unread,
    View.ld_unit_zero (S := S512x512) zerosRev1]

theorem lastRev1_miss (hc0 : ¬cond1_0 i) (hc1 : cond1_1 i) (y : S4096x128.Idx)
    (h : (y (0 : Fin 2)).val < 512 * (i 1).val ∨ 512 * (i 1).val + 512 ≤ (y (0 : Fin 2)).val) :
    sout1_C_1 c i arg2 harg2 arg3 harg3 arg4 harg4 arg5 harg5 arg6 harg6 arg7 harg7 arg8 harg8 hc0 hc1 x0 x1 x2 xs0 xs1 y = xs1 y := by
  unfold sout1_C_1 kernelRun1_C
  dsimp only
  sl_unfold_run_names
  rw [View.read_writes_cons_rows_of_not_mem arg8.view _ _ _ [] y (k1_off1_eq i) rfl h]
  show arg8.view.read (Elt F) (harg8.unread xs1) y = xs1 y
  rw [harg8.read_unread]

/-- and copies the accumulator, as it leaves it, into the second output's buffer. -/
theorem outRev1_last (hc0 : ¬cond1_0 i) (hc1 : cond1_1 i) :
    out1_C_4 c i arg2 harg2 arg3 harg3 arg4 harg4 arg5 harg5 arg6 harg6 arg7 harg7 arg8 harg8 hc0 hc1 x0 x1 x2 xs0 xs1 = sout1_C_1 c i arg2 harg2 arg3 harg3 arg4 harg4 arg5 harg5 arg6 harg6 arg7 harg7 arg8 harg8 hc0 hc1 x0 x1 x2 xs0 xs1 := by
  unfold out1_C_4 sout1_C_1 kernelRun1_C
  dsimp only
  sl_unfold_run_names
  rw [View.read_writes_eq_canon _ _ _ (fun y => ⟨_, List.mem_singleton_self _, View.mem_set_unit_zero zerosRev1 inb_S4096x128_S4096x128_0_0 y⟩),
    View.canon_unit_zero zerosRev1, View.readAt_eq_ld, View.ld_unit_zero zerosRev1]

/-- The first point, at an index of its slab: the slab payload over the zero fill. -/
theorem firstRev1_hit (hc0 : cond1_0 i) (hc1 : ¬cond1_1 i) (y : S4096x128.Idx) (x : S512x128.Idx)
    (hx0 : (y (0 : Fin 2)).val = 512 * (i 1).val + (x (0 : Fin 2)).val) (hx1 : (y (1 : Fin 2)).val = (x (1 : Fin 2)).val) :
    sout1_A_1 c i arg2 harg2 arg3 harg3 arg4 harg4 arg5 harg5 arg6 harg6 arg7 harg7 arg8 harg8 hc0 hc1 x0 x1 x2 y = slabRev1 i x0 x1 x2 (k1_pay4 (F := F)) x := by
  unfold sout1_A_1 kernelRun1_A
  dsimp only
  sl_unfold_run_names
  refine (View.read_writes_cons_rows_of_mem (off := k1_off1 i) (size := S512x128.size) VO1 _ (k1_off1_inb i) _ _ y x
    (k1_off1_eq i) hx0 hx1).trans ?_
  simp only [View.readAt_eq_ld, harg2.read_unread, harg3.read_unread, harg4.read_unread,
    View.ld_unit_zero (S := S512x512) zerosRev1]
  rw [View.read_writes_eq_canon _ _ _ (fun y => ⟨_, List.mem_singleton_self _, View.mem_set_unit_zero zerosRev1 inb_S4096x128_S4096x128_0_0 y⟩),
    View.canon_unit_zero zerosRev1]

/-- The first point, at an index outside its slab: the zero fill. -/
theorem firstRev1_miss (hc0 : cond1_0 i) (hc1 : ¬cond1_1 i) (y : S4096x128.Idx)
    (h : (y (0 : Fin 2)).val < 512 * (i 1).val ∨ 512 * (i 1).val + 512 ≤ (y (0 : Fin 2)).val) :
    sout1_A_1 c i arg2 harg2 arg3 harg3 arg4 harg4 arg5 harg5 arg6 harg6 arg7 harg7 arg8 harg8 hc0 hc1 x0 x1 x2 y = k1_pay4 (F := F) y := by
  unfold sout1_A_1 kernelRun1_A
  dsimp only
  sl_unfold_run_names
  rw [View.read_writes_cons_rows_of_not_mem VO1 _ _ _ _ y (k1_off1_eq i) rfl h,
    View.read_writes_eq_canon _ _ _ (fun y => ⟨_, List.mem_singleton_self _, View.mem_set_unit_zero zerosRev1 inb_S4096x128_S4096x128_0_0 y⟩),
    View.canon_unit_zero zerosRev1]

end StepRev1

/-! ## The second accumulator after a point, from the proof data's recurrence -/

section LaterRev1
variable {F : FTy → Type} [FloatOps F]
variable (V : (c : Dev nD) → (b : Ref sig .tc) → Buf (Elt F) ((c : Thread nD τ).loc b))

-- the recurrence is read through its three unfolding equations only
attribute [local irreducible] outsAt1

/-- The second accumulator as the point before t left it. -/
abbrev prevRev1 (c : Dev nD) (t : Fin cfg1.N) : Vec F S4096x128 .f32 :=
  (outsAt1 V c (t.val - 1) (Nat.lt_of_le_of_lt (Nat.sub_le _ _) t.isLt)).s1
abbrev prevFwdRev1 (c : Dev nD) (t : Fin cfg1.N) : Vec F S4096x128 .f32 :=
  (outsAt1 V c (t.val - 1) (Nat.lt_of_le_of_lt (Nat.sub_le _ _) t.isLt)).s0

/-- After the first point, inside its slab and outside it. -/
theorem zeroRev1_hit (c : Dev nD) (t : Fin cfg1.N) (h0 : t.val = 0) (y : S4096x128.Idx) (x : S512x128.Idx)
    (hx0 : (y (0 : Fin 2)).val = 512 * (grid1.coords t 1).val + (x (0 : Fin 2)).val) (hx1 : (y (1 : Fin 2)).val = (x (1 : Fin 2)).val) :
    (outsAt1 V c t.val t.isLt).s1 y = slabRev1 (grid1.coords t) (iblk1 V c 0 t) (iblk1 V c 1 t) (iblk1 V c 2 t) (k1_pay4 (F := F)) x := by
  rw [outsAt1_first V c t h0]
  unfold stepA1
  dsimp only
  exact firstRev1_hit c (grid1.coords t) (ms1_0 t) (hs1_0 t) (ms1_1 t) (hs1_1 t) (ms1_2 t) (hs1_2 t) (ms1_3 t) (hs1_3 t) (ms1_4 t) (hs1_4 t)
    scM1_0 hscM1_0 scM1_1 hscM1_1 (iblk1 V c 0 t) (iblk1 V c 1 t) (iblk1 V c 2 t)
    ((hcond1_0 t).mpr h0) (fun h => by have := (hcond1_1 t).mp h; omega) y x hx0 hx1

theorem zeroRev1_miss (c : Dev nD) (t : Fin cfg1.N) (h0 : t.val = 0) (y : S4096x128.Idx)
    (h : (y (0 : Fin 2)).val < 512 * (grid1.coords t 1).val ∨ 512 * (grid1.coords t 1).val + 512 ≤ (y (0 : Fin 2)).val) :
    (outsAt1 V c t.val t.isLt).s1 y = k1_pay4 (F := F) y := by
  rw [outsAt1_first V c t h0]
  unfold stepA1
  dsimp only
  exact firstRev1_miss c (grid1.coords t) (ms1_0 t) (hs1_0 t) (ms1_1 t) (hs1_1 t) (ms1_2 t) (hs1_2 t) (ms1_3 t) (hs1_3 t) (ms1_4 t) (hs1_4 t)
    scM1_0 hscM1_0 scM1_1 hscM1_1 (iblk1 V c 0 t) (iblk1 V c 1 t) (iblk1 V c 2 t)
    ((hcond1_0 t).mpr h0) (fun h => by have := (hcond1_1 t).mp h; omega) y h

/-- After a later point, inside its slab and outside it. -/
theorem laterRev1_hit (c : Dev nD) (t : Fin cfg1.N) (h0 : t.val ≠ 0) (y : S4096x128.Idx) (x : S512x128.Idx)
    (hx0 : (y (0 : Fin 2)).val = 512 * (grid1.coords t 1).val + (x (0 : Fin 2)).val) (hx1 : (y (1 : Fin 2)).val = (x (1 : Fin 2)).val) :
    (outsAt1 V c t.val t.isLt).s1 y = slabRev1 (grid1.coords t) (iblk1 V c 0 t) (iblk1 V c 1 t) (iblk1 V c 2 t) (prevRev1 V c t) x := by
  by_cases h1 : t.val = 63
  · rw [outsAt1_last V c t h0 h1]
    unfold stepC1
    dsimp only
    exact lastRev1_hit c (grid1.coords t) (ms1_0 t) (hs1_0 t) (ms1_1 t) (hs1_1 t) (ms1_2 t) (hs1_2 t) (ms1_3 t) (hs1_3 t) (ms1_4 t) (hs1_4 t)
      scM1_0 hscM1_0 scM1_1 hscM1_1 (iblk1 V c 0 t) (iblk1 V c 1 t) (iblk1 V c 2 t) (prevFwdRev1 V c t) (prevRev1 V c t)
      (fun h => h0 ((hcond1_0 t).mp h)) ((hcond1_1 t).mpr h1) y x hx0 hx1
  · rw [outsAt1_mid V c t h0 h1]
    unfold stepB1
    dsimp only
    exact midRev1_hit c (grid1.coords t) (ms1_0 t) (hs1_0 t) (ms1_1 t) (hs1_1 t) (ms1_2 t) (hs1_2 t) (ms1_3 t) (hs1_3 t) (ms1_4 t) (hs1_4 t)
      scM1_0 hscM1_0 scM1_1 hscM1_1 (iblk1 V c 0 t) (iblk1 V c 1 t) (iblk1 V c 2 t) (prevFwdRev1 V c t) (prevRev1 V c t)
      (fun h => h0 ((hcond1_0 t).mp h)) (fun h => h1 ((hcond1_1 t).mp h)) y x hx0 hx1

theorem laterRev1_miss (c : Dev nD) (t : Fin cfg1.N) (h0 : t.val ≠ 0) (y : S4096x128.Idx)
    (h : (y (0 : Fin 2)).val < 512 * (grid1.coords t 1).val ∨ 512 * (grid1.coords t 1).val + 512 ≤ (y (0 : Fin 2)).val) :
    (outsAt1 V c t.val t.isLt).s1 y = prevRev1 V c t y := by
  by_cases h1 : t.val = 63
  · rw [outsAt1_last V c t h0 h1]
    unfold stepC1
    dsimp only
    exact lastRev1_miss c (grid1.coords t) (ms1_0 t) (hs1_0 t) (ms1_1 t) (hs1_1 t) (ms1_2 t) (hs1_2 t) (ms1_3 t) (hs1_3 t) (ms1_4 t) (hs1_4 t)
      scM1_0 hscM1_0 scM1_1 hscM1_1 (iblk1 V c 0 t) (iblk1 V c 1 t) (iblk1 V c 2 t) (prevFwdRev1 V c t) (prevRev1 V c t)
      (fun h => h0 ((hcond1_0 t).mp h)) ((hcond1_1 t).mpr h1) y h
  · rw [outsAt1_mid V c t h0 h1]
    unfold stepB1
    dsimp only
    exact midRev1_miss c (grid1.coords t) (ms1_0 t) (hs1_0 t) (ms1_1 t) (hs1_1 t) (ms1_2 t) (hs1_2 t) (ms1_3 t) (hs1_3 t) (ms1_4 t) (hs1_4 t)
      scM1_0 hscM1_0 scM1_1 hscM1_1 (iblk1 V c 0 t) (iblk1 V c 1 t) (iblk1 V c 2 t) (prevFwdRev1 V c t) (prevRev1 V c t)
      (fun h => h0 ((hcond1_0 t).mp h)) (fun h => h1 ((hcond1_1 t).mp h)) y h

/-- At the last point the second output's buffer is left at what the second accumulator is left at. -/
theorem outEqAccRev1 (c : Dev nD) (t : Fin cfg1.N) (h1 : t.val = 63) :
    (outsAt1 V c t.val t.isLt).o4 = (outsAt1 V c t.val t.isLt).s1 := by
  have h0 : t.val ≠ 0 := by omega
  rw [outsAt1_last V c t h0 h1]
  unfold stepC1
  dsimp only
  exact outRev1_last c (grid1.coords t) (ms1_0 t) (hs1_0 t) (ms1_1 t) (hs1_1 t) (ms1_2 t) (hs1_2 t) (ms1_3 t) (hs1_3 t) (ms1_4 t) (hs1_4 t)
    scM1_0 hscM1_0 scM1_1 hscM1_1 (iblk1 V c 0 t) (iblk1 V c 1 t) (iblk1 V c 2 t) (prevFwdRev1 V c t) (prevRev1 V c t)
    (fun h => h0 ((hcond1_0 t).mp h)) ((hcond1_1 t).mpr h1)

end LaterRev1

/-! ## On the extended reals -/

/-- Row block b's term of entry (k, f) of the reverse product: the reciprocal degree of row k times the masked
    adjacency's column k within the block paired with the features of the block's rows. -/
def revTerm1 (Adj : S4096x4096.Idx → EReal) (D X : S4096x128.Idx → EReal) (k : Fin 4096) (f : Fin 128) (b : Fin 8) : EReal :=
  D (ix2 k (0 : Fin 128)) * ∑ q : Fin 512, offE Adj (blockRow b q) k * X (ix2 (blockRow b q) f)

/-- Entry (k, f) of the reverse product: the eight row blocks' terms. -/
def revEntry1 (Adj : S4096x4096.Idx → EReal) (D X : S4096x128.Idx → EReal) (k : Fin 4096) (f : Fin 128) : EReal :=
  ∑ b : Fin 8, D (ix2 k (0 : Fin 128)) * ∑ q : Fin 512, offE Adj (blockRow b q) k * X (ix2 (blockRow b q) f)

theorem ltRev1_0 (i : grid1.Coords) (p : Fin 512) : 512 * (i 0).val + p.val < 4096 := by
  have h : (i 0).val < 8 := (i 0).isLt
  have := p.isLt; omega
theorem ltRev1_1 (i : grid1.Coords) (q : Fin 512) : 512 * (i 1).val + q.val < 4096 := by
  have h : (i 1).val < 8 := (i 1).isLt
  have := q.isLt; omega

/-- The slab payload at local row q and lane f: the accumulator's entry of global row 512 · (column block) + q, plus
    that row's reciprocal degree times the masked tile's column q paired with the features of the tile's rows. -/
theorem slabRev1_apply (i : grid1.Coords) (x0 : Vec Ideal S512x512 .f32) (x1 x2 a : Vec Ideal S4096x128 .f32) (q : Fin 512) (f : Fin 128) :
    slabRev1 i x0 x1 x2 a (ix2 q f)
      = a (ix2 (⟨512 * (i 1).val + q.val, ltRev1_1 i q⟩ : Fin 4096) f)
        + x1 (ix2 (⟨512 * (i 1).val + q.val, ltRev1_1 i q⟩ : Fin 4096) (0 : Fin 128))
          * ∑ p : Fin 512, (if 512 * (i 0).val + p.val = 512 * (i 1).val + q.val then 0 else x0 (ix2 p q))
              * x2 (ix2 (⟨512 * (i 0).val + p.val, ltRev1_0 i p⟩ : Fin 4096) f) := by
  refine (pay2_apply1 _ _ _ (ix2 q f)).trans ?_
  refine congrArg₂ (· + ·) (ldRows1_apply a _ _ _ (k1_off1_eq i) q f _)
    (congrArg₂ (· * ·) ((pay8_apply1 _ q f).trans (ldRows1_apply x1 _ _ _ (k1_off1_eq i) q (0 : Fin 128) _))
      ((pay7_apply1 i x0 _ q f).trans (Finset.sum_congr rfl fun p _ =>
        congrArg₂ (· * ·) (mask1_apply i x0 p q) (ldRows1_apply x2 _ _ _ (k1_off2_eq i) p f _))))

/-- The same with the tile read off the adjacency: the slab payload at the local row of global row K is what was
    found at (K, f) plus the term of the point's row block. -/
theorem slabRev1_term (i : grid1.Coords) (I Kb : ℕ) (hI : (i 0).val = I) (hKb : (i 1).val = Kb) (hI8 : I < 8) (hK8 : Kb < 8)
    (Adj : S4096x4096.Idx → EReal) (D X a : S4096x128.Idx → EReal) (x0 : Vec Ideal S512x512 .f32)
    (hx0 : ∀ (p q : Fin 512) (hp : 512 * I + p.val < 4096) (hq : 512 * Kb + q.val < 4096),
      x0 (ix2 p q) = Adj (ix2 (⟨512 * I + p.val, hp⟩ : Fin 4096) (⟨512 * Kb + q.val, hq⟩ : Fin 4096)))
    (K : Fin 4096) (f : Fin 128) (q : Fin 512) (hq : K.val = 512 * Kb + q.val) :
    slabRev1 i x0 D X a (ix2 q f) = a (ix2 K f) + revTerm1 Adj D X K f ⟨I, hI8⟩ := by
  subst hI; subst hKb
  rw [slabRev1_apply]
  have eK : (⟨512 * (i 1).val + q.val, ltRev1_1 i q⟩ : Fin 4096) = K := Fin.ext hq.symm
  rw [eK]
  unfold revTerm1
  refine congrArg (fun s => a (ix2 K f) + D (ix2 K (0 : Fin 128)) * s) (Finset.sum_congr rfl fun p _ => ?_)
  have eP : (⟨512 * (i 0).val + p.val, ltRev1_0 i p⟩ : Fin 4096) = blockRow ⟨(i 0).val, hI8⟩ p :=
    Fin.ext (by show 512 * (i 0).val + p.val = (i 0).val * 512 + p.val; omega)
  rw [hx0 p q (ltRev1_0 i p) (ltRev1_1 i q), eK, eP]
  unfold offE
  have hv : (blockRow ⟨(i 0).val, hI8⟩ p).val = (i 0).val * 512 + p.val := rfl
  by_cases hd : 512 * (i 0).val + p.val = 512 * (i 1).val + q.val
  · rw [if_pos hd, if_pos (by rw [hv, hq]; omega)]
  · rw [if_neg hd, if_neg (by rw [hv, hq]; omega)]

section ValuesRev1
variable (V : (c : Dev nD) → (b : Ref sig .tc) → Buf (Elt Ideal) ((c : Thread nD τ).loc b))

attribute [local irreducible] outsAt1

/-- The slab payload of point t over contents a, at the local row of a global row K of the point's column block: what
    a holds at (K, f) plus the term of the point's row block. -/
theorem pointRev1_hit (c : Dev nD) (t : Fin cfg1.N) (ht : t.val < 64) (a : S4096x128.Idx → EReal) (K : Fin 4096) (f : Fin 128)
    (hk : K.val / 512 = t.val % 8) :
    slabRev1 (grid1.coords t) (iblk1 V c 0 t) (iblk1 V c 1 t) (iblk1 V c 2 t) a (ix2 (⟨K.val % 512, Nat.mod_lt _ (by decide)⟩ : Fin 512) f)
      = a (ix2 K f) + revTerm1 (V c main_arg1) (V c main_v12) (V c main_arg0) K f ⟨t.val / 8, by omega⟩ := by
  obtain ⟨ec0, ec1⟩ := coords1 t
  rw [iblk1_1_eq V c t, iblk1_2_eq V c t]
  exact slabRev1_term (grid1.coords t) (t.val / 8) (t.val % 8) ec0 ec1 (by omega) (by omega) (V c main_arg1) (V c main_v12) (V c main_arg0) a
    (iblk1 V c 0 t) (fun p q hp hq => iblk1_0_apply V c t p q hp hq) K f ⟨K.val % 512, Nat.mod_lt _ (by decide)⟩
    (by show K.val = 512 * (t.val % 8) + K.val % 512; omega)

/-- After the first point: row block 0's term in the rows of column block 0, zero elsewhere. -/
theorem accRev1_zero (c : Dev nD) (hn : 0 < cfg1.N) (K : Fin 4096) (f : Fin 128) :
    (outsAt1 V c 0 hn).s1 (ix2 K f)
      = if K.val / 512 = 0 then revTerm1 (V c main_arg1) (V c main_v12) (V c main_arg0) K f 0 else 0 := by
  have hK : K.val < 4096 := K.isLt
  obtain ⟨ec0, ec1⟩ := coords1 (⟨0, hn⟩ : Fin cfg1.N)
  by_cases hk : K.val / 512 = 0
  · rw [if_pos hk]
    have hq : K.val % 512 < 512 := Nat.mod_lt _ (by decide)
    refine (zeroRev1_hit V c ⟨0, hn⟩ rfl (ix2 K f) (ix2 (⟨K.val % 512, hq⟩ : Fin 512) f)
        (by rw [ec1]; show K.val = 512 * (0 % 8) + K.val % 512; omega) rfl).trans ?_
    refine (pointRev1_hit V c ⟨0, hn⟩ (show (0 : ℕ) < 64 by decide) (k1_pay4 (F := Ideal)) K f (by show K.val / 512 = 0 % 8; omega)).trans ?_
    rw [pay4_apply1, zero_add]
    exact congrArg (revTerm1 (V c main_arg1) (V c main_v12) (V c main_arg0) K f) (Fin.ext (Nat.zero_div 8))
  · rw [if_neg hk]
    exact (zeroRev1_miss V c ⟨0, hn⟩ rfl (ix2 K f) (Or.inr (by rw [ec1]; show 512 * (0 % 8) + 512 ≤ K.val; omega))).trans (pay4_apply1 _)

/-- After a later point: the point's row block's term added in the rows of the point's column block, the rest as the
    point before left it. -/
theorem accRev1_succ (c : Dev nD) (n : ℕ) (hn : n + 1 < cfg1.N) (hN : n + 1 < 64) (K : Fin 4096) (f : Fin 128) :
    (outsAt1 V c (n + 1) hn).s1 (ix2 K f)
      = if K.val / 512 = (n + 1) % 8 then
          (outsAt1 V c n (Nat.lt_of_succ_lt hn)).s1 (ix2 K f) + revTerm1 (V c main_arg1) (V c main_v12) (V c main_arg0) K f ⟨(n + 1) / 8, by omega⟩
        else (outsAt1 V c n (Nat.lt_of_succ_lt hn)).s1 (ix2 K f) := by
  have hK : K.val < 4096 := K.isLt
  obtain ⟨ec0, ec1⟩ := coords1 (⟨n + 1, hn⟩ : Fin cfg1.N)
  by_cases hk : K.val / 512 = (n + 1) % 8
  · rw [if_pos hk]
    have hq : K.val % 512 < 512 := Nat.mod_lt _ (by decide)
    refine (laterRev1_hit V c ⟨n + 1, hn⟩ (Nat.succ_ne_zero n) (ix2 K f) (ix2 (⟨K.val % 512, hq⟩ : Fin 512) f)
        (by rw [ec1]; show K.val = 512 * ((n + 1) % 8) + K.val % 512; omega) rfl).trans ?_
    exact pointRev1_hit V c ⟨n + 1, hn⟩ hN (prevRev1 V c ⟨n + 1, hn⟩) K f hk
  · rw [if_neg hk]
    exact laterRev1_miss V c ⟨n + 1, hn⟩ (Nat.succ_ne_zero n) (ix2 K f)
      (by rw [ec1]; show K.val < 512 * ((n + 1) % 8) ∨ 512 * ((n + 1) % 8) + 512 ≤ K.val; omega)

/-- After position n the second accumulator holds, at (K, f), the terms of the row blocks whose point for K's column
    block is at or before n. -/
theorem accRev1_val (c : Dev nD) : ∀ (n : ℕ) (hn : n < cfg1.N) (K : Fin 4096) (f : Fin 128),
    (outsAt1 V c n hn).s1 (ix2 K f)
      = partialRev1 (revTerm1 (V c main_arg1) (V c main_v12) (V c main_arg0) K f) (K.val / 512) n
  | 0, hn, K, f => by
    rw [accRev1_zero V c hn K f]
    by_cases hk : K.val / 512 = 0
    · rw [if_pos hk, hk, partialRev1_zero_hit]
    · rw [if_neg hk, partialRev1_zero_miss _ _ (by omega)]
  | n + 1, hn, K, f => by
    have hK : K.val < 4096 := K.isLt
    have hN : n + 1 < 64 := lt_of_lt_of_eq hn (show cfg1.N = 64 from N_1)
    rw [accRev1_succ V c n hn hN K f, accRev1_val c n (Nat.lt_of_succ_lt hn) K f]
    by_cases hk : K.val / 512 = (n + 1) % 8
    · rw [if_pos hk, partialRev1_hit _ _ n hN hk.symm]
    · rw [if_neg hk, partialRev1_miss _ _ n (by omega) (fun h => hk h.symm)]

/-! ### The second output array -/

/-- What the second output array ends holding. -/
def revSums1 (Adj : S4096x4096.Idx → EReal) (D X : S4096x128.Idx → EReal) : S4096x128.Idx → EReal :=
  fun y => revEntry1 Adj D X ⟨(y 0).val, idx2_lt0 y⟩ ⟨(y 1).val, idx2_lt1 y⟩

/-- The second output's window is the whole array at every point. -/
theorem blkIdxRev1 : ∀ t : Fin cfg1.N, win1_4.index t 0 = 0 ∧ win1_4.index t 1 = 0 :=
  (by decide +kernel : ∀ t : Fin grid1.N, win1_4.index t 0 = 0 ∧ win1_4.index t 1 = 0)

/-- What the last point writes back into the second output array is that function. -/
theorem flushedRev1_eq (c : Dev nD) (t : Fin cfg1.N) (hf : (cfg1.win 4).flush t = true) :
    (dat1 V c).flushed 4 t = ((cfg1.win 4).blk t).view.read (Elt Ideal) (revSums1 (V c main_arg1) (V c main_v12) (V c main_arg0)) := by
  have hN : t.val < 64 := lt_of_lt_of_eq t.isLt (show cfg1.N = 64 from N_1)
  have h63 : t.val = 63 := by have := (flush1_4 t).mp hf; omega
  obtain ⟨e0, e1⟩ := blkIdxRev1 t
  show (cfg1.win 4).cut (grid1.coords t) ((dat1 V c).after 4 t) = _
  rw [after1_4, outEqAccRev1 V c t h63]
  funext y
  obtain ⟨K, f, rfl⟩ : ∃ (K : Fin 4096) (f : Fin 128), y = ix2 K f := ⟨y 0, y 1, eq_ix2 y⟩
  show (outsAt1 V c t.val t.isLt).s1 (ix2 K f) = revSums1 (V c main_arg1) (V c main_v12) (V c main_arg0) (((cfg1.win 4).blk t).view.emb (ix2 K f))
  have hK : K.val < 4096 := K.isLt
  rw [accRev1_val V c t.val t.isLt K f, h63, partialRev1_last _ _ (by omega)]
  unfold revSums1 revEntry1
  have eK : (⟨(((cfg1.win 4).blk t).view.emb (ix2 K f) 0).val, idx2_lt0 _⟩ : Fin 4096) = K :=
    Fin.ext (by show win1_4.index t 0 * 4096 + 1 * K.val = K.val; rw [e0]; omega)
  have ef : (⟨(((cfg1.win 4).blk t).view.emb (ix2 K f) 1).val, idx2_lt1 _⟩ : Fin 128) = f :=
    Fin.ext (by show win1_4.index t 1 * 128 + 1 * f.val = f.val; rw [e1]; omega)
  rw [eK, ef]
  rfl

/-- An index of the second output array is in point t's block iff each coordinate is in the block's range. -/
theorem mem_blkRev1 (t : Fin cfg1.N) (i : S4096x128.Idx) :
    i ∈ ((cfg1.win 4).blk t).view.set ↔ ∀ a : Fin 2, win1_4.index t a * S4096x128.size a ≤ (i a).val ∧ (i a).val < win1_4.index t a * S4096x128.size a + S4096x128.size a := by
  show i ∈ ((View.whole main_v13_1).slice (win1_4.rect t)).set ↔ _
  rw [View.set_slice_whole, Rect.mem_set_unit]
  exact Iff.rfl

/-- The last point's block is the whole array, and the last point writes it back. -/
theorem coverRev1 (i : S4096x128.Idx) : ∃ t : Fin cfg1.N, (cfg1.win 4).flush t = true ∧ i ∈ ((cfg1.win 4).blk t).view.set := by
  have hi0 : (i 0).val < 4096 := (i 0).isLt
  have hi1 : (i 1).val < 128 := (i 1).isLt
  have hN : cfg1.N = 64 := N_1
  let t : Fin cfg1.N := ⟨63, by rw [hN]; decide⟩
  obtain ⟨e0, e1⟩ := blkIdxRev1 t
  refine ⟨t, (flush1_4 t).mpr rfl, ?_⟩
  rw [mem_blkRev1]
  intro a
  match a with
  | ⟨0, _⟩ => show win1_4.index t 0 * 4096 ≤ (i 0).val ∧ (i 0).val < win1_4.index t 0 * 4096 + 4096; rw [e0]; omega
  | ⟨1, _⟩ => show win1_4.index t 1 * 128 ≤ (i 1).val ∧ (i 1).val < win1_4.index t 1 * 128 + 128; rw [e1]; omega

/-- The second output array after the region. -/
theorem finalRev1 (c : Dev nD) : (dat1 V c).arrAt 4 cfg1.N = revSums1 (V c main_arg1) (V c main_v12) (V c main_arg0) :=
  (dat1 V c).arrAt_eq_of_cover 4 (revSums1 (V c main_arg1) (V c main_v12) (V c main_arg0)) (fun t hf => flushedRev1_eq V c t hf) coverRev1

/-- THE REVERSE PRODUCT, index by index: entry (k, f) of the region's second output is the sum over the eight row
    blocks of row k's reciprocal degree times the masked adjacency's column k within the block paired with the
    features of the block's rows — all three arrays as the region finds them. -/
theorem value1_4 (c : Dev nD) (k : Fin 4096) (f : Fin 128) :
    (dat1 (F := Ideal) V c).arrAt 4 cfg1.N (ix2 k f) = revEntry1 (V c main_arg1) (V c main_v12) (V c main_arg0) k f := by
  rw [finalRev1 V c]
  rfl

end ValuesRev1

end Cert.KernelIdeal.Hand

end
-- ==== Proof.KI.Region2Pay.lean ====
import proofs.«140086_j17265768530288_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.Affine

/-! # The second diffusion pass's stored values, entry by entry, over the extended reals

At grid point `(i, k)` the body reads the 512 × 512 tile of the adjacency matrix at row block `i`, column block `k`, and
replaces by zero the entries on the matrix diagonal (row number `512·i + p` equal to column number `512·k + q`). With
that masked tile `M`:
* the forward accumulator's rows of block `i` gain `d(p) · ∑_q M(p,q) · y1(512·k + q, f)`,
* the reverse accumulator's rows of block `k` gain `d(q) · ∑_p M(p,q) · y2(512·i + p, f)`,
`d` the reciprocal degree of the row written (lane 0 of its row of the degree array). At the last point each output is half
of its `y` plus a quarter of its accumulator. Over the extended reals the narrowings to bf16 are the identity and a product
into the zero accumulator is the plain sum over the contracted axis. -/

noncomputable section

namespace Cert.KernelIdeal.Hand

open Cert.KernelIdeal Cert.KernelIdeal.Gen
open Idealize.ShloMosaic Idealize.ShloMosaic.ValueIdx

/-! ## The mask -/

/-- Two 32-bit words of numbers below 2³² are equal exactly when the numbers are. -/
theorem word32_eq_iff2 {a b : ℕ} (ha : a < 2 ^ 32) (hb : b < 2 ^ 32) : BitVec.ofNat 32 a = BitVec.ofNat 32 b ↔ a = b := by
  constructor
  · intro h
    have h' := congrArg BitVec.toNat h
    simp only [BitVec.toNat_ofNat] at h'
    rwa [Nat.mod_eq_of_lt ha, Nat.mod_eq_of_lt hb] at h'
  · rintro rfl; rfl

/-- The number of local row (or column) `p` of block `b`, as the body computes it in 32-bit words, is the word of `b·512 + p`. -/
theorem lineWord2 (b p : ℕ) :
    IntOp.addi (Scalar.muli (BitVec.ofNat 32 b) 512#32) (BitVec.ofNat 32 p) = BitVec.ofNat 32 (b * 512 + p) := by
  show BitVec.ofNat 32 b * BitVec.ofNat 32 512 + BitVec.ofNat 32 p = _
  rw [← BitVec.ofNat_mul, ← BitVec.ofNat_add]

/-- The masked tile at local row `p`, local column `q`: zero where the row's number in the whole matrix is the column's,
    the tile's entry elsewhere. -/
theorem k2_pay7_apply (i : grid2.Coords) (x : Vec Ideal S512x512 .f32) (p q : Fin 512) :
    k2_pay7 (F := Ideal) i x (ix2 p q) = if (i 0).val * 512 + p.val = (i 1).val * 512 + q.val then 0 else x (ix2 p q) := by
  have hi0 : (i 0).val < 8 := (i 0).isLt
  have hi1 : (i 1).val < 8 := (i 1).isLt
  have hp : p.val < 512 := p.isLt
  have hq : q.val < 512 := q.isLt
  unfold k2_pay7
  dsimp only
  rw [truncf_apply, select_apply]
  show Scalar.select (IntOp.cmpi .eq
        (IntOp.addi (Scalar.muli (BitVec.ofNat 32 (i 0).val) 512#32) (iota .tc S512x512 32 [0] iota_S512x512_d0_w32 (ix2 p q)))
        (IntOp.addi (Scalar.muli (BitVec.ofNat 32 (i 1).val) 512#32) (iota .tc S512x512 32 [1] iota_S512x512_d1_w32 (ix2 p q))))
      (Ideal.ofBits .f32 0x00000000#32) (x (ix2 p q)) = _
  rw [iota_single_apply, iota_single_apply, Ideal.ofBits_zero_f32]
  show Scalar.select (IntOp.cmpi .eq (IntOp.addi (Scalar.muli (BitVec.ofNat 32 (i 0).val) 512#32) (BitVec.ofNat 32 p.val))
      (IntOp.addi (Scalar.muli (BitVec.ofNat 32 (i 1).val) 512#32) (BitVec.ofNat 32 q.val))) 0 (x (ix2 p q)) = _
  rw [lineWord2, lineWord2]
  unfold Scalar.select
  exact if_congr (IntOp.cmpi_eq.trans (word32_eq_iff2 (by omega) (by omega))) rfl rfl

/-! ## The two products -/

/-- Dimension numbers of the forward product: the tile's column axis against the first axis of the 512 rows of `y1`. -/
abbrev fwdDot2 : DotDims S512x512 S512x128 S512x128 := dot_S512x512_S512x128_S512x128_1_0_0_1_n_n
/-- Dimension numbers of the reverse product: the tile's ROW axis against the first axis of the 512 rows of `y2`. -/
abbrev revDot2 : DotDims S512x512 S512x128 S512x128 := dot_S512x512_S512x128_S512x128_0_0_1_1_n_n

theorem fwdDot2_lhs_row (j : S512x128.Idx) (q : fwdDot2.contr.Idx) : (fwdDot2.lhsIdx j q 0).val = (j 0).val := by
  unfold DotDims.lhsIdx
  rw [dif_neg (show ¬(0 : Fin S512x512.rank) ∈ fwdDot2.lhsBatch by decide),
    dif_pos (show (0 : Fin S512x512.rank) ∈ fwdDot2.lhsNonContracting by decide)]
  rfl
theorem fwdDot2_rhs_col (j : S512x128.Idx) (q : fwdDot2.contr.Idx) : (fwdDot2.rhsIdx j q 1).val = (j 1).val := by
  unfold DotDims.rhsIdx
  rw [dif_neg (show ¬(1 : Fin S512x128.rank) ∈ fwdDot2.rhsBatch by decide),
    dif_pos (show (1 : Fin S512x128.rank) ∈ fwdDot2.rhsNonContracting by decide)]
  rfl
theorem revDot2_lhs_col (j : S512x128.Idx) (q : revDot2.contr.Idx) : (revDot2.lhsIdx j q 1).val = (j 0).val := by
  unfold DotDims.lhsIdx
  rw [dif_neg (show ¬(1 : Fin S512x512.rank) ∈ revDot2.lhsBatch by decide),
    dif_pos (show (1 : Fin S512x512.rank) ∈ revDot2.lhsNonContracting by decide)]
  rfl
theorem revDot2_rhs_col (j : S512x128.Idx) (q : revDot2.contr.Idx) : (revDot2.rhsIdx j q 1).val = (j 1).val := by
  unfold DotDims.rhsIdx
  rw [dif_neg (show ¬(1 : Fin S512x128.rank) ∈ revDot2.rhsBatch by decide),
    dif_pos (show (1 : Fin S512x128.rank) ∈ revDot2.rhsNonContracting by decide)]
  rfl

/-- The forward product into the zero accumulator at row `p`, column `f`: row `p` of the tile against column `f` of the rows. -/
theorem fwdDot2_apply {φ₁ φ₂ : FTy} (lhs : FVec Ideal S512x512 φ₁) (rhs : FVec Ideal S512x128 φ₂) (p : Fin 512) (f : Fin 128) :
    matmul fwdDot2 none lhs rhs (constant (F := Ideal) S512x128 .f32 0x00000000#32) (ix2 p f)
      = ∑ q : Fin 512, lhs (ix2 p q) * rhs (ix2 q f) := by
  show FloatOps.matmul fwdDot2 none lhs rhs (constant (F := Ideal) S512x128 .f32 0x00000000#32) (ix2 p f) = _
  rw [Ideal.matmul_constant_zero_apply, ← Equiv.sum_comp (contrEquiv1 fwdDot2 512 rfl rfl).symm]
  refine Finset.sum_congr rfl fun k _ => ?_
  have hk := contrEquiv1_symm_val fwdDot2 512 rfl rfl k
  have el : fwdDot2.lhsIdx (ix2 p f) ((contrEquiv1 fwdDot2 512 rfl rfl).symm k) = ix2 p k := funext fun a => Fin.ext (by
    match a with
    | ⟨0, _⟩ => exact fwdDot2_lhs_row _ _
    | ⟨1, _⟩ => exact (fwdDot2.lhsIdx_val_of_single rfl (ix2 p f) _).trans hk)
  have er : fwdDot2.rhsIdx (ix2 p f) ((contrEquiv1 fwdDot2 512 rfl rfl).symm k) = ix2 k f := funext fun a => Fin.ext (by
    match a with
    | ⟨0, _⟩ => exact (fwdDot2.rhsIdx_val_of_single rfl (ix2 p f) _).trans hk
    | ⟨1, _⟩ => exact fwdDot2_rhs_col _ _)
  rw [el, er]

/-- The reverse product into the zero accumulator at row `q`, column `f`: COLUMN `q` of the tile against column `f` of the rows. -/
theorem revDot2_apply {φ₁ φ₂ : FTy} (lhs : FVec Ideal S512x512 φ₁) (rhs : FVec Ideal S512x128 φ₂) (q : Fin 512) (f : Fin 128) :
    matmul revDot2 none lhs rhs (constant (F := Ideal) S512x128 .f32 0x00000000#32) (ix2 q f)
      = ∑ p : Fin 512, lhs (ix2 p q) * rhs (ix2 p f) := by
  show FloatOps.matmul revDot2 none lhs rhs (constant (F := Ideal) S512x128 .f32 0x00000000#32) (ix2 q f) = _
  rw [Ideal.matmul_constant_zero_apply, ← Equiv.sum_comp (contrEquiv1 revDot2 512 rfl rfl).symm]
  refine Finset.sum_congr rfl fun k _ => ?_
  have hk := contrEquiv1_symm_val revDot2 512 rfl rfl k
  have el : revDot2.lhsIdx (ix2 q f) ((contrEquiv1 revDot2 512 rfl rfl).symm k) = ix2 k q := funext fun a => Fin.ext (by
    match a with
    | ⟨0, _⟩ => exact (revDot2.lhsIdx_val_of_single rfl (ix2 q f) _).trans hk
    | ⟨1, _⟩ => exact revDot2_lhs_col _ _)
  have er : revDot2.rhsIdx (ix2 q f) ((contrEquiv1 revDot2 512 rfl rfl).symm k) = ix2 k f := funext fun a => Fin.ext (by
    match a with
    | ⟨0, _⟩ => exact (revDot2.rhsIdx_val_of_single rfl (ix2 q f) _).trans hk
    | ⟨1, _⟩ => exact revDot2_rhs_col _ _)
  rw [el, er]

/-- Lane 0 of 512 rows of the degree array, repeated along the 128 columns, reads at `(p, f)` the row's lane 0. -/
theorem degLane2_apply (d : FVec Ideal S512x128 .f32) (p : Fin 512) (f : Fin 128) :
    broadcastTo S512x128 (extractStridedSlice S512x1 ![0, 0] d slices_S512x128_o0_0_S512x1) broadcasts_S512x1_S512x128 (ix2 p f)
      = d (ix2 p (0 : Fin 128)) := by
  refine (broadcastTo_apply _ broadcasts_S512x1_S512x128 (ix2 p f) (ix2 p (0 : Fin 1)) fun a => ?_).trans ?_
  · match a with
    | ⟨0, _⟩ => rfl
    | ⟨1, _⟩ => rfl
  · refine extractStridedSlice_apply ![0, 0] d slices_S512x128_o0_0_S512x1 (ix2 p (0 : Fin 1)) (ix2 p (0 : Fin 128)) fun a => ?_
    match a with
    | ⟨0, _⟩ => exact (Nat.zero_add _).symm
    | ⟨1, _⟩ => rfl

/-! ## The stored values -/

/-- What the forward accumulator's slab gains: at `(p, f)` the row's reciprocal degree times row `p` of the masked tile
    against column `f` of the 512 rows of `y1`. -/
theorem k2_pay10_apply (i : grid2.Coords) (x : Vec Ideal S512x512 .f32) (y d : Vec Ideal S512x128 .f32) (p : Fin 512) (f : Fin 128) :
    k2_pay10 (F := Ideal) i x y d (ix2 p f)
      = d (ix2 p (0 : Fin 128)) * ∑ q : Fin 512, k2_pay7 (F := Ideal) i x (ix2 p q) * y (ix2 q f) := by
  unfold k2_pay10
  simp only [shapeCast_self]
  rw [mulf_apply, degLane2_apply]
  refine congrArg (d (ix2 p (0 : Fin 128)) * ·) ?_
  exact fwdDot2_apply _ _ p f

/-- The forward slab store: what was there plus the gain. -/
theorem k2_pay1_apply (g old : Vec Ideal S512x128 .f32) (j : S512x128.Idx) :
    k2_pay1 (F := Ideal) g old j = old j + g j := by
  unfold k2_pay1
  rw [shapeCast_self]
  rfl

/-- The reverse slab store: what was there plus, at `(q, f)`, the row's reciprocal degree times COLUMN `q` of the masked
    tile against column `f` of the 512 rows of `y2`. -/
theorem k2_pay2_apply (m : FVec Ideal S512x512 .bf16) (y : FVec Ideal S512x128 .bf16) (d : FVec Ideal S512x1 .f32)
    (old : Vec Ideal S512x128 .f32) (q : Fin 512) (f : Fin 128) :
    k2_pay2 (F := Ideal) m y d (constant (F := Ideal) S512x128 .f32 0x00000000#32) old (ix2 q f)
      = old (ix2 q f) + d (ix2 q (0 : Fin 1)) * ∑ p : Fin 512, m (ix2 p q) * y (ix2 p f) := by
  unfold k2_pay2
  rw [shapeCast_self, addf_apply, mulf_apply]
  refine congrArg (old (ix2 q f) + ·) ?_
  refine congrArg₂ (· * ·) ?_ (revDot2_apply m y q f)
  refine broadcastTo_apply d broadcasts_S512x1_S512x128 (ix2 q f) (ix2 q (0 : Fin 1)) fun a => ?_
  match a with
  | ⟨0, _⟩ => rfl
  | ⟨1, _⟩ => rfl

/-- The 512 rows of `y2` as the reverse product takes them: unchanged. -/
theorem k2_pay8_apply (y : Vec Ideal S512x128 .f32) (j : S512x128.Idx) : k2_pay8 (F := Ideal) y j = y j := by
  unfold k2_pay8
  rw [truncf_apply, shapeCast_self]

/-- Lane 0 of the 512 rows of the degree array, as a column. -/
theorem k2_pay9_apply (d : Vec Ideal S512x128 .f32) (q : Fin 512) : k2_pay9 (F := Ideal) d (ix2 q (0 : Fin 1)) = d (ix2 q (0 : Fin 128)) := by
  unfold k2_pay9
  rw [shapeCast_self]
  refine extractStridedSlice_apply ![0, 0] d slices_S512x128_o0_0_S512x1 (ix2 q (0 : Fin 1)) (ix2 q (0 : Fin 128)) fun a => ?_
  match a with
  | ⟨0, _⟩ => exact (Nat.zero_add _).symm
  | ⟨1, _⟩ => rfl

/-- The zero fill of either accumulator. -/
theorem k2_pay5_apply (j : S4096x128.Idx) : k2_pay5 (F := Ideal) j = 0 := by
  unfold k2_pay5
  rw [shapeCast_self]
  exact Ideal.ofBits_zero_f32
theorem k2_pay6_apply (j : S4096x128.Idx) : k2_pay6 (F := Ideal) j = 0 := by
  unfold k2_pay6
  rw [shapeCast_self]
  exact Ideal.ofBits_zero_f32

/-- The combine: half of `y` plus a quarter of the accumulator. -/
theorem k2_pay3_apply (y acc : Vec Ideal S4096x128 .f32) (j : S4096x128.Idx) :
    k2_pay3 (F := Ideal) y acc j = Ideal.ofBits .f32 0x3F000000#32 * y j + Ideal.ofBits .f32 0x3E800000#32 * acc j := by
  unfold k2_pay3
  rw [shapeCast_self]
  rfl
theorem k2_pay4_apply (y acc : Vec Ideal S4096x128 .f32) (j : S4096x128.Idx) :
    k2_pay4 (F := Ideal) y acc j = Ideal.ofBits .f32 0x3F000000#32 * y j + Ideal.ofBits .f32 0x3E800000#32 * acc j := by
  unfold k2_pay4
  rw [shapeCast_self]
  rfl

end Cert.KernelIdeal.Hand

end
-- ==== Proof.KI.Region2Pieces.lean ====
import proofs.«140086_j17265768530288_2_alg».proof.Proof.KI.Region2
import proofs.«140086_j17265768530288_2_alg».proof.Proof.KI.Region2Pay
import Idealize.ShloMosaic.Lib.Pipeline.Value
import Idealize.ShloMosaic.Lib.WritesUnit

/-! # Region 2: what each run's stores amount to, as functions of whole arrays (over the extended reals)

A middle point rewrites one 512-row slab of each accumulator: the forward accumulator's rows of the point's row block gain
the forward share, the reverse accumulator's rows of the point's column block gain the reverse share; the first point does
the same over zero; the last point also writes each output whole: half of its `y` plus a quarter of its accumulator. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The forward step on whole arrays: the rows of the point's row block gain, at `(r, f)`, the row's reciprocal degree
    times the masked tile's row against column `f` of the point's 512 rows of `y1`; the other rows stay. -/
def fwdStep2 (i : grid2.Coords) (x0 : Vec Ideal S512x512 .f32) (x1 x2 old : Vec Ideal S4096x128 .f32) : Vec Ideal S4096x128 .f32 :=
  fun y => if h : 512 * (i 0).val ≤ (y 0).val ∧ (y 0).val < 512 * (i 0).val + 512 then
      old y + x1 (ix2 (y 0) (0 : Fin 128))
        * ∑ q : Fin 512, k2_pay7 (F := Ideal) i x0 (ix2 (⟨(y 0).val - 512 * (i 0).val, by omega⟩ : Fin 512) q)
            * x2 (ix2 (⟨(i 1).val * 512 + q.val, by have := (i 1).isLt; have : (i 1).val < 8 := this; omega⟩ : Fin 4096) (y 1))
    else old y

/-- The reverse step: the rows of the point's COLUMN block gain, at `(r, f)`, the row's reciprocal degree times the masked
    tile's column against column `f` of the point's 512 rows of `y2`. -/
def revStep2 (i : grid2.Coords) (x0 : Vec Ideal S512x512 .f32) (x1 x3 old : Vec Ideal S4096x128 .f32) : Vec Ideal S4096x128 .f32 :=
  fun y => if h : 512 * (i 1).val ≤ (y 0).val ∧ (y 0).val < 512 * (i 1).val + 512 then
      old y + x1 (ix2 (y 0) (0 : Fin 128))
        * ∑ p : Fin 512, k2_pay7 (F := Ideal) i x0 (ix2 p (⟨(y 0).val - 512 * (i 1).val, by omega⟩ : Fin 512))
            * x3 (ix2 (⟨(i 0).val * 512 + p.val, by have := (i 0).isLt; have : (i 0).val < 8 := this; omega⟩ : Fin 4096) (y 1))
    else old y

/-- Rows `[o, o + 512)` of a 4096 × 128 array, loaded as a 512 × 128 block, read at `(q, f)` the array's row `o + q`. -/
theorem ld_rows2 (x : Vec Ideal S4096x128 .f32) (off : Fin 2 → ℕ) (inb : ∀ a, off a + S512x128.size a ≤ S4096x128.size a)
    (o : ℕ) (hoff : off = ![o, 0]) (q : Fin 512) (f : Fin 128) (r : Fin 4096) (hr : r.val = o + q.val) :
    View.ld x (Rect.unit (s := S4096x128) off S512x128.size inb) (ix2 q f) = x (ix2 r f) := by
  subst hoff
  show x ((Rect.unit (s := S4096x128) ![o, 0] S512x128.size inb).emb (ix2 q f)) = x (ix2 r f)
  refine congrArg x (funext fun a => Fin.ext ?_)
  match a with
  | ⟨0, _⟩ => show o + 1 * q.val = r.val; omega
  | ⟨1, _⟩ => show 0 + 1 * f.val = f.val; omega

theorem zeros2_2 : (![0, 0] : Fin 2 → Nat) = fun _ => 0 := funext fun a => by fin_cases a <;> rfl

/-- One store over the whole buffer reads back as its payload, whatever was there. -/
theorem wholeStore2_read (v : View sig .tc .vmem S4096x128 .f32) (b : v.ty.Contents (Elt Ideal)) (w : Vec Ideal S4096x128 .f32) :
    v.read (Elt Ideal) (v.writes (Elt Ideal) b [⟨(Rect.unit (s := S4096x128) ![0, 0] S4096x128.size inb_S4096x128_S4096x128_0_0), w⟩]) = w := by
  have hcov : ∀ y : S4096x128.Idx, ∃ p ∈ ([⟨(Rect.unit (s := S4096x128) ![0, 0] S4096x128.size inb_S4096x128_S4096x128_0_0), w⟩] : List (View.Piece (Elt Ideal) S4096x128 .f32)), y ∈ p.1.set :=
    fun y => ⟨⟨(Rect.unit (s := S4096x128) ![0, 0] S4096x128.size inb_S4096x128_S4096x128_0_0), w⟩, List.mem_singleton_self _, View.mem_set_unit_zero (S := S4096x128) zeros2_2 inb_S4096x128_S4096x128_0_0 y⟩
  rw [View.read_writes_eq_canon v b _ hcov]
  exact View.canon_unit_zero (S := S4096x128) zeros2_2 inb_S4096x128_S4096x128_0_0 w

/-- THE FORWARD SLAB STORE read back, over whatever stores came before it (`L`, leaving `old`): one forward step. -/
theorem fwdSlab2_read (v : View sig .tc .vmem S4096x128 .f32) (b : v.ty.Contents (Elt Ideal)) (L : List (View.Piece (Elt Ideal) S4096x128 .f32))
    (old : Vec Ideal S4096x128 .f32) (hL : v.read (Elt Ideal) (v.writes (Elt Ideal) b L) = old)
    (i : grid2.Coords) (x0 : Vec Ideal S512x512 .f32) (x1 x2 : Vec Ideal S4096x128 .f32) :
    v.read (Elt Ideal) (v.writes (Elt Ideal) b ((⟨(Rect.unit (s := S4096x128) (k2_off2 i) S512x128.size (k2_off2_inb i)),
        k2_pay1 (F := Ideal) (k2_pay10 (F := Ideal) i x0 (View.ld x2 (Rect.unit (s := S4096x128) (k2_off1 i) S512x128.size (k2_off1_inb i))) (View.ld x1 (Rect.unit (s := S4096x128) (k2_off2 i) S512x128.size (k2_off2_inb i))))
          (View.ld old (Rect.unit (s := S4096x128) (k2_off2 i) S512x128.size (k2_off2_inb i)))⟩ : View.Piece (Elt Ideal) S4096x128 .f32) :: L))
      = fwdStep2 i x0 x1 x2 old := by
  funext y
  obtain ⟨r, f, rfl⟩ : ∃ (r : Fin 4096) (f : Fin 128), y = ix2 r f := ⟨y 0, y 1, eq_ix2 y⟩
  have hi0 : (i 0).val < 8 := (i 0).isLt
  have hi1 : (i 1).val < 8 := (i 1).isLt
  unfold fwdStep2
  by_cases h : 512 * (i 0).val ≤ r.val ∧ r.val < 512 * (i 0).val + 512
  · rw [dif_pos h]
    refine (View.read_writes_cons_rows_of_mem v b (k2_off2_inb i) _ L (ix2 r f)
      (ix2 (⟨r.val - 512 * (i 0).val, by omega⟩ : Fin 512) f) (k2_off2_eq i) (by show r.val = 512 * (i 0).val + (r.val - 512 * (i 0).val); omega) rfl).trans ?_
    rw [k2_pay1_apply, k2_pay10_apply]
    rw [ld_rows2 old _ _ _ (k2_off2_eq i) _ f r (by show r.val = 512 * (i 0).val + (r.val - 512 * (i 0).val); omega),
      ld_rows2 x1 _ _ _ (k2_off2_eq i) _ (0 : Fin 128) r (by show r.val = 512 * (i 0).val + (r.val - 512 * (i 0).val); omega)]
    refine congrArg (old (ix2 r f) + x1 (ix2 r (0 : Fin 128)) * ·) (Finset.sum_congr rfl fun q _ => ?_)
    rw [ld_rows2 x2 _ _ _ (k2_off1_eq i) q f ⟨(i 1).val * 512 + q.val, by have := q.isLt; omega⟩ (by show (i 1).val * 512 + q.val = 512 * (i 1).val + q.val; omega)]
  · rw [dif_neg h]
    refine (View.read_writes_cons_rows_of_not_mem v b (k2_off2_inb i) _ L (ix2 r f) (k2_off2_eq i) rfl
      (by show r.val < 512 * (i 0).val ∨ 512 * (i 0).val + 512 ≤ r.val; omega)).trans ?_
    rw [hL]

/-- THE REVERSE SLAB STORE read back, likewise: one reverse step. -/
theorem revSlab2_read (v : View sig .tc .vmem S4096x128 .f32) (b : v.ty.Contents (Elt Ideal)) (L : List (View.Piece (Elt Ideal) S4096x128 .f32))
    (old : Vec Ideal S4096x128 .f32) (hL : v.read (Elt Ideal) (v.writes (Elt Ideal) b L) = old)
    (i : grid2.Coords) (x0 : Vec Ideal S512x512 .f32) (x1 x3 : Vec Ideal S4096x128 .f32) :
    v.read (Elt Ideal) (v.writes (Elt Ideal) b ((⟨(Rect.unit (s := S4096x128) (k2_off1 i) S512x128.size (k2_off1_inb i)),
        k2_pay2 (F := Ideal) (k2_pay7 (F := Ideal) i x0) (k2_pay8 (F := Ideal) (View.ld x3 (Rect.unit (s := S4096x128) (k2_off2 i) S512x128.size (k2_off2_inb i))))
          (k2_pay9 (F := Ideal) (View.ld x1 (Rect.unit (s := S4096x128) (k2_off1 i) S512x128.size (k2_off1_inb i)))) (constant (F := Ideal) S512x128 .f32 0x00000000#32)
          (View.ld old (Rect.unit (s := S4096x128) (k2_off1 i) S512x128.size (k2_off1_inb i)))⟩ : View.Piece (Elt Ideal) S4096x128 .f32) :: L))
      = revStep2 i x0 x1 x3 old := by
  funext y
  obtain ⟨r, f, rfl⟩ : ∃ (r : Fin 4096) (f : Fin 128), y = ix2 r f := ⟨y 0, y 1, eq_ix2 y⟩
  have hi0 : (i 0).val < 8 := (i 0).isLt
  have hi1 : (i 1).val < 8 := (i 1).isLt
  unfold revStep2
  by_cases h : 512 * (i 1).val ≤ r.val ∧ r.val < 512 * (i 1).val + 512
  · rw [dif_pos h]
    refine (View.read_writes_cons_rows_of_mem v b (k2_off1_inb i) _ L (ix2 r f)
      (ix2 (⟨r.val - 512 * (i 1).val, by omega⟩ : Fin 512) f) (k2_off1_eq i) (by show r.val = 512 * (i 1).val + (r.val - 512 * (i 1).val); omega) rfl).trans ?_
    rw [k2_pay2_apply, k2_pay9_apply]
    rw [ld_rows2 old _ _ _ (k2_off1_eq i) _ f r (by show r.val = 512 * (i 1).val + (r.val - 512 * (i 1).val); omega),
      ld_rows2 x1 _ _ _ (k2_off1_eq i) _ (0 : Fin 128) r (by show r.val = 512 * (i 1).val + (r.val - 512 * (i 1).val); omega)]
    refine congrArg (old (ix2 r f) + x1 (ix2 r (0 : Fin 128)) * ·) (Finset.sum_congr rfl fun p _ => ?_)
    rw [k2_pay8_apply, ld_rows2 x3 _ _ _ (k2_off2_eq i) p f ⟨(i 0).val * 512 + p.val, by have := p.isLt; omega⟩ (by show (i 0).val * 512 + p.val = 512 * (i 0).val + p.val; omega)]
  · rw [dif_neg h]
    refine (View.read_writes_cons_rows_of_not_mem v b (k2_off1_inb i) _ L (ix2 r f) (k2_off1_eq i) rfl
      (by show r.val < 512 * (i 1).val ∨ 512 * (i 1).val + 512 ≤ r.val; omega)).trans ?_
    rw [hL]

/-! ## The runs' stores -/

/-- A middle point leaves the forward accumulator one forward step on, -/
theorem sout2_B_0_eq (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : ¬cond2_1 i)
    (x0 : Vec Ideal S512x512 .f32) (x1 x2 x3 xs0 xs1 : Vec Ideal S4096x128 .f32) :
    sout2_B_0 (F := Ideal) c i arg2 harg2 arg3 harg3 arg4 harg4 arg5 harg5 arg6 harg6 arg7 harg7 arg8 harg8 arg9 harg9 hc0 hc1 x0 x1 x2 x3 xs0 xs1 = fwdStep2 i x0 x1 x2 xs0 := by
  unfold sout2_B_0 kernelRun2_B
  dsimp only
  sl_unfold_run_names
  simp only [View.readAt_eq_ld, harg2.read_unread, harg3.read_unread, harg4.read_unread, harg8.read_unread,
    View.ld_unit_zero (S := S512x512) zeros2_2]
  exact fwdSlab2_read arg8.view (harg8.unread xs0) [] xs0 (by rw [View.writes_nil, harg8.read_unread]) i x0 x1 x2

/-- and the reverse accumulator one reverse step on. -/
theorem sout2_B_1_eq (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : ¬cond2_1 i)
    (x0 : Vec Ideal S512x512 .f32) (x1 x2 x3 xs0 xs1 : Vec Ideal S4096x128 .f32) :
    sout2_B_1 (F := Ideal) c i arg2 harg2 arg3 harg3 arg4 harg4 arg5 harg5 arg6 harg6 arg7 harg7 arg8 harg8 arg9 harg9 hc0 hc1 x0 x1 x2 x3 xs0 xs1 = revStep2 i x0 x1 x3 xs1 := by
  unfold sout2_B_1 kernelRun2_B
  dsimp only
  sl_unfold_run_names
  simp only [View.readAt_eq_ld, harg2.read_unread, harg3.read_unread, harg5.read_unread, harg9.read_unread,
    View.ld_unit_zero (S := S512x512) zeros2_2]
  exact revSlab2_read arg9.view (harg9.unread xs1) [] xs1 (by rw [View.writes_nil, harg9.read_unread]) i x0 x1 x3

/-- The first point zeroes both accumulators and then takes one step: a step from zero. -/
theorem sout2_A_0_eq (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec Ideal S512x512 .f32) (x1 x2 x3 : Vec Ideal S4096x128 .f32) :
    sout2_A_0 (F := Ideal) c i arg2 harg2 arg3 harg3 arg4 harg4 arg5 harg5 arg6 harg6 arg7 harg7 arg8 harg8 arg9 harg9 hc0 hc1 x0 x1 x2 x3 = fwdStep2 i x0 x1 x2 (fun _ => 0) := by
  unfold sout2_A_0 kernelRun2_A
  dsimp only
  sl_unfold_run_names
  simp only [View.readAt_eq_ld, harg2.read_unread, harg3.read_unread, harg4.read_unread, harg5.read_unread,
    View.ld_unit_zero (S := S512x512) zeros2_2, View.ld_unit_zero (S := S4096x128) zeros2_2]
  rw [wholeStore2_read arg8.view]
  refine (fwdSlab2_read VO2 VO2.junk [(⟨(Rect.unit (s := S4096x128) ![0, 0] S4096x128.size inb_S4096x128_S4096x128_0_0), k2_pay5 (F := Ideal)⟩ : View.Piece (Elt Ideal) S4096x128 .f32)] (k2_pay5 (F := Ideal)) (wholeStore2_read VO2 _ _) i x0 x1 x2).trans ?_
  exact congrArg (fwdStep2 i x0 x1 x2) (funext k2_pay5_apply)

theorem sout2_A_1_eq (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : cond2_0 i) (hc1 : ¬cond2_1 i)
    (x0 : Vec Ideal S512x512 .f32) (x1 x2 x3 : Vec Ideal S4096x128 .f32) :
    sout2_A_1 (F := Ideal) c i arg2 harg2 arg3 harg3 arg4 harg4 arg5 harg5 arg6 harg6 arg7 harg7 arg8 harg8 arg9 harg9 hc0 hc1 x0 x1 x2 x3 = revStep2 i x0 x1 x3 (fun _ => 0) := by
  unfold sout2_A_1 kernelRun2_A
  dsimp only
  sl_unfold_run_names
  simp only [View.readAt_eq_ld, harg2.read_unread, harg3.read_unread, harg4.read_unread, harg5.read_unread,
    View.ld_unit_zero (S := S512x512) zeros2_2, View.ld_unit_zero (S := S4096x128) zeros2_2]
  rw [wholeStore2_read arg9.view]
  refine (revSlab2_read VO2 VO2.junk [(⟨(Rect.unit (s := S4096x128) ![0, 0] S4096x128.size inb_S4096x128_S4096x128_0_0), k2_pay6 (F := Ideal)⟩ : View.Piece (Elt Ideal) S4096x128 .f32)] (k2_pay6 (F := Ideal)) (wholeStore2_read VO2 _ _) i x0 x1 x3).trans ?_
  exact congrArg (revStep2 i x0 x1 x3) (funext k2_pay6_apply)

/-- The last point steps both accumulators as a middle point does, -/
theorem sout2_C_0_eq (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec Ideal S512x512 .f32) (x1 x2 x3 xs0 xs1 : Vec Ideal S4096x128 .f32) :
    sout2_C_0 (F := Ideal) c i arg2 harg2 arg3 harg3 arg4 harg4 arg5 harg5 arg6 harg6 arg7 harg7 arg8 harg8 arg9 harg9 hc0 hc1 x0 x1 x2 x3 xs0 xs1 = fwdStep2 i x0 x1 x2 xs0 := by
  unfold sout2_C_0 kernelRun2_C
  dsimp only
  sl_unfold_run_names
  simp only [View.readAt_eq_ld, harg2.read_unread, harg3.read_unread, harg4.read_unread, harg5.read_unread, harg8.read_unread, harg9.read_unread,
    View.ld_unit_zero (S := S512x512) zeros2_2, View.ld_unit_zero (S := S4096x128) zeros2_2]
  exact fwdSlab2_read arg8.view (harg8.unread xs0) [] xs0 (by rw [View.writes_nil, harg8.read_unread]) i x0 x1 x2

theorem sout2_C_1_eq (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec Ideal S512x512 .f32) (x1 x2 x3 xs0 xs1 : Vec Ideal S4096x128 .f32) :
    sout2_C_1 (F := Ideal) c i arg2 harg2 arg3 harg3 arg4 harg4 arg5 harg5 arg6 harg6 arg7 harg7 arg8 harg8 arg9 harg9 hc0 hc1 x0 x1 x2 x3 xs0 xs1 = revStep2 i x0 x1 x3 xs1 := by
  unfold sout2_C_1 kernelRun2_C
  dsimp only
  sl_unfold_run_names
  simp only [View.readAt_eq_ld, harg2.read_unread, harg3.read_unread, harg4.read_unread, harg5.read_unread, harg8.read_unread, harg9.read_unread,
    View.ld_unit_zero (S := S512x512) zeros2_2, View.ld_unit_zero (S := S4096x128) zeros2_2]
  exact revSlab2_read arg9.view (harg9.unread xs1) [] xs1 (by rw [View.writes_nil, harg9.read_unread]) i x0 x1 x3

/-- and stores into each output, whole, half of its `y` plus a quarter of its stepped accumulator. -/
theorem out2_C_4_eq (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec Ideal S512x512 .f32) (x1 x2 x3 xs0 xs1 : Vec Ideal S4096x128 .f32) :
    out2_C_4 (F := Ideal) c i arg2 harg2 arg3 harg3 arg4 harg4 arg5 harg5 arg6 harg6 arg7 harg7 arg8 harg8 arg9 harg9 hc0 hc1 x0 x1 x2 x3 xs0 xs1
      = fun y => Ideal.ofBits .f32 0x3F000000#32 * x2 y + Ideal.ofBits .f32 0x3E800000#32 * fwdStep2 i x0 x1 x2 xs0 y := by
  unfold out2_C_4 kernelRun2_C
  dsimp only
  sl_unfold_run_names
  simp only [View.readAt_eq_ld, harg2.read_unread, harg3.read_unread, harg4.read_unread, harg5.read_unread, harg8.read_unread, harg9.read_unread,
    View.ld_unit_zero (S := S512x512) zeros2_2, View.ld_unit_zero (S := S4096x128) zeros2_2]
  rw [wholeStore2_read VO2, fwdSlab2_read arg8.view (harg8.unread xs0) [] xs0 (by rw [View.writes_nil, harg8.read_unread]) i x0 x1 x2]
  exact funext fun y => k2_pay3_apply _ _ y

theorem out2_C_5_eq (c : Dev nD) (i : grid2.Coords) (arg2 : Memref sig .tc .vmem S512x512 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i) (hc1 : cond2_1 i)
    (x0 : Vec Ideal S512x512 .f32) (x1 x2 x3 xs0 xs1 : Vec Ideal S4096x128 .f32) :
    out2_C_5 (F := Ideal) c i arg2 harg2 arg3 harg3 arg4 harg4 arg5 harg5 arg6 harg6 arg7 harg7 arg8 harg8 arg9 harg9 hc0 hc1 x0 x1 x2 x3 xs0 xs1
      = fun y => Ideal.ofBits .f32 0x3F000000#32 * x3 y + Ideal.ofBits .f32 0x3E800000#32 * revStep2 i x0 x1 x3 xs1 y := by
  unfold out2_C_5 kernelRun2_C
  dsimp only
  sl_unfold_run_names
  simp only [View.readAt_eq_ld, harg2.read_unread, harg3.read_unread, harg4.read_unread, harg5.read_unread, harg8.read_unread, harg9.read_unread,
    View.ld_unit_zero (S := S512x512) zeros2_2, View.ld_unit_zero (S := S4096x128) zeros2_2]
  rw [wholeStore2_read VO2, revSlab2_read arg9.view (harg9.unread xs1) [] xs1 (by rw [View.writes_nil, harg9.read_unread]) i x0 x1 x3]
  exact funext fun y => k2_pay4_apply _ _ y

end Cert.KernelIdeal.Hand

end
-- ==== Proof.KI.Region2Sums.lean ====
import proofs.«140086_j17265768530288_2_alg».proof.Proof.KI.Mask
import Idealize.ShloMosaic.PureOps.Ideal.Laws

/-! # The second diffusion pass as sums over the 64 grid points (pure arithmetic over the extended reals)

Grid point number `8·i + k` handles the adjacency tile at row block `i`, column block `k`. The forward accumulator's row
`r` (in row block `I`) has gained, before point `n`, the share of every column block `b` whose point `8·I + b` is below
`n`; the reverse accumulator's row `r` (in block `K`, a COLUMN block of the matrix) the share of every row block `a`
whose point `8·a + K` is below `n`. One more point adds one share to the rows of one block; after all 64 every share is in. -/

noncomputable section

namespace Cert.KernelIdeal.Hand

open Idealize.ShloMosaic Idealize.ShloMosaic.ValueIdx

/-- Column block `b`'s share of the forward sum at row `r`, column `f`: the row's reciprocal degree times the masked row
    `r` of the adjacency matrix against column `f` of `Y`, over the block's 512 columns. -/
def fwdTerm2 (Adj : (⟨2, ![4096, 4096]⟩ : Shape).Idx → EReal) (D Y : (⟨2, ![4096, 128]⟩ : Shape).Idx → EReal)
    (r : Fin 4096) (b : Fin 8) (f : Fin 128) : EReal :=
  D (ix2 r (0 : Fin 128)) * ∑ q : Fin 512, offE Adj r (blockRow b q) * Y (ix2 (blockRow b q) f)

/-- Row block `a`'s share of the reverse sum at row `r`, column `f`: the same with the masked COLUMN `r` of the matrix. -/
def revTerm2 (Adj : (⟨2, ![4096, 4096]⟩ : Shape).Idx → EReal) (D Y : (⟨2, ![4096, 128]⟩ : Shape).Idx → EReal)
    (r : Fin 4096) (a : Fin 8) (f : Fin 128) : EReal :=
  D (ix2 r (0 : Fin 128)) * ∑ p : Fin 512, offE Adj (blockRow a p) r * Y (ix2 (blockRow a p) f)

/-- The forward accumulator before point `n`. -/
def fwdAcc2 (Adj : (⟨2, ![4096, 4096]⟩ : Shape).Idx → EReal) (D Y : (⟨2, ![4096, 128]⟩ : Shape).Idx → EReal) (n : ℕ) :
    (⟨2, ![4096, 128]⟩ : Shape).Idx → EReal :=
  fun j => ∑ b : Fin 8, if 8 * ((j 0).val / 512) + b.val < n then fwdTerm2 Adj D Y (j 0) b (j 1) else 0

/-- The reverse accumulator before point `n`. -/
def revAcc2 (Adj : (⟨2, ![4096, 4096]⟩ : Shape).Idx → EReal) (D Y : (⟨2, ![4096, 128]⟩ : Shape).Idx → EReal) (n : ℕ) :
    (⟨2, ![4096, 128]⟩ : Shape).Idx → EReal :=
  fun j => ∑ a : Fin 8, if 8 * a.val + (j 0).val / 512 < n then revTerm2 Adj D Y (j 0) a (j 1) else 0

/-- The points below `n + 1` are those below `n` and point `n`. -/
theorem sum_below_succ2 (g : Fin 8 → ℕ) (n : ℕ) (T : Fin 8 → EReal) :
    (∑ b : Fin 8, if g b < n + 1 then T b else 0)
      = (∑ b : Fin 8, if g b < n then T b else 0) + ∑ b : Fin 8, if g b = n then T b else 0 := by
  rw [← Finset.sum_add_distrib]
  refine Finset.sum_congr rfl fun b _ => ?_
  by_cases h1 : g b < n
  · rw [if_pos (by omega), if_pos h1, if_neg (by omega), add_zero]
  · by_cases h2 : g b = n
    · rw [if_pos (by omega), if_neg h1, if_pos h2, zero_add]
    · rw [if_neg (by omega), if_neg h1, if_neg h2, add_zero]

/-- Among the points `8·I + b` of row block `I`, point `8·i + k` is there exactly when `I = i`, at `b = k`. -/
theorem sum_at_point_row2 (I i k : ℕ) (hk : k < 8) (T : Fin 8 → EReal) :
    (∑ b : Fin 8, if 8 * I + b.val = 8 * i + k then T b else 0) = if I = i then T ⟨k, hk⟩ else 0 := by
  by_cases hI : I = i
  · subst hI
    rw [if_pos rfl, Finset.sum_eq_single (⟨k, hk⟩ : Fin 8)]
    · rw [if_pos rfl]
    · intro b _ hb
      rw [if_neg]
      intro h
      exact hb (Fin.ext (by show b.val = k; omega))
    · intro h; exact absurd (Finset.mem_univ _) h
  · rw [if_neg hI]
    refine Finset.sum_eq_zero fun b _ => ?_
    rw [if_neg]
    have := b.isLt
    omega

/-- Among the points `8·a + K` of column block `K`, point `8·i + k` is there exactly when `K = k`, at `a = i`. -/
theorem sum_at_point_col2 (K i k : ℕ) (hK : K < 8) (hi : i < 8) (hk : k < 8) (T : Fin 8 → EReal) :
    (∑ a : Fin 8, if 8 * a.val + K = 8 * i + k then T a else 0) = if K = k then T ⟨i, hi⟩ else 0 := by
  by_cases hI : K = k
  · subst hI
    rw [if_pos rfl, Finset.sum_eq_single (⟨i, hi⟩ : Fin 8)]
    · rw [if_pos rfl]
    · intro a _ ha
      rw [if_neg]
      intro h
      exact ha (Fin.ext (by show a.val = i; omega))
    · intro h; exact absurd (Finset.mem_univ _) h
  · rw [if_neg hI]
    refine Finset.sum_eq_zero fun a _ => ?_
    rw [if_neg]
    have := a.isLt
    omega

variable (Adj : (⟨2, ![4096, 4096]⟩ : Shape).Idx → EReal) (D Y : (⟨2, ![4096, 128]⟩ : Shape).Idx → EReal)

/-- Before the first point both accumulators are zero. -/
theorem fwdAcc2_zero (j : (⟨2, ![4096, 128]⟩ : Shape).Idx) : fwdAcc2 Adj D Y 0 j = 0 :=
  Finset.sum_eq_zero fun b _ => if_neg (Nat.not_lt_zero _)
theorem revAcc2_zero (j : (⟨2, ![4096, 128]⟩ : Shape).Idx) : revAcc2 Adj D Y 0 j = 0 :=
  Finset.sum_eq_zero fun a _ => if_neg (Nat.not_lt_zero _)

/-- Point `8·i + k` adds column block `k`'s share to the forward accumulator's rows of block `i`, and nothing elsewhere. -/
theorem fwdAcc2_succ (i k : ℕ) (hk : k < 8) (j : (⟨2, ![4096, 128]⟩ : Shape).Idx) :
    fwdAcc2 Adj D Y (8 * i + k + 1) j
      = if (j 0).val / 512 = i then fwdAcc2 Adj D Y (8 * i + k) j + fwdTerm2 Adj D Y (j 0) ⟨k, hk⟩ (j 1)
        else fwdAcc2 Adj D Y (8 * i + k) j := by
  unfold fwdAcc2
  rw [sum_below_succ2 (fun b => 8 * ((j 0).val / 512) + b.val), sum_at_point_row2 _ i k hk]
  by_cases h : (j 0).val / 512 = i
  · rw [if_pos h, if_pos h]
  · rw [if_neg h, if_neg h, add_zero]

/-- Point `8·i + k` adds row block `i`'s share to the reverse accumulator's rows of block `k`, and nothing elsewhere. -/
theorem revAcc2_succ (i k : ℕ) (hi : i < 8) (hk : k < 8) (j : (⟨2, ![4096, 128]⟩ : Shape).Idx) :
    revAcc2 Adj D Y (8 * i + k + 1) j
      = if (j 0).val / 512 = k then revAcc2 Adj D Y (8 * i + k) j + revTerm2 Adj D Y (j 0) ⟨i, hi⟩ (j 1)
        else revAcc2 Adj D Y (8 * i + k) j := by
  have hK : (j 0).val / 512 < 8 := by have : (j 0).val < 4096 := (j 0).isLt; omega
  unfold revAcc2
  rw [sum_below_succ2 (fun a => 8 * a.val + (j 0).val / 512), sum_at_point_col2 _ i k hK hi hk]
  by_cases h : (j 0).val / 512 = k
  · rw [if_pos h, if_pos h]
  · rw [if_neg h, if_neg h, add_zero]

/-- After all 64 points every share is in. -/
theorem fwdAcc2_full (j : (⟨2, ![4096, 128]⟩ : Shape).Idx) :
    fwdAcc2 Adj D Y 64 j = ∑ b : Fin 8, fwdTerm2 Adj D Y (j 0) b (j 1) := by
  have hK : (j 0).val / 512 < 8 := by have : (j 0).val < 4096 := (j 0).isLt; omega
  exact Finset.sum_congr rfl fun b _ => if_pos (by have := b.isLt; omega)
theorem revAcc2_full (j : (⟨2, ![4096, 128]⟩ : Shape).Idx) :
    revAcc2 Adj D Y 64 j = ∑ a : Fin 8, revTerm2 Adj D Y (j 0) a (j 1) := by
  have hK : (j 0).val / 512 < 8 := by have : (j 0).val < 4096 := (j 0).isLt; omega
  exact Finset.sum_congr rfl fun a _ => if_pos (by have := a.isLt; omega)

/-- An entry of the forward output: half of `Y` plus a quarter of the forward sum. -/
def aggrEntry2 (Adj : (⟨2, ![4096, 4096]⟩ : Shape).Idx → EReal) (D Y : (⟨2, ![4096, 128]⟩ : Shape).Idx → EReal)
    (i : Fin 4096) (f : Fin 128) : EReal :=
  Ideal.ofBits .f32 0x3F000000#32 * Y (ix2 i f)
    + Ideal.ofBits .f32 0x3E800000#32
      * (∑ b : Fin 8, D (ix2 i (0 : Fin 128)) * ∑ q : Fin 512, offE Adj i (blockRow b q) * Y (ix2 (blockRow b q) f))

/-- An entry of the reverse output: half of `Y` plus a quarter of the reverse sum. -/
def aggrEntryRev2 (Adj : (⟨2, ![4096, 4096]⟩ : Shape).Idx → EReal) (D Y : (⟨2, ![4096, 128]⟩ : Shape).Idx → EReal)
    (k : Fin 4096) (f : Fin 128) : EReal :=
  Ideal.ofBits .f32 0x3F000000#32 * Y (ix2 k f)
    + Ideal.ofBits .f32 0x3E800000#32
      * (∑ b : Fin 8, D (ix2 k (0 : Fin 128)) * ∑ q : Fin 512, offE Adj (blockRow b q) k * Y (ix2 (blockRow b q) f))

end Cert.KernelIdeal.Hand

end
-- ==== Proof.KI.Region2Value.lean ====
import proofs.«140086_j17265768530288_2_alg».proof.Proof.KI.Region2Pieces
import proofs.«140086_j17265768530288_2_alg».proof.Proof.KI.Region2Sums

/-! # What the second diffusion pass leaves in its two output arrays, over the extended reals

By induction on the grid point the two accumulators hold, after point `n`, the shares of the points up to `n`
(`fwdAcc2`, `revAcc2` at `n + 1`): each run of the body is one step of each, and the point's tile and slabs, read off the
arrays as the region finds them, make that step the sums' step. The last point's stores combine each full sum with its
`y`; only that point writes the outputs back, each as one whole block, so the arrays end as the combined sums. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The windows' block indices over the grid: the tile window follows the point's two coordinates, every other window
    stays at its one block; and the point's number is `8·i + k`. -/
theorem blockIndex2 : ∀ t : Fin cfg2.N,
    win2_0.index t (0 : Fin 2) = (grid2.coords t 0).val ∧ win2_0.index t (1 : Fin 2) = (grid2.coords t 1).val
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ t.val = 8 * (grid2.coords t 0).val + (grid2.coords t 1).val :=
  (by decide +kernel : ∀ t : Fin grid2.N, _)

/-! ## The blocks, read off the arrays -/

/-- The tile at point `t` is the adjacency matrix at row block `i`, column block `k`. -/
theorem iblk2_tile (c : Dev nD) (t : Fin cfg2.N) (p q : Fin 512) (r s : Fin 4096)
    (hr : r.val = 512 * (grid2.coords t 0).val + p.val) (hs : s.val = 512 * (grid2.coords t 1).val + q.val) :
    iblk2 V c 0 t (ix2 p q) = V c main_arg1 (ix2 r s) := by
  obtain ⟨e00, e01, -⟩ := blockIndex2 t
  show V c main_arg1 (((cfg2.win 0).blk t).view.emb (ix2 p q)) = _
  refine congrArg _ (funext fun a => Fin.ext ?_)
  match a with
  | ⟨0, _⟩ => show win2_0.index t (0 : Fin 2) * 512 + 1 * p.val = r.val; omega
  | ⟨1, _⟩ => show win2_0.index t (1 : Fin 2) * 512 + 1 * q.val = s.val; omega

/-- Window 1's one block is its whole array. -/
theorem iblk2_whole1 (c : Dev nD) (t : Fin cfg2.N) (y : S4096x128.Idx) : iblk2 V c 1 t y = V c main_v12 y := by
  obtain ⟨-, -, ea, eb, -⟩ := blockIndex2 t
  show V c main_v12 (((cfg2.win 1).blk t).view.emb y) = _
  refine congrArg _ (funext fun a => Fin.ext ?_)
  match a with
  | ⟨0, _⟩ => show win2_1.index t (0 : Fin 2) * 4096 + 1 * (y 0).val = (y 0).val; omega
  | ⟨1, _⟩ => show win2_1.index t (1 : Fin 2) * 128 + 1 * (y 1).val = (y 1).val; omega

/-- Window 2's one block is its whole array. -/
theorem iblk2_whole2 (c : Dev nD) (t : Fin cfg2.N) (y : S4096x128.Idx) : iblk2 V c 2 t y = V c main_v13_0 y := by
  obtain ⟨-, -, -, -, ea, eb, -⟩ := blockIndex2 t
  show V c main_v13_0 (((cfg2.win 2).blk t).view.emb y) = _
  refine congrArg _ (funext fun a => Fin.ext ?_)
  match a with
  | ⟨0, _⟩ => show win2_2.index t (0 : Fin 2) * 4096 + 1 * (y 0).val = (y 0).val; omega
  | ⟨1, _⟩ => show win2_2.index t (1 : Fin 2) * 128 + 1 * (y 1).val = (y 1).val; omega

/-- Window 3's one block is its whole array. -/
theorem iblk2_whole3 (c : Dev nD) (t : Fin cfg2.N) (y : S4096x128.Idx) : iblk2 V c 3 t y = V c main_v13_1 y := by
  obtain ⟨-, -, -, -, -, -, ea, eb, -⟩ := blockIndex2 t
  show V c main_v13_1 (((cfg2.win 3).blk t).view.emb y) = _
  refine congrArg _ (funext fun a => Fin.ext ?_)
  match a with
  | ⟨0, _⟩ => show win2_3.index t (0 : Fin 2) * 4096 + 1 * (y 0).val = (y 0).val; omega
  | ⟨1, _⟩ => show win2_3.index t (1 : Fin 2) * 128 + 1 * (y 1).val = (y 1).val; omega

/-- The masked tile at point `t` is the masked adjacency matrix at the tile's place. -/
theorem maskedTile2 (c : Dev nD) (t : Fin cfg2.N) (p q : Fin 512) (r s : Fin 4096)
    (hr : r.val = 512 * (grid2.coords t 0).val + p.val) (hs : s.val = 512 * (grid2.coords t 1).val + q.val) :
    k2_pay7 (F := Ideal) (grid2.coords t) (iblk2 V c 0 t) (ix2 p q) = offE (V c main_arg1) r s := by
  rw [k2_pay7_apply, iblk2_tile V c t p q r s hr hs]
  unfold offE
  exact if_congr (by omega) rfl rfl

/-! ## One run is one step of the sums -/

/-- The forward step at point `t`, on the forward sum before `t`, is the forward sum before `t + 1`. -/
theorem fwdStep2_acc (c : Dev nD) (t : Fin cfg2.N) :
    fwdStep2 (grid2.coords t) (iblk2 V c 0 t) (iblk2 V c 1 t) (iblk2 V c 2 t) (fwdAcc2 (V c main_arg1) (V c main_v12) (V c main_v13_0) t.val)
      = fwdAcc2 (V c main_arg1) (V c main_v12) (V c main_v13_0) (t.val + 1) := by
  funext y
  obtain ⟨r, f, rfl⟩ : ∃ (r : Fin 4096) (f : Fin 128), y = ix2 r f := ⟨y 0, y 1, eq_ix2 y⟩
  have hi0 : (grid2.coords t 0).val < 8 := (grid2.coords t 0).isLt
  have hi1 : (grid2.coords t 1).val < 8 := (grid2.coords t 1).isLt
  have et : t.val = 8 * (grid2.coords t 0).val + (grid2.coords t 1).val := (blockIndex2 t).2.2.2.2.2.2.2.2.2.2.2.2
  have hr : r.val < 4096 := r.isLt
  rw [et, fwdAcc2_succ (V c main_arg1) (V c main_v12) (V c main_v13_0) _ _ hi1 (ix2 r f)]
  unfold fwdStep2
  by_cases h : 512 * (grid2.coords t 0).val ≤ r.val ∧ r.val < 512 * (grid2.coords t 0).val + 512
  · rw [dif_pos h, if_pos (show r.val / 512 = (grid2.coords t 0).val by omega)]
    refine congrArg (HAdd.hAdd _) ?_
    unfold fwdTerm2
    rw [iblk2_whole1 V c t]
    refine congrArg (HMul.hMul _) (Finset.sum_congr rfl fun q _ => ?_)
    have hq : q.val < 512 := q.isLt
    rw [maskedTile2 V c t _ q r (blockRow ⟨(grid2.coords t 1).val, hi1⟩ q) (by show r.val = 512 * (grid2.coords t 0).val + (r.val - 512 * (grid2.coords t 0).val); omega)
        (by show (grid2.coords t 1).val * 512 + q.val = 512 * (grid2.coords t 1).val + q.val; omega), iblk2_whole2 V c t]
  · rw [dif_neg h, if_neg (show ¬ r.val / 512 = (grid2.coords t 0).val by omega)]

/-- The reverse step at point `t`, on the reverse sum before `t`, is the reverse sum before `t + 1`. -/
theorem revStep2_acc (c : Dev nD) (t : Fin cfg2.N) :
    revStep2 (grid2.coords t) (iblk2 V c 0 t) (iblk2 V c 1 t) (iblk2 V c 3 t) (revAcc2 (V c main_arg1) (V c main_v12) (V c main_v13_1) t.val)
      = revAcc2 (V c main_arg1) (V c main_v12) (V c main_v13_1) (t.val + 1) := by
  funext y
  obtain ⟨r, f, rfl⟩ : ∃ (r : Fin 4096) (f : Fin 128), y = ix2 r f := ⟨y 0, y 1, eq_ix2 y⟩
  have hi0 : (grid2.coords t 0).val < 8 := (grid2.coords t 0).isLt
  have hi1 : (grid2.coords t 1).val < 8 := (grid2.coords t 1).isLt
  have et : t.val = 8 * (grid2.coords t 0).val + (grid2.coords t 1).val := (blockIndex2 t).2.2.2.2.2.2.2.2.2.2.2.2
  have hr : r.val < 4096 := r.isLt
  rw [et, revAcc2_succ (V c main_arg1) (V c main_v12) (V c main_v13_1) _ _ hi0 hi1 (ix2 r f)]
  unfold revStep2
  by_cases h : 512 * (grid2.coords t 1).val ≤ r.val ∧ r.val < 512 * (grid2.coords t 1).val + 512
  · rw [dif_pos h, if_pos (show r.val / 512 = (grid2.coords t 1).val by omega)]
    refine congrArg (HAdd.hAdd _) ?_
    unfold revTerm2
    rw [iblk2_whole1 V c t]
    refine congrArg (HMul.hMul _) (Finset.sum_congr rfl fun p _ => ?_)
    have hp : p.val < 512 := p.isLt
    rw [maskedTile2 V c t p _ (blockRow ⟨(grid2.coords t 0).val, hi0⟩ p) r
        (by show (grid2.coords t 0).val * 512 + p.val = 512 * (grid2.coords t 0).val + p.val; omega)
        (by show r.val = 512 * (grid2.coords t 1).val + (r.val - 512 * (grid2.coords t 1).val); omega), iblk2_whole3 V c t]
  · rw [dif_neg h, if_neg (show ¬ r.val / 512 = (grid2.coords t 1).val by omega)]

/-! ## The accumulators and the outputs, point by point -/

theorem stepA2_s0 (c : Dev nD) (t : Fin cfg2.N) (h0 : t.val = 0) :
    (stepA2 V c t h0).s0 = fwdStep2 (grid2.coords t) (iblk2 V c 0 t) (iblk2 V c 1 t) (iblk2 V c 2 t) (fun _ => 0) := by
  unfold stepA2
  dsimp only
  exact sout2_A_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 _ _ (iblk2 V c 0 t) (iblk2 V c 1 t) (iblk2 V c 2 t) (iblk2 V c 3 t)
theorem stepA2_s1 (c : Dev nD) (t : Fin cfg2.N) (h0 : t.val = 0) :
    (stepA2 V c t h0).s1 = revStep2 (grid2.coords t) (iblk2 V c 0 t) (iblk2 V c 1 t) (iblk2 V c 3 t) (fun _ => 0) := by
  unfold stepA2
  dsimp only
  exact sout2_A_1_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 _ _ (iblk2 V c 0 t) (iblk2 V c 1 t) (iblk2 V c 2 t) (iblk2 V c 3 t)
theorem stepB2_s0 (c : Dev nD) (t : Fin cfg2.N) (h0 : t.val ≠ 0) (h1 : t.val ≠ 63) (p : Outs2 Ideal) :
    (stepB2 V c t h0 h1 p).s0 = fwdStep2 (grid2.coords t) (iblk2 V c 0 t) (iblk2 V c 1 t) (iblk2 V c 2 t) p.s0 := by
  unfold stepB2
  dsimp only
  exact sout2_B_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 _ _ (iblk2 V c 0 t) (iblk2 V c 1 t) (iblk2 V c 2 t) (iblk2 V c 3 t) p.s0 p.s1
theorem stepB2_s1 (c : Dev nD) (t : Fin cfg2.N) (h0 : t.val ≠ 0) (h1 : t.val ≠ 63) (p : Outs2 Ideal) :
    (stepB2 V c t h0 h1 p).s1 = revStep2 (grid2.coords t) (iblk2 V c 0 t) (iblk2 V c 1 t) (iblk2 V c 3 t) p.s1 := by
  unfold stepB2
  dsimp only
  exact sout2_B_1_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 _ _ (iblk2 V c 0 t) (iblk2 V c 1 t) (iblk2 V c 2 t) (iblk2 V c 3 t) p.s0 p.s1
theorem stepC2_s0 (c : Dev nD) (t : Fin cfg2.N) (h0 : t.val ≠ 0) (h1 : t.val = 63) (p : Outs2 Ideal) :
    (stepC2 V c t h0 h1 p).s0 = fwdStep2 (grid2.coords t) (iblk2 V c 0 t) (iblk2 V c 1 t) (iblk2 V c 2 t) p.s0 := by
  unfold stepC2
  dsimp only
  exact sout2_C_0_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 _ _ (iblk2 V c 0 t) (iblk2 V c 1 t) (iblk2 V c 2 t) (iblk2 V c 3 t) p.s0 p.s1
theorem stepC2_s1 (c : Dev nD) (t : Fin cfg2.N) (h0 : t.val ≠ 0) (h1 : t.val = 63) (p : Outs2 Ideal) :
    (stepC2 V c t h0 h1 p).s1 = revStep2 (grid2.coords t) (iblk2 V c 0 t) (iblk2 V c 1 t) (iblk2 V c 3 t) p.s1 := by
  unfold stepC2
  dsimp only
  exact sout2_C_1_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 _ _ (iblk2 V c 0 t) (iblk2 V c 1 t) (iblk2 V c 2 t) (iblk2 V c 3 t) p.s0 p.s1
theorem stepC2_o4 (c : Dev nD) (t : Fin cfg2.N) (h0 : t.val ≠ 0) (h1 : t.val = 63) (p : Outs2 Ideal) :
    (stepC2 V c t h0 h1 p).o4 = fun y => Ideal.ofBits .f32 0x3F000000#32 * iblk2 V c 2 t y
        + Ideal.ofBits .f32 0x3E800000#32 * fwdStep2 (grid2.coords t) (iblk2 V c 0 t) (iblk2 V c 1 t) (iblk2 V c 2 t) p.s0 y := by
  unfold stepC2
  dsimp only
  exact out2_C_4_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 _ _ (iblk2 V c 0 t) (iblk2 V c 1 t) (iblk2 V c 2 t) (iblk2 V c 3 t) p.s0 p.s1
theorem stepC2_o5 (c : Dev nD) (t : Fin cfg2.N) (h0 : t.val ≠ 0) (h1 : t.val = 63) (p : Outs2 Ideal) :
    (stepC2 V c t h0 h1 p).o5 = fun y => Ideal.ofBits .f32 0x3F000000#32 * iblk2 V c 3 t y
        + Ideal.ofBits .f32 0x3E800000#32 * revStep2 (grid2.coords t) (iblk2 V c 0 t) (iblk2 V c 1 t) (iblk2 V c 3 t) p.s1 y := by
  unfold stepC2
  dsimp only
  exact out2_C_5_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 hscM2_0 scM2_1 hscM2_1 _ _ (iblk2 V c 0 t) (iblk2 V c 1 t) (iblk2 V c 2 t) (iblk2 V c 3 t) p.s0 p.s1

/-- After point `n` the two accumulators hold the forward and the reverse sums over the points up to `n`. -/
theorem accs2 (c : Dev nD) : ∀ (n : ℕ) (hn : n < cfg2.N),
    (outsAt2 V c n hn).s0 = fwdAcc2 (V c main_arg1) (V c main_v12) (V c main_v13_0) (n + 1) ∧ (outsAt2 V c n hn).s1 = revAcc2 (V c main_arg1) (V c main_v12) (V c main_v13_1) (n + 1) := by
  intro n
  induction n with
  | zero =>
    intro hn
    have e : outsAt2 V c 0 hn = stepA2 V c ⟨0, hn⟩ rfl := rfl
    have z0 : (fun _ => 0 : Vec Ideal S4096x128 .f32) = fwdAcc2 (V c main_arg1) (V c main_v12) (V c main_v13_0) 0 := funext fun j => (fwdAcc2_zero _ _ _ j).symm
    have z1 : (fun _ => 0 : Vec Ideal S4096x128 .f32) = revAcc2 (V c main_arg1) (V c main_v12) (V c main_v13_1) 0 := funext fun j => (revAcc2_zero _ _ _ j).symm
    rw [e]
    exact ⟨(stepA2_s0 V c ⟨0, hn⟩ rfl).trans ((congrArg (fwdStep2 _ _ _ _) z0).trans (fwdStep2_acc V c ⟨0, hn⟩)),
      (stepA2_s1 V c ⟨0, hn⟩ rfl).trans ((congrArg (revStep2 _ _ _ _) z1).trans (revStep2_acc V c ⟨0, hn⟩))⟩
  | succ n ih =>
    intro hn
    obtain ⟨ih0, ih1⟩ := ih (Nat.lt_of_succ_lt hn)
    by_cases h1 : n + 1 = 63
    · have e : outsAt2 V c (n + 1) hn = stepC2 V c ⟨n + 1, hn⟩ (Nat.succ_ne_zero n) h1 (outsAt2 V c n (Nat.lt_of_succ_lt hn)) := dif_pos h1
      rw [e]
      exact ⟨(stepC2_s0 V c ⟨n + 1, hn⟩ _ h1 _).trans ((congrArg (fwdStep2 _ _ _ _) ih0).trans (fwdStep2_acc V c ⟨n + 1, hn⟩)),
        (stepC2_s1 V c ⟨n + 1, hn⟩ _ h1 _).trans ((congrArg (revStep2 _ _ _ _) ih1).trans (revStep2_acc V c ⟨n + 1, hn⟩))⟩
    · have e : outsAt2 V c (n + 1) hn = stepB2 V c ⟨n + 1, hn⟩ (Nat.succ_ne_zero n) h1 (outsAt2 V c n (Nat.lt_of_succ_lt hn)) := dif_neg h1
      rw [e]
      exact ⟨(stepB2_s0 V c ⟨n + 1, hn⟩ _ h1 _).trans ((congrArg (fwdStep2 _ _ _ _) ih0).trans (fwdStep2_acc V c ⟨n + 1, hn⟩)),
        (stepB2_s1 V c ⟨n + 1, hn⟩ _ h1 _).trans ((congrArg (revStep2 _ _ _ _) ih1).trans (revStep2_acc V c ⟨n + 1, hn⟩))⟩

/-- The whole forward output as a function of the arrays the region finds, and the whole reverse output. -/
def aggrOf2 (Adj : S4096x4096.Idx → EReal) (D Y : S4096x128.Idx → EReal) : S4096x128.Idx → EReal :=
  fun j => aggrEntry2 Adj D Y (j 0) (j 1)
def aggrRevOf2 (Adj : S4096x4096.Idx → EReal) (D Y : S4096x128.Idx → EReal) : S4096x128.Idx → EReal :=
  fun j => aggrEntryRev2 Adj D Y (j 0) (j 1)

/-- What the last point leaves in the forward output's buffer: the combined full forward sum, -/
theorem o4_last2 (c : Dev nD) (t : Fin cfg2.N) (h1 : t.val = 63) :
    (outsAt2 V c t.val t.isLt).o4 = aggrOf2 (V c main_arg1) (V c main_v12) (V c main_v13_0) := by
  have h0 : t.val ≠ 0 := by omega
  have hp : t.val - 1 + 1 = t.val := by omega
  rw [outsAt2_last V c t h0 h1]
  refine (stepC2_o4 V c t h0 h1 _).trans ?_
  rw [(accs2 V c (t.val - 1) (Nat.lt_of_le_of_lt (Nat.sub_le _ _) t.isLt)).1, hp, fwdStep2_acc V c t, h1]
  funext y
  obtain ⟨r, f, rfl⟩ : ∃ (r : Fin 4096) (f : Fin 128), y = ix2 r f := ⟨y 0, y 1, eq_ix2 y⟩
  rw [iblk2_whole2 V c t, fwdAcc2_full]
  rfl

/-- and in the reverse output's buffer the combined full reverse sum. -/
theorem o5_last2 (c : Dev nD) (t : Fin cfg2.N) (h1 : t.val = 63) :
    (outsAt2 V c t.val t.isLt).o5 = aggrRevOf2 (V c main_arg1) (V c main_v12) (V c main_v13_1) := by
  have h0 : t.val ≠ 0 := by omega
  have hp : t.val - 1 + 1 = t.val := by omega
  rw [outsAt2_last V c t h0 h1]
  refine (stepC2_o5 V c t h0 h1 _).trans ?_
  rw [(accs2 V c (t.val - 1) (Nat.lt_of_le_of_lt (Nat.sub_le _ _) t.isLt)).2, hp, revStep2_acc V c t, h1]
  funext y
  obtain ⟨r, f, rfl⟩ : ∃ (r : Fin 4096) (f : Fin 128), y = ix2 r f := ⟨y 0, y 1, eq_ix2 y⟩
  rw [iblk2_whole3 V c t, revAcc2_full]
  rfl

/-! ## From the last point's block to the arrays -/

/-- An index of output 4's array is in point `t`'s block iff each coordinate is in the block's range on its axis. -/
theorem mem_block2_4 (t : Fin cfg2.N) (i : S4096x128.Idx) :
    i ∈ ((cfg2.win 4).blk t).view.set ↔ ∀ a : Fin 2, win2_4.index t a * S4096x128.size a ≤ (i a).val ∧ (i a).val < win2_4.index t a * S4096x128.size a + S4096x128.size a := by
  show i ∈ ((View.whole main_v14_0).slice (win2_4.rect t)).set ↔ _
  rw [View.set_slice_whole, Rect.mem_set_unit]
  exact Iff.rfl

/-- What the one writing point writes back to output 4 is the whole of `aggrOf2` of the arrays as the region finds them. -/
theorem flushed2_4_eq (c : Dev nD) (t : Fin cfg2.N) (hf : (cfg2.win 4).flush t = true) :
    (dat2 (F := Ideal) V c).flushed 4 t = ((cfg2.win 4).blk t).view.read (Elt Ideal) (aggrOf2 (V c main_arg1) (V c main_v12) (V c main_v13_0)) := by
  have hN : t.val < 64 := lt_of_lt_of_eq t.isLt (show cfg2.N = 64 from N_2)
  have h1 : t.val = 63 := by have := (flush2_4 t).mp hf; omega
  show (cfg2.win 4).cut (grid2.coords t) ((dat2 V c).after 4 t) = _
  rw [after2_4, o4_last2 V c t h1]
  funext y
  show aggrOf2 (V c main_arg1) (V c main_v12) (V c main_v13_0) y = aggrOf2 (V c main_arg1) (V c main_v12) (V c main_v13_0) (((cfg2.win 4).blk t).view.emb y)
  refine congrArg (aggrOf2 (V c main_arg1) (V c main_v12) (V c main_v13_0)) (funext fun a => Fin.ext ?_)
  have e := blockIndex2 t
  match a with
  | ⟨0, _⟩ => show (y 0).val = win2_4.index t (0 : Fin 2) * 4096 + 1 * (y 0).val; omega
  | ⟨1, _⟩ => show (y 1).val = win2_4.index t (1 : Fin 2) * 128 + 1 * (y 1).val; omega

/-- The last point's block is the whole array. -/
theorem covered2_4 (i : S4096x128.Idx) :
    ∃ t : Fin cfg2.N, (cfg2.win 4).flush t = true ∧ i ∈ ((cfg2.win 4).blk t).view.set := by
  have hi0 : (i 0).val < 4096 := (i 0).isLt
  have hi1 : (i 1).val < 128 := (i 1).isLt
  have hN : cfg2.N = 64 := N_2
  refine ⟨⟨63, by omega⟩, (flush2_4 _).mpr rfl, ?_⟩
  rw [mem_block2_4]
  have e := blockIndex2 ⟨63, by omega⟩
  intro a
  match a with
  | ⟨0, _⟩ => show win2_4.index _ (0 : Fin 2) * 4096 ≤ (i 0).val ∧ (i 0).val < win2_4.index _ (0 : Fin 2) * 4096 + 4096; omega
  | ⟨1, _⟩ => show win2_4.index _ (1 : Fin 2) * 128 ≤ (i 1).val ∧ (i 1).val < win2_4.index _ (1 : Fin 2) * 128 + 128; omega

/-- OUTPUT 4's ARRAY after the region. -/
theorem final2_4 (c : Dev nD) :
    (dat2 (F := Ideal) V c).arrAt 4 cfg2.N = aggrOf2 (V c main_arg1) (V c main_v12) (V c main_v13_0) :=
  (dat2 (F := Ideal) V c).arrAt_eq_of_cover 4 _ (fun t hf => flushed2_4_eq V c t hf) covered2_4

/-- An index of output 5's array is in point `t`'s block iff each coordinate is in the block's range on its axis. -/
theorem mem_block2_5 (t : Fin cfg2.N) (i : S4096x128.Idx) :
    i ∈ ((cfg2.win 5).blk t).view.set ↔ ∀ a : Fin 2, win2_5.index t a * S4096x128.size a ≤ (i a).val ∧ (i a).val < win2_5.index t a * S4096x128.size a + S4096x128.size a := by
  show i ∈ ((View.whole main_v14_1).slice (win2_5.rect t)).set ↔ _
  rw [View.set_slice_whole, Rect.mem_set_unit]
  exact Iff.rfl

/-- What the one writing point writes back to output 5 is the whole of `aggrRevOf2` of the arrays as the region finds them. -/
theorem flushed2_5_eq (c : Dev nD) (t : Fin cfg2.N) (hf : (cfg2.win 5).flush t = true) :
    (dat2 (F := Ideal) V c).flushed 5 t = ((cfg2.win 5).blk t).view.read (Elt Ideal) (aggrRevOf2 (V c main_arg1) (V c main_v12) (V c main_v13_1)) := by
  have hN : t.val < 64 := lt_of_lt_of_eq t.isLt (show cfg2.N = 64 from N_2)
  have h1 : t.val = 63 := by have := (flush2_5 t).mp hf; omega
  show (cfg2.win 5).cut (grid2.coords t) ((dat2 V c).after 5 t) = _
  rw [after2_5, o5_last2 V c t h1]
  funext y
  show aggrRevOf2 (V c main_arg1) (V c main_v12) (V c main_v13_1) y = aggrRevOf2 (V c main_arg1) (V c main_v12) (V c main_v13_1) (((cfg2.win 5).blk t).view.emb y)
  refine congrArg (aggrRevOf2 (V c main_arg1) (V c main_v12) (V c main_v13_1)) (funext fun a => Fin.ext ?_)
  have e := blockIndex2 t
  match a with
  | ⟨0, _⟩ => show (y 0).val = win2_5.index t (0 : Fin 2) * 4096 + 1 * (y 0).val; omega
  | ⟨1, _⟩ => show (y 1).val = win2_5.index t (1 : Fin 2) * 128 + 1 * (y 1).val; omega

/-- The last point's block is the whole array. -/
theorem covered2_5 (i : S4096x128.Idx) :
    ∃ t : Fin cfg2.N, (cfg2.win 5).flush t = true ∧ i ∈ ((cfg2.win 5).blk t).view.set := by
  have hi0 : (i 0).val < 4096 := (i 0).isLt
  have hi1 : (i 1).val < 128 := (i 1).isLt
  have hN : cfg2.N = 64 := N_2
  refine ⟨⟨63, by omega⟩, (flush2_5 _).mpr rfl, ?_⟩
  rw [mem_block2_5]
  have e := blockIndex2 ⟨63, by omega⟩
  intro a
  match a with
  | ⟨0, _⟩ => show win2_5.index _ (0 : Fin 2) * 4096 ≤ (i 0).val ∧ (i 0).val < win2_5.index _ (0 : Fin 2) * 4096 + 4096; omega
  | ⟨1, _⟩ => show win2_5.index _ (1 : Fin 2) * 128 ≤ (i 1).val ∧ (i 1).val < win2_5.index _ (1 : Fin 2) * 128 + 128; omega

/-- OUTPUT 5's ARRAY after the region. -/
theorem final2_5 (c : Dev nD) :
    (dat2 (F := Ideal) V c).arrAt 5 cfg2.N = aggrRevOf2 (V c main_arg1) (V c main_v12) (V c main_v13_1) :=
  (dat2 (F := Ideal) V c).arrAt_eq_of_cover 5 _ (fun t hf => flushed2_5_eq V c t hf) covered2_5

/-- Entry `(i, f)` of the forward output after the region: half of `y1` plus a quarter of the forward sum of `y1`. -/
theorem value2_4 (c : Dev nD) (i : Fin 4096) (f : Fin 128) :
    (dat2 (F := Ideal) V c).arrAt 4 cfg2.N (ix2 i f) = aggrEntry2 (V c main_arg1) (V c main_v12) (V c main_v13_0) i f := by
  rw [final2_4]
  rfl

/-- Entry `(k, f)` of the reverse output after the region: half of `y2` plus a quarter of the reverse sum of `y2`. -/
theorem value2_5 (c : Dev nD) (k : Fin 4096) (f : Fin 128) :
    (dat2 (F := Ideal) V c).arrAt 5 cfg2.N (ix2 k f) = aggrEntryRev2 (V c main_arg1) (V c main_v12) (V c main_v13_1) k f := by
  rw [final2_5]
  rfl

end Cert.KernelIdeal.Hand

end
-- ==== Proof.KI.Region3Payload.lean ====
import proofs.«140086_j17265768530288_2_alg».proof.Proof.Gen.KernelIdeal.Skeleton
import Idealize.ShloMosaic.PureOps.Ideal.Laws
import Idealize.ShloMosaic.Lib.ValueIdx
import Idealize.ShloMosaic.Lib.Pipeline.Value

/-! # The update kernel's stored value, entry by entry, over the extended reals

The body stores `relu(a₁ · T₁ + r₁) + relu(a₂ · T₂ + r₂)` over a block of 1024 rows: `a₁, a₂` are the two blocks of
aggregated features, `T₁, T₂` the transposed weight matrices, `r₁, r₂` the bias rows. Over the extended reals the
narrowing to bf16 before each product is the identity, a product into the zero accumulator is the plain sum over the
contracted axis, and the bias row is repeated down the 1024 rows. -/

noncomputable section

namespace Cert.KernelIdeal.Hand

open Cert.KernelIdeal Cert.KernelIdeal.Gen
open Idealize.ShloMosaic Idealize.ShloMosaic.ValueIdx

/-- The dimension numbers of both products: the block's feature axis against the weight matrix's first axis. -/
abbrev updDot : DotDims S1024x128 S128x128 S1024x128 := dot_S1024x128_S128x128_S1024x128_1_0_0_1_n_n

/-- The left operand is read in the output's row, -/
theorem updDot_lhs_row (j : S1024x128.Idx) (q : updDot.contr.Idx) : (updDot.lhsIdx j q 0).val = (j 0).val := by
  unfold DotDims.lhsIdx
  rw [dif_neg (show ¬(0 : Fin S1024x128.rank) ∈ updDot.lhsBatch by decide),
    dif_pos (show (0 : Fin S1024x128.rank) ∈ updDot.lhsNonContracting by decide)]
  rfl

/-- and the right operand in the output's column. -/
theorem updDot_rhs_col (j : S1024x128.Idx) (q : updDot.contr.Idx) : (updDot.rhsIdx j q 1).val = (j 1).val := by
  unfold DotDims.rhsIdx
  rw [dif_neg (show ¬(1 : Fin S128x128.rank) ∈ updDot.rhsBatch by decide),
    dif_pos (show (1 : Fin S128x128.rank) ∈ updDot.rhsNonContracting by decide)]
  rfl

/-- A product of a block with a weight matrix into the zero accumulator, at row `p` and column `q`: the sum over the 128
    features of the block's row `p` against the matrix's column `q`. -/
theorem updDot_apply {φ₁ φ₂ : FTy} (lhs : FVec Ideal S1024x128 φ₁) (rhs : FVec Ideal S128x128 φ₂) (p : Fin 1024) (q : Fin 128) :
    matmul updDot none lhs rhs (constant (F := Ideal) S1024x128 .f32 0x00000000#32) (ix2 p q)
      = ∑ k : Fin 128, lhs (ix2 p k) * rhs (ix2 k q) := by
  show FloatOps.matmul updDot none lhs rhs (constant (F := Ideal) S1024x128 .f32 0x00000000#32) (ix2 p q) = _
  rw [Ideal.matmul_constant_zero_apply, ← Equiv.sum_comp (contrEquiv1 updDot 128 rfl rfl).symm]
  refine Finset.sum_congr rfl fun k _ => ?_
  have hk := contrEquiv1_symm_val updDot 128 rfl rfl k
  have el : updDot.lhsIdx (ix2 p q) ((contrEquiv1 updDot 128 rfl rfl).symm k) = ix2 p k := funext fun a => Fin.ext (by
    match a with
    | ⟨0, _⟩ => exact updDot_lhs_row _ _
    | ⟨1, _⟩ => exact (updDot.lhsIdx_val_of_single rfl (ix2 p q) _).trans hk)
  have er : updDot.rhsIdx (ix2 p q) ((contrEquiv1 updDot 128 rfl rfl).symm k) = ix2 k q := funext fun a => Fin.ext (by
    match a with
    | ⟨0, _⟩ => exact (updDot.rhsIdx_val_of_single rfl (ix2 p q) _).trans hk
    | ⟨1, _⟩ => exact updDot_rhs_col _ _)
  rw [el, er]

/-- A bias row repeated down the block's rows reads, at row `p` and column `q`, the row's entry `q`. -/
theorem biasRow_apply (r : FVec Ideal S1x128 .f32) (p : Fin 1024) (q : Fin 128) :
    broadcastTo S1024x128 r broadcasts_S1x128_S1024x128 (ix2 p q) = r (ix2 (0 : Fin 1) q) := by
  refine broadcastTo_apply r broadcasts_S1x128_S1024x128 (ix2 p q) (ix2 (0 : Fin 1) q) fun a => ?_
  match a with
  | ⟨0, _⟩ => rfl
  | ⟨1, _⟩ => rfl

/-- THE STORED VALUE at row `p` and column `q` of the block. -/
theorem k3_pay1_apply (x0 x1 : Vec Ideal S1024x128 .f32) (x2 : Vec Ideal S128x128 .f32) (x3 : Vec Ideal S1x128 .f32)
    (x4 : Vec Ideal S128x128 .f32) (x5 : Vec Ideal S1x128 .f32) (p : Fin 1024) (q : Fin 128) :
    k3_pay1 (F := Ideal) x0 x1 x2 x3 x4 x5 (ix2 p q)
      = max ((∑ f : Fin 128, x0 (ix2 p f) * x2 (ix2 f q)) + x3 (ix2 (0 : Fin 1) q)) 0
        + max ((∑ f : Fin 128, x1 (ix2 p f) * x4 (ix2 f q)) + x5 (ix2 (0 : Fin 1) q)) 0 := by
  unfold k3_pay1
  simp only [shapeCast_self]
  rw [addf_apply, maximumf_apply, maximumf_apply, addf_apply, addf_apply]
  have hz : (FloatOps.ofBits (F := Ideal) .f32 0x00000000#32 : EReal) = 0 := Ideal.ofBits_zero_f32
  rw [updDot_apply, updDot_apply, biasRow_apply, biasRow_apply]
  show max _ (FloatOps.ofBits (F := Ideal) .f32 0x00000000#32) + max _ (FloatOps.ofBits (F := Ideal) .f32 0x00000000#32) = _
  rw [hz]
  rfl

end Cert.KernelIdeal.Hand

end
-- ==== Proof.KI.Region3Value.lean ====
import proofs.«140086_j17265768530288_2_alg».proof.Proof.KI.Region3
import proofs.«140086_j17265768530288_2_alg».proof.Proof.KI.Region3Payload

/-! # What the update region leaves in the result array, over the extended reals

Point `t` of the grid writes back rows `1024·t … 1024·t + 1023` of the result. Each written row depends on the same row
of the two aggregated feature arrays and on the whole weight matrices and bias rows, so every point's block is the
restriction of ONE function of the six arrays as the region finds them; the four blocks tile the 4096 rows, so after the
region the result array IS that function. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- One entry of the result: `relu(a₁ᵢ · T₁ + r₁) + relu(a₂ᵢ · T₂ + r₂)` at column `g`. -/
def updateEntry (A1 A2 : S4096x128.Idx → EReal) (T1 : S128x128.Idx → EReal) (R1 : S1x128.Idx → EReal)
    (T2 : S128x128.Idx → EReal) (R2 : S1x128.Idx → EReal) (i : Fin 4096) (g : Fin 128) : EReal :=
  max ((∑ f : Fin 128, A1 (ix2 i f) * T1 (ix2 f g)) + R1 (ix2 (0 : Fin 1) g)) 0
    + max ((∑ f : Fin 128, A2 (ix2 i f) * T2 (ix2 f g)) + R2 (ix2 (0 : Fin 1) g)) 0

/-- The whole result array as a function of the six arrays. -/
def updateOf (A1 A2 : S4096x128.Idx → EReal) (T1 : S128x128.Idx → EReal) (R1 : S1x128.Idx → EReal)
    (T2 : S128x128.Idx → EReal) (R2 : S1x128.Idx → EReal) : S4096x128.Idx → EReal :=
  fun j => updateEntry A1 A2 T1 R1 T2 R2 (j 0) (j 1)

variable (V : (c : Dev nD) → (b : Ref sig .tc) → Buf (Elt Ideal) ((c : Thread nD τ).loc b))

theorem zeros2_3 : (![0, 0] : Fin 2 → Nat) = fun _ => 0 := funext fun a => by fin_cases a <;> rfl

/-- The windows' block indices over the grid: the two feature windows move down the rows with the result window, the
    weight and bias windows stay at their one block, and no window moves along the columns. -/
theorem blockIndex3 : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 ∧ win3_6.index t (0 : Fin 2) ≤ 3 :=
  (by decide +kernel : ∀ t : Fin grid3.N, _)

/-- Every one of the four row blocks is some point's. -/
theorem blockIndex3_onto : ∀ q0 : Fin 4, ∃ t : Fin cfg3.N, win3_6.index t = ![q0.val, 0] :=
  (by decide +kernel : ∀ q0 : Fin 4, ∃ t : Fin grid3.N, win3_6.index t = ![q0.val, 0])

/-- WHAT POINT `t` WRITES BACK is block `t` of `updateOf` of the arrays as the region finds them. -/
theorem flushed3_6_eq (c : Dev nD) (t : Fin cfg3.N) :
    (dat3 (F := Ideal) V c).flushed 6 t = ((cfg3.win 6).blk t).view.read (Elt Ideal)
      (updateOf (V c main_v14_0) (V c main_v14_1) (V c main_v15) (V c main_v17) (V c main_v16) (V c main_v18)) := by
  show (cfg3.win 6).cut (grid3.coords t) ((dat3 V c).after 6 t) = _
  rw [dat3_after_6]
  unfold resultBuf3
  rw [View.canon_unit_zero zeros2_3]
  simp only [View.ld_unit_zero (S := S1024x128) zeros2_3, View.ld_unit_zero (S := S128x128) zeros2_3, View.ld_unit_zero (S := S1x128) zeros2_3]
  obtain ⟨e00, e01, e10, e11, e20, e21, e30, e31, e40, e41, e50, e51, e61, e60⟩ := blockIndex3 t
  funext j
  obtain ⟨p, q, rfl⟩ : ∃ (p : Fin 1024) (q : Fin 128), j = ix2 p q := ⟨j 0, j 1, eq_ix2 j⟩
  refine (k3_pay1_apply (blockAt3 V c 0 t) (blockAt3 V c 1 t) (blockAt3 V c 2 t) (blockAt3 V c 3 t) (blockAt3 V c 4 t) (blockAt3 V c 5 t) p q).trans ?_
  -- the array index this block entry is written to
  let r : S4096x128.Idx := ((cfg3.win 6).blk t).view.emb (ix2 p q)
  show _ = updateEntry (V c main_v14_0) (V c main_v14_1) (V c main_v15) (V c main_v17) (V c main_v16) (V c main_v18) (r 0) (r 1)
  unfold updateEntry
  have h0 : ∀ f : Fin 128, blockAt3 V c 0 t (ix2 p f) = V c main_v14_0 (ix2 (r 0 : Fin 4096) f) := fun f => by
    show V c main_v14_0 (((cfg3.win 0).blk t).view.emb (ix2 p f)) = _
    refine congrArg _ (funext fun a => Fin.ext ?_)
    match a with
    | ⟨0, _⟩ => show win3_0.index t (0 : Fin 2) * 1024 + 1 * p.val = win3_6.index t (0 : Fin 2) * 1024 + 1 * p.val; omega
    | ⟨1, _⟩ => show win3_0.index t (1 : Fin 2) * 128 + 1 * f.val = f.val; omega
  have h1 : ∀ f : Fin 128, blockAt3 V c 1 t (ix2 p f) = V c main_v14_1 (ix2 (r 0 : Fin 4096) f) := fun f => by
    show V c main_v14_1 (((cfg3.win 1).blk t).view.emb (ix2 p f)) = _
    refine congrArg _ (funext fun a => Fin.ext ?_)
    match a with
    | ⟨0, _⟩ => show win3_1.index t (0 : Fin 2) * 1024 + 1 * p.val = win3_6.index t (0 : Fin 2) * 1024 + 1 * p.val; omega
    | ⟨1, _⟩ => show win3_1.index t (1 : Fin 2) * 128 + 1 * f.val = f.val; omega
  have h2 : ∀ f : Fin 128, blockAt3 V c 2 t (ix2 f q) = V c main_v15 (ix2 f (r 1 : Fin 128)) := fun f => by
    show V c main_v15 (((cfg3.win 2).blk t).view.emb (ix2 f q)) = _
    refine congrArg _ (funext fun a => Fin.ext ?_)
    match a with
    | ⟨0, _⟩ => show win3_2.index t (0 : Fin 2) * 128 + 1 * f.val = f.val; omega
    | ⟨1, _⟩ => show win3_2.index t (1 : Fin 2) * 128 + 1 * q.val = win3_6.index t (1 : Fin 2) * 128 + 1 * q.val; omega
  have h4 : ∀ f : Fin 128, blockAt3 V c 4 t (ix2 f q) = V c main_v16 (ix2 f (r 1 : Fin 128)) := fun f => by
    show V c main_v16 (((cfg3.win 4).blk t).view.emb (ix2 f q)) = _
    refine congrArg _ (funext fun a => Fin.ext ?_)
    match a with
    | ⟨0, _⟩ => show win3_4.index t (0 : Fin 2) * 128 + 1 * f.val = f.val; omega
    | ⟨1, _⟩ => show win3_4.index t (1 : Fin 2) * 128 + 1 * q.val = win3_6.index t (1 : Fin 2) * 128 + 1 * q.val; omega
  have h3 : blockAt3 V c 3 t (ix2 (0 : Fin 1) q) = V c main_v17 (ix2 (0 : Fin 1) (r 1 : Fin 128)) := by
    show V c main_v17 (((cfg3.win 3).blk t).view.emb (ix2 (0 : Fin 1) q)) = _
    refine congrArg _ (funext fun a => Fin.ext ?_)
    match a with
    | ⟨0, _⟩ => show win3_3.index t (0 : Fin 2) * 1 + 1 * (0 : Fin 1).val = (0 : Fin 1).val; omega
    | ⟨1, _⟩ => show win3_3.index t (1 : Fin 2) * 128 + 1 * q.val = win3_6.index t (1 : Fin 2) * 128 + 1 * q.val; omega
  have h5 : blockAt3 V c 5 t (ix2 (0 : Fin 1) q) = V c main_v18 (ix2 (0 : Fin 1) (r 1 : Fin 128)) := by
    show V c main_v18 (((cfg3.win 5).blk t).view.emb (ix2 (0 : Fin 1) q)) = _
    refine congrArg _ (funext fun a => Fin.ext ?_)
    match a with
    | ⟨0, _⟩ => show win3_5.index t (0 : Fin 2) * 1 + 1 * (0 : Fin 1).val = (0 : Fin 1).val; omega
    | ⟨1, _⟩ => show win3_5.index t (1 : Fin 2) * 128 + 1 * q.val = win3_6.index t (1 : Fin 2) * 128 + 1 * q.val; omega
  simp only [h0, h1, h2, h3, h4, h5]

/-- An index of the result array is in point `t`'s block iff each coordinate is in the block's range on its axis. -/
theorem mem_block3_6 (t : Fin cfg3.N) (i : S4096x128.Idx) :
    i ∈ ((cfg3.win 6).blk t).view.set ↔ ∀ a : Fin 2, win3_6.index t a * S1024x128.size a ≤ (i a).val ∧ (i a).val < win3_6.index t a * S1024x128.size a + S1024x128.size a := by
  show i ∈ ((View.whole main_v19).slice (win3_6.rect t)).set ↔ _
  rw [View.set_slice_whole, Rect.mem_set_unit]
  exact Iff.rfl

/-- The four row blocks tile the array: row `r` is in the block of the point whose block index is `r / 1024`. -/
theorem covered3_6 (i : S4096x128.Idx) :
    ∃ t : Fin cfg3.N, (cfg3.win 6).flush t = true ∧ i ∈ ((cfg3.win 6).blk t).view.set := by
  have hi0 : (i 0).val < 4096 := (i 0).isLt
  have hi1 : (i 1).val < 128 := (i 1).isLt
  obtain ⟨t, ht⟩ := blockIndex3_onto ⟨(i 0).val / 1024, by omega⟩
  have q0 : win3_6.index t (0 : Fin 2) = (i 0).val / 1024 := congrFun ht 0
  have q1 : win3_6.index t (1 : Fin 2) = 0 := congrFun ht 1
  refine ⟨t, flush3_6 t, ?_⟩
  rw [mem_block3_6]
  intro a
  match a with
  | ⟨0, _⟩ => show win3_6.index t (0 : Fin 2) * 1024 ≤ (i 0).val ∧ (i 0).val < win3_6.index t (0 : Fin 2) * 1024 + 1024; omega
  | ⟨1, _⟩ => show win3_6.index t (1 : Fin 2) * 128 ≤ (i 1).val ∧ (i 1).val < win3_6.index t (1 : Fin 2) * 128 + 128; omega

/-- THE RESULT ARRAY after the region is `updateOf` of the six arrays as the region finds them. -/
theorem final3_6 (c : Dev nD) :
    (dat3 (F := Ideal) V c).arrAt 6 cfg3.N
      = updateOf (V c main_v14_0) (V c main_v14_1) (V c main_v15) (V c main_v17) (V c main_v16) (V c main_v18) :=
  (dat3 (F := Ideal) V c).arrAt_eq_of_cover 6 _ (fun t _ => flushed3_6_eq V c t) covered3_6

/-- Entry `(i, g)` of the result after the region: the two branches' affine maps of row `i` of the aggregated features,
    each cut off below at zero, added (`updateEntry` of the six arrays as the region finds them). -/
theorem value3_6 (c : Dev nD) (i : Fin 4096) (g : Fin 128) :
    (dat3 (F := Ideal) V c).arrAt 6 cfg3.N (ix2 i g)
      = updateEntry (V c main_v14_0) (V c main_v14_1) (V c main_v15) (V c main_v17) (V c main_v16) (V c main_v18) i g := by
  rw [final3_6]
  rfl

/-- `updateEntry` spelled out. -/
theorem updateEntry_eq (A1 A2 : S4096x128.Idx → EReal) (T1 : S128x128.Idx → EReal) (R1 : S1x128.Idx → EReal)
    (T2 : S128x128.Idx → EReal) (R2 : S1x128.Idx → EReal) (i : Fin 4096) (g : Fin 128) :
    updateEntry A1 A2 T1 R1 T2 R2 i g
      = max ((∑ f : Fin 128, A1 (ix2 i f) * T1 (ix2 f g)) + R1 (ix2 (0 : Fin 1) g)) 0
        + max ((∑ f : Fin 128, A2 (ix2 i f) * T2 (ix2 f g)) + R2 (ix2 (0 : Fin 1) g)) 0 := rfl

end Cert.KernelIdeal.Hand

end
-- ==== Proof.KI.AllValues.lean ====
/-
  What the four regions leave, collected: each region's value statement at the contents the run enters it with.
-/
import proofs.«140086_j17265768530288_2_alg».proof.Proof.KI.Value
import proofs.«140086_j17265768530288_2_alg».proof.Proof.KI.Region0Value
import proofs.«140086_j17265768530288_2_alg».proof.Proof.KI.Region1ValueFwd
import proofs.«140086_j17265768530288_2_alg».proof.Proof.KI.Region1ValueRev
import proofs.«140086_j17265768530288_2_alg».proof.Proof.KI.Region2Value
import proofs.«140086_j17265768530288_2_alg».proof.Proof.KI.Region3Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt IdealF) ℓ) (ρ : Dev nD → PrngReg) (c : Dev nD)

theorem regionValues : RegionValues m ρ c where
  rows i j := value0_1 (V0 m ρ) c i j
  cols r k := value0_2 (V0 m ρ) c r k
  y1 i f := value1_3 (V4 m ρ) c i f
  y2 k f := value1_4 (V4 m ρ) c k f
  a1 i f := value2_4 (V5 m ρ) c i f
  a2 k f := value2_5 (V5 m ρ) c k f
  out i g := value3_6 (V7 m ρ) c i g

end Cert.KernelIdeal.Hand

end
-- ==== Proof.RefValue.lean ====
/-
  What the reference program computes, read as real numbers.

  When every input entry is a real number, every stage of the reference is real, and its value is the stage of
  the real-valued formula refOut (the arrangement that forms the diffusion matrix): the self-loop mask
  a · (1 − [i = k]) is the off-diagonal part; the two reductions are the row and column sums; the select on
  deg == 0 between 0 and 1 / deg is the inverse with 0⁻¹ = 0; the products with the broadcast words 1/2 and 1/4
  and the two matrix products are the diffusion matrix and its application; the transposed weights contract the
  feature index; max(·, 0) is the real maximum. The reverse direction is the same chain on the transposed
  adjacency.
-/
import proofs.«140086_j17265768530288_2_alg».proof.Proof.Gen.ReferenceIdeal.Read
import proofs.«140086_j17265768530288_2_alg».proof.Proof.LibIdealReal
import proofs.«140086_j17265768530288_2_alg».proof.Proof.LibRealSums
import proofs.«140086_j17265768530288_2_alg».proof.Proof.DiffusionSpec

-- a coordinate of an index has type `S.Coord a`, which is `Fin 4096` only after unfolding the shape's size vector
set_option backward.isDefEq.respectTransparency.types false

noncomputable section

open scoped BigOperators

namespace Cert.RefValue

open Idealize.ShloMosaic Idealize.ShloMosaic.ValueIdx Cert.ReferenceIdeal Cert.ReferenceIdeal.Read Cert.Math Cert.Spec

/-! ### Real arrays, and the same arrays as extended reals -/

/-- A real 4096 × 4096 array by coordinates. -/
abbrev mat (A : S4096x4096.Idx → ℝ) : Mat := fun i k => A (ix2 i k)
/-- Its transpose. -/
abbrev matT (A : S4096x4096.Idx → ℝ) : Mat := fun i k => A (ix2 k i)
abbrev feat (X : S4096x128.Idx → ℝ) : Feat := fun i f => X (ix2 i f)
abbrev wt (W : S128x128.Idx → ℝ) : Wt := fun g f => W (ix2 g f)
abbrev bias (B : S128.Idx → ℝ) : Bias := fun g => B (ix1 g)

/-- A real array read as an array of extended reals. -/
abbrev up {s : Shape} (A : s.Idx → ℝ) : (⟨s, .f32⟩ : BufTy).Contents (Elt Ideal) := fun j => ((A j : ℝ) : EReal)

variable (A : S4096x4096.Idx → ℝ) (X : S4096x128.Idx → ℝ) (W1 W2 : S128x128.Idx → ℝ) (B1 B2 : S128.Idx → ℝ)

/-! ### Index bookkeeping: the generated coordinate maps are the coordinate constructors -/

theorem ix2_eta (j : S4096x4096.Idx) : A j = A (ix2 (j 0) (j 1)) := congrArg A (eq_ix2 j)

/-! ### The forward direction -/

/-- The masked adjacency is the off-diagonal part. -/
theorem v8_real (j : S4096x4096.Idx) :
    val_main_v8 (F := Ideal) (up A) j = ((off (mat A) (j 0) (j 1) : ℝ) : EReal) := by
  rw [val_main_v8_apply, val_main_v7_apply, val_main_v6_apply, val_main_cst_apply, val_main_v5_apply,
    val_main_v4_apply, val_main_v3_apply, val_main_v0_apply, val_main_v2_apply, val_main_c_apply, val_main_v1_apply]
  rw [iota_eq_bit _ _ (idx2_lt0 j) (idx2_lt1 j)]
  unfold off
  have hj : mat A (j 0) (j 1) = A j := (ix2_eta A j).symm
  rw [hj]
  exact mask_mul (A j) _

/-- Row sum plus column sum of the off-diagonal part: the degree. -/
theorem v11_real (i : S4096.Idx) :
    val_main_v11 (F := Ideal) (up A) i = ((deg (mat A) (i 0) : ℝ) : EReal) := by
  rw [val_main_v11_apply, val_main_v9_apply, val_main_v10_apply, val_main_cst_0_apply, val_main_cst_1_apply]
  simp only [v8_real, Ideal.addf_def, Ideal.ofBits_def, Ideal.ofBits_zero_f32, zero_add]
  unfold deg
  rw [EReal.coe_add, coe_sum, coe_sum]
  rfl

/-- The select on deg == 0 between 0 and 1 / deg: the guarded reciprocal. -/
theorem v16_real (i : S4096.Idx) :
    val_main_v16 (F := Ideal) (up A) i = ((dinv (mat A) (i 0) : ℝ) : EReal) := by
  rw [val_main_v16_apply, val_main_v13_apply, val_main_call0_v1_apply, val_main_call0_v0_apply, val_main_cst_4_apply,
    val_main_v15_apply, val_main_v14_apply, val_main_cst_3_apply, val_main_v12_apply, val_main_cst_2_apply, v11_real]
  exact guarded_inv _

/-- The row-normalised matrix P = diag(dinv) · off. -/
theorem v19_real (j : S4096x4096.Idx) :
    val_main_v19 (F := Ideal) (up A) j = ((P (mat A) (j 0) (j 1) : ℝ) : EReal) := by
  rw [val_main_v19_apply, val_main_v18_apply, val_main_v17_apply, v16_real, v8_real]
  unfold P
  rw [EReal.coe_mul]
  rfl

/-- The diffusion matrix 0 + P/2 + (P P)/4. -/
theorem v27_real (j : S4096x4096.Idx) :
    val_main_v27 (F := Ideal) (up A) j = ((Kmat (mat A) (j 0) (j 1) : ℝ) : EReal) := by
  rw [val_main_v27_apply, val_main_v23_apply, val_main_v20_apply, val_main_cst_5_apply, val_main_v22_apply,
    val_main_v21_apply, val_main_cst_6_apply, val_main_v26_apply, val_main_v25_apply, val_main_cst_7_apply,
    val_main_v24_apply]
  simp only [v19_real, Ideal.addf_def, Ideal.mulf_def, Ideal.ofBits_def, Ideal.ofBits_zero_f32, ofBits_half_f32,
    ofBits_quarter_f32]
  unfold Kmat
  simp only [EReal.coe_add, EReal.coe_mul, coe_sum, EReal.coe_zero]
  rfl

/-- The diffusion matrix applied to the features. -/
theorem v28_real (i : S4096x128.Idx) :
    val_main_v28 (F := Ideal) (up X) (up A) i = ((aggRef (mat A) (feat X) (i 0) (i 1) : ℝ) : EReal) := by
  rw [val_main_v28_apply]
  simp only [v27_real]
  unfold aggRef
  simp only [EReal.coe_mul, coe_sum]
  refine Finset.sum_congr rfl (fun k _ => ?_)
  have hx : X (ridx_main_v28 i k) = feat X k (i 1) :=
    congrArg X (funext fun a => by match a with | ⟨0, _⟩ => rfl | ⟨1, _⟩ => rfl)
  show ((Kmat (mat A) (i 0) k : ℝ) : EReal) * ((X (ridx_main_v28 i k) : ℝ) : EReal) = _
  rw [hx]

/-- The linear layer through the transposed weights, the bias, and max(·, 0). -/
theorem v34_real (i : S4096x128.Idx) :
    val_main_v34 (F := Ideal) (up X) (up A) (up W1) (up B1) i
      = ((branch (aggRef (mat A) (feat X)) (wt W1) (bias B1) (i 0) (i 1) : ℝ) : EReal) := by
  rw [val_main_v34_apply, val_main_call1_v0_apply, val_main_call1_cst_apply, val_main_v33_apply,
    val_main_v32_apply, val_main_v31_apply, val_main_v30_apply]
  simp only [v28_real, val_main_v29_apply, Ideal.addf_def, Ideal.maximumf_def, Ideal.ofBits_def, Ideal.ofBits_zero_f32]
  unfold branch
  rw [← coe_max, EReal.coe_zero]
  refine congrArg (fun z : EReal => max z 0) ?_
  rw [EReal.coe_add, coe_sum]
  have hb : B1 (idx_main_v31 (idx_main_v32 i)) = bias B1 (i 1) :=
    congrArg B1 (funext fun a => by match a with | ⟨0, _⟩ => rfl)
  refine congrArg₂ (· + ·) (Finset.sum_congr rfl (fun f _ => ?_)) (congrArg (fun r : ℝ => (r : EReal)) hb)
  have hw : W1 (idx_main_v29 (ridx_main_v30 i f)) = wt W1 (i 1) f :=
    congrArg W1 (funext fun a => by match a with | ⟨0, _⟩ => rfl | ⟨1, _⟩ => rfl)
  show ((aggRef (mat A) (feat X) (i 0) f : ℝ) : EReal) * ((W1 (idx_main_v29 (ridx_main_v30 i f)) : ℝ) : EReal) = _
  rw [hw, EReal.coe_mul]

/-! ### The reverse direction: the same chain on the transposed adjacency -/

/-- The masked adjacency is the off-diagonal part. -/
theorem v44_real (j : S4096x4096.Idx) :
    val_main_v44 (F := Ideal) (up A) j = ((off (matT A) (j 0) (j 1) : ℝ) : EReal) := by
  rw [val_main_v44_apply, val_main_v43_apply, val_main_v42_apply, val_main_cst_9_apply, val_main_v41_apply,
    val_main_v40_apply, val_main_v39_apply, val_main_v36_apply, val_main_v38_apply, val_main_c_8_apply, val_main_v37_apply, val_main_v35_apply]
  rw [iota_eq_bit _ _ (idx2_lt0 j) (idx2_lt1 j)]
  unfold off
  have hj : A (idx_main_v35 j) = matT A (j 0) (j 1) :=
    congrArg A (funext fun a => by match a with | ⟨0, _⟩ => rfl | ⟨1, _⟩ => rfl)
  rw [← hj]
  exact mask_mul (A (idx_main_v35 j)) _

/-- Row sum plus column sum of the off-diagonal part: the degree. -/
theorem v47_real (i : S4096.Idx) :
    val_main_v47 (F := Ideal) (up A) i = ((deg (matT A) (i 0) : ℝ) : EReal) := by
  rw [val_main_v47_apply, val_main_v45_apply, val_main_v46_apply, val_main_cst_10_apply, val_main_cst_11_apply]
  simp only [v44_real, Ideal.addf_def, Ideal.ofBits_def, Ideal.ofBits_zero_f32, zero_add]
  unfold deg
  rw [EReal.coe_add, coe_sum, coe_sum]
  rfl

/-- The select on deg == 0 between 0 and 1 / deg: the guarded reciprocal. -/
theorem v52_real (i : S4096.Idx) :
    val_main_v52 (F := Ideal) (up A) i = ((dinv (matT A) (i 0) : ℝ) : EReal) := by
  rw [val_main_v52_apply, val_main_v49_apply, val_main_call2_v1_apply, val_main_call2_v0_apply, val_main_cst_14_apply,
    val_main_v51_apply, val_main_v50_apply, val_main_cst_13_apply, val_main_v48_apply, val_main_cst_12_apply, v47_real]
  exact guarded_inv _

/-- The row-normalised matrix P = diag(dinv) · off. -/
theorem v55_real (j : S4096x4096.Idx) :
    val_main_v55 (F := Ideal) (up A) j = ((P (matT A) (j 0) (j 1) : ℝ) : EReal) := by
  rw [val_main_v55_apply, val_main_v54_apply, val_main_v53_apply, v52_real, v44_real]
  unfold P
  rw [EReal.coe_mul]
  rfl

/-- The diffusion matrix 0 + P/2 + (P P)/4. -/
theorem v63_real (j : S4096x4096.Idx) :
    val_main_v63 (F := Ideal) (up A) j = ((Kmat (matT A) (j 0) (j 1) : ℝ) : EReal) := by
  rw [val_main_v63_apply, val_main_v59_apply, val_main_v56_apply, val_main_cst_15_apply, val_main_v58_apply,
    val_main_v57_apply, val_main_cst_16_apply, val_main_v62_apply, val_main_v61_apply, val_main_cst_17_apply,
    val_main_v60_apply]
  simp only [v55_real, Ideal.addf_def, Ideal.mulf_def, Ideal.ofBits_def, Ideal.ofBits_zero_f32, ofBits_half_f32,
    ofBits_quarter_f32]
  unfold Kmat
  simp only [EReal.coe_add, EReal.coe_mul, coe_sum, EReal.coe_zero]
  rfl

/-- The diffusion matrix applied to the features. -/
theorem v64_real (i : S4096x128.Idx) :
    val_main_v64 (F := Ideal) (up X) (up A) i = ((aggRef (matT A) (feat X) (i 0) (i 1) : ℝ) : EReal) := by
  rw [val_main_v64_apply]
  simp only [v63_real]
  unfold aggRef
  simp only [EReal.coe_mul, coe_sum]
  refine Finset.sum_congr rfl (fun k _ => ?_)
  have hx : X (ridx_main_v64 i k) = feat X k (i 1) :=
    congrArg X (funext fun a => by match a with | ⟨0, _⟩ => rfl | ⟨1, _⟩ => rfl)
  show ((Kmat (matT A) (i 0) k : ℝ) : EReal) * ((X (ridx_main_v64 i k) : ℝ) : EReal) = _
  rw [hx]

/-- The linear layer through the transposed weights, the bias, and max(·, 0). -/
theorem v70_real (i : S4096x128.Idx) :
    val_main_v70 (F := Ideal) (up X) (up A) (up W2) (up B2) i
      = ((branch (aggRef (matT A) (feat X)) (wt W2) (bias B2) (i 0) (i 1) : ℝ) : EReal) := by
  rw [val_main_v70_apply, val_main_call3_v0_apply, val_main_call3_cst_apply, val_main_v69_apply,
    val_main_v68_apply, val_main_v67_apply, val_main_v66_apply]
  simp only [v64_real, val_main_v65_apply, Ideal.addf_def, Ideal.maximumf_def, Ideal.ofBits_def, Ideal.ofBits_zero_f32]
  unfold branch
  rw [← coe_max, EReal.coe_zero]
  refine congrArg (fun z : EReal => max z 0) ?_
  rw [EReal.coe_add, coe_sum]
  have hb : B2 (idx_main_v67 (idx_main_v68 i)) = bias B2 (i 1) :=
    congrArg B2 (funext fun a => by match a with | ⟨0, _⟩ => rfl)
  refine congrArg₂ (· + ·) (Finset.sum_congr rfl (fun f _ => ?_)) (congrArg (fun r : ℝ => (r : EReal)) hb)
  have hw : W2 (idx_main_v65 (ridx_main_v66 i f)) = wt W2 (i 1) f :=
    congrArg W2 (funext fun a => by match a with | ⟨0, _⟩ => rfl | ⟨1, _⟩ => rfl)
  show ((aggRef (matT A) (feat X) (i 0) f : ℝ) : EReal) * ((W2 (idx_main_v65 (ridx_main_v66 i f)) : ℝ) : EReal) = _
  rw [hw, EReal.coe_mul]

/-! ### The result -/

/-- The reference's result on real inputs is the real formula refOut, entry by entry. -/
theorem v71_real (i : S4096x128.Idx) :
    val_main_v71 (F := Ideal) (up X) (up A) (up W1) (up B1) (up W2) (up B2) i
      = ((refOut (feat X) (mat A) (wt W1) (bias B1) (wt W2) (bias B2) (i 0) (i 1) : ℝ) : EReal) := by
  rw [val_main_v71_apply, v34_real, v70_real]
  unfold refOut
  rw [EReal.coe_add]
  rfl

end Cert.RefValue

end
-- ==== Proof.Finite.lean ====
/-
  The precondition, read back: every input entry is a real number.

  The printed predicate is the conjunction, over the six inputs, of "every entry has absolute value below +∞"
  (an and-reduction of the entrywise comparison |x| < +∞), and the claim states that its value is 1. Splitting
  the conjunction, reading each and-reduction back at an entry, and noting that an extended real whose absolute
  value is below +∞ is neither +∞ nor −∞, gives a real number at every entry of every input.
-/
import proofs.«140086_j17265768530288_2_alg».proof.Pre_finite_inputs
import proofs.«140086_j17265768530288_2_alg».proof.Proof.LibRealSums
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Cert.Pre_finite_inputs Cert.Math

instance : Subsingleton S_.Idx := ⟨fun a b => funext fun d => d.elim0⟩

/-- An entry whose absolute value compares below the word of +∞ is real. -/
theorem real_of_lt_inf (v : EReal)
    (h : FloatOps.cmpf (F := Ideal) (φ := .f32) .olt (FloatOps.hostAbsf (F := Ideal) (φ := .f32) v) (FloatOps.ofBits (F := Ideal) .f32 0x7F800000#32) = 1#1) :
    IsReal v := by
  have h' : max v (-v) < ⊤ := by
    have e : FloatOps.cmpf (F := Ideal) (φ := .f32) .olt (FloatOps.hostAbsf (F := Ideal) (φ := .f32) v) (FloatOps.ofBits (F := Ideal) .f32 0x7F800000#32)
        = BitVec.ofBool (decide (max v (-v) < ⊤)) := by
      show Ideal.cmp .olt (max v (-v)) (Ideal.ofBits .f32 0x7F800000#32) = _
      rw [ofBits_inf]; rfl
    rw [e] at h
    by_contra hn
    rw [decide_eq_false hn] at h
    exact absurd h (by decide)
  exact isReal_of_abs_lt_top h'

variable [Cert.Pre_finite_inputs.Facts]

/-- One input: if the and-reduction of |x| < +∞ over all of x is 1, every entry of x is real. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32)))
        (constantI S_ 1 1#1) hr hu ix0 = 1#1) (i : s.Idx) : IsReal (x i) := by
  have h := Host.reduce_andi_all _ _ hr hu ix0 e i
  refine real_of_lt_inf (x i) ?_
  have hbc : broadcastInDim s ![] hb (constant (F := Ideal) S_ .f32 0x7F800000#32) i
      = constant (F := Ideal) S_ .f32 0x7F800000#32 ix0 :=
    broadcastInDim_apply _ hb _ i ix0 (fun a => a.elim0)
  rw [cmpf_apply, hbc] at h
  exact h

/-- The precondition gives real entries in all six inputs. -/
theorem reals_of_pre (x0 : FVec Ideal S4096x128 .f32) (x1 : FVec Ideal S4096x4096 .f32) (x2 : FVec Ideal S128x128 .f32)
    (x3 : FVec Ideal S128 .f32) (x4 : FVec Ideal S128x128 .f32) (x5 : FVec Ideal S128 .f32)
    (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) := by
  have h0 := congrFun h ix0
  dsimp only [fn, fn_part1] at h0
  obtain ⟨h23, h27⟩ := IntOp.andi_eq_one.1 h0
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨all_real x0 _ _ _ h3, all_real x1 _ _ _ h7, all_real x2 _ _ _ h12, all_real x3 _ _ _ h17, all_real x4 _ _ _ h22,
    all_real x5 _ _ _ h27⟩

end Cert.Finite

end
-- ==== Proof.lean ====
/-
  The certificate of the bidirectional two-step graph diffusion layer.

  The kernel program evaluates the layer in four tiled regions without ever forming the diffusion matrix: masked row
  and column sums of the adjacency (the degree), y = P x and then (1/2) y + (1/4) P y in both directions with the
  SAME adjacency tile contracted over its columns (forward) and over its rows (reverse), and the two linear layers
  with bias and max(·, 0). The reference forms K = 0 + (1/2) P + (1/4) P P for the adjacency and for its transpose and
  applies it. With every input entry a real number (the precondition) both results are the coercion of one real
  formula: (0 + P/2 + P P/4) x = (P x)/2 + P (P x)/4 by distributivity and the exchange of two finite sums, the
  degree being symmetric under transposition.

  The three frames: each program runs to the end, faults nowhere and leaves its arguments unchanged — for the two
  kernel programs from the run of @main's eight segments (four regions, four stretches of host operations), for the
  reference from its run as a sequence of host operations. The idealization rewrote nothing, so it is preserved
  trivially.
-/
import proofs.«140086_j17265768530288_2_alg».proof.Defs
import proofs.«140086_j17265768530288_2_alg».proof.Proof.Gen.Kernel
import proofs.«140086_j17265768530288_2_alg».proof.Proof.Gen.KernelIdeal
import proofs.«140086_j17265768530288_2_alg».proof.Proof.Gen.ReferenceIdeal
import proofs.«140086_j17265768530288_2_alg».proof.Proof.Gen.Pre_finite_inputs
import proofs.«140086_j17265768530288_2_alg».proof.Proof.K.Kept
import proofs.«140086_j17265768530288_2_alg».proof.Proof.KI.AllValues
import proofs.«140086_j17265768530288_2_alg».proof.Proof.RefValue
import proofs.«140086_j17265768530288_2_alg».proof.Proof.Finite
import Idealize.ShloMosaic.Adequacy
import Idealize.ShloMosaic.Init

-- a coordinate of an index has type `S.Coord a`, which is `Fin 4096` only after unfolding the shape's size vector
set_option backward.isDefEq.respectTransparency.types false

noncomputable section

namespace Cert.Proof

open Idealize.ShloMosaic Idealize.ShloMosaic.TcCoe Idealize.ShloMosaic.ValueIdx Idealize.SL.Sem

/-! ## The frames -/

theorem frame_kernel : Cert.frame_Kernel := fun m ρ _ => Cert.Kernel.Hand.frame (F := Bits) m ρ
theorem frame_kernelIdeal : Cert.frame_KernelIdeal := fun m ρ _ => Cert.KernelIdeal.Hand.frame (F := Idealize.ShloMosaic.Ideal) m ρ
theorem frame_referenceIdeal : Cert.frame_ReferenceIdeal := fun m ρ _ =>
  (θ_run Cert.ReferenceIdeal.defs _ _).mono (fun _ h c => (h c).2) (Cert.ReferenceIdeal.Value.run (F := Idealize.ShloMosaic.Ideal) m ρ)

/-- The ideal pass rewrote no operation. -/
theorem preserves : Cert.preserves_Kernel_KernelIdeal := trivial

/-! ## The two programs compute one function of real inputs -/

/-- Equal results: from memories agreeing on the (real) arguments, the kernel program's result array and the
    reference's are, entry by entry, the coercion of the real formula `kerOut`. -/
theorem algebraic : Cert.algebraic_KernelIdeal_ReferenceIdeal := by
  intro m ρ m' ρ' hpre hagree
  -- every input entry is real, on every core
  have hreal := fun c => Cert.Finite.reals_of_pre _ _ _ _ _ _ (hpre c)
  choose h0 h1 h2 h3 h4 h5 using hreal
  choose X hX using h0
  choose A hA using h1
  choose Wa hWa using h2
  choose Ba hBa using h3
  choose Wb hWb using h4
  choose Bb hBb using h5
  have hin : ∀ c, Cert.KernelIdeal.Hand.RealInputs m c (X c) (A c) (Wa c) (Wb c) (Ba c) (Bb c) := fun c =>
    ⟨funext (hX c), funext (hA c), funext (hWa c), funext (hBa c), funext (hWb c), funext (hBb c)⟩
  refine ⟨fun c => fun j => ((Cert.Spec.kerOut (Cert.KernelIdeal.Hand.featK (X c)) (Cert.KernelIdeal.Hand.matK (A c))
      (Cert.KernelIdeal.Hand.wtK (Wa c)) (Cert.KernelIdeal.Hand.biasK (Ba c)) (Cert.KernelIdeal.Hand.wtK (Wb c))
      (Cert.KernelIdeal.Hand.biasK (Bb c)) (j 0) (j 1) : ℝ) : EReal), ?_, ?_⟩
  · -- the kernel program: the run of its eight segments, the result array read off the last boundary
    refine (θ_run Cert.KernelIdeal.defs _ _).mono (fun r h c => ⟨?_, ?_⟩) (Cert.KernelIdeal.Hand.run_main m ρ)
    · refine (h c _ (Cert.KernelIdeal.Hand.mem_uc Cert.KernelIdeal.main_v19 (by decide))).trans (funext fun j => ?_)
      have hj := Cert.KernelIdeal.Hand.result_value (Cert.KernelIdeal.Hand.regionValues m ρ c) (hin c) (j 0) (j 1)
      have ej : (j : Cert.KernelIdeal.S4096x128.Idx) = ix2 (j 0) (j 1) := eq_ix2 j
      exact (congrArg (Cert.KernelIdeal.Hand.arr (S := Cert.KernelIdeal.S4096x128)
        (Cert.KernelIdeal.Hand.W8 m ρ c (Proc.devRef .tc Cert.KernelIdeal.main_v19))) ej).trans hj
    · exact ⟨(h c _ (Cert.KernelIdeal.Hand.mem_uc Cert.KernelIdeal.main_arg0 (by decide))).trans (Cert.KernelIdeal.Hand.W8_main_arg0_from0 m ρ c),
        (h c _ (Cert.KernelIdeal.Hand.mem_uc Cert.KernelIdeal.main_arg1 (by decide))).trans (Cert.KernelIdeal.Hand.W8_main_arg1_from0 m ρ c),
        (h c _ (Cert.KernelIdeal.Hand.mem_uc Cert.KernelIdeal.main_arg2 (by decide))).trans (Cert.KernelIdeal.Hand.W8_main_arg2_from0 m ρ c),
        (h c _ (Cert.KernelIdeal.Hand.mem_uc Cert.KernelIdeal.main_arg3 (by decide))).trans (Cert.KernelIdeal.Hand.W8_main_arg3_from0 m ρ c),
        (h c _ (Cert.KernelIdeal.Hand.mem_uc Cert.KernelIdeal.main_arg4 (by decide))).trans (Cert.KernelIdeal.Hand.W8_main_arg4_from0 m ρ c),
        (h c _ (Cert.KernelIdeal.Hand.mem_uc Cert.KernelIdeal.main_arg5 (by decide))).trans (Cert.KernelIdeal.Hand.W8_main_arg5_from0 m ρ c)⟩
  · -- the reference: its run's term, read as reals, is the first arrangement, which equals the second
    refine (θ_run Cert.ReferenceIdeal.defs _ _).mono (fun r h c => ⟨(h c).1.trans ?_, (h c).2⟩)
      (Cert.ReferenceIdeal.Value.run (F := Idealize.ShloMosaic.Ideal) m' ρ')
    rw [Cert.ReferenceIdeal.Read.val_main_v71_eq, (hagree c).1, (hagree c).2.1, (hagree c).2.2.1, (hagree c).2.2.2.1,
      (hagree c).2.2.2.2.1, (hagree c).2.2.2.2.2]
    funext j
    have e := Cert.RefValue.v71_real (A c) (X c) (Wa c) (Wb c) (Ba c) (Bb c) j
    rw [Cert.Spec.refOut_eq_kerOut] at e
    refine Eq.trans ?_ e
    rw [show m ((c.tc : Thread Cert.KernelIdeal.nD Cert.KernelIdeal.τ).loc Cert.KernelIdeal.main_arg0) = Cert.RefValue.up (X c) from funext (hX c),
      show m ((c.tc : Thread Cert.KernelIdeal.nD Cert.KernelIdeal.τ).loc Cert.KernelIdeal.main_arg1) = Cert.RefValue.up (A c) from funext (hA c),
      show m ((c.tc : Thread Cert.KernelIdeal.nD Cert.KernelIdeal.τ).loc Cert.KernelIdeal.main_arg2) = Cert.RefValue.up (Wa c) from funext (hWa c),
      show m ((c.tc : Thread Cert.KernelIdeal.nD Cert.KernelIdeal.τ).loc Cert.KernelIdeal.main_arg3) = Cert.RefValue.up (Ba c) from funext (hBa c),
      show m ((c.tc : Thread Cert.KernelIdeal.nD Cert.KernelIdeal.τ).loc Cert.KernelIdeal.main_arg4) = Cert.RefValue.up (Wb c) from funext (hWb c),
      show m ((c.tc : Thread Cert.KernelIdeal.nD Cert.KernelIdeal.τ).loc Cert.KernelIdeal.main_arg5) = Cert.RefValue.up (Bb c) from funext (hBb c)]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
